-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v286)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v286) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v404) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x800000 : Shape := ⟨2, ![2, 800000]⟩
abbrev S100000 : Shape := ⟨1, ![100000]⟩
abbrev S800000 : Shape := ⟨1, ![800000]⟩
abbrev S3x3x128x128 : Shape := ⟨4, ![3, 3, 128, 128]⟩
abbrev S3x3x128 : Shape := ⟨3, ![3, 3, 128]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S3x3x128x128 : S_.BroadcastsInDim S3x3x128x128 (![] : Fin 0 → Fin S3x3x128x128.rank)
  reducesTo_S3x3x128x128_S_d0_1_2_3 : S3x3x128x128.ReducesTo [0, 1, 2, 3] S_
  bcast_S_S3x3x128 : S_.BroadcastsInDim S3x3x128 (![] : Fin 0 → Fin S3x3x128.rank)
  reducesTo_S3x3x128_S_d0_1_2 : S3x3x128.ReducesTo [0, 1, 2] S_

variable [Facts]

def fn_part1 {F : FTy → Type} [FloatOps F] (main_v13 : IVec S_ 1) (main_v16 : IVec S3x3x128x128 1) : IVec S_ 1 :=
  let main_c_5 : IVec S_ 1 := constantI S_ 1 1#1
  let main_v17 : IVec S_ 1 := (fun x v => Host.reduce IntOp.andi x v reducesTo_S3x3x128x128_S_d0_1_2_3 h_S_) main_v16 main_c_5
  let main_v18 : IVec S_ 1 := andi main_v13 main_v17
  main_v18

def fn {F : FTy → Type} [FloatOps F] (main_arg0 : FVec F S100000x128 .f32) (main_arg1 : IVec S2x800000 32) (main_arg2 : IVec S2x800000 32) (main_arg3 : IVec S2x800000 32) (main_arg4 : IVec S100000 32) (main_arg5 : IVec S800000 32) (main_arg6 : IVec S800000 32) (main_arg7 : IVec S800000 32) (main_arg8 : FVec F S3x3x128x128 .f32) (main_arg9 : FVec F S3x3x128 .f32) (main_arg10 : FVec F S3x3x128x128 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S3x3x128x128 .f32 := Host.absf main_arg8
  let main_cst_0 : FVec F S_ .f32 := constant S_ .f32 0x7F800000#32
  let main_v5 : FVec F S3x3x128x128 .f32 := broadcastInDim S3x3x128x128 ![] bcast_S_S3x3x128x128 main_cst_0
  let main_v6 : IVec S3x3x128x128 1 := cmpf .olt main_v4 main_v5
  let main_c_1 : IVec S_ 1 := constantI S_ 1 1#1
  let main_v7 : IVec S_ 1 := (fun x v => Host.reduce IntOp.andi x v reducesTo_S3x3x128x128_S_d0_1_2_3 h_S_) main_v6 main_c_1
  let main_v8 : IVec S_ 1 := andi main_v3 main_v7
  let main_v9 : FVec F S3x3x128 .f32 := Host.absf main_arg9
  let main_cst_2 : FVec F S_ .f32 := constant S_ .f32 0x7F800000#32
  let main_v10 : FVec F S3x3x128 .f32 := broadcastInDim S3x3x128 ![] bcast_S_S3x3x128 main_cst_2
  let main_v11 : IVec S3x3x128 1 := cmpf .olt main_v9 main_v10
  let main_c_3 : IVec S_ 1 := constantI S_ 1 1#1
  let main_v12 : IVec S_ 1 := (fun x v => Host.reduce IntOp.andi x v reducesTo_S3x3x128_S_d0_1_2 h_S_) main_v11 main_c_3
  let main_v13 : IVec S_ 1 := andi main_v8 main_v12
  let main_v14 : FVec F S3x3x128x128 .f32 := Host.absf main_arg10
  let main_cst_4 : FVec F S_ .f32 := constant S_ .f32 0x7F800000#32
  let main_v15 : FVec F S3x3x128x128 .f32 := broadcastInDim S3x3x128x128 ![] bcast_S_S3x3x128x128 main_cst_4
  let main_v16 : IVec S3x3x128x128 1 := cmpf .olt main_v14 main_v15
  fn_part1 (F := F) main_v13 main_v16
-- ==== Kernel.lean ====
abbrev S100000x128 : Shape := ⟨2, ![100000, 128]⟩
abbrev S2x800000 : Shape := ⟨2, ![2, 800000]⟩
abbrev S100000 : Shape := ⟨1, ![100000]⟩
abbrev S800000 : Shape := ⟨1, ![800000]⟩
abbrev S3x3x128x128 : Shape := ⟨4, ![3, 3, 128, 128]⟩
abbrev S3x3x128 : Shape := ⟨3, ![3, 3, 128]⟩
abbrev S_ : Shape := ⟨0, ![]⟩
abbrev S100000x1 : Shape := ⟨2, ![100000, 1]⟩
abbrev S1x800000 : Shape := ⟨2, ![1, 800000]⟩
abbrev S800000x1 : Shape := ⟨2, ![800000, 1]⟩
abbrev S800000x128 : Shape := ⟨2, ![800000, 128]⟩
abbrev S1x3x128x128 : Shape := ⟨4, ![1, 3, 128, 128]⟩
abbrev S3x128x128 : Shape := ⟨3, ![3, 128, 128]⟩
abbrev S1x3x128 : Shape := ⟨3, ![1, 3, 128]⟩
abbrev S3x128 : Shape := ⟨2, ![3, 128]⟩
abbrev S4000x128 : Shape := ⟨2, ![4000, 128]⟩
abbrev S4000x1 : Shape := ⟨2, ![4000, 1]⟩
abbrev S1x128x128 : Shape := ⟨3, ![1, 128, 128]⟩
abbrev S128x128 : Shape := ⟨2, ![128, 128]⟩
abbrev S1x128 : Shape := ⟨2, ![1, 128]⟩
abbrev S128 : Shape := ⟨1, ![128]⟩

abbrev nBuf : Space → Nat
  | .hbm => 355
  | .vmem => 45
  | .smem => 0
  | _ => 0

abbrev hbmTy0_0 (i : Nat) : BufTy := match i % 128 with
  | 0 => ⟨S100000x128, .f32⟩
  | 1 => ⟨S2x800000, .i32⟩
  | 2 => ⟨S2x800000, .i32⟩
  | 3 => ⟨S2x800000, .i32⟩
  | 4 => ⟨S100000, .i32⟩
  | 5 => ⟨S800000, .i32⟩
  | 6 => ⟨S800000, .i32⟩
  | 7 => ⟨S800000, .i32⟩
  | 8 => ⟨S3x3x128x128, .f32⟩
  | 9 => ⟨S3x3x128, .f32⟩
  | 10 => ⟨S3x3x128x128, .f32⟩
  | 11 => ⟨S3x3x128x128, .f32⟩
  | 12 => ⟨S3x3x128x128, .f32⟩
  | 13 => ⟨S_, .i32⟩
  | 14 => ⟨S100000, .i32⟩
  | 15 => ⟨S100000, .i1⟩
  | 16 => ⟨S100000, .f32⟩
  | 17 => ⟨S100000x1, .f32⟩
  | 18 => ⟨S1x800000, .i32⟩
  | 19 => ⟨S800000, .i32⟩
  | 20 => ⟨S1x800000, .i32⟩
  | 21 => ⟨S800000, .i32⟩
  | 22 => ⟨S_, .i32⟩
  | 23 => ⟨S800000, .i32⟩
  | 24 => ⟨S800000, .i1⟩
  | 25 => ⟨S800000, .f32⟩
  | 26 => ⟨S_, .i32⟩
  | 27 => ⟨S800000, .i32⟩
  | 28 => ⟨S800000, .i1⟩
  | 29 => ⟨S_, .i32⟩
  | 30 => ⟨S800000, .i32⟩
  | 31 => ⟨S800000, .i32⟩
  | 32 => ⟨S800000, .i32⟩
  | 33 => ⟨S800000x1, .i32⟩
  | 34 => ⟨S800000x128, .f32⟩
  | 35 => ⟨S800000x1, .f32⟩
  | 36 => ⟨S800000x128, .f32⟩
  | 37 => ⟨S800000x128, .f32⟩
  | 38 => ⟨S_, .f32⟩
  | 39 => ⟨S100000x128, .f32⟩
  | 40 => ⟨S800000x1, .i32⟩
  | 41 => ⟨S100000x128, .f32⟩
  | 42 => ⟨S_, .f32⟩
  | 43 => ⟨S100000, .f32⟩
  | 44 => ⟨S800000x1, .i32⟩
  | 45 => ⟨S100000, .f32⟩
  | 46 => ⟨S_, .f32⟩
  | 47 => ⟨S100000, .f32⟩
  | 48 => ⟨S100000, .f32⟩
  | 49 => ⟨S100000x1, .f32⟩
  | 50 => ⟨S100000x128, .f32⟩
  | 51 => ⟨S100000x128, .f32⟩
  | 52 => ⟨S1x800000, .i32⟩
  | 53 => ⟨S800000, .i32⟩
  | 54 => ⟨S1x800000, .i32⟩
  | 55 => ⟨S800000, .i32⟩
  | 56 => ⟨S_, .i32⟩
  | 57 => ⟨S800000, .i32⟩
  | 58 => ⟨S800000, .i1⟩
  | 59 => ⟨S800000, .f32⟩
  | 60 => ⟨S_, .i32⟩
  | 61 => ⟨S800000, .i32⟩
  | 62 => ⟨S800000, .i1⟩
  | 63 => ⟨S_, .i32⟩
  | 64 => ⟨S800000, .i32⟩
  | 65 => ⟨S800000, .i32⟩
  | 66 => ⟨S800000, .i32⟩
  | 67 => ⟨S800000x1, .i32⟩
  | 68 => ⟨S800000x128, .f32⟩
  | 69 => ⟨S800000x1, .f32⟩
  | 70 => ⟨S800000x128, .f32⟩
  | 71 => ⟨S800000x128, .f32⟩
  | 72 => ⟨S_, .f32⟩
  | 73 => ⟨S100000x128, .f32⟩
  | 74 => ⟨S800000x1, .i32⟩
  | 75 => ⟨S100000x128, .f32⟩
  | 76 => ⟨S_, .f32⟩
  | 77 => ⟨S100000, .f32⟩
  | 78 => ⟨S800000x1, .i32⟩
  | 79 => ⟨S100000, .f32⟩
  | 80 => ⟨S_, .f32⟩
  | 81 => ⟨S100000, .f32⟩
  | 82 => ⟨S100000, .f32⟩
  | 83 => ⟨S100000x1, .f32⟩
  | 84 => ⟨S100000x128, .f32⟩
  | 85 => ⟨S100000x128, .f32⟩
  | 86 => ⟨S1x800000, .i32⟩
  | 87 => ⟨S800000, .i32⟩
  | 88 => ⟨S1x800000, .i32⟩
  | 89 => ⟨S800000, .i32⟩
  | 90 => ⟨S_, .i32⟩
  | 91 => ⟨S800000, .i32⟩
  | 92 => ⟨S800000, .i1⟩
  | 93 => ⟨S800000, .f32⟩
  | 94 => ⟨S_, .i32⟩
  | 95 => ⟨S800000, .i32⟩
  | 96 => ⟨S800000, .i1⟩
  | 97 => ⟨S_, .i32⟩
  | 98 => ⟨S800000, .i32⟩
  | 99 => ⟨S800000, .i32⟩
  | 100 => ⟨S800000, .i32⟩
  | 101 => ⟨S800000x1, .i32⟩
  | 102 => ⟨S800000x128, .f32⟩
  | 103 => ⟨S800000x1, .f32⟩
  | 104 => ⟨S800000x128, .f32⟩
  | 105 => ⟨S800000x128, .f32⟩
  | 106 => ⟨S_, .f32⟩
  | 107 => ⟨S100000x128, .f32⟩
  | 108 => ⟨S800000x1, .i32⟩
  | 109 => ⟨S100000x128, .f32⟩
  | 110 => ⟨S_, .f32⟩
  | 111 => ⟨S100000, .f32⟩
  | 112 => ⟨S800000x1, .i32⟩
  | 113 => ⟨S100000, .f32⟩
  | 114 => ⟨S_, .f32⟩
  | 115 => ⟨S100000, .f32⟩
  | 116 => ⟨S100000, .f32⟩
  | 117 => ⟨S100000x1, .f32⟩
  | 118 => ⟨S100000x128, .f32⟩
  | 119 => ⟨S100000x128, .f32⟩
  | 120 => ⟨S1x3x128x128, .f32⟩
  | 121 => ⟨S3x128x128, .f32⟩
  | 122 => ⟨S1x3x128, .f32⟩
  | 123 => ⟨S3x128, .f32⟩
  | 124 => ⟨S1x3x128x128, .f32⟩
  | 125 => ⟨S3x128x128, .f32⟩
  | 126 => ⟨S100000x128, .f32⟩
  | 127 => ⟨S_, .i32⟩
  | _ => ⟨S100000x128, .f32⟩

abbrev hbmTy0_1 (i : Nat) : BufTy := match i % 128 with
  | 0 => ⟨S100000, .i32⟩
  | 1 => ⟨S100000, .i1⟩
  | 2 => ⟨S100000, .f32⟩
  | 3 => ⟨S100000x1, .f32⟩
  | 4 => ⟨S1x800000, .i32⟩
  | 5 => ⟨S800000, .i32⟩
  | 6 => ⟨S1x800000, .i32⟩
  | 7 => ⟨S800000, .i32⟩
  | 8 => ⟨S_, .i32⟩
  | 9 => ⟨S800000, .i32⟩
  | 10 => ⟨S800000, .i1⟩
  | 11 => ⟨S800000, .f32⟩
  | 12 => ⟨S_, .i32⟩
  | 13 => ⟨S800000, .i32⟩
  | 14 => ⟨S800000, .i1⟩
  | 15 => ⟨S_, .i32⟩
  | 16 => ⟨S800000, .i32⟩
  | 17 => ⟨S800000, .i32⟩
  | 18 => ⟨S800000, .i32⟩
  | 19 => ⟨S800000x1, .i32⟩
  | 20 => ⟨S800000x128, .f32⟩
  | 21 => ⟨S800000x1, .f32⟩
  | 22 => ⟨S800000x128, .f32⟩
  | 23 => ⟨S800000x128, .f32⟩
  | 24 => ⟨S_, .f32⟩
  | 25 => ⟨S100000x128, .f32⟩
  | 26 => ⟨S800000x1, .i32⟩
  | 27 => ⟨S100000x128, .f32⟩
  | 28 => ⟨S_, .f32⟩
  | 29 => ⟨S100000, .f32⟩
  | 30 => ⟨S800000x1, .i32⟩
  | 31 => ⟨S100000, .f32⟩
  | 32 => ⟨S_, .f32⟩
  | 33 => ⟨S100000, .f32⟩
  | 34 => ⟨S100000, .f32⟩
  | 35 => ⟨S100000x1, .f32⟩
  | 36 => ⟨S100000x128, .f32⟩
  | 37 => ⟨S100000x128, .f32⟩
  | 38 => ⟨S1x800000, .i32⟩
  | 39 => ⟨S800000, .i32⟩
  | 40 => ⟨S1x800000, .i32⟩
  | 41 => ⟨S800000, .i32⟩
  | 42 => ⟨S_, .i32⟩
  | 43 => ⟨S800000, .i32⟩
  | 44 => ⟨S800000, .i1⟩
  | 45 => ⟨S800000, .f32⟩
  | 46 => ⟨S_, .i32⟩
  | 47 => ⟨S800000, .i32⟩
  | 48 => ⟨S800000, .i1⟩
  | 49 => ⟨S_, .i32⟩
  | 50 => ⟨S800000, .i32⟩
  | 51 => ⟨S800000, .i32⟩
  | 52 => ⟨S800000, .i32⟩
  | 53 => ⟨S800000x1, .i32⟩
  | 54 => ⟨S800000x128, .f32⟩
  | 55 => ⟨S800000x1, .f32⟩
  | 56 => ⟨S800000x128, .f32⟩
  | 57 => ⟨S800000x128, .f32⟩
  | 58 => ⟨S_, .f32⟩
  | 59 => ⟨S100000x128, .f32⟩
  | 60 => ⟨S800000x1, .i32⟩
  | 61 => ⟨S100000x128, .f32⟩
  | 62 => ⟨S_, .f32⟩
  | 63 => ⟨S100000, .f32⟩
  | 64 => ⟨S800000x1, .i32⟩
  | 65 => ⟨S100000, .f32⟩
  | 66 => ⟨S_, .f32⟩
  | 67 => ⟨S100000, .f32⟩
  | 68 => ⟨S100000, .f32⟩
  | 69 => ⟨S100000x1, .f32⟩
  | 70 => ⟨S100000x128, .f32⟩
  | 71 => ⟨S100000x128, .f32⟩
  | 72 => ⟨S1x800000, .i32⟩
  | 73 => ⟨S800000, .i32⟩
  | 74 => ⟨S1x800000, .i32⟩
  | 75 => ⟨S800000, .i32⟩
  | 76 => ⟨S_, .i32⟩
  | 77 => ⟨S800000, .i32⟩
  | 78 => ⟨S800000, .i1⟩
  | 79 => ⟨S800000, .f32⟩
  | 80 => ⟨S_, .i32⟩
  | 81 => ⟨S800000, .i32⟩
  | 82 => ⟨S800000, .i1⟩
  | 83 => ⟨S_, .i32⟩
  | 84 => ⟨S800000, .i32⟩
  | 85 => ⟨S800000, .i32⟩
  | 86 => ⟨S800000, .i32⟩
  | 87 => ⟨S800000x1, .i32⟩
  | 88 => ⟨S800000x128, .f32⟩
  | 89 => ⟨S800000x1, .f32⟩
  | 90 => ⟨S800000x128, .f32⟩
  | 91 => ⟨S800000x128, .f32⟩
  | 92 => ⟨S_, .f32⟩
  | 93 => ⟨S100000x128, .f32⟩
  | 94 => ⟨S800000x1, .i32⟩
  | 95 => ⟨S100000x128, .f32⟩
  | 96 => ⟨S_, .f32⟩
  | 97 => ⟨S100000, .f32⟩
  | 98 => ⟨S800000x1, .i32⟩
  | 99 => ⟨S100000, .f32⟩
  | 100 => ⟨S_, .f32⟩
  | 101 => ⟨S100000, .f32⟩
  | 102 => ⟨S100000, .f32⟩
  | 103 => ⟨S100000x1, .f32⟩
  | 104 => ⟨S100000x128, .f32⟩
  | 105 => ⟨S100000x128, .f32⟩
  | 106 => ⟨S1x3x128x128, .f32⟩
  | 107 => ⟨S3x128x128, .f32⟩
  | 108 => ⟨S1x3x128, .f32⟩
  | 109 => ⟨S3x128, .f32⟩
  | 110 => ⟨S1x3x128x128, .f32⟩
  | 111 => ⟨S3x128x128, .f32⟩
  | 112 => ⟨S100000x128, .f32⟩
  | 113 => ⟨S_, .i32⟩
  | 114 => ⟨S100000, .i32⟩
  | 115 => ⟨S100000, .i1⟩
  | 116 => ⟨S100000, .f32⟩
  | 117 => ⟨S100000x1, .f32⟩
  | 118 => ⟨S1x800000, .i32⟩
  | 119 => ⟨S800000, .i32⟩
  | 120 => ⟨S1x800000, .i32⟩
  | 121 => ⟨S800000, .i32⟩
  | 122 => ⟨S_, .i32⟩
  | 123 => ⟨S800000, .i32⟩
  | 124 => ⟨S800000, .i1⟩
  | 125 => ⟨S800000, .f32⟩
  | 126 => ⟨S_, .i32⟩
  | 127 => ⟨S800000, .i32⟩
  | _ => ⟨S100000x128, .f32⟩

abbrev hbmTy0_2 (i : Nat) : BufTy := match i % 128 with
  | 0 => ⟨S800000, .i1⟩
  | 1 => ⟨S_, .i32⟩
  | 2 => ⟨S800000, .i32⟩
  | 3 => ⟨S800000, .i32⟩
  | 4 => ⟨S800000, .i32⟩
  | 5 => ⟨S800000x1, .i32⟩
  | 6 => ⟨S800000x128, .f32⟩
  | 7 => ⟨S800000x1, .f32⟩
  | 8 => ⟨S800000x128, .f32⟩
  | 9 => ⟨S800000x128, .f32⟩
  | 10 => ⟨S_, .f32⟩
  | 11 => ⟨S100000x128, .f32⟩
  | 12 => ⟨S800000x1, .i32⟩
  | 13 => ⟨S100000x128, .f32⟩
  | 14 => ⟨S_, .f32⟩
  | 15 => ⟨S100000, .f32⟩
  | 16 => ⟨S800000x1, .i32⟩
  | 17 => ⟨S100000, .f32⟩
  | 18 => ⟨S_, .f32⟩
  | 19 => ⟨S100000, .f32⟩
  | 20 => ⟨S100000, .f32⟩
  | 21 => ⟨S100000x1, .f32⟩
  | 22 => ⟨S100000x128, .f32⟩
  | 23 => ⟨S100000x128, .f32⟩
  | 24 => ⟨S1x800000, .i32⟩
  | 25 => ⟨S800000, .i32⟩
  | 26 => ⟨S1x800000, .i32⟩
  | 27 => ⟨S800000, .i32⟩
  | 28 => ⟨S_, .i32⟩
  | 29 => ⟨S800000, .i32⟩
  | 30 => ⟨S800000, .i1⟩
  | 31 => ⟨S800000, .f32⟩
  | 32 => ⟨S_, .i32⟩
  | 33 => ⟨S800000, .i32⟩
  | 34 => ⟨S800000, .i1⟩
  | 35 => ⟨S_, .i32⟩
  | 36 => ⟨S800000, .i32⟩
  | 37 => ⟨S800000, .i32⟩
  | 38 => ⟨S800000, .i32⟩
  | 39 => ⟨S800000x1, .i32⟩
  | 40 => ⟨S800000x128, .f32⟩
  | 41 => ⟨S800000x1, .f32⟩
  | 42 => ⟨S800000x128, .f32⟩
  | 43 => ⟨S800000x128, .f32⟩
  | 44 => ⟨S_, .f32⟩
  | 45 => ⟨S100000x128, .f32⟩
  | 46 => ⟨S800000x1, .i32⟩
  | 47 => ⟨S100000x128, .f32⟩
  | 48 => ⟨S_, .f32⟩
  | 49 => ⟨S100000, .f32⟩
  | 50 => ⟨S800000x1, .i32⟩
  | 51 => ⟨S100000, .f32⟩
  | 52 => ⟨S_, .f32⟩
  | 53 => ⟨S100000, .f32⟩
  | 54 => ⟨S100000, .f32⟩
  | 55 => ⟨S100000x1, .f32⟩
  | 56 => ⟨S100000x128, .f32⟩
  | 57 => ⟨S100000x128, .f32⟩
  | 58 => ⟨S1x800000, .i32⟩
  | 59 => ⟨S800000, .i32⟩
  | 60 => ⟨S1x800000, .i32⟩
  | 61 => ⟨S800000, .i32⟩
  | 62 => ⟨S_, .i32⟩
  | 63 => ⟨S800000, .i32⟩
  | 64 => ⟨S800000, .i1⟩
  | 65 => ⟨S800000, .f32⟩
  | 66 => ⟨S_, .i32⟩
  | 67 => ⟨S800000, .i32⟩
  | 68 => ⟨S800000, .i1⟩
  | 69 => ⟨S_, .i32⟩
  | 70 => ⟨S800000, .i32⟩
  | 71 => ⟨S800000, .i32⟩
  | 72 => ⟨S800000, .i32⟩
  | 73 => ⟨S800000x1, .i32⟩
  | 74 => ⟨S800000x128, .f32⟩
  | 75 => ⟨S800000x1, .f32⟩
  | 76 => ⟨S800000x128, .f32⟩
  | 77 => ⟨S800000x128, .f32⟩
  | 78 => ⟨S_, .f32⟩
  | 79 => ⟨S100000x128, .f32⟩
  | 80 => ⟨S800000x1, .i32⟩
  | 81 => ⟨S100000x128, .f32⟩
  | 82 => ⟨S_, .f32⟩
  | 83 => ⟨S100000, .f32⟩
  | 84 => ⟨S800000x1, .i32⟩
  | 85 => ⟨S100000, .f32⟩
  | 86 => ⟨S_, .f32⟩
  | 87 => ⟨S100000, .f32⟩
  | 88 => ⟨S100000, .f32⟩
  | 89 => ⟨S100000x1, .f32⟩
  | 90 => ⟨S100000x128, .f32⟩
  | 91 => ⟨S100000x128, .f32⟩
  | 92 => ⟨S1x3x128x128, .f32⟩
  | 93 => ⟨S3x128x128, .f32⟩
  | 94 => ⟨S1x3x128, .f32⟩
  | 95 => ⟨S3x128, .f32⟩
  | 96 => ⟨S1x3x128x128, .f32⟩
  | 97 => ⟨S3x128x128, .f32⟩
  | 98 => ⟨S100000x128, .f32⟩
  | _ => ⟨S100000x128, .f32⟩

abbrev hbmTy (i : Nat) : BufTy := match i / 128 with
  | 0 => hbmTy0_0 i
  | 1 => hbmTy0_1 i
  | 2 => hbmTy0_2 i
  | _ => ⟨S100000x128, .f32⟩

abbrev bufTy : (tb : Table) → Fin (tcTables nBuf tb) → BufTy
  | .hbm, ⟨i, _⟩ => hbmTy i
  | .local _ .vmem, ⟨0, _⟩ => ⟨S4000x128, .f32⟩
  | .local _ .vmem, ⟨1, _⟩ => ⟨S4000x128, .f32⟩
  | .local _ .vmem, ⟨2, _⟩ => ⟨S4000x128, .f32⟩
  | .local _ .vmem, ⟨3, _⟩ => ⟨S4000x128, .f32⟩
  | .local _ .vmem, ⟨4, _⟩ => ⟨S4000x128, .f32⟩
  | .local _ .vmem, ⟨5, _⟩ => ⟨S4000x128, .f32⟩
  | .local _ .vmem, ⟨6, _⟩ => ⟨S4000x128, .f32⟩
  | .local _ .vmem, ⟨7, _⟩ => ⟨S4000x128, .f32⟩
  | .local _ .vmem, ⟨8, _⟩ => ⟨S4000x1, .f32⟩
  | .local _ .vmem, ⟨9, _⟩ => ⟨S4000x1, .f32⟩
  | .local _ .vmem, ⟨10, _⟩ => ⟨S3x128x128, .f32⟩
  | .local _ .vmem, ⟨11, _⟩ => ⟨S3x128, .f32⟩
  | .local _ .vmem, ⟨12, _⟩ => ⟨S3x128x128, .f32⟩
  | .local _ .vmem, ⟨13, _⟩ => ⟨S4000x128, .f32⟩
  | .local _ .vmem, ⟨14, _⟩ => ⟨S4000x128, .f32⟩
  | .local _ .vmem, ⟨15, _⟩ => ⟨S4000x128, .f32⟩
  | .local _ .vmem, ⟨16, _⟩ => ⟨S4000x128, .f32⟩
  | .local _ .vmem, ⟨17, _⟩ => ⟨S4000x128, .f32⟩
  | .local _ .vmem, ⟨18, _⟩ => ⟨S4000x128, .f32⟩
  | .local _ .vmem, ⟨19, _⟩ => ⟨S4000x128, .f32⟩
  | .local _ .vmem, ⟨20, _⟩ => ⟨S4000x128, .f32⟩
  | .local _ .vmem, ⟨21, _⟩ => ⟨S4000x128, .f32⟩
  | .local _ .vmem, ⟨22, _⟩ => ⟨S4000x128, .f32⟩
  | .local _ .vmem, ⟨23, _⟩ => ⟨S4000x1, .f32⟩
  | .local _ .vmem, ⟨24, _⟩ => ⟨S4000x1, .f32⟩
  | .local _ .vmem, ⟨25, _⟩ => ⟨S3x128x128, .f32⟩
  | .local _ .vmem, ⟨26, _⟩ => ⟨S3x128, .f32⟩
  | .local _ .vmem, ⟨27, _⟩ => ⟨S3x128x128, .f32⟩
  | .local _ .vmem, ⟨28, _⟩ => ⟨S4000x128, .f32⟩
  | .local _ .vmem, ⟨29, _⟩ => ⟨S4000x128, .f32⟩
  | .local _ .vmem, ⟨30, _⟩ => ⟨S4000x128, .f32⟩
  | .local _ .vmem, ⟨31, _⟩ => ⟨S4000x128, .f32⟩
  | .local _ .vmem, ⟨32, _⟩ => ⟨S4000x128, .f32⟩
  | .local _ .vmem, ⟨33, _⟩ => ⟨S4000x128, .f32⟩
  | .local _ .vmem, ⟨34, _⟩ => ⟨S4000x128, .f32⟩
  | .local _ .vmem, ⟨35, _⟩ => ⟨S4000x128, .f32⟩
  | .local _ .vmem, ⟨36, _⟩ => ⟨S4000x128, .f32⟩
  | .local _ .vmem, ⟨37, _⟩ => ⟨S4000x128, .f32⟩
  | .local _ .vmem, ⟨38, _⟩ => ⟨S4000x1, .f32⟩
  | .local _ .vmem, ⟨39, _⟩ => ⟨S4000x1, .f32⟩
  | .local _ .vmem, ⟨40, _⟩ => ⟨S3x128x128, .f32⟩
  | .local _ .vmem, ⟨41, _⟩ => ⟨S3x128, .f32⟩
  | .local _ .vmem, ⟨42, _⟩ => ⟨S3x128x128, .f32⟩
  | .local _ .vmem, ⟨43, _⟩ => ⟨S4000x128, .f32⟩
  | .local _ .vmem, ⟨44, _⟩ => ⟨S4000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | _, _ => false

abbrev semScoped : Fin 0 → Bool
  | ⟨_, h⟩ => absurd h (Nat.not_lt_zero _)

abbrev dmaSemScoped : Fin 45 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | _ => false

abbrev sig : RefSig :=
  ofTc nBuf bufTy 0 45 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_c : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_c_0 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_c_1 : Ref sig .tc := ⟨.hbm, 26, rfl⟩
abbrev main_v13 : Ref sig .tc := ⟨.hbm, 27, rfl⟩
abbrev main_v14 : Ref sig .tc := ⟨.hbm, 28, rfl⟩
abbrev main_c_2 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_cst : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_cst_3 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_cst_4 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_c_5 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_c_6 : Ref sig .tc := ⟨.hbm, 60, rfl⟩
abbrev main_v41 : Ref sig .tc := ⟨.hbm, 61, rfl⟩
abbrev main_v42 : Ref sig .tc := ⟨.hbm, 62, rfl⟩
abbrev main_c_7 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_cst_8 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_cst_9 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_cst_10 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_c_11 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev main_c_12 : Ref sig .tc := ⟨.hbm, 94, rfl⟩
abbrev main_v69 : Ref sig .tc := ⟨.hbm, 95, rfl⟩
abbrev main_v70 : Ref sig .tc := ⟨.hbm, 96, rfl⟩
abbrev main_c_13 : Ref sig .tc := ⟨.hbm, 97, rfl⟩
abbrev main_v71 : Ref sig .tc := ⟨.hbm, 98, rfl⟩
abbrev main_v72 : Ref sig .tc := ⟨.hbm, 99, rfl⟩
abbrev main_v73 : Ref sig .tc := ⟨.hbm, 100, rfl⟩
abbrev main_v74 : Ref sig .tc := ⟨.hbm, 101, rfl⟩
abbrev main_v75 : Ref sig .tc := ⟨.hbm, 102, rfl⟩
abbrev main_v76 : Ref sig .tc := ⟨.hbm, 103, rfl⟩
abbrev main_v77 : Ref sig .tc := ⟨.hbm, 104, rfl⟩
abbrev main_v78 : Ref sig .tc := ⟨.hbm, 105, rfl⟩
abbrev main_cst_14 : Ref sig .tc := ⟨.hbm, 106, rfl⟩
abbrev main_v79 : Ref sig .tc := ⟨.hbm, 107, rfl⟩
abbrev main_v80 : Ref sig .tc := ⟨.hbm, 108, rfl⟩
abbrev main_v81 : Ref sig .tc := ⟨.hbm, 109, rfl⟩
abbrev main_cst_15 : Ref sig .tc := ⟨.hbm, 110, rfl⟩
abbrev main_v82 : Ref sig .tc := ⟨.hbm, 111, rfl⟩
abbrev main_v83 : Ref sig .tc := ⟨.hbm, 112, rfl⟩
abbrev main_v84 : Ref sig .tc := ⟨.hbm, 113, rfl⟩
abbrev main_cst_16 : Ref sig .tc := ⟨.hbm, 114, rfl⟩
abbrev main_v85 : Ref sig .tc := ⟨.hbm, 115, rfl⟩
abbrev main_v86 : Ref sig .tc := ⟨.hbm, 116, rfl⟩
abbrev main_v87 : Ref sig .tc := ⟨.hbm, 117, rfl⟩
abbrev main_v88 : Ref sig .tc := ⟨.hbm, 118, rfl⟩
abbrev main_v89 : Ref sig .tc := ⟨.hbm, 119, rfl⟩
abbrev main_v90 : Ref sig .tc := ⟨.hbm, 120, rfl⟩
abbrev main_v91 : Ref sig .tc := ⟨.hbm, 121, rfl⟩
abbrev main_v92 : Ref sig .tc := ⟨.hbm, 122, rfl⟩
abbrev main_v93 : Ref sig .tc := ⟨.hbm, 123, rfl⟩
abbrev main_v94 : Ref sig .tc := ⟨.hbm, 124, rfl⟩
abbrev main_v95 : Ref sig .tc := ⟨.hbm, 125, rfl⟩
abbrev main_v96 : Ref sig .tc := ⟨.hbm, 126, rfl⟩
abbrev main_c_17 : Ref sig .tc := ⟨.hbm, 127, rfl⟩
abbrev main_v97 : Ref sig .tc := ⟨.hbm, 128, rfl⟩
abbrev main_v98 : Ref sig .tc := ⟨.hbm, 129, rfl⟩
abbrev main_v99 : Ref sig .tc := ⟨.hbm, 130, rfl⟩
abbrev main_v100 : Ref sig .tc := ⟨.hbm, 131, rfl⟩
abbrev main_v101 : Ref sig .tc := ⟨.hbm, 132, rfl⟩
abbrev main_v102 : Ref sig .tc := ⟨.hbm, 133, rfl⟩
abbrev main_v103 : Ref sig .tc := ⟨.hbm, 134, rfl⟩
abbrev main_v104 : Ref sig .tc := ⟨.hbm, 135, rfl⟩
abbrev main_c_18 : Ref sig .tc := ⟨.hbm, 136, rfl⟩
abbrev main_v105 : Ref sig .tc := ⟨.hbm, 137, rfl⟩
abbrev main_v106 : Ref sig .tc := ⟨.hbm, 138, rfl⟩
abbrev main_v107 : Ref sig .tc := ⟨.hbm, 139, rfl⟩
abbrev main_c_19 : Ref sig .tc := ⟨.hbm, 140, rfl⟩
abbrev main_v108 : Ref sig .tc := ⟨.hbm, 141, rfl⟩
abbrev main_v109 : Ref sig .tc := ⟨.hbm, 142, rfl⟩
abbrev main_c_20 : Ref sig .tc := ⟨.hbm, 143, rfl⟩
abbrev main_v110 : Ref sig .tc := ⟨.hbm, 144, rfl⟩
abbrev main_v111 : Ref sig .tc := ⟨.hbm, 145, rfl⟩
abbrev main_v112 : Ref sig .tc := ⟨.hbm, 146, rfl⟩
abbrev main_v113 : Ref sig .tc := ⟨.hbm, 147, rfl⟩
abbrev main_v114 : Ref sig .tc := ⟨.hbm, 148, rfl⟩
abbrev main_v115 : Ref sig .tc := ⟨.hbm, 149, rfl⟩
abbrev main_v116 : Ref sig .tc := ⟨.hbm, 150, rfl⟩
abbrev main_v117 : Ref sig .tc := ⟨.hbm, 151, rfl⟩
abbrev main_cst_21 : Ref sig .tc := ⟨.hbm, 152, rfl⟩
abbrev main_v118 : Ref sig .tc := ⟨.hbm, 153, rfl⟩
abbrev main_v119 : Ref sig .tc := ⟨.hbm, 154, rfl⟩
abbrev main_v120 : Ref sig .tc := ⟨.hbm, 155, rfl⟩
abbrev main_cst_22 : Ref sig .tc := ⟨.hbm, 156, rfl⟩
abbrev main_v121 : Ref sig .tc := ⟨.hbm, 157, rfl⟩
abbrev main_v122 : Ref sig .tc := ⟨.hbm, 158, rfl⟩
abbrev main_v123 : Ref sig .tc := ⟨.hbm, 159, rfl⟩
abbrev main_cst_23 : Ref sig .tc := ⟨.hbm, 160, rfl⟩
abbrev main_v124 : Ref sig .tc := ⟨.hbm, 161, rfl⟩
abbrev main_v125 : Ref sig .tc := ⟨.hbm, 162, rfl⟩
abbrev main_v126 : Ref sig .tc := ⟨.hbm, 163, rfl⟩
abbrev main_v127 : Ref sig .tc := ⟨.hbm, 164, rfl⟩
abbrev main_v128 : Ref sig .tc := ⟨.hbm, 165, rfl⟩
abbrev main_v129 : Ref sig .tc := ⟨.hbm, 166, rfl⟩
abbrev main_v130 : Ref sig .tc := ⟨.hbm, 167, rfl⟩
abbrev main_v131 : Ref sig .tc := ⟨.hbm, 168, rfl⟩
abbrev main_v132 : Ref sig .tc := ⟨.hbm, 169, rfl⟩
abbrev main_c_24 : Ref sig .tc := ⟨.hbm, 170, rfl⟩
abbrev main_v133 : Ref sig .tc := ⟨.hbm, 171, rfl⟩
abbrev main_v134 : Ref sig .tc := ⟨.hbm, 172, rfl⟩
abbrev main_v135 : Ref sig .tc := ⟨.hbm, 173, rfl⟩
abbrev main_c_25 : Ref sig .tc := ⟨.hbm, 174, rfl⟩
abbrev main_v136 : Ref sig .tc := ⟨.hbm, 175, rfl⟩
abbrev main_v137 : Ref sig .tc := ⟨.hbm, 176, rfl⟩
abbrev main_c_26 : Ref sig .tc := ⟨.hbm, 177, rfl⟩
abbrev main_v138 : Ref sig .tc := ⟨.hbm, 178, rfl⟩
abbrev main_v139 : Ref sig .tc := ⟨.hbm, 179, rfl⟩
abbrev main_v140 : Ref sig .tc := ⟨.hbm, 180, rfl⟩
abbrev main_v141 : Ref sig .tc := ⟨.hbm, 181, rfl⟩
abbrev main_v142 : Ref sig .tc := ⟨.hbm, 182, rfl⟩
abbrev main_v143 : Ref sig .tc := ⟨.hbm, 183, rfl⟩
abbrev main_v144 : Ref sig .tc := ⟨.hbm, 184, rfl⟩
abbrev main_v145 : Ref sig .tc := ⟨.hbm, 185, rfl⟩
abbrev main_cst_27 : Ref sig .tc := ⟨.hbm, 186, rfl⟩
abbrev main_v146 : Ref sig .tc := ⟨.hbm, 187, rfl⟩
abbrev main_v147 : Ref sig .tc := ⟨.hbm, 188, rfl⟩
abbrev main_v148 : Ref sig .tc := ⟨.hbm, 189, rfl⟩
abbrev main_cst_28 : Ref sig .tc := ⟨.hbm, 190, rfl⟩
abbrev main_v149 : Ref sig .tc := ⟨.hbm, 191, rfl⟩
abbrev main_v150 : Ref sig .tc := ⟨.hbm, 192, rfl⟩
abbrev main_v151 : Ref sig .tc := ⟨.hbm, 193, rfl⟩
abbrev main_cst_29 : Ref sig .tc := ⟨.hbm, 194, rfl⟩
abbrev main_v152 : Ref sig .tc := ⟨.hbm, 195, rfl⟩
abbrev main_v153 : Ref sig .tc := ⟨.hbm, 196, rfl⟩
abbrev main_v154 : Ref sig .tc := ⟨.hbm, 197, rfl⟩
abbrev main_v155 : Ref sig .tc := ⟨.hbm, 198, rfl⟩
abbrev main_v156 : Ref sig .tc := ⟨.hbm, 199, rfl⟩
abbrev main_v157 : Ref sig .tc := ⟨.hbm, 200, rfl⟩
abbrev main_v158 : Ref sig .tc := ⟨.hbm, 201, rfl⟩
abbrev main_v159 : Ref sig .tc := ⟨.hbm, 202, rfl⟩
abbrev main_v160 : Ref sig .tc := ⟨.hbm, 203, rfl⟩
abbrev main_c_30 : Ref sig .tc := ⟨.hbm, 204, rfl⟩
abbrev main_v161 : Ref sig .tc := ⟨.hbm, 205, rfl⟩
abbrev main_v162 : Ref sig .tc := ⟨.hbm, 206, rfl⟩
abbrev main_v163 : Ref sig .tc := ⟨.hbm, 207, rfl⟩
abbrev main_c_31 : Ref sig .tc := ⟨.hbm, 208, rfl⟩
abbrev main_v164 : Ref sig .tc := ⟨.hbm, 209, rfl⟩
abbrev main_v165 : Ref sig .tc := ⟨.hbm, 210, rfl⟩
abbrev main_c_32 : Ref sig .tc := ⟨.hbm, 211, rfl⟩
abbrev main_v166 : Ref sig .tc := ⟨.hbm, 212, rfl⟩
abbrev main_v167 : Ref sig .tc := ⟨.hbm, 213, rfl⟩
abbrev main_v168 : Ref sig .tc := ⟨.hbm, 214, rfl⟩
abbrev main_v169 : Ref sig .tc := ⟨.hbm, 215, rfl⟩
abbrev main_v170 : Ref sig .tc := ⟨.hbm, 216, rfl⟩
abbrev main_v171 : Ref sig .tc := ⟨.hbm, 217, rfl⟩
abbrev main_v172 : Ref sig .tc := ⟨.hbm, 218, rfl⟩
abbrev main_v173 : Ref sig .tc := ⟨.hbm, 219, rfl⟩
abbrev main_cst_33 : Ref sig .tc := ⟨.hbm, 220, rfl⟩
abbrev main_v174 : Ref sig .tc := ⟨.hbm, 221, rfl⟩
abbrev main_v175 : Ref sig .tc := ⟨.hbm, 222, rfl⟩
abbrev main_v176 : Ref sig .tc := ⟨.hbm, 223, rfl⟩
abbrev main_cst_34 : Ref sig .tc := ⟨.hbm, 224, rfl⟩
abbrev main_v177 : Ref sig .tc := ⟨.hbm, 225, rfl⟩
abbrev main_v178 : Ref sig .tc := ⟨.hbm, 226, rfl⟩
abbrev main_v179 : Ref sig .tc := ⟨.hbm, 227, rfl⟩
abbrev main_cst_35 : Ref sig .tc := ⟨.hbm, 228, rfl⟩
abbrev main_v180 : Ref sig .tc := ⟨.hbm, 229, rfl⟩
abbrev main_v181 : Ref sig .tc := ⟨.hbm, 230, rfl⟩
abbrev main_v182 : Ref sig .tc := ⟨.hbm, 231, rfl⟩
abbrev main_v183 : Ref sig .tc := ⟨.hbm, 232, rfl⟩
abbrev main_v184 : Ref sig .tc := ⟨.hbm, 233, rfl⟩
abbrev main_v185 : Ref sig .tc := ⟨.hbm, 234, rfl⟩
abbrev main_v186 : Ref sig .tc := ⟨.hbm, 235, rfl⟩
abbrev main_v187 : Ref sig .tc := ⟨.hbm, 236, rfl⟩
abbrev main_v188 : Ref sig .tc := ⟨.hbm, 237, rfl⟩
abbrev main_v189 : Ref sig .tc := ⟨.hbm, 238, rfl⟩
abbrev main_v190 : Ref sig .tc := ⟨.hbm, 239, rfl⟩
abbrev main_v191 : Ref sig .tc := ⟨.hbm, 240, rfl⟩
abbrev main_c_36 : Ref sig .tc := ⟨.hbm, 241, rfl⟩
abbrev main_v192 : Ref sig .tc := ⟨.hbm, 242, rfl⟩
abbrev main_v193 : Ref sig .tc := ⟨.hbm, 243, rfl⟩
abbrev main_v194 : Ref sig .tc := ⟨.hbm, 244, rfl⟩
abbrev main_v195 : Ref sig .tc := ⟨.hbm, 245, rfl⟩
abbrev main_v196 : Ref sig .tc := ⟨.hbm, 246, rfl⟩
abbrev main_v197 : Ref sig .tc := ⟨.hbm, 247, rfl⟩
abbrev main_v198 : Ref sig .tc := ⟨.hbm, 248, rfl⟩
abbrev main_v199 : Ref sig .tc := ⟨.hbm, 249, rfl⟩
abbrev main_c_37 : Ref sig .tc := ⟨.hbm, 250, rfl⟩
abbrev main_v200 : Ref sig .tc := ⟨.hbm, 251, rfl⟩
abbrev main_v201 : Ref sig .tc := ⟨.hbm, 252, rfl⟩
abbrev main_v202 : Ref sig .tc := ⟨.hbm, 253, rfl⟩
abbrev main_c_38 : Ref sig .tc := ⟨.hbm, 254, rfl⟩
abbrev main_v203 : Ref sig .tc := ⟨.hbm, 255, rfl⟩
abbrev main_v204 : Ref sig .tc := ⟨.hbm, 256, rfl⟩
abbrev main_c_39 : Ref sig .tc := ⟨.hbm, 257, rfl⟩
abbrev main_v205 : Ref sig .tc := ⟨.hbm, 258, rfl⟩
abbrev main_v206 : Ref sig .tc := ⟨.hbm, 259, rfl⟩
abbrev main_v207 : Ref sig .tc := ⟨.hbm, 260, rfl⟩
abbrev main_v208 : Ref sig .tc := ⟨.hbm, 261, rfl⟩
abbrev main_v209 : Ref sig .tc := ⟨.hbm, 262, rfl⟩
abbrev main_v210 : Ref sig .tc := ⟨.hbm, 263, rfl⟩
abbrev main_v211 : Ref sig .tc := ⟨.hbm, 264, rfl⟩
abbrev main_v212 : Ref sig .tc := ⟨.hbm, 265, rfl⟩
abbrev main_cst_40 : Ref sig .tc := ⟨.hbm, 266, rfl⟩
abbrev main_v213 : Ref sig .tc := ⟨.hbm, 267, rfl⟩
abbrev main_v214 : Ref sig .tc := ⟨.hbm, 268, rfl⟩
abbrev main_v215 : Ref sig .tc := ⟨.hbm, 269, rfl⟩
abbrev main_cst_41 : Ref sig .tc := ⟨.hbm, 270, rfl⟩
abbrev main_v216 : Ref sig .tc := ⟨.hbm, 271, rfl⟩
abbrev main_v217 : Ref sig .tc := ⟨.hbm, 272, rfl⟩
abbrev main_v218 : Ref sig .tc := ⟨.hbm, 273, rfl⟩
abbrev main_cst_42 : Ref sig .tc := ⟨.hbm, 274, rfl⟩
abbrev main_v219 : Ref sig .tc := ⟨.hbm, 275, rfl⟩
abbrev main_v220 : Ref sig .tc := ⟨.hbm, 276, rfl⟩
abbrev main_v221 : Ref sig .tc := ⟨.hbm, 277, rfl⟩
abbrev main_v222 : Ref sig .tc := ⟨.hbm, 278, rfl⟩
abbrev main_v223 : Ref sig .tc := ⟨.hbm, 279, rfl⟩
abbrev main_v224 : Ref sig .tc := ⟨.hbm, 280, rfl⟩
abbrev main_v225 : Ref sig .tc := ⟨.hbm, 281, rfl⟩
abbrev main_v226 : Ref sig .tc := ⟨.hbm, 282, rfl⟩
abbrev main_v227 : Ref sig .tc := ⟨.hbm, 283, rfl⟩
abbrev main_c_43 : Ref sig .tc := ⟨.hbm, 284, rfl⟩
abbrev main_v228 : Ref sig .tc := ⟨.hbm, 285, rfl⟩
abbrev main_v229 : Ref sig .tc := ⟨.hbm, 286, rfl⟩
abbrev main_v230 : Ref sig .tc := ⟨.hbm, 287, rfl⟩
abbrev main_c_44 : Ref sig .tc := ⟨.hbm, 288, rfl⟩
abbrev main_v231 : Ref sig .tc := ⟨.hbm, 289, rfl⟩
abbrev main_v232 : Ref sig .tc := ⟨.hbm, 290, rfl⟩
abbrev main_c_45 : Ref sig .tc := ⟨.hbm, 291, rfl⟩
abbrev main_v233 : Ref sig .tc := ⟨.hbm, 292, rfl⟩
abbrev main_v234 : Ref sig .tc := ⟨.hbm, 293, rfl⟩
abbrev main_v235 : Ref sig .tc := ⟨.hbm, 294, rfl⟩
abbrev main_v236 : Ref sig .tc := ⟨.hbm, 295, rfl⟩
abbrev main_v237 : Ref sig .tc := ⟨.hbm, 296, rfl⟩
abbrev main_v238 : Ref sig .tc := ⟨.hbm, 297, rfl⟩
abbrev main_v239 : Ref sig .tc := ⟨.hbm, 298, rfl⟩
abbrev main_v240 : Ref sig .tc := ⟨.hbm, 299, rfl⟩
abbrev main_cst_46 : Ref sig .tc := ⟨.hbm, 300, rfl⟩
abbrev main_v241 : Ref sig .tc := ⟨.hbm, 301, rfl⟩
abbrev main_v242 : Ref sig .tc := ⟨.hbm, 302, rfl⟩
abbrev main_v243 : Ref sig .tc := ⟨.hbm, 303, rfl⟩
abbrev main_cst_47 : Ref sig .tc := ⟨.hbm, 304, rfl⟩
abbrev main_v244 : Ref sig .tc := ⟨.hbm, 305, rfl⟩
abbrev main_v245 : Ref sig .tc := ⟨.hbm, 306, rfl⟩
abbrev main_v246 : Ref sig .tc := ⟨.hbm, 307, rfl⟩
abbrev main_cst_48 : Ref sig .tc := ⟨.hbm, 308, rfl⟩
abbrev main_v247 : Ref sig .tc := ⟨.hbm, 309, rfl⟩
abbrev main_v248 : Ref sig .tc := ⟨.hbm, 310, rfl⟩
abbrev main_v249 : Ref sig .tc := ⟨.hbm, 311, rfl⟩
abbrev main_v250 : Ref sig .tc := ⟨.hbm, 312, rfl⟩
abbrev main_v251 : Ref sig .tc := ⟨.hbm, 313, rfl⟩
abbrev main_v252 : Ref sig .tc := ⟨.hbm, 314, rfl⟩
abbrev main_v253 : Ref sig .tc := ⟨.hbm, 315, rfl⟩
abbrev main_v254 : Ref sig .tc := ⟨.hbm, 316, rfl⟩
abbrev main_v255 : Ref sig .tc := ⟨.hbm, 317, rfl⟩
abbrev main_c_49 : Ref sig .tc := ⟨.hbm, 318, rfl⟩
abbrev main_v256 : Ref sig .tc := ⟨.hbm, 319, rfl⟩
abbrev main_v257 : Ref sig .tc := ⟨.hbm, 320, rfl⟩
abbrev main_v258 : Ref sig .tc := ⟨.hbm, 321, rfl⟩
abbrev main_c_50 : Ref sig .tc := ⟨.hbm, 322, rfl⟩
abbrev main_v259 : Ref sig .tc := ⟨.hbm, 323, rfl⟩
abbrev main_v260 : Ref sig .tc := ⟨.hbm, 324, rfl⟩
abbrev main_c_51 : Ref sig .tc := ⟨.hbm, 325, rfl⟩
abbrev main_v261 : Ref sig .tc := ⟨.hbm, 326, rfl⟩
abbrev main_v262 : Ref sig .tc := ⟨.hbm, 327, rfl⟩
abbrev main_v263 : Ref sig .tc := ⟨.hbm, 328, rfl⟩
abbrev main_v264 : Ref sig .tc := ⟨.hbm, 329, rfl⟩
abbrev main_v265 : Ref sig .tc := ⟨.hbm, 330, rfl⟩
abbrev main_v266 : Ref sig .tc := ⟨.hbm, 331, rfl⟩
abbrev main_v267 : Ref sig .tc := ⟨.hbm, 332, rfl⟩
abbrev main_v268 : Ref sig .tc := ⟨.hbm, 333, rfl⟩
abbrev main_cst_52 : Ref sig .tc := ⟨.hbm, 334, rfl⟩
abbrev main_v269 : Ref sig .tc := ⟨.hbm, 335, rfl⟩
abbrev main_v270 : Ref sig .tc := ⟨.hbm, 336, rfl⟩
abbrev main_v271 : Ref sig .tc := ⟨.hbm, 337, rfl⟩
abbrev main_cst_53 : Ref sig .tc := ⟨.hbm, 338, rfl⟩
abbrev main_v272 : Ref sig .tc := ⟨.hbm, 339, rfl⟩
abbrev main_v273 : Ref sig .tc := ⟨.hbm, 340, rfl⟩
abbrev main_v274 : Ref sig .tc := ⟨.hbm, 341, rfl⟩
abbrev main_cst_54 : Ref sig .tc := ⟨.hbm, 342, rfl⟩
abbrev main_v275 : Ref sig .tc := ⟨.hbm, 343, rfl⟩
abbrev main_v276 : Ref sig .tc := ⟨.hbm, 344, rfl⟩
abbrev main_v277 : Ref sig .tc := ⟨.hbm, 345, rfl⟩
abbrev main_v278 : Ref sig .tc := ⟨.hbm, 346, rfl⟩
abbrev main_v279 : Ref sig .tc := ⟨.hbm, 347, rfl⟩
abbrev main_v280 : Ref sig .tc := ⟨.hbm, 348, rfl⟩
abbrev main_v281 : Ref sig .tc := ⟨.hbm, 349, rfl⟩
abbrev main_v282 : Ref sig .tc := ⟨.hbm, 350, rfl⟩
abbrev main_v283 : Ref sig .tc := ⟨.hbm, 351, rfl⟩
abbrev main_v284 : Ref sig .tc := ⟨.hbm, 352, rfl⟩
abbrev main_v285 : Ref sig .tc := ⟨.hbm, 353, rfl⟩
abbrev main_v286 : Ref sig .tc := ⟨.hbm, 354, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg8_1 : Ref sig .tc := ⟨.vmem, 14, rfl⟩
abbrev cc1_stg0_0 : Ref sig .tc := ⟨.vmem, 15, rfl⟩
abbrev cc1_stg0_1 : Ref sig .tc := ⟨.vmem, 16, rfl⟩
abbrev cc1_stg1_0 : Ref sig .tc := ⟨.vmem, 17, rfl⟩
abbrev cc1_stg1_1 : Ref sig .tc := ⟨.vmem, 18, rfl⟩
abbrev cc1_stg2_0 : Ref sig .tc := ⟨.vmem, 19, rfl⟩
abbrev cc1_stg2_1 : Ref sig .tc := ⟨.vmem, 20, rfl⟩
abbrev cc1_stg3_0 : Ref sig .tc := ⟨.vmem, 21, rfl⟩
abbrev cc1_stg3_1 : Ref sig .tc := ⟨.vmem, 22, rfl⟩
abbrev cc1_stg4_0 : Ref sig .tc := ⟨.vmem, 23, rfl⟩
abbrev cc1_stg4_1 : Ref sig .tc := ⟨.vmem, 24, rfl⟩
abbrev cc1_stg5_0 : Ref sig .tc := ⟨.vmem, 25, rfl⟩
abbrev cc1_stg6_0 : Ref sig .tc := ⟨.vmem, 26, rfl⟩
abbrev cc1_stg7_0 : Ref sig .tc := ⟨.vmem, 27, rfl⟩
abbrev cc1_stg8_0 : Ref sig .tc := ⟨.vmem, 28, rfl⟩
abbrev cc1_stg8_1 : Ref sig .tc := ⟨.vmem, 29, rfl⟩
abbrev cc2_stg0_0 : Ref sig .tc := ⟨.vmem, 30, rfl⟩
abbrev cc2_stg0_1 : Ref sig .tc := ⟨.vmem, 31, rfl⟩
abbrev cc2_stg1_0 : Ref sig .tc := ⟨.vmem, 32, rfl⟩
abbrev cc2_stg1_1 : Ref sig .tc := ⟨.vmem, 33, rfl⟩
abbrev cc2_stg2_0 : Ref sig .tc := ⟨.vmem, 34, rfl⟩
abbrev cc2_stg2_1 : Ref sig .tc := ⟨.vmem, 35, rfl⟩
abbrev cc2_stg3_0 : Ref sig .tc := ⟨.vmem, 36, rfl⟩
abbrev cc2_stg3_1 : Ref sig .tc := ⟨.vmem, 37, rfl⟩
abbrev cc2_stg4_0 : Ref sig .tc := ⟨.vmem, 38, rfl⟩
abbrev cc2_stg4_1 : Ref sig .tc := ⟨.vmem, 39, rfl⟩
abbrev cc2_stg5_0 : Ref sig .tc := ⟨.vmem, 40, rfl⟩
abbrev cc2_stg6_0 : Ref sig .tc := ⟨.vmem, 41, rfl⟩
abbrev cc2_stg7_0 : Ref sig .tc := ⟨.vmem, 42, rfl⟩
abbrev cc2_stg8_0 : Ref sig .tc := ⟨.vmem, 43, rfl⟩
abbrev cc2_stg8_1 : Ref sig .tc := ⟨.vmem, 44, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem8_1 : DmaSem sig := 14
abbrev cc1_sem0_0 : DmaSem sig := 15
abbrev cc1_sem0_1 : DmaSem sig := 16
abbrev cc1_sem1_0 : DmaSem sig := 17
abbrev cc1_sem1_1 : DmaSem sig := 18
abbrev cc1_sem2_0 : DmaSem sig := 19
abbrev cc1_sem2_1 : DmaSem sig := 20
abbrev cc1_sem3_0 : DmaSem sig := 21
abbrev cc1_sem3_1 : DmaSem sig := 22
abbrev cc1_sem4_0 : DmaSem sig := 23
abbrev cc1_sem4_1 : DmaSem sig := 24
abbrev cc1_sem5_0 : DmaSem sig := 25
abbrev cc1_sem6_0 : DmaSem sig := 26
abbrev cc1_sem7_0 : DmaSem sig := 27
abbrev cc1_sem8_0 : DmaSem sig := 28
abbrev cc1_sem8_1 : DmaSem sig := 29
abbrev cc2_sem0_0 : DmaSem sig := 30
abbrev cc2_sem0_1 : DmaSem sig := 31
abbrev cc2_sem1_0 : DmaSem sig := 32
abbrev cc2_sem1_1 : DmaSem sig := 33
abbrev cc2_sem2_0 : DmaSem sig := 34
abbrev cc2_sem2_1 : DmaSem sig := 35
abbrev cc2_sem3_0 : DmaSem sig := 36
abbrev cc2_sem3_1 : DmaSem sig := 37
abbrev cc2_sem4_0 : DmaSem sig := 38
abbrev cc2_sem4_1 : DmaSem sig := 39
abbrev cc2_sem5_0 : DmaSem sig := 40
abbrev cc2_sem6_0 : DmaSem sig := 41
abbrev cc2_sem7_0 : DmaSem sig := 42
abbrev cc2_sem8_0 : DmaSem sig := 43
abbrev cc2_sem8_1 : DmaSem sig := 44

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S4000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S4000x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S3x128x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S3x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S3x128x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S4000x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_5 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_8 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S4000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S4000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S4000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S4000x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S4000x1 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 1 → Memref sig .tc .vmem S3x128x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S3x128 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S3x128x128 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 2 → Memref sig .tc .vmem S4000x128 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_5 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc2_transform_8 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S4000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S4000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S4000x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 2 → Memref sig .tc .vmem S4000x128 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev stage2_4 : Fin 2 → Memref sig .tc .vmem S4000x1 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev stage2_5 : Fin 1 → Memref sig .tc .vmem S3x128x128 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S3x128 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 1 → Memref sig .tc .vmem S3x128x128 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false]

abbrev stage2_8 : Fin 2 → Memref sig .tc .vmem S4000x128 .f32 := fun | 0 => Memref.whole cc2_stg8_0 | 1 => Memref.whole cc2_stg8_1 | ⟨_ + 2, h⟩ => absurd h (Nat.not_lt.2 (Nat.le_add_left _ _))
abbrev sem2_8 : Fin 2 → DmaSem sig := fun | 0 => cc2_sem8_0 | 1 => cc2_sem8_1 | ⟨_ + 2, h⟩ => absurd h (Nat.not_lt.2 (Nat.le_add_left _ _))
abbrev reads2_8 : Fin grid2.rank → Bool := ![true]

class Facts₀ : Prop where
  transposes_S3x3x128x128_S3x3x128x128_0_1_3_2 : S3x3x128x128.Transposes [0, 1, 3, 2] S3x3x128x128
  bcast_S_S100000 : S_.BroadcastsInDim S100000 (![] : Fin 0 → Fin S100000.rank)
  bcast_S100000_S100000x1_0 : S100000.BroadcastsInDim S100000x1 (![0] : Fin 1 → Fin S100000x1.rank)
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S800000x1_S800000x128_0_1 : S800000x1.BroadcastsInDim S800000x128 (![0, 1] : Fin 2 → Fin S800000x128.rank)
  bcast_S_S100000x128 : S_.BroadcastsInDim S100000x128 (![] : Fin 0 → Fin S100000x128.rank)
  bcast_S100000x1_S100000x128_0_1 : S100000x1.BroadcastsInDim S100000x128 (![0, 1] : Fin 2 → Fin S100000x128.rank)
  slices_S3x3x128x128_S1x3x128x128_0_0_0_0 : S3x3x128x128.Slices ![0, 0, 0, 0] S1x3x128x128
  shapeCasts_S1x3x128x128_S3x128x128 : S1x3x128x128.ShapeCasts S3x128x128
  slices_S3x3x128_S1x3x128_0_0_0 : S3x3x128.Slices ![0, 0, 0] S1x3x128
  shapeCasts_S1x3x128_S3x128 : S1x3x128.ShapeCasts S3x128
  inb_S4000x128_S4000x128_0_0 : ∀ a, (![0, 0] : Fin 2 → Nat) a + S4000x128.size a ≤ S4000x128.size a
  h_S4000x128 : 0 < S4000x128.numel
  bitsLt_bf16_f32 : FTy.bits .bf16 < FTy.bits .f32
  shapeCasts_S4000x128_S4000x128 : S4000x128.ShapeCasts S4000x128
  inb_S3x128x128_S1x128x128_0_0_0 : ∀ a, (![0, 0, 0] : Fin 3 → Nat) a + S1x128x128.size a ≤ S3x128x128.size a
  h_S1x128x128 : 0 < S1x128x128.numel
  shapeCasts_S1x128x128_S128x128 : S1x128x128.ShapeCasts S128x128
  inb_S3x128_S1x128_0_0 : ∀ a, (![0, 0] : Fin 2 → Nat) a + S1x128.size a ≤ S3x128.size a
  h_S1x128 : 0 < S1x128.numel
  shapeCasts_S1x128_S128 : S1x128.ShapeCasts S128
  shapeCasts_S128_S1x128 : S128.ShapeCasts S1x128
  broadcasts_S1x128_S4000x128 : S1x128.Broadcasts S4000x128
  inb_S3x128x128_S1x128x128_1_0_0 : ∀ a, (![1, 0, 0] : Fin 3 → Nat) a + S1x128x128.size a ≤ S3x128x128.size a
  inb_S3x128_S1x128_1_0 : ∀ a, (![1, 0] : Fin 2 → Nat) a + S1x128.size a ≤ S3x128.size a
  inb_S3x128x128_S1x128x128_2_0_0 : ∀ a, (![2, 0, 0] : Fin 3 → Nat) a + S1x128x128.size a ≤ S3x128x128.size a
  inb_S3x128_S1x128_2_0 : ∀ a, (![2, 0] : Fin 2 → Nat) a + S1x128.size a ≤ S3x128.size a
  inb_S4000x1_S4000x1_0_0 : ∀ a, (![0, 0] : Fin 2 → Nat) a + S4000x1.size a ≤ S4000x1.size a
  h_S4000x1 : 0 < S4000x1.numel
  shapeCasts_S4000x1_S4000x1 : S4000x1.ShapeCasts S4000x1
  broadcasts_S4000x1_S4000x128 : S4000x1.Broadcasts S4000x128
  slices_S3x3x128x128_S1x3x128x128_1_0_0_0 : S3x3x128x128.Slices ![1, 0, 0, 0] S1x3x128x128
  slices_S3x3x128_S1x3x128_1_0_0 : S3x3x128.Slices ![1, 0, 0] S1x3x128
  slices_S3x3x128x128_S1x3x128x128_2_0_0_0 : S3x3x128x128.Slices ![2, 0, 0, 0] S1x3x128x128
  slices_S3x3x128_S1x3x128_2_0_0 : S3x3x128.Slices ![2, 0, 0] S1x3x128
  gather_S100000x128_S800000x1_S800000x128_1_0_n_n_0_1_1128_wf : GatherDims.WF S100000x128 S800000x1 S800000x128 [1] [0] [] [0] [] 1 ![1, 128]
  scatter_S100000x128_S800000x1_S800000x128_1_0_0_1_wf : ScatterDims.WF S100000x128 S800000x1 S800000x128 [1] [0] [0] 1
  scatter_S100000_S800000x1_S800000_n_0_0_1_wf : ScatterDims.WF S100000 S800000x1 S800000 [] [0] [0] 1
  dot_S4000x128_S128x128_S4000x128_1_0_0_1_n_n_wf : DotDims.WF S4000x128 S128x128 S4000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x128.size a ≤ S100000x128.size a
  hwx0_0 : ∀ i : grid0.Coords, EltTy.bits .f32 = 32 ∨ (Rect.block (s := S100000x128) S4000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4000x128.size a ≤ S100000x128.size a
  hwx0_1 : ∀ i : grid0.Coords, EltTy.bits .f32 = 32 ∨ (Rect.block (s := S100000x128) S4000x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4000x128.size a ≤ S100000x128.size a
  hwx0_2 : ∀ i : grid0.Coords, EltTy.bits .f32 = 32 ∨ (Rect.block (s := S100000x128) S4000x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S4000x128.size a ≤ S100000x128.size a
  hwx0_3 : ∀ i : grid0.Coords, EltTy.bits .f32 = 32 ∨ (Rect.block (s := S100000x128) S4000x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S4000x1.size a ≤ S100000x1.size a
  hwx0_4 : ∀ i : grid0.Coords, EltTy.bits .f32 = 32 ∨ (Rect.block (s := S100000x1) S4000x1.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S3x128x128.size a ≤ S3x128x128.size a
  hwx0_5 : ∀ i : grid0.Coords, EltTy.bits .f32 = 32 ∨ (Rect.block (s := S3x128x128) S3x128x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S3x128.size a ≤ S3x128.size a
  hwx0_6 : ∀ i : grid0.Coords, EltTy.bits .f32 = 32 ∨ (Rect.block (s := S3x128) S3x128.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S3x128x128.size a ≤ S3x128x128.size a
  hwx0_7 : ∀ i : grid0.Coords, EltTy.bits .f32 = 32 ∨ (Rect.block (s := S3x128x128) S3x128x128.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S4000x128.size a ≤ S100000x128.size a
  hwx0_8 : ∀ i : grid0.Coords, EltTy.bits .f32 = 32 ∨ (Rect.block (s := S100000x128) S4000x128.size (cc0_transform_8 i) (hinb0_8 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4000x128.size a ≤ S100000x128.size a
  hwx1_0 : ∀ i : grid1.Coords, EltTy.bits .f32 = 32 ∨ (Rect.block (s := S100000x128) S4000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S4000x128.size a ≤ S100000x128.size a
  hwx1_1 : ∀ i : grid1.Coords, EltTy.bits .f32 = 32 ∨ (Rect.block (s := S100000x128) S4000x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S4000x128.size a ≤ S100000x128.size a
  hwx1_2 : ∀ i : grid1.Coords, EltTy.bits .f32 = 32 ∨ (Rect.block (s := S100000x128) S4000x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S4000x128.size a ≤ S100000x128.size a
  hwx1_3 : ∀ i : grid1.Coords, EltTy.bits .f32 = 32 ∨ (Rect.block (s := S100000x128) S4000x128.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S4000x1.size a ≤ S100000x1.size a
  hwx1_4 : ∀ i : grid1.Coords, EltTy.bits .f32 = 32 ∨ (Rect.block (s := S100000x1) S4000x1.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S3x128x128.size a ≤ S3x128x128.size a
  hwx1_5 : ∀ i : grid1.Coords, EltTy.bits .f32 = 32 ∨ (Rect.block (s := S3x128x128) S3x128x128.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S3x128.size a ≤ S3x128.size a
  hwx1_6 : ∀ i : grid1.Coords, EltTy.bits .f32 = 32 ∨ (Rect.block (s := S3x128) S3x128.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S3x128x128.size a ≤ S3x128x128.size a
  hwx1_7 : ∀ i : grid1.Coords, EltTy.bits .f32 = 32 ∨ (Rect.block (s := S3x128x128) S3x128x128.size (cc1_transform_7 i) (hinb1_7 i)).WholeWords (EltTy.packing .f32)
  hstage1_8 : ∀ j, (stage1_8 j).IsWhole
  nbuf1_8 : grid1.bufCount reads1_8 false = 2
  hreads1_8 : ∀ i i' : grid1.Coords, (∀ a, reads1_8 a = true → i a = i' a) → cc1_transform_8 i = cc1_transform_8 i'
  hinb1_8 : ∀ (i : grid1.Coords) a, (cc1_transform_8 i a + 1) * S4000x128.size a ≤ S100000x128.size a
  hwx1_8 : ∀ i : grid1.Coords, EltTy.bits .f32 = 32 ∨ (Rect.block (s := S100000x128) S4000x128.size (cc1_transform_8 i) (hinb1_8 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S4000x128.size a ≤ S100000x128.size a
  hwx2_0 : ∀ i : grid2.Coords, EltTy.bits .f32 = 32 ∨ (Rect.block (s := S100000x128) S4000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S4000x128.size a ≤ S100000x128.size a
  hwx2_1 : ∀ i : grid2.Coords, EltTy.bits .f32 = 32 ∨ (Rect.block (s := S100000x128) S4000x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S4000x128.size a ≤ S100000x128.size a
  hwx2_2 : ∀ i : grid2.Coords, EltTy.bits .f32 = 32 ∨ (Rect.block (s := S100000x128) S4000x128.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S4000x128.size a ≤ S100000x128.size a
  hwx2_3 : ∀ i : grid2.Coords, EltTy.bits .f32 = 32 ∨ (Rect.block (s := S100000x128) S4000x128.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S4000x1.size a ≤ S100000x1.size a
  hwx2_4 : ∀ i : grid2.Coords, EltTy.bits .f32 = 32 ∨ (Rect.block (s := S100000x1) S4000x1.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S3x128x128.size a ≤ S3x128x128.size a
  hwx2_5 : ∀ i : grid2.Coords, EltTy.bits .f32 = 32 ∨ (Rect.block (s := S3x128x128) S3x128x128.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S3x128.size a ≤ S3x128.size a
  hwx2_6 : ∀ i : grid2.Coords, EltTy.bits .f32 = 32 ∨ (Rect.block (s := S3x128) S3x128.size (cc2_transform_6 i) (hinb2_6 i)).WholeWords (EltTy.packing .f32)
  hstage2_7 : ∀ j, (stage2_7 j).IsWhole
  nbuf2_7 : grid2.bufCount reads2_7 true = 1
  hreads2_7 : ∀ i i' : grid2.Coords, (∀ a, reads2_7 a = true → i a = i' a) → cc2_transform_7 i = cc2_transform_7 i'
  hinb2_7 : ∀ (i : grid2.Coords) a, (cc2_transform_7 i a + 1) * S3x128x128.size a ≤ S3x128x128.size a
  hwx2_7 : ∀ i : grid2.Coords, EltTy.bits .f32 = 32 ∨ (Rect.block (s := S3x128x128) S3x128x128.size (cc2_transform_7 i) (hinb2_7 i)).WholeWords (EltTy.packing .f32)
  hstage2_8 : ∀ j, (stage2_8 j).IsWhole
  nbuf2_8 : grid2.bufCount reads2_8 false = 2
  hreads2_8 : ∀ i i' : grid2.Coords, (∀ a, reads2_8 a = true → i a = i' a) → cc2_transform_8 i = cc2_transform_8 i'
  hinb2_8 : ∀ (i : grid2.Coords) a, (cc2_transform_8 i a + 1) * S4000x128.size a ≤ S100000x128.size a
  hwx2_8 : ∀ i : grid2.Coords, EltTy.bits .f32 = 32 ∨ (Rect.block (s := S100000x128) S4000x128.size (cc2_transform_8 i) (hinb2_8 i)).WholeWords (EltTy.packing .f32)

variable [Facts₀]

def gather_S100000x128_S800000x1_S800000x128_1_0_n_n_0_1_1128 : GatherDims S100000x128 S800000x1 S800000x128 where
  offsetDims := [1]
  collapsedSliceDims := [0]
  operandBatchingDims := []
  startIndicesBatchingDims := []
  startIndexMap := [0]
  indexVectorDim := 1
  sliceSizes := ![1, 128]
  wf := gather_S100000x128_S800000x1_S800000x128_1_0_n_n_0_1_1128_wf
def scatter_S100000x128_S800000x1_S800000x128_1_0_0_1 : ScatterDims S100000x128 S800000x1 S800000x128 where
  updateWindowDims := [1]
  insertedWindowDims := [0]
  scatterDimsToOperandDims := [0]
  indexVectorDim := 1
  wf := scatter_S100000x128_S800000x1_S800000x128_1_0_0_1_wf
def scatter_S100000_S800000x1_S800000_n_0_0_1 : ScatterDims S100000 S800000x1 S800000 where
  updateWindowDims := []
  insertedWindowDims := [0]
  scatterDimsToOperandDims := [0]
  indexVectorDim := 1
  wf := scatter_S100000_S800000x1_S800000_n_0_0_1_wf
def dot_S4000x128_S128x128_S4000x128_1_0_0_1_n_n : DotDims S4000x128 S128x128 S4000x128 where
  lhsContracting := [1]
  rhsContracting := [0]
  lhsNonContracting := [0]
  rhsNonContracting := [1]
  lhsBatch := []
  rhsBatch := []
  wf := dot_S4000x128_S128x128_S4000x128_1_0_0_1_n_n_wf

abbrev win0_0 : Pipeline.Window sig grid0 :=
  Pipeline.Window.ofSpec (Memref.whole main_arg0) S4000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v33) S4000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v61) S4000x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v89) S4000x128.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v5) S4000x1.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v91) S3x128x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v93) S3x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v95) S3x128x128.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v96) S4000x128.size cc0_transform_8 reads0_8 true false 2 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

abbrev win1_0 : Pipeline.Window sig grid1 :=
  Pipeline.Window.ofSpec (Memref.whole main_v96) S4000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v128) S4000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v156) S4000x128.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v184) S4000x128.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v100) S4000x1.size cc1_transform_4 reads1_4 false false 2 stage1_4 sem1_4
    hrank1 hreads1_4 hinb1_4 nbuf1_4 (Memref.isWhole_whole _) hwx1_4 hstage1_4

abbrev win1_5 : Pipeline.Window sig grid1 :=
  Pipeline.Window.ofSpec (Memref.whole main_v186) S3x128x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v188) S3x128.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v190) S3x128x128.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_v191) S4000x128.size cc1_transform_8 reads1_8 true false 2 stage1_8 sem1_8
    hrank1 hreads1_8 hinb1_8 nbuf1_8 (Memref.isWhole_whole _) hwx1_8 hstage1_8

abbrev win1 : Fin 9 → Pipeline.Window sig grid1 := fun | 0 => win1_0 | 1 => win1_1 | 2 => win1_2 | 3 => win1_3 | 4 => win1_4 | 5 => win1_5 | 6 => win1_6 | 7 => win1_7 | 8 => win1_8 | ⟨_ + 9, h⟩ => absurd h (Nat.not_lt.2 (Nat.le_add_left _ _))
abbrev spec1 : Fin 9 → Pipeline.WinSpec sig grid1.rank := fun w => (win1 w).toWinSpec

abbrev win2_0 : Pipeline.Window sig grid2 :=
  Pipeline.Window.ofSpec (Memref.whole main_v191) S4000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v223) S4000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v251) S4000x128.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v279) S4000x128.size cc2_transform_3 reads2_3 false false 2 stage2_3 sem2_3
    hrank2 hreads2_3 hinb2_3 nbuf2_3 (Memref.isWhole_whole _) hwx2_3 hstage2_3

abbrev win2_4 : Pipeline.Window sig grid2 :=
  Pipeline.Window.ofSpec (Memref.whole main_v195) S4000x1.size cc2_transform_4 reads2_4 false false 2 stage2_4 sem2_4
    hrank2 hreads2_4 hinb2_4 nbuf2_4 (Memref.isWhole_whole _) hwx2_4 hstage2_4

abbrev win2_5 : Pipeline.Window sig grid2 :=
  Pipeline.Window.ofSpec (Memref.whole main_v281) S3x128x128.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v283) S3x128.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_v285) S3x128x128.size cc2_transform_7 reads2_7 false true 1 stage2_7 sem2_7
    hrank2 hreads2_7 hinb2_7 nbuf2_7 (Memref.isWhole_whole _) hwx2_7 hstage2_7

abbrev win2_8 : Pipeline.Window sig grid2 :=
  Pipeline.Window.ofSpec (Memref.whole main_v286) S4000x128.size cc2_transform_8 reads2_8 true false 2 stage2_8 sem2_8
    hrank2 hreads2_8 hinb2_8 nbuf2_8 (Memref.isWhole_whole _) hwx2_8 hstage2_8

abbrev win2 : Fin 9 → Pipeline.Window sig grid2 := fun | 0 => win2_0 | 1 => win2_1 | 2 => win2_2 | 3 => win2_3 | 4 => win2_4 | 5 => win2_5 | 6 => win2_6 | 7 => win2_7 | 8 => win2_8 | ⟨_ + 9, h⟩ => absurd h (Nat.not_lt.2 (Nat.le_add_left _ _))
abbrev spec2 : Fin 9 → Pipeline.WinSpec sig grid2.rank := fun w => (win2 w).toWinSpec

class Facts : Prop extends Facts₀ where

variable [Facts]
-- ==== ReferenceIdeal.lean ====
abbrev S100000x128 : Shape := ⟨2, ![100000, 128]⟩
abbrev S2x800000 : Shape := ⟨2, ![2, 800000]⟩
abbrev S100000 : Shape := ⟨1, ![100000]⟩
abbrev S800000 : Shape := ⟨1, ![800000]⟩
abbrev S3x3x128x128 : Shape := ⟨4, ![3, 3, 128, 128]⟩
abbrev S3x3x128 : Shape := ⟨3, ![3, 3, 128]⟩
abbrev S_ : Shape := ⟨0, ![]⟩
abbrev S1x800000 : Shape := ⟨2, ![1, 800000]⟩
abbrev S800000x1 : Shape := ⟨2, ![800000, 1]⟩
abbrev S800000x128 : Shape := ⟨2, ![800000, 128]⟩
abbrev S100000x1 : Shape := ⟨2, ![100000, 1]⟩
abbrev S1x1x128x128 : Shape := ⟨4, ![1, 1, 128, 128]⟩
abbrev S128x128 : Shape := ⟨2, ![128, 128]⟩
abbrev S1x1x128 : Shape := ⟨3, ![1, 1, 128]⟩
abbrev S128 : Shape := ⟨1, ![128]⟩
abbrev S1x128 : Shape := ⟨2, ![1, 128]⟩

abbrev nBuf : Space → Nat
  | .hbm => 494
  | .vmem => 0
  | .smem => 0
  | _ => 0

abbrev hbmTy0_0 (i : Nat) : BufTy := match i % 128 with
  | 0 => ⟨S100000x128, .f32⟩
  | 1 => ⟨S2x800000, .i32⟩
  | 2 => ⟨S2x800000, .i32⟩
  | 3 => ⟨S2x800000, .i32⟩
  | 4 => ⟨S100000, .i32⟩
  | 5 => ⟨S800000, .i32⟩
  | 6 => ⟨S800000, .i32⟩
  | 7 => ⟨S800000, .i32⟩
  | 8 => ⟨S3x3x128x128, .f32⟩
  | 9 => ⟨S3x3x128, .f32⟩
  | 10 => ⟨S3x3x128x128, .f32⟩
  | 11 => ⟨S_, .i32⟩
  | 12 => ⟨S100000, .i32⟩
  | 13 => ⟨S100000, .i1⟩
  | 14 => ⟨S_, .f32⟩
  | 15 => ⟨S100000x128, .f32⟩
  | 16 => ⟨S1x800000, .i32⟩
  | 17 => ⟨S800000, .i32⟩
  | 18 => ⟨S1x800000, .i32⟩
  | 19 => ⟨S800000, .i32⟩
  | 20 => ⟨S_, .i32⟩
  | 21 => ⟨S800000, .i32⟩
  | 22 => ⟨S800000, .i1⟩
  | 23 => ⟨S800000, .f32⟩
  | 24 => ⟨S_, .i32⟩
  | 25 => ⟨S800000, .i32⟩
  | 26 => ⟨S800000, .i1⟩
  | 27 => ⟨S_, .i32⟩
  | 28 => ⟨S800000, .i32⟩
  | 29 => ⟨S800000, .i32⟩
  | 30 => ⟨S800000, .i32⟩
  | 31 => ⟨S800000x1, .i32⟩
  | 32 => ⟨S800000x128, .f32⟩
  | 33 => ⟨S800000x1, .f32⟩
  | 34 => ⟨S800000x128, .f32⟩
  | 35 => ⟨S800000x128, .f32⟩
  | 36 => ⟨S_, .f32⟩
  | 37 => ⟨S100000x128, .f32⟩
  | 38 => ⟨S800000x1, .i32⟩
  | 39 => ⟨S100000x128, .f32⟩
  | 40 => ⟨S_, .f32⟩
  | 41 => ⟨S100000, .f32⟩
  | 42 => ⟨S800000x1, .i32⟩
  | 43 => ⟨S100000, .f32⟩
  | 44 => ⟨S_, .f32⟩
  | 45 => ⟨S100000, .f32⟩
  | 46 => ⟨S100000, .f32⟩
  | 47 => ⟨S100000x1, .f32⟩
  | 48 => ⟨S100000x128, .f32⟩
  | 49 => ⟨S100000x128, .f32⟩
  | 50 => ⟨S1x1x128x128, .f32⟩
  | 51 => ⟨S128x128, .f32⟩
  | 52 => ⟨S128x128, .f32⟩
  | 53 => ⟨S100000x128, .f32⟩
  | 54 => ⟨S100000x128, .f32⟩
  | 55 => ⟨S1x1x128, .f32⟩
  | 56 => ⟨S128, .f32⟩
  | 57 => ⟨S1x128, .f32⟩
  | 58 => ⟨S100000x128, .f32⟩
  | 59 => ⟨S100000x128, .f32⟩
  | 60 => ⟨S1x1x128x128, .f32⟩
  | 61 => ⟨S128x128, .f32⟩
  | 62 => ⟨S128x128, .f32⟩
  | 63 => ⟨S100000x128, .f32⟩
  | 64 => ⟨S100000x128, .f32⟩
  | 65 => ⟨S1x800000, .i32⟩
  | 66 => ⟨S800000, .i32⟩
  | 67 => ⟨S1x800000, .i32⟩
  | 68 => ⟨S800000, .i32⟩
  | 69 => ⟨S_, .i32⟩
  | 70 => ⟨S800000, .i32⟩
  | 71 => ⟨S800000, .i1⟩
  | 72 => ⟨S800000, .f32⟩
  | 73 => ⟨S_, .i32⟩
  | 74 => ⟨S800000, .i32⟩
  | 75 => ⟨S800000, .i1⟩
  | 76 => ⟨S_, .i32⟩
  | 77 => ⟨S800000, .i32⟩
  | 78 => ⟨S800000, .i32⟩
  | 79 => ⟨S800000, .i32⟩
  | 80 => ⟨S800000x1, .i32⟩
  | 81 => ⟨S800000x128, .f32⟩
  | 82 => ⟨S800000x1, .f32⟩
  | 83 => ⟨S800000x128, .f32⟩
  | 84 => ⟨S800000x128, .f32⟩
  | 85 => ⟨S_, .f32⟩
  | 86 => ⟨S100000x128, .f32⟩
  | 87 => ⟨S800000x1, .i32⟩
  | 88 => ⟨S100000x128, .f32⟩
  | 89 => ⟨S_, .f32⟩
  | 90 => ⟨S100000, .f32⟩
  | 91 => ⟨S800000x1, .i32⟩
  | 92 => ⟨S100000, .f32⟩
  | 93 => ⟨S_, .f32⟩
  | 94 => ⟨S100000, .f32⟩
  | 95 => ⟨S100000, .f32⟩
  | 96 => ⟨S100000x1, .f32⟩
  | 97 => ⟨S100000x128, .f32⟩
  | 98 => ⟨S100000x128, .f32⟩
  | 99 => ⟨S1x1x128x128, .f32⟩
  | 100 => ⟨S128x128, .f32⟩
  | 101 => ⟨S128x128, .f32⟩
  | 102 => ⟨S100000x128, .f32⟩
  | 103 => ⟨S100000x128, .f32⟩
  | 104 => ⟨S1x1x128, .f32⟩
  | 105 => ⟨S128, .f32⟩
  | 106 => ⟨S1x128, .f32⟩
  | 107 => ⟨S100000x128, .f32⟩
  | 108 => ⟨S100000x128, .f32⟩
  | 109 => ⟨S1x1x128x128, .f32⟩
  | 110 => ⟨S128x128, .f32⟩
  | 111 => ⟨S128x128, .f32⟩
  | 112 => ⟨S100000x128, .f32⟩
  | 113 => ⟨S100000x128, .f32⟩
  | 114 => ⟨S1x800000, .i32⟩
  | 115 => ⟨S800000, .i32⟩
  | 116 => ⟨S1x800000, .i32⟩
  | 117 => ⟨S800000, .i32⟩
  | 118 => ⟨S_, .i32⟩
  | 119 => ⟨S800000, .i32⟩
  | 120 => ⟨S800000, .i1⟩
  | 121 => ⟨S800000, .f32⟩
  | 122 => ⟨S_, .i32⟩
  | 123 => ⟨S800000, .i32⟩
  | 124 => ⟨S800000, .i1⟩
  | 125 => ⟨S_, .i32⟩
  | 126 => ⟨S800000, .i32⟩
  | 127 => ⟨S800000, .i32⟩
  | _ => ⟨S100000x128, .f32⟩

abbrev hbmTy0_1 (i : Nat) : BufTy := match i % 128 with
  | 0 => ⟨S800000, .i32⟩
  | 1 => ⟨S800000x1, .i32⟩
  | 2 => ⟨S800000x128, .f32⟩
  | 3 => ⟨S800000x1, .f32⟩
  | 4 => ⟨S800000x128, .f32⟩
  | 5 => ⟨S800000x128, .f32⟩
  | 6 => ⟨S_, .f32⟩
  | 7 => ⟨S100000x128, .f32⟩
  | 8 => ⟨S800000x1, .i32⟩
  | 9 => ⟨S100000x128, .f32⟩
  | 10 => ⟨S_, .f32⟩
  | 11 => ⟨S100000, .f32⟩
  | 12 => ⟨S800000x1, .i32⟩
  | 13 => ⟨S100000, .f32⟩
  | 14 => ⟨S_, .f32⟩
  | 15 => ⟨S100000, .f32⟩
  | 16 => ⟨S100000, .f32⟩
  | 17 => ⟨S100000x1, .f32⟩
  | 18 => ⟨S100000x128, .f32⟩
  | 19 => ⟨S100000x128, .f32⟩
  | 20 => ⟨S1x1x128x128, .f32⟩
  | 21 => ⟨S128x128, .f32⟩
  | 22 => ⟨S128x128, .f32⟩
  | 23 => ⟨S100000x128, .f32⟩
  | 24 => ⟨S100000x128, .f32⟩
  | 25 => ⟨S1x1x128, .f32⟩
  | 26 => ⟨S128, .f32⟩
  | 27 => ⟨S1x128, .f32⟩
  | 28 => ⟨S100000x128, .f32⟩
  | 29 => ⟨S100000x128, .f32⟩
  | 30 => ⟨S1x1x128x128, .f32⟩
  | 31 => ⟨S128x128, .f32⟩
  | 32 => ⟨S128x128, .f32⟩
  | 33 => ⟨S100000x128, .f32⟩
  | 34 => ⟨S100000x128, .f32⟩
  | 35 => ⟨S100000x1, .i1⟩
  | 36 => ⟨S_, .f32⟩
  | 37 => ⟨S100000x128, .f32⟩
  | 38 => ⟨S100000x128, .f32⟩
  | 39 => ⟨S_, .f32⟩
  | 40 => ⟨S_, .f32⟩
  | 41 => ⟨S100000x128, .i1⟩
  | 42 => ⟨S100000x128, .f32⟩
  | 43 => ⟨S100000x128, .f32⟩
  | 44 => ⟨S_, .i32⟩
  | 45 => ⟨S100000, .i32⟩
  | 46 => ⟨S100000, .i1⟩
  | 47 => ⟨S_, .f32⟩
  | 48 => ⟨S100000x128, .f32⟩
  | 49 => ⟨S1x800000, .i32⟩
  | 50 => ⟨S800000, .i32⟩
  | 51 => ⟨S1x800000, .i32⟩
  | 52 => ⟨S800000, .i32⟩
  | 53 => ⟨S_, .i32⟩
  | 54 => ⟨S800000, .i32⟩
  | 55 => ⟨S800000, .i1⟩
  | 56 => ⟨S800000, .f32⟩
  | 57 => ⟨S_, .i32⟩
  | 58 => ⟨S800000, .i32⟩
  | 59 => ⟨S800000, .i1⟩
  | 60 => ⟨S_, .i32⟩
  | 61 => ⟨S800000, .i32⟩
  | 62 => ⟨S800000, .i32⟩
  | 63 => ⟨S800000, .i32⟩
  | 64 => ⟨S800000x1, .i32⟩
  | 65 => ⟨S800000x128, .f32⟩
  | 66 => ⟨S800000x1, .f32⟩
  | 67 => ⟨S800000x128, .f32⟩
  | 68 => ⟨S800000x128, .f32⟩
  | 69 => ⟨S_, .f32⟩
  | 70 => ⟨S100000x128, .f32⟩
  | 71 => ⟨S800000x1, .i32⟩
  | 72 => ⟨S100000x128, .f32⟩
  | 73 => ⟨S_, .f32⟩
  | 74 => ⟨S100000, .f32⟩
  | 75 => ⟨S800000x1, .i32⟩
  | 76 => ⟨S100000, .f32⟩
  | 77 => ⟨S_, .f32⟩
  | 78 => ⟨S100000, .f32⟩
  | 79 => ⟨S100000, .f32⟩
  | 80 => ⟨S100000x1, .f32⟩
  | 81 => ⟨S100000x128, .f32⟩
  | 82 => ⟨S100000x128, .f32⟩
  | 83 => ⟨S1x1x128x128, .f32⟩
  | 84 => ⟨S128x128, .f32⟩
  | 85 => ⟨S128x128, .f32⟩
  | 86 => ⟨S100000x128, .f32⟩
  | 87 => ⟨S100000x128, .f32⟩
  | 88 => ⟨S1x1x128, .f32⟩
  | 89 => ⟨S128, .f32⟩
  | 90 => ⟨S1x128, .f32⟩
  | 91 => ⟨S100000x128, .f32⟩
  | 92 => ⟨S100000x128, .f32⟩
  | 93 => ⟨S1x1x128x128, .f32⟩
  | 94 => ⟨S128x128, .f32⟩
  | 95 => ⟨S128x128, .f32⟩
  | 96 => ⟨S100000x128, .f32⟩
  | 97 => ⟨S100000x128, .f32⟩
  | 98 => ⟨S1x800000, .i32⟩
  | 99 => ⟨S800000, .i32⟩
  | 100 => ⟨S1x800000, .i32⟩
  | 101 => ⟨S800000, .i32⟩
  | 102 => ⟨S_, .i32⟩
  | 103 => ⟨S800000, .i32⟩
  | 104 => ⟨S800000, .i1⟩
  | 105 => ⟨S800000, .f32⟩
  | 106 => ⟨S_, .i32⟩
  | 107 => ⟨S800000, .i32⟩
  | 108 => ⟨S800000, .i1⟩
  | 109 => ⟨S_, .i32⟩
  | 110 => ⟨S800000, .i32⟩
  | 111 => ⟨S800000, .i32⟩
  | 112 => ⟨S800000, .i32⟩
  | 113 => ⟨S800000x1, .i32⟩
  | 114 => ⟨S800000x128, .f32⟩
  | 115 => ⟨S800000x1, .f32⟩
  | 116 => ⟨S800000x128, .f32⟩
  | 117 => ⟨S800000x128, .f32⟩
  | 118 => ⟨S_, .f32⟩
  | 119 => ⟨S100000x128, .f32⟩
  | 120 => ⟨S800000x1, .i32⟩
  | 121 => ⟨S100000x128, .f32⟩
  | 122 => ⟨S_, .f32⟩
  | 123 => ⟨S100000, .f32⟩
  | 124 => ⟨S800000x1, .i32⟩
  | 125 => ⟨S100000, .f32⟩
  | 126 => ⟨S_, .f32⟩
  | 127 => ⟨S100000, .f32⟩
  | _ => ⟨S100000x128, .f32⟩

abbrev hbmTy0_2 (i : Nat) : BufTy := match i % 128 with
  | 0 => ⟨S100000, .f32⟩
  | 1 => ⟨S100000x1, .f32⟩
  | 2 => ⟨S100000x128, .f32⟩
  | 3 => ⟨S100000x128, .f32⟩
  | 4 => ⟨S1x1x128x128, .f32⟩
  | 5 => ⟨S128x128, .f32⟩
  | 6 => ⟨S128x128, .f32⟩
  | 7 => ⟨S100000x128, .f32⟩
  | 8 => ⟨S100000x128, .f32⟩
  | 9 => ⟨S1x1x128, .f32⟩
  | 10 => ⟨S128, .f32⟩
  | 11 => ⟨S1x128, .f32⟩
  | 12 => ⟨S100000x128, .f32⟩
  | 13 => ⟨S100000x128, .f32⟩
  | 14 => ⟨S1x1x128x128, .f32⟩
  | 15 => ⟨S128x128, .f32⟩
  | 16 => ⟨S128x128, .f32⟩
  | 17 => ⟨S100000x128, .f32⟩
  | 18 => ⟨S100000x128, .f32⟩
  | 19 => ⟨S1x800000, .i32⟩
  | 20 => ⟨S800000, .i32⟩
  | 21 => ⟨S1x800000, .i32⟩
  | 22 => ⟨S800000, .i32⟩
  | 23 => ⟨S_, .i32⟩
  | 24 => ⟨S800000, .i32⟩
  | 25 => ⟨S800000, .i1⟩
  | 26 => ⟨S800000, .f32⟩
  | 27 => ⟨S_, .i32⟩
  | 28 => ⟨S800000, .i32⟩
  | 29 => ⟨S800000, .i1⟩
  | 30 => ⟨S_, .i32⟩
  | 31 => ⟨S800000, .i32⟩
  | 32 => ⟨S800000, .i32⟩
  | 33 => ⟨S800000, .i32⟩
  | 34 => ⟨S800000x1, .i32⟩
  | 35 => ⟨S800000x128, .f32⟩
  | 36 => ⟨S800000x1, .f32⟩
  | 37 => ⟨S800000x128, .f32⟩
  | 38 => ⟨S800000x128, .f32⟩
  | 39 => ⟨S_, .f32⟩
  | 40 => ⟨S100000x128, .f32⟩
  | 41 => ⟨S800000x1, .i32⟩
  | 42 => ⟨S100000x128, .f32⟩
  | 43 => ⟨S_, .f32⟩
  | 44 => ⟨S100000, .f32⟩
  | 45 => ⟨S800000x1, .i32⟩
  | 46 => ⟨S100000, .f32⟩
  | 47 => ⟨S_, .f32⟩
  | 48 => ⟨S100000, .f32⟩
  | 49 => ⟨S100000, .f32⟩
  | 50 => ⟨S100000x1, .f32⟩
  | 51 => ⟨S100000x128, .f32⟩
  | 52 => ⟨S100000x128, .f32⟩
  | 53 => ⟨S1x1x128x128, .f32⟩
  | 54 => ⟨S128x128, .f32⟩
  | 55 => ⟨S128x128, .f32⟩
  | 56 => ⟨S100000x128, .f32⟩
  | 57 => ⟨S100000x128, .f32⟩
  | 58 => ⟨S1x1x128, .f32⟩
  | 59 => ⟨S128, .f32⟩
  | 60 => ⟨S1x128, .f32⟩
  | 61 => ⟨S100000x128, .f32⟩
  | 62 => ⟨S100000x128, .f32⟩
  | 63 => ⟨S1x1x128x128, .f32⟩
  | 64 => ⟨S128x128, .f32⟩
  | 65 => ⟨S128x128, .f32⟩
  | 66 => ⟨S100000x128, .f32⟩
  | 67 => ⟨S100000x128, .f32⟩
  | 68 => ⟨S100000x1, .i1⟩
  | 69 => ⟨S_, .f32⟩
  | 70 => ⟨S100000x128, .f32⟩
  | 71 => ⟨S100000x128, .f32⟩
  | 72 => ⟨S_, .f32⟩
  | 73 => ⟨S_, .f32⟩
  | 74 => ⟨S100000x128, .i1⟩
  | 75 => ⟨S100000x128, .f32⟩
  | 76 => ⟨S100000x128, .f32⟩
  | 77 => ⟨S_, .i32⟩
  | 78 => ⟨S100000, .i32⟩
  | 79 => ⟨S100000, .i1⟩
  | 80 => ⟨S_, .f32⟩
  | 81 => ⟨S100000x128, .f32⟩
  | 82 => ⟨S1x800000, .i32⟩
  | 83 => ⟨S800000, .i32⟩
  | 84 => ⟨S1x800000, .i32⟩
  | 85 => ⟨S800000, .i32⟩
  | 86 => ⟨S_, .i32⟩
  | 87 => ⟨S800000, .i32⟩
  | 88 => ⟨S800000, .i1⟩
  | 89 => ⟨S800000, .f32⟩
  | 90 => ⟨S_, .i32⟩
  | 91 => ⟨S800000, .i32⟩
  | 92 => ⟨S800000, .i1⟩
  | 93 => ⟨S_, .i32⟩
  | 94 => ⟨S800000, .i32⟩
  | 95 => ⟨S800000, .i32⟩
  | 96 => ⟨S800000, .i32⟩
  | 97 => ⟨S800000x1, .i32⟩
  | 98 => ⟨S800000x128, .f32⟩
  | 99 => ⟨S800000x1, .f32⟩
  | 100 => ⟨S800000x128, .f32⟩
  | 101 => ⟨S800000x128, .f32⟩
  | 102 => ⟨S_, .f32⟩
  | 103 => ⟨S100000x128, .f32⟩
  | 104 => ⟨S800000x1, .i32⟩
  | 105 => ⟨S100000x128, .f32⟩
  | 106 => ⟨S_, .f32⟩
  | 107 => ⟨S100000, .f32⟩
  | 108 => ⟨S800000x1, .i32⟩
  | 109 => ⟨S100000, .f32⟩
  | 110 => ⟨S_, .f32⟩
  | 111 => ⟨S100000, .f32⟩
  | 112 => ⟨S100000, .f32⟩
  | 113 => ⟨S100000x1, .f32⟩
  | 114 => ⟨S100000x128, .f32⟩
  | 115 => ⟨S100000x128, .f32⟩
  | 116 => ⟨S1x1x128x128, .f32⟩
  | 117 => ⟨S128x128, .f32⟩
  | 118 => ⟨S128x128, .f32⟩
  | 119 => ⟨S100000x128, .f32⟩
  | 120 => ⟨S100000x128, .f32⟩
  | 121 => ⟨S1x1x128, .f32⟩
  | 122 => ⟨S128, .f32⟩
  | 123 => ⟨S1x128, .f32⟩
  | 124 => ⟨S100000x128, .f32⟩
  | 125 => ⟨S100000x128, .f32⟩
  | 126 => ⟨S1x1x128x128, .f32⟩
  | 127 => ⟨S128x128, .f32⟩
  | _ => ⟨S100000x128, .f32⟩

abbrev hbmTy0_3 (i : Nat) : BufTy := match i % 128 with
  | 0 => ⟨S128x128, .f32⟩
  | 1 => ⟨S100000x128, .f32⟩
  | 2 => ⟨S100000x128, .f32⟩
  | 3 => ⟨S1x800000, .i32⟩
  | 4 => ⟨S800000, .i32⟩
  | 5 => ⟨S1x800000, .i32⟩
  | 6 => ⟨S800000, .i32⟩
  | 7 => ⟨S_, .i32⟩
  | 8 => ⟨S800000, .i32⟩
  | 9 => ⟨S800000, .i1⟩
  | 10 => ⟨S800000, .f32⟩
  | 11 => ⟨S_, .i32⟩
  | 12 => ⟨S800000, .i32⟩
  | 13 => ⟨S800000, .i1⟩
  | 14 => ⟨S_, .i32⟩
  | 15 => ⟨S800000, .i32⟩
  | 16 => ⟨S800000, .i32⟩
  | 17 => ⟨S800000, .i32⟩
  | 18 => ⟨S800000x1, .i32⟩
  | 19 => ⟨S800000x128, .f32⟩
  | 20 => ⟨S800000x1, .f32⟩
  | 21 => ⟨S800000x128, .f32⟩
  | 22 => ⟨S800000x128, .f32⟩
  | 23 => ⟨S_, .f32⟩
  | 24 => ⟨S100000x128, .f32⟩
  | 25 => ⟨S800000x1, .i32⟩
  | 26 => ⟨S100000x128, .f32⟩
  | 27 => ⟨S_, .f32⟩
  | 28 => ⟨S100000, .f32⟩
  | 29 => ⟨S800000x1, .i32⟩
  | 30 => ⟨S100000, .f32⟩
  | 31 => ⟨S_, .f32⟩
  | 32 => ⟨S100000, .f32⟩
  | 33 => ⟨S100000, .f32⟩
  | 34 => ⟨S100000x1, .f32⟩
  | 35 => ⟨S100000x128, .f32⟩
  | 36 => ⟨S100000x128, .f32⟩
  | 37 => ⟨S1x1x128x128, .f32⟩
  | 38 => ⟨S128x128, .f32⟩
  | 39 => ⟨S128x128, .f32⟩
  | 40 => ⟨S100000x128, .f32⟩
  | 41 => ⟨S100000x128, .f32⟩
  | 42 => ⟨S1x1x128, .f32⟩
  | 43 => ⟨S128, .f32⟩
  | 44 => ⟨S1x128, .f32⟩
  | 45 => ⟨S100000x128, .f32⟩
  | 46 => ⟨S100000x128, .f32⟩
  | 47 => ⟨S1x1x128x128, .f32⟩
  | 48 => ⟨S128x128, .f32⟩
  | 49 => ⟨S128x128, .f32⟩
  | 50 => ⟨S100000x128, .f32⟩
  | 51 => ⟨S100000x128, .f32⟩
  | 52 => ⟨S1x800000, .i32⟩
  | 53 => ⟨S800000, .i32⟩
  | 54 => ⟨S1x800000, .i32⟩
  | 55 => ⟨S800000, .i32⟩
  | 56 => ⟨S_, .i32⟩
  | 57 => ⟨S800000, .i32⟩
  | 58 => ⟨S800000, .i1⟩
  | 59 => ⟨S800000, .f32⟩
  | 60 => ⟨S_, .i32⟩
  | 61 => ⟨S800000, .i32⟩
  | 62 => ⟨S800000, .i1⟩
  | 63 => ⟨S_, .i32⟩
  | 64 => ⟨S800000, .i32⟩
  | 65 => ⟨S800000, .i32⟩
  | 66 => ⟨S800000, .i32⟩
  | 67 => ⟨S800000x1, .i32⟩
  | 68 => ⟨S800000x128, .f32⟩
  | 69 => ⟨S800000x1, .f32⟩
  | 70 => ⟨S800000x128, .f32⟩
  | 71 => ⟨S800000x128, .f32⟩
  | 72 => ⟨S_, .f32⟩
  | 73 => ⟨S100000x128, .f32⟩
  | 74 => ⟨S800000x1, .i32⟩
  | 75 => ⟨S100000x128, .f32⟩
  | 76 => ⟨S_, .f32⟩
  | 77 => ⟨S100000, .f32⟩
  | 78 => ⟨S800000x1, .i32⟩
  | 79 => ⟨S100000, .f32⟩
  | 80 => ⟨S_, .f32⟩
  | 81 => ⟨S100000, .f32⟩
  | 82 => ⟨S100000, .f32⟩
  | 83 => ⟨S100000x1, .f32⟩
  | 84 => ⟨S100000x128, .f32⟩
  | 85 => ⟨S100000x128, .f32⟩
  | 86 => ⟨S1x1x128x128, .f32⟩
  | 87 => ⟨S128x128, .f32⟩
  | 88 => ⟨S128x128, .f32⟩
  | 89 => ⟨S100000x128, .f32⟩
  | 90 => ⟨S100000x128, .f32⟩
  | 91 => ⟨S1x1x128, .f32⟩
  | 92 => ⟨S128, .f32⟩
  | 93 => ⟨S1x128, .f32⟩
  | 94 => ⟨S100000x128, .f32⟩
  | 95 => ⟨S100000x128, .f32⟩
  | 96 => ⟨S1x1x128x128, .f32⟩
  | 97 => ⟨S128x128, .f32⟩
  | 98 => ⟨S128x128, .f32⟩
  | 99 => ⟨S100000x128, .f32⟩
  | 100 => ⟨S100000x128, .f32⟩
  | 101 => ⟨S100000x1, .i1⟩
  | 102 => ⟨S_, .f32⟩
  | 103 => ⟨S100000x128, .f32⟩
  | 104 => ⟨S100000x128, .f32⟩
  | 105 => ⟨S_, .f32⟩
  | 106 => ⟨S_, .f32⟩
  | 107 => ⟨S100000x128, .i1⟩
  | 108 => ⟨S100000x128, .f32⟩
  | 109 => ⟨S100000x128, .f32⟩
  | _ => ⟨S100000x128, .f32⟩

abbrev hbmTy (i : Nat) : BufTy := match i / 128 with
  | 0 => hbmTy0_0 i
  | 1 => hbmTy0_1 i
  | 2 => hbmTy0_2 i
  | 3 => hbmTy0_3 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_c : Ref sig .tc := ⟨.hbm, 11, rfl⟩
abbrev main_v0 : Ref sig .tc := ⟨.hbm, 12, rfl⟩
abbrev main_v1 : Ref sig .tc := ⟨.hbm, 13, rfl⟩
abbrev main_cst : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_c_0 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_c_1 : Ref sig .tc := ⟨.hbm, 24, rfl⟩
abbrev main_v10 : Ref sig .tc := ⟨.hbm, 25, rfl⟩
abbrev main_v11 : Ref sig .tc := ⟨.hbm, 26, rfl⟩
abbrev main_c_2 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_cst_3 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_cst_4 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_cst_5 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_c_6 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_c_7 : Ref sig .tc := ⟨.hbm, 73, rfl⟩
abbrev main_v53 : Ref sig .tc := ⟨.hbm, 74, rfl⟩
abbrev main_v54 : Ref sig .tc := ⟨.hbm, 75, rfl⟩
abbrev main_c_8 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_cst_9 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_cst_10 : Ref sig .tc := ⟨.hbm, 89, rfl⟩
abbrev main_v66 : Ref sig .tc := ⟨.hbm, 90, rfl⟩
abbrev main_v67 : Ref sig .tc := ⟨.hbm, 91, rfl⟩
abbrev main_v68 : Ref sig .tc := ⟨.hbm, 92, rfl⟩
abbrev main_cst_11 : Ref sig .tc := ⟨.hbm, 93, rfl⟩
abbrev main_v69 : Ref sig .tc := ⟨.hbm, 94, rfl⟩
abbrev main_v70 : Ref sig .tc := ⟨.hbm, 95, rfl⟩
abbrev main_v71 : Ref sig .tc := ⟨.hbm, 96, rfl⟩
abbrev main_v72 : Ref sig .tc := ⟨.hbm, 97, rfl⟩
abbrev main_v73 : Ref sig .tc := ⟨.hbm, 98, rfl⟩
abbrev main_v74 : Ref sig .tc := ⟨.hbm, 99, rfl⟩
abbrev main_v75 : Ref sig .tc := ⟨.hbm, 100, rfl⟩
abbrev main_v76 : Ref sig .tc := ⟨.hbm, 101, rfl⟩
abbrev main_v77 : Ref sig .tc := ⟨.hbm, 102, rfl⟩
abbrev main_v78 : Ref sig .tc := ⟨.hbm, 103, rfl⟩
abbrev main_v79 : Ref sig .tc := ⟨.hbm, 104, rfl⟩
abbrev main_v80 : Ref sig .tc := ⟨.hbm, 105, rfl⟩
abbrev main_v81 : Ref sig .tc := ⟨.hbm, 106, rfl⟩
abbrev main_v82 : Ref sig .tc := ⟨.hbm, 107, rfl⟩
abbrev main_v83 : Ref sig .tc := ⟨.hbm, 108, rfl⟩
abbrev main_v84 : Ref sig .tc := ⟨.hbm, 109, rfl⟩
abbrev main_v85 : Ref sig .tc := ⟨.hbm, 110, rfl⟩
abbrev main_v86 : Ref sig .tc := ⟨.hbm, 111, rfl⟩
abbrev main_v87 : Ref sig .tc := ⟨.hbm, 112, rfl⟩
abbrev main_v88 : Ref sig .tc := ⟨.hbm, 113, rfl⟩
abbrev main_v89 : Ref sig .tc := ⟨.hbm, 114, rfl⟩
abbrev main_v90 : Ref sig .tc := ⟨.hbm, 115, rfl⟩
abbrev main_v91 : Ref sig .tc := ⟨.hbm, 116, rfl⟩
abbrev main_v92 : Ref sig .tc := ⟨.hbm, 117, rfl⟩
abbrev main_c_12 : Ref sig .tc := ⟨.hbm, 118, rfl⟩
abbrev main_v93 : Ref sig .tc := ⟨.hbm, 119, rfl⟩
abbrev main_v94 : Ref sig .tc := ⟨.hbm, 120, rfl⟩
abbrev main_v95 : Ref sig .tc := ⟨.hbm, 121, rfl⟩
abbrev main_c_13 : Ref sig .tc := ⟨.hbm, 122, rfl⟩
abbrev main_v96 : Ref sig .tc := ⟨.hbm, 123, rfl⟩
abbrev main_v97 : Ref sig .tc := ⟨.hbm, 124, rfl⟩
abbrev main_c_14 : Ref sig .tc := ⟨.hbm, 125, rfl⟩
abbrev main_v98 : Ref sig .tc := ⟨.hbm, 126, rfl⟩
abbrev main_v99 : Ref sig .tc := ⟨.hbm, 127, rfl⟩
abbrev main_v100 : Ref sig .tc := ⟨.hbm, 128, rfl⟩
abbrev main_v101 : Ref sig .tc := ⟨.hbm, 129, rfl⟩
abbrev main_v102 : Ref sig .tc := ⟨.hbm, 130, rfl⟩
abbrev main_v103 : Ref sig .tc := ⟨.hbm, 131, rfl⟩
abbrev main_v104 : Ref sig .tc := ⟨.hbm, 132, rfl⟩
abbrev main_v105 : Ref sig .tc := ⟨.hbm, 133, rfl⟩
abbrev main_cst_15 : Ref sig .tc := ⟨.hbm, 134, rfl⟩
abbrev main_v106 : Ref sig .tc := ⟨.hbm, 135, rfl⟩
abbrev main_v107 : Ref sig .tc := ⟨.hbm, 136, rfl⟩
abbrev main_v108 : Ref sig .tc := ⟨.hbm, 137, rfl⟩
abbrev main_cst_16 : Ref sig .tc := ⟨.hbm, 138, rfl⟩
abbrev main_v109 : Ref sig .tc := ⟨.hbm, 139, rfl⟩
abbrev main_v110 : Ref sig .tc := ⟨.hbm, 140, rfl⟩
abbrev main_v111 : Ref sig .tc := ⟨.hbm, 141, rfl⟩
abbrev main_cst_17 : Ref sig .tc := ⟨.hbm, 142, rfl⟩
abbrev main_v112 : Ref sig .tc := ⟨.hbm, 143, rfl⟩
abbrev main_v113 : Ref sig .tc := ⟨.hbm, 144, rfl⟩
abbrev main_v114 : Ref sig .tc := ⟨.hbm, 145, rfl⟩
abbrev main_v115 : Ref sig .tc := ⟨.hbm, 146, rfl⟩
abbrev main_v116 : Ref sig .tc := ⟨.hbm, 147, rfl⟩
abbrev main_v117 : Ref sig .tc := ⟨.hbm, 148, rfl⟩
abbrev main_v118 : Ref sig .tc := ⟨.hbm, 149, rfl⟩
abbrev main_v119 : Ref sig .tc := ⟨.hbm, 150, rfl⟩
abbrev main_v120 : Ref sig .tc := ⟨.hbm, 151, rfl⟩
abbrev main_v121 : Ref sig .tc := ⟨.hbm, 152, rfl⟩
abbrev main_v122 : Ref sig .tc := ⟨.hbm, 153, rfl⟩
abbrev main_v123 : Ref sig .tc := ⟨.hbm, 154, rfl⟩
abbrev main_v124 : Ref sig .tc := ⟨.hbm, 155, rfl⟩
abbrev main_v125 : Ref sig .tc := ⟨.hbm, 156, rfl⟩
abbrev main_v126 : Ref sig .tc := ⟨.hbm, 157, rfl⟩
abbrev main_v127 : Ref sig .tc := ⟨.hbm, 158, rfl⟩
abbrev main_v128 : Ref sig .tc := ⟨.hbm, 159, rfl⟩
abbrev main_v129 : Ref sig .tc := ⟨.hbm, 160, rfl⟩
abbrev main_v130 : Ref sig .tc := ⟨.hbm, 161, rfl⟩
abbrev main_v131 : Ref sig .tc := ⟨.hbm, 162, rfl⟩
abbrev main_v132 : Ref sig .tc := ⟨.hbm, 163, rfl⟩
abbrev main_call0_cst : Ref sig .tc := ⟨.hbm, 164, rfl⟩
abbrev main_call0_v0 : Ref sig .tc := ⟨.hbm, 165, rfl⟩
abbrev main_v133 : Ref sig .tc := ⟨.hbm, 166, rfl⟩
abbrev main_cst_18 : Ref sig .tc := ⟨.hbm, 167, rfl⟩
abbrev main_call1_v0 : Ref sig .tc := ⟨.hbm, 168, rfl⟩
abbrev main_call1_v1 : Ref sig .tc := ⟨.hbm, 169, rfl⟩
abbrev main_call1_v2 : Ref sig .tc := ⟨.hbm, 170, rfl⟩
abbrev main_v134 : Ref sig .tc := ⟨.hbm, 171, rfl⟩
abbrev main_c_19 : Ref sig .tc := ⟨.hbm, 172, rfl⟩
abbrev main_v135 : Ref sig .tc := ⟨.hbm, 173, rfl⟩
abbrev main_v136 : Ref sig .tc := ⟨.hbm, 174, rfl⟩
abbrev main_cst_20 : Ref sig .tc := ⟨.hbm, 175, rfl⟩
abbrev main_v137 : Ref sig .tc := ⟨.hbm, 176, rfl⟩
abbrev main_v138 : Ref sig .tc := ⟨.hbm, 177, rfl⟩
abbrev main_v139 : Ref sig .tc := ⟨.hbm, 178, rfl⟩
abbrev main_v140 : Ref sig .tc := ⟨.hbm, 179, rfl⟩
abbrev main_v141 : Ref sig .tc := ⟨.hbm, 180, rfl⟩
abbrev main_c_21 : Ref sig .tc := ⟨.hbm, 181, rfl⟩
abbrev main_v142 : Ref sig .tc := ⟨.hbm, 182, rfl⟩
abbrev main_v143 : Ref sig .tc := ⟨.hbm, 183, rfl⟩
abbrev main_v144 : Ref sig .tc := ⟨.hbm, 184, rfl⟩
abbrev main_c_22 : Ref sig .tc := ⟨.hbm, 185, rfl⟩
abbrev main_v145 : Ref sig .tc := ⟨.hbm, 186, rfl⟩
abbrev main_v146 : Ref sig .tc := ⟨.hbm, 187, rfl⟩
abbrev main_c_23 : Ref sig .tc := ⟨.hbm, 188, rfl⟩
abbrev main_v147 : Ref sig .tc := ⟨.hbm, 189, rfl⟩
abbrev main_v148 : Ref sig .tc := ⟨.hbm, 190, rfl⟩
abbrev main_v149 : Ref sig .tc := ⟨.hbm, 191, rfl⟩
abbrev main_v150 : Ref sig .tc := ⟨.hbm, 192, rfl⟩
abbrev main_v151 : Ref sig .tc := ⟨.hbm, 193, rfl⟩
abbrev main_v152 : Ref sig .tc := ⟨.hbm, 194, rfl⟩
abbrev main_v153 : Ref sig .tc := ⟨.hbm, 195, rfl⟩
abbrev main_v154 : Ref sig .tc := ⟨.hbm, 196, rfl⟩
abbrev main_cst_24 : Ref sig .tc := ⟨.hbm, 197, rfl⟩
abbrev main_v155 : Ref sig .tc := ⟨.hbm, 198, rfl⟩
abbrev main_v156 : Ref sig .tc := ⟨.hbm, 199, rfl⟩
abbrev main_v157 : Ref sig .tc := ⟨.hbm, 200, rfl⟩
abbrev main_cst_25 : Ref sig .tc := ⟨.hbm, 201, rfl⟩
abbrev main_v158 : Ref sig .tc := ⟨.hbm, 202, rfl⟩
abbrev main_v159 : Ref sig .tc := ⟨.hbm, 203, rfl⟩
abbrev main_v160 : Ref sig .tc := ⟨.hbm, 204, rfl⟩
abbrev main_cst_26 : Ref sig .tc := ⟨.hbm, 205, rfl⟩
abbrev main_v161 : Ref sig .tc := ⟨.hbm, 206, rfl⟩
abbrev main_v162 : Ref sig .tc := ⟨.hbm, 207, rfl⟩
abbrev main_v163 : Ref sig .tc := ⟨.hbm, 208, rfl⟩
abbrev main_v164 : Ref sig .tc := ⟨.hbm, 209, rfl⟩
abbrev main_v165 : Ref sig .tc := ⟨.hbm, 210, rfl⟩
abbrev main_v166 : Ref sig .tc := ⟨.hbm, 211, rfl⟩
abbrev main_v167 : Ref sig .tc := ⟨.hbm, 212, rfl⟩
abbrev main_v168 : Ref sig .tc := ⟨.hbm, 213, rfl⟩
abbrev main_v169 : Ref sig .tc := ⟨.hbm, 214, rfl⟩
abbrev main_v170 : Ref sig .tc := ⟨.hbm, 215, rfl⟩
abbrev main_v171 : Ref sig .tc := ⟨.hbm, 216, rfl⟩
abbrev main_v172 : Ref sig .tc := ⟨.hbm, 217, rfl⟩
abbrev main_v173 : Ref sig .tc := ⟨.hbm, 218, rfl⟩
abbrev main_v174 : Ref sig .tc := ⟨.hbm, 219, rfl⟩
abbrev main_v175 : Ref sig .tc := ⟨.hbm, 220, rfl⟩
abbrev main_v176 : Ref sig .tc := ⟨.hbm, 221, rfl⟩
abbrev main_v177 : Ref sig .tc := ⟨.hbm, 222, rfl⟩
abbrev main_v178 : Ref sig .tc := ⟨.hbm, 223, rfl⟩
abbrev main_v179 : Ref sig .tc := ⟨.hbm, 224, rfl⟩
abbrev main_v180 : Ref sig .tc := ⟨.hbm, 225, rfl⟩
abbrev main_v181 : Ref sig .tc := ⟨.hbm, 226, rfl⟩
abbrev main_v182 : Ref sig .tc := ⟨.hbm, 227, rfl⟩
abbrev main_v183 : Ref sig .tc := ⟨.hbm, 228, rfl⟩
abbrev main_v184 : Ref sig .tc := ⟨.hbm, 229, rfl⟩
abbrev main_c_27 : Ref sig .tc := ⟨.hbm, 230, rfl⟩
abbrev main_v185 : Ref sig .tc := ⟨.hbm, 231, rfl⟩
abbrev main_v186 : Ref sig .tc := ⟨.hbm, 232, rfl⟩
abbrev main_v187 : Ref sig .tc := ⟨.hbm, 233, rfl⟩
abbrev main_c_28 : Ref sig .tc := ⟨.hbm, 234, rfl⟩
abbrev main_v188 : Ref sig .tc := ⟨.hbm, 235, rfl⟩
abbrev main_v189 : Ref sig .tc := ⟨.hbm, 236, rfl⟩
abbrev main_c_29 : Ref sig .tc := ⟨.hbm, 237, rfl⟩
abbrev main_v190 : Ref sig .tc := ⟨.hbm, 238, rfl⟩
abbrev main_v191 : Ref sig .tc := ⟨.hbm, 239, rfl⟩
abbrev main_v192 : Ref sig .tc := ⟨.hbm, 240, rfl⟩
abbrev main_v193 : Ref sig .tc := ⟨.hbm, 241, rfl⟩
abbrev main_v194 : Ref sig .tc := ⟨.hbm, 242, rfl⟩
abbrev main_v195 : Ref sig .tc := ⟨.hbm, 243, rfl⟩
abbrev main_v196 : Ref sig .tc := ⟨.hbm, 244, rfl⟩
abbrev main_v197 : Ref sig .tc := ⟨.hbm, 245, rfl⟩
abbrev main_cst_30 : Ref sig .tc := ⟨.hbm, 246, rfl⟩
abbrev main_v198 : Ref sig .tc := ⟨.hbm, 247, rfl⟩
abbrev main_v199 : Ref sig .tc := ⟨.hbm, 248, rfl⟩
abbrev main_v200 : Ref sig .tc := ⟨.hbm, 249, rfl⟩
abbrev main_cst_31 : Ref sig .tc := ⟨.hbm, 250, rfl⟩
abbrev main_v201 : Ref sig .tc := ⟨.hbm, 251, rfl⟩
abbrev main_v202 : Ref sig .tc := ⟨.hbm, 252, rfl⟩
abbrev main_v203 : Ref sig .tc := ⟨.hbm, 253, rfl⟩
abbrev main_cst_32 : Ref sig .tc := ⟨.hbm, 254, rfl⟩
abbrev main_v204 : Ref sig .tc := ⟨.hbm, 255, rfl⟩
abbrev main_v205 : Ref sig .tc := ⟨.hbm, 256, rfl⟩
abbrev main_v206 : Ref sig .tc := ⟨.hbm, 257, rfl⟩
abbrev main_v207 : Ref sig .tc := ⟨.hbm, 258, rfl⟩
abbrev main_v208 : Ref sig .tc := ⟨.hbm, 259, rfl⟩
abbrev main_v209 : Ref sig .tc := ⟨.hbm, 260, rfl⟩
abbrev main_v210 : Ref sig .tc := ⟨.hbm, 261, rfl⟩
abbrev main_v211 : Ref sig .tc := ⟨.hbm, 262, rfl⟩
abbrev main_v212 : Ref sig .tc := ⟨.hbm, 263, rfl⟩
abbrev main_v213 : Ref sig .tc := ⟨.hbm, 264, rfl⟩
abbrev main_v214 : Ref sig .tc := ⟨.hbm, 265, rfl⟩
abbrev main_v215 : Ref sig .tc := ⟨.hbm, 266, rfl⟩
abbrev main_v216 : Ref sig .tc := ⟨.hbm, 267, rfl⟩
abbrev main_v217 : Ref sig .tc := ⟨.hbm, 268, rfl⟩
abbrev main_v218 : Ref sig .tc := ⟨.hbm, 269, rfl⟩
abbrev main_v219 : Ref sig .tc := ⟨.hbm, 270, rfl⟩
abbrev main_v220 : Ref sig .tc := ⟨.hbm, 271, rfl⟩
abbrev main_v221 : Ref sig .tc := ⟨.hbm, 272, rfl⟩
abbrev main_v222 : Ref sig .tc := ⟨.hbm, 273, rfl⟩
abbrev main_v223 : Ref sig .tc := ⟨.hbm, 274, rfl⟩
abbrev main_v224 : Ref sig .tc := ⟨.hbm, 275, rfl⟩
abbrev main_v225 : Ref sig .tc := ⟨.hbm, 276, rfl⟩
abbrev main_v226 : Ref sig .tc := ⟨.hbm, 277, rfl⟩
abbrev main_v227 : Ref sig .tc := ⟨.hbm, 278, rfl⟩
abbrev main_c_33 : Ref sig .tc := ⟨.hbm, 279, rfl⟩
abbrev main_v228 : Ref sig .tc := ⟨.hbm, 280, rfl⟩
abbrev main_v229 : Ref sig .tc := ⟨.hbm, 281, rfl⟩
abbrev main_v230 : Ref sig .tc := ⟨.hbm, 282, rfl⟩
abbrev main_c_34 : Ref sig .tc := ⟨.hbm, 283, rfl⟩
abbrev main_v231 : Ref sig .tc := ⟨.hbm, 284, rfl⟩
abbrev main_v232 : Ref sig .tc := ⟨.hbm, 285, rfl⟩
abbrev main_c_35 : Ref sig .tc := ⟨.hbm, 286, rfl⟩
abbrev main_v233 : Ref sig .tc := ⟨.hbm, 287, rfl⟩
abbrev main_v234 : Ref sig .tc := ⟨.hbm, 288, rfl⟩
abbrev main_v235 : Ref sig .tc := ⟨.hbm, 289, rfl⟩
abbrev main_v236 : Ref sig .tc := ⟨.hbm, 290, rfl⟩
abbrev main_v237 : Ref sig .tc := ⟨.hbm, 291, rfl⟩
abbrev main_v238 : Ref sig .tc := ⟨.hbm, 292, rfl⟩
abbrev main_v239 : Ref sig .tc := ⟨.hbm, 293, rfl⟩
abbrev main_v240 : Ref sig .tc := ⟨.hbm, 294, rfl⟩
abbrev main_cst_36 : Ref sig .tc := ⟨.hbm, 295, rfl⟩
abbrev main_v241 : Ref sig .tc := ⟨.hbm, 296, rfl⟩
abbrev main_v242 : Ref sig .tc := ⟨.hbm, 297, rfl⟩
abbrev main_v243 : Ref sig .tc := ⟨.hbm, 298, rfl⟩
abbrev main_cst_37 : Ref sig .tc := ⟨.hbm, 299, rfl⟩
abbrev main_v244 : Ref sig .tc := ⟨.hbm, 300, rfl⟩
abbrev main_v245 : Ref sig .tc := ⟨.hbm, 301, rfl⟩
abbrev main_v246 : Ref sig .tc := ⟨.hbm, 302, rfl⟩
abbrev main_cst_38 : Ref sig .tc := ⟨.hbm, 303, rfl⟩
abbrev main_v247 : Ref sig .tc := ⟨.hbm, 304, rfl⟩
abbrev main_v248 : Ref sig .tc := ⟨.hbm, 305, rfl⟩
abbrev main_v249 : Ref sig .tc := ⟨.hbm, 306, rfl⟩
abbrev main_v250 : Ref sig .tc := ⟨.hbm, 307, rfl⟩
abbrev main_v251 : Ref sig .tc := ⟨.hbm, 308, rfl⟩
abbrev main_v252 : Ref sig .tc := ⟨.hbm, 309, rfl⟩
abbrev main_v253 : Ref sig .tc := ⟨.hbm, 310, rfl⟩
abbrev main_v254 : Ref sig .tc := ⟨.hbm, 311, rfl⟩
abbrev main_v255 : Ref sig .tc := ⟨.hbm, 312, rfl⟩
abbrev main_v256 : Ref sig .tc := ⟨.hbm, 313, rfl⟩
abbrev main_v257 : Ref sig .tc := ⟨.hbm, 314, rfl⟩
abbrev main_v258 : Ref sig .tc := ⟨.hbm, 315, rfl⟩
abbrev main_v259 : Ref sig .tc := ⟨.hbm, 316, rfl⟩
abbrev main_v260 : Ref sig .tc := ⟨.hbm, 317, rfl⟩
abbrev main_v261 : Ref sig .tc := ⟨.hbm, 318, rfl⟩
abbrev main_v262 : Ref sig .tc := ⟨.hbm, 319, rfl⟩
abbrev main_v263 : Ref sig .tc := ⟨.hbm, 320, rfl⟩
abbrev main_v264 : Ref sig .tc := ⟨.hbm, 321, rfl⟩
abbrev main_v265 : Ref sig .tc := ⟨.hbm, 322, rfl⟩
abbrev main_v266 : Ref sig .tc := ⟨.hbm, 323, rfl⟩
abbrev main_v267 : Ref sig .tc := ⟨.hbm, 324, rfl⟩
abbrev main_call2_cst : Ref sig .tc := ⟨.hbm, 325, rfl⟩
abbrev main_call2_v0 : Ref sig .tc := ⟨.hbm, 326, rfl⟩
abbrev main_v268 : Ref sig .tc := ⟨.hbm, 327, rfl⟩
abbrev main_cst_39 : Ref sig .tc := ⟨.hbm, 328, rfl⟩
abbrev main_call3_v0 : Ref sig .tc := ⟨.hbm, 329, rfl⟩
abbrev main_call3_v1 : Ref sig .tc := ⟨.hbm, 330, rfl⟩
abbrev main_call3_v2 : Ref sig .tc := ⟨.hbm, 331, rfl⟩
abbrev main_v269 : Ref sig .tc := ⟨.hbm, 332, rfl⟩
abbrev main_c_40 : Ref sig .tc := ⟨.hbm, 333, rfl⟩
abbrev main_v270 : Ref sig .tc := ⟨.hbm, 334, rfl⟩
abbrev main_v271 : Ref sig .tc := ⟨.hbm, 335, rfl⟩
abbrev main_cst_41 : Ref sig .tc := ⟨.hbm, 336, rfl⟩
abbrev main_v272 : Ref sig .tc := ⟨.hbm, 337, rfl⟩
abbrev main_v273 : Ref sig .tc := ⟨.hbm, 338, rfl⟩
abbrev main_v274 : Ref sig .tc := ⟨.hbm, 339, rfl⟩
abbrev main_v275 : Ref sig .tc := ⟨.hbm, 340, rfl⟩
abbrev main_v276 : Ref sig .tc := ⟨.hbm, 341, rfl⟩
abbrev main_c_42 : Ref sig .tc := ⟨.hbm, 342, rfl⟩
abbrev main_v277 : Ref sig .tc := ⟨.hbm, 343, rfl⟩
abbrev main_v278 : Ref sig .tc := ⟨.hbm, 344, rfl⟩
abbrev main_v279 : Ref sig .tc := ⟨.hbm, 345, rfl⟩
abbrev main_c_43 : Ref sig .tc := ⟨.hbm, 346, rfl⟩
abbrev main_v280 : Ref sig .tc := ⟨.hbm, 347, rfl⟩
abbrev main_v281 : Ref sig .tc := ⟨.hbm, 348, rfl⟩
abbrev main_c_44 : Ref sig .tc := ⟨.hbm, 349, rfl⟩
abbrev main_v282 : Ref sig .tc := ⟨.hbm, 350, rfl⟩
abbrev main_v283 : Ref sig .tc := ⟨.hbm, 351, rfl⟩
abbrev main_v284 : Ref sig .tc := ⟨.hbm, 352, rfl⟩
abbrev main_v285 : Ref sig .tc := ⟨.hbm, 353, rfl⟩
abbrev main_v286 : Ref sig .tc := ⟨.hbm, 354, rfl⟩
abbrev main_v287 : Ref sig .tc := ⟨.hbm, 355, rfl⟩
abbrev main_v288 : Ref sig .tc := ⟨.hbm, 356, rfl⟩
abbrev main_v289 : Ref sig .tc := ⟨.hbm, 357, rfl⟩
abbrev main_cst_45 : Ref sig .tc := ⟨.hbm, 358, rfl⟩
abbrev main_v290 : Ref sig .tc := ⟨.hbm, 359, rfl⟩
abbrev main_v291 : Ref sig .tc := ⟨.hbm, 360, rfl⟩
abbrev main_v292 : Ref sig .tc := ⟨.hbm, 361, rfl⟩
abbrev main_cst_46 : Ref sig .tc := ⟨.hbm, 362, rfl⟩
abbrev main_v293 : Ref sig .tc := ⟨.hbm, 363, rfl⟩
abbrev main_v294 : Ref sig .tc := ⟨.hbm, 364, rfl⟩
abbrev main_v295 : Ref sig .tc := ⟨.hbm, 365, rfl⟩
abbrev main_cst_47 : Ref sig .tc := ⟨.hbm, 366, rfl⟩
abbrev main_v296 : Ref sig .tc := ⟨.hbm, 367, rfl⟩
abbrev main_v297 : Ref sig .tc := ⟨.hbm, 368, rfl⟩
abbrev main_v298 : Ref sig .tc := ⟨.hbm, 369, rfl⟩
abbrev main_v299 : Ref sig .tc := ⟨.hbm, 370, rfl⟩
abbrev main_v300 : Ref sig .tc := ⟨.hbm, 371, rfl⟩
abbrev main_v301 : Ref sig .tc := ⟨.hbm, 372, rfl⟩
abbrev main_v302 : Ref sig .tc := ⟨.hbm, 373, rfl⟩
abbrev main_v303 : Ref sig .tc := ⟨.hbm, 374, rfl⟩
abbrev main_v304 : Ref sig .tc := ⟨.hbm, 375, rfl⟩
abbrev main_v305 : Ref sig .tc := ⟨.hbm, 376, rfl⟩
abbrev main_v306 : Ref sig .tc := ⟨.hbm, 377, rfl⟩
abbrev main_v307 : Ref sig .tc := ⟨.hbm, 378, rfl⟩
abbrev main_v308 : Ref sig .tc := ⟨.hbm, 379, rfl⟩
abbrev main_v309 : Ref sig .tc := ⟨.hbm, 380, rfl⟩
abbrev main_v310 : Ref sig .tc := ⟨.hbm, 381, rfl⟩
abbrev main_v311 : Ref sig .tc := ⟨.hbm, 382, rfl⟩
abbrev main_v312 : Ref sig .tc := ⟨.hbm, 383, rfl⟩
abbrev main_v313 : Ref sig .tc := ⟨.hbm, 384, rfl⟩
abbrev main_v314 : Ref sig .tc := ⟨.hbm, 385, rfl⟩
abbrev main_v315 : Ref sig .tc := ⟨.hbm, 386, rfl⟩
abbrev main_v316 : Ref sig .tc := ⟨.hbm, 387, rfl⟩
abbrev main_v317 : Ref sig .tc := ⟨.hbm, 388, rfl⟩
abbrev main_v318 : Ref sig .tc := ⟨.hbm, 389, rfl⟩
abbrev main_v319 : Ref sig .tc := ⟨.hbm, 390, rfl⟩
abbrev main_c_48 : Ref sig .tc := ⟨.hbm, 391, rfl⟩
abbrev main_v320 : Ref sig .tc := ⟨.hbm, 392, rfl⟩
abbrev main_v321 : Ref sig .tc := ⟨.hbm, 393, rfl⟩
abbrev main_v322 : Ref sig .tc := ⟨.hbm, 394, rfl⟩
abbrev main_c_49 : Ref sig .tc := ⟨.hbm, 395, rfl⟩
abbrev main_v323 : Ref sig .tc := ⟨.hbm, 396, rfl⟩
abbrev main_v324 : Ref sig .tc := ⟨.hbm, 397, rfl⟩
abbrev main_c_50 : Ref sig .tc := ⟨.hbm, 398, rfl⟩
abbrev main_v325 : Ref sig .tc := ⟨.hbm, 399, rfl⟩
abbrev main_v326 : Ref sig .tc := ⟨.hbm, 400, rfl⟩
abbrev main_v327 : Ref sig .tc := ⟨.hbm, 401, rfl⟩
abbrev main_v328 : Ref sig .tc := ⟨.hbm, 402, rfl⟩
abbrev main_v329 : Ref sig .tc := ⟨.hbm, 403, rfl⟩
abbrev main_v330 : Ref sig .tc := ⟨.hbm, 404, rfl⟩
abbrev main_v331 : Ref sig .tc := ⟨.hbm, 405, rfl⟩
abbrev main_v332 : Ref sig .tc := ⟨.hbm, 406, rfl⟩
abbrev main_cst_51 : Ref sig .tc := ⟨.hbm, 407, rfl⟩
abbrev main_v333 : Ref sig .tc := ⟨.hbm, 408, rfl⟩
abbrev main_v334 : Ref sig .tc := ⟨.hbm, 409, rfl⟩
abbrev main_v335 : Ref sig .tc := ⟨.hbm, 410, rfl⟩
abbrev main_cst_52 : Ref sig .tc := ⟨.hbm, 411, rfl⟩
abbrev main_v336 : Ref sig .tc := ⟨.hbm, 412, rfl⟩
abbrev main_v337 : Ref sig .tc := ⟨.hbm, 413, rfl⟩
abbrev main_v338 : Ref sig .tc := ⟨.hbm, 414, rfl⟩
abbrev main_cst_53 : Ref sig .tc := ⟨.hbm, 415, rfl⟩
abbrev main_v339 : Ref sig .tc := ⟨.hbm, 416, rfl⟩
abbrev main_v340 : Ref sig .tc := ⟨.hbm, 417, rfl⟩
abbrev main_v341 : Ref sig .tc := ⟨.hbm, 418, rfl⟩
abbrev main_v342 : Ref sig .tc := ⟨.hbm, 419, rfl⟩
abbrev main_v343 : Ref sig .tc := ⟨.hbm, 420, rfl⟩
abbrev main_v344 : Ref sig .tc := ⟨.hbm, 421, rfl⟩
abbrev main_v345 : Ref sig .tc := ⟨.hbm, 422, rfl⟩
abbrev main_v346 : Ref sig .tc := ⟨.hbm, 423, rfl⟩
abbrev main_v347 : Ref sig .tc := ⟨.hbm, 424, rfl⟩
abbrev main_v348 : Ref sig .tc := ⟨.hbm, 425, rfl⟩
abbrev main_v349 : Ref sig .tc := ⟨.hbm, 426, rfl⟩
abbrev main_v350 : Ref sig .tc := ⟨.hbm, 427, rfl⟩
abbrev main_v351 : Ref sig .tc := ⟨.hbm, 428, rfl⟩
abbrev main_v352 : Ref sig .tc := ⟨.hbm, 429, rfl⟩
abbrev main_v353 : Ref sig .tc := ⟨.hbm, 430, rfl⟩
abbrev main_v354 : Ref sig .tc := ⟨.hbm, 431, rfl⟩
abbrev main_v355 : Ref sig .tc := ⟨.hbm, 432, rfl⟩
abbrev main_v356 : Ref sig .tc := ⟨.hbm, 433, rfl⟩
abbrev main_v357 : Ref sig .tc := ⟨.hbm, 434, rfl⟩
abbrev main_v358 : Ref sig .tc := ⟨.hbm, 435, rfl⟩
abbrev main_v359 : Ref sig .tc := ⟨.hbm, 436, rfl⟩
abbrev main_v360 : Ref sig .tc := ⟨.hbm, 437, rfl⟩
abbrev main_v361 : Ref sig .tc := ⟨.hbm, 438, rfl⟩
abbrev main_v362 : Ref sig .tc := ⟨.hbm, 439, rfl⟩
abbrev main_c_54 : Ref sig .tc := ⟨.hbm, 440, rfl⟩
abbrev main_v363 : Ref sig .tc := ⟨.hbm, 441, rfl⟩
abbrev main_v364 : Ref sig .tc := ⟨.hbm, 442, rfl⟩
abbrev main_v365 : Ref sig .tc := ⟨.hbm, 443, rfl⟩
abbrev main_c_55 : Ref sig .tc := ⟨.hbm, 444, rfl⟩
abbrev main_v366 : Ref sig .tc := ⟨.hbm, 445, rfl⟩
abbrev main_v367 : Ref sig .tc := ⟨.hbm, 446, rfl⟩
abbrev main_c_56 : Ref sig .tc := ⟨.hbm, 447, rfl⟩
abbrev main_v368 : Ref sig .tc := ⟨.hbm, 448, rfl⟩
abbrev main_v369 : Ref sig .tc := ⟨.hbm, 449, rfl⟩
abbrev main_v370 : Ref sig .tc := ⟨.hbm, 450, rfl⟩
abbrev main_v371 : Ref sig .tc := ⟨.hbm, 451, rfl⟩
abbrev main_v372 : Ref sig .tc := ⟨.hbm, 452, rfl⟩
abbrev main_v373 : Ref sig .tc := ⟨.hbm, 453, rfl⟩
abbrev main_v374 : Ref sig .tc := ⟨.hbm, 454, rfl⟩
abbrev main_v375 : Ref sig .tc := ⟨.hbm, 455, rfl⟩
abbrev main_cst_57 : Ref sig .tc := ⟨.hbm, 456, rfl⟩
abbrev main_v376 : Ref sig .tc := ⟨.hbm, 457, rfl⟩
abbrev main_v377 : Ref sig .tc := ⟨.hbm, 458, rfl⟩
abbrev main_v378 : Ref sig .tc := ⟨.hbm, 459, rfl⟩
abbrev main_cst_58 : Ref sig .tc := ⟨.hbm, 460, rfl⟩
abbrev main_v379 : Ref sig .tc := ⟨.hbm, 461, rfl⟩
abbrev main_v380 : Ref sig .tc := ⟨.hbm, 462, rfl⟩
abbrev main_v381 : Ref sig .tc := ⟨.hbm, 463, rfl⟩
abbrev main_cst_59 : Ref sig .tc := ⟨.hbm, 464, rfl⟩
abbrev main_v382 : Ref sig .tc := ⟨.hbm, 465, rfl⟩
abbrev main_v383 : Ref sig .tc := ⟨.hbm, 466, rfl⟩
abbrev main_v384 : Ref sig .tc := ⟨.hbm, 467, rfl⟩
abbrev main_v385 : Ref sig .tc := ⟨.hbm, 468, rfl⟩
abbrev main_v386 : Ref sig .tc := ⟨.hbm, 469, rfl⟩
abbrev main_v387 : Ref sig .tc := ⟨.hbm, 470, rfl⟩
abbrev main_v388 : Ref sig .tc := ⟨.hbm, 471, rfl⟩
abbrev main_v389 : Ref sig .tc := ⟨.hbm, 472, rfl⟩
abbrev main_v390 : Ref sig .tc := ⟨.hbm, 473, rfl⟩
abbrev main_v391 : Ref sig .tc := ⟨.hbm, 474, rfl⟩
abbrev main_v392 : Ref sig .tc := ⟨.hbm, 475, rfl⟩
abbrev main_v393 : Ref sig .tc := ⟨.hbm, 476, rfl⟩
abbrev main_v394 : Ref sig .tc := ⟨.hbm, 477, rfl⟩
abbrev main_v395 : Ref sig .tc := ⟨.hbm, 478, rfl⟩
abbrev main_v396 : Ref sig .tc := ⟨.hbm, 479, rfl⟩
abbrev main_v397 : Ref sig .tc := ⟨.hbm, 480, rfl⟩
abbrev main_v398 : Ref sig .tc := ⟨.hbm, 481, rfl⟩
abbrev main_v399 : Ref sig .tc := ⟨.hbm, 482, rfl⟩
abbrev main_v400 : Ref sig .tc := ⟨.hbm, 483, rfl⟩
abbrev main_v401 : Ref sig .tc := ⟨.hbm, 484, rfl⟩
abbrev main_v402 : Ref sig .tc := ⟨.hbm, 485, rfl⟩
abbrev main_call4_cst : Ref sig .tc := ⟨.hbm, 486, rfl⟩
abbrev main_call4_v0 : Ref sig .tc := ⟨.hbm, 487, rfl⟩
abbrev main_v403 : Ref sig .tc := ⟨.hbm, 488, rfl⟩
abbrev main_cst_60 : Ref sig .tc := ⟨.hbm, 489, rfl⟩
abbrev main_call5_v0 : Ref sig .tc := ⟨.hbm, 490, rfl⟩
abbrev main_call5_v1 : Ref sig .tc := ⟨.hbm, 491, rfl⟩
abbrev main_call5_v2 : Ref sig .tc := ⟨.hbm, 492, rfl⟩
abbrev main_v404 : Ref sig .tc := ⟨.hbm, 493, rfl⟩

abbrev nD : Nat := 1
abbrev τ : Topo := Topo.v7x

variable {F : FTy → Type} [FloatOps F]

class Facts₀ : Prop where
  bcast_S_S100000 : S_.BroadcastsInDim S100000 (![] : Fin 0 → Fin S100000.rank)
  bcast_S_S100000x128 : S_.BroadcastsInDim S100000x128 (![] : Fin 0 → Fin S100000x128.rank)
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S800000x1_S800000x128_0_1 : S800000x1.BroadcastsInDim S800000x128 (![0, 1] : Fin 2 → Fin S800000x128.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  slices_S3x3x128x128_S1x1x128x128_0_0_0_0 : S3x3x128x128.Slices ![0, 0, 0, 0] S1x1x128x128
  shapeCasts_S1x1x128x128_S128x128 : S1x1x128x128.ShapeCasts S128x128
  transposes_S128x128_S128x128_1_0 : S128x128.Transposes [1, 0] S128x128
  slices_S3x3x128_S1x1x128_0_0_0 : S3x3x128.Slices ![0, 0, 0] S1x1x128
  shapeCasts_S1x1x128_S128 : S1x1x128.ShapeCasts S128
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  slices_S3x3x128x128_S1x1x128x128_0_1_0_0 : S3x3x128x128.Slices ![0, 1, 0, 0] S1x1x128x128
  slices_S3x3x128_S1x1x128_0_1_0 : S3x3x128.Slices ![0, 1, 0] S1x1x128
  slices_S3x3x128x128_S1x1x128x128_0_2_0_0 : S3x3x128x128.Slices ![0, 2, 0, 0] S1x1x128x128
  slices_S3x3x128_S1x1x128_0_2_0 : S3x3x128.Slices ![0, 2, 0] S1x1x128
  slices_S3x3x128x128_S1x1x128x128_1_0_0_0 : S3x3x128x128.Slices ![1, 0, 0, 0] S1x1x128x128
  slices_S3x3x128_S1x1x128_1_0_0 : S3x3x128.Slices ![1, 0, 0] S1x1x128
  slices_S3x3x128x128_S1x1x128x128_1_1_0_0 : S3x3x128x128.Slices ![1, 1, 0, 0] S1x1x128x128
  slices_S3x3x128_S1x1x128_1_1_0 : S3x3x128.Slices ![1, 1, 0] S1x1x128
  slices_S3x3x128x128_S1x1x128x128_1_2_0_0 : S3x3x128x128.Slices ![1, 2, 0, 0] S1x1x128x128
  slices_S3x3x128_S1x1x128_1_2_0 : S3x3x128.Slices ![1, 2, 0] S1x1x128
  slices_S3x3x128x128_S1x1x128x128_2_0_0_0 : S3x3x128x128.Slices ![2, 0, 0, 0] S1x1x128x128
  slices_S3x3x128_S1x1x128_2_0_0 : S3x3x128.Slices ![2, 0, 0] S1x1x128
  slices_S3x3x128x128_S1x1x128x128_2_1_0_0 : S3x3x128x128.Slices ![2, 1, 0, 0] S1x1x128x128
  slices_S3x3x128_S1x1x128_2_1_0 : S3x3x128.Slices ![2, 1, 0] S1x1x128
  slices_S3x3x128x128_S1x1x128x128_2_2_0_0 : S3x3x128x128.Slices ![2, 2, 0, 0] S1x1x128x128
  slices_S3x3x128_S1x1x128_2_2_0 : S3x3x128.Slices ![2, 2, 0] S1x1x128
  gather_S100000x128_S800000x1_S800000x128_1_0_n_n_0_1_1128_wf : GatherDims.WF S100000x128 S800000x1 S800000x128 [1] [0] [] [0] [] 1 ![1, 128]
  scatter_S100000x128_S800000x1_S800000x128_1_0_0_1_wf : ScatterDims.WF S100000x128 S800000x1 S800000x128 [1] [0] [0] 1
  scatter_S100000_S800000x1_S800000_n_0_0_1_wf : ScatterDims.WF S100000 S800000x1 S800000 [] [0] [0] 1
  dot_S100000x128_S128x128_S100000x128_1_0_0_1_n_n_wf : DotDims.WF S100000x128 S128x128 S100000x128 [1] [0] [0] [1] [] []

variable [Facts₀]

def gather_S100000x128_S800000x1_S800000x128_1_0_n_n_0_1_1128 : GatherDims S100000x128 S800000x1 S800000x128 where
  offsetDims := [1]
  collapsedSliceDims := [0]
  operandBatchingDims := []
  startIndicesBatchingDims := []
  startIndexMap := [0]
  indexVectorDim := 1
  sliceSizes := ![1, 128]
  wf := gather_S100000x128_S800000x1_S800000x128_1_0_n_n_0_1_1128_wf
def scatter_S100000x128_S800000x1_S800000x128_1_0_0_1 : ScatterDims S100000x128 S800000x1 S800000x128 where
  updateWindowDims := [1]
  insertedWindowDims := [0]
  scatterDimsToOperandDims := [0]
  indexVectorDim := 1
  wf := scatter_S100000x128_S800000x1_S800000x128_1_0_0_1_wf
def scatter_S100000_S800000x1_S800000_n_0_0_1 : ScatterDims S100000 S800000x1 S800000 where
  updateWindowDims := []
  insertedWindowDims := [0]
  scatterDimsToOperandDims := [0]
  indexVectorDim := 1
  wf := scatter_S100000_S800000x1_S800000_n_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf

class Facts : Prop extends Facts₀ where

variable [Facts]
-- ==== Proof.KRun.lean ====
/-
  The program's run restated with its result: every weakly fair execution of the whole program on the
  TensorCores terminates without fault, the result array ends at the last boundary's contents, and every
  argument array ends as launched. The result arrays of the three layers are what each layer's grid of
  row tiles leaves in its output array.
-/
import proofs.«176633_j7954279432525_1_alg».proof.Proof.Gen.KernelIdeal.Frame

set_option maxRecDepth 16384

noncomputable section

namespace Cert.Sage.KRun

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The first layer's output array after its grid of row tiles. -/
theorem W2_out (c : Dev nD) : W2 m ρ c (Proc.devRef .tc main_v96) = (dat0 (V1 m ρ) c).arrAt 8 cfg0.N := W2_arr m ρ c 8

/-- The second layer's output array after its grid of row tiles. -/
theorem W4_out (c : Dev nD) : W4 m ρ c (Proc.devRef .tc main_v191) = (dat1 (V3 m ρ) c).arrAt 8 cfg1.N := W4_arr m ρ c 8

/-- The third layer's output array (the program's result) after its grid of row tiles. -/
theorem W6_out (c : Dev nD) : W6 m ρ c (Proc.devRef .tc main_v286) = (dat2 (V5 m ρ) c).arrAt 8 cfg2.N := W6_arr m ρ c 8

-- the launch theorem's implicit arguments are found by unifying its conclusion with this one, which takes unfolding
-- plain definitions in a metavariable's type
set_option backward.isDefEq.respectTransparency.types false in
/-- The run with its result: at the compiled mesh, from any memory with zero counters, every weakly fair execution
    of the program on the TensorCores terminates, nothing faulting, and in every final state the result array holds
    the last boundary's contents and every argument array is as launched. -/
theorem run_value : θ_run defs (onTc (τ := τ) (main (F := F))) ⟨m, fun _ => 0, ρ⟩ (fun r => ∀ c : Dev nD,
      r.2.mem ((c.tc : Thread nD τ).loc main_v286) = W6 m ρ c (Proc.devRef .tc main_v286)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h c =>
      ⟨h c _ (mem_uc main_v286 (by decide)),
       (h c _ (mem_uc main_arg0 (by decide))).trans (W6_main_arg0 m ρ c),
       (h c _ (mem_uc main_arg1 (by decide))).trans (W6_main_arg1 m ρ c),
       (h c _ (mem_uc main_arg2 (by decide))).trans (W6_main_arg2 m ρ c),
       (h c _ (mem_uc main_arg3 (by decide))).trans (W6_main_arg3 m ρ c),
       (h c _ (mem_uc main_arg4 (by decide))).trans (W6_main_arg4 m ρ c),
       (h c _ (mem_uc main_arg5 (by decide))).trans (W6_main_arg5 m ρ c),
       (h c _ (mem_uc main_arg6 (by decide))).trans (W6_main_arg6 m ρ c),
       (h c _ (mem_uc main_arg7 (by decide))).trans (W6_main_arg7 m ρ c),
       (h c _ (mem_uc main_arg8 (by decide))).trans (W6_main_arg8 m ρ c),
       (h c _ (mem_uc main_arg9 (by decide))).trans (W6_main_arg9 m ρ c),
       (h c _ (mem_uc main_arg10 (by decide))).trans (W6_main_arg10 m ρ c)⟩)

end Cert.Sage.KRun

end
-- ==== Proof.Spec.lean ====
/-
  One layer of the relation-summed graph convolution, entry by entry on the extended reals.

  For a node n and an output feature d, with h the node features entering the layer, a₀ a₁ a₂ the three
  relations' neighbour means, Wl, Wr the two weight tensors and bl the bias (all indexed by layer i and
  relation t), the pre-activation is

      acc(n, d) = Σ_t ( Σ_k a_t(n, k) · Wl(i, t, d, k)  +  Σ_k h(n, k) · Wr(i, t, d, k)  +  bl(i, t, d) ),

  summed in the order t = 0, 1, 2 with the three terms of a relation in the order written, and the layer's
  value is max(acc, 0) where the node's validity bit is set and 0 elsewhere.
-/
import Idealize.ShloMosaic.PureOps.Ideal
import Idealize.ShloMosaic.Lib.ValueIdx

noncomputable section

namespace Cert.Sage

open Idealize.ShloMosaic Idealize.ShloMosaic.ValueIdx

abbrev SN : Shape := ⟨2, ![100000, 128]⟩
abbrev SN1 : Shape := ⟨2, ![100000, 1]⟩
abbrev SNv : Shape := ⟨1, ![100000]⟩
abbrev SW : Shape := ⟨4, ![3, 3, 128, 128]⟩
abbrev SB : Shape := ⟨3, ![3, 3, 128]⟩
abbrev SW3 : Shape := ⟨3, ![3, 128, 128]⟩
abbrev SB2 : Shape := ⟨2, ![3, 128]⟩

/-- Σ_k a(n, k) · W(i, t, d, k): one relation's product with the transposed weight slice. -/
def dotT (a : FVec Ideal SN .f32) (W : FVec Ideal SW .f32) (i t : Fin 3) (n : Fin 100000) (d : Fin 128) : EReal :=
  ∑ k : Fin 128, a (ix2 n k) * W (ix4 i t d k)

/-- The pre-activation of layer `i` at node `n`, feature `d`. -/
def accSpec (i : Fin 3) (h a0 a1 a2 : FVec Ideal SN .f32) (Wl : FVec Ideal SW .f32) (bl : FVec Ideal SB .f32)
    (Wr : FVec Ideal SW .f32) (n : Fin 100000) (d : Fin 128) : EReal :=
  dotT a0 Wl i 0 n d + dotT h Wr i 0 n d + bl (ix3 i 0 d)
    + dotT a1 Wl i 1 n d + dotT h Wr i 1 n d + bl (ix3 i 1 d)
    + dotT a2 Wl i 2 n d + dotT h Wr i 2 n d + bl (ix3 i 2 d)

/-- Layer `i`: the rectified pre-activation on the valid nodes (`nv n = 1`), zero on the others. -/
def layerSpecAt (i : Fin 3) (nv : IVec SNv 1) (h a0 a1 a2 : FVec Ideal SN .f32) (Wl : FVec Ideal SW .f32)
    (bl : FVec Ideal SB .f32) (Wr : FVec Ideal SW .f32) (n : Fin 100000) (d : Fin 128) : EReal :=
  if nv (ix1 n) = 1#1 then max (accSpec i h a0 a1 a2 Wl bl Wr n d) 0 else 0

def layerSpec (i : Fin 3) (nv : IVec SNv 1) (h a0 a1 a2 : FVec Ideal SN .f32) (Wl : FVec Ideal SW .f32)
    (bl : FVec Ideal SB .f32) (Wr : FVec Ideal SW .f32) : FVec Ideal SN .f32 :=
  fun j => layerSpecAt i nv h a0 a1 a2 Wl bl Wr (j 0) (j 1)

theorem layerSpec_apply (i : Fin 3) (nv : IVec SNv 1) (h a0 a1 a2 : FVec Ideal SN .f32) (Wl : FVec Ideal SW .f32)
    (bl : FVec Ideal SB .f32) (Wr : FVec Ideal SW .f32) (n : Fin 100000) (d : Fin 128) :
    layerSpec i nv h a0 a1 a2 Wl bl Wr (ix2 n d) = layerSpecAt i nv h a0 a1 a2 Wl bl Wr n d := rfl

/-- The same layer as the kernel receives it: the weights already sliced per layer and transposed
    (`wl (t, k, d)`), the bias sliced (`b (t, d)`), the validity as a 0/1 column. -/
def accK (h a0 a1 a2 : FVec Ideal SN .f32) (wl : FVec Ideal SW3 .f32) (b : FVec Ideal SB2 .f32)
    (wr : FVec Ideal SW3 .f32) (n : Fin 100000) (d : Fin 128) : EReal :=
  (∑ k : Fin 128, a0 (ix2 n k) * wl (ix3 (0 : Fin 3) k d)) + (∑ k : Fin 128, h (ix2 n k) * wr (ix3 (0 : Fin 3) k d)) + b (ix2 (0 : Fin 3) d)
    + (∑ k : Fin 128, a1 (ix2 n k) * wl (ix3 (1 : Fin 3) k d)) + (∑ k : Fin 128, h (ix2 n k) * wr (ix3 (1 : Fin 3) k d)) + b (ix2 (1 : Fin 3) d)
    + (∑ k : Fin 128, a2 (ix2 n k) * wl (ix3 (2 : Fin 3) k d)) + (∑ k : Fin 128, h (ix2 n k) * wr (ix3 (2 : Fin 3) k d)) + b (ix2 (2 : Fin 3) d)

def layerKAt (h a0 a1 a2 : FVec Ideal SN .f32) (mask : FVec Ideal SN1 .f32) (wl : FVec Ideal SW3 .f32)
    (b : FVec Ideal SB2 .f32) (wr : FVec Ideal SW3 .f32) (n : Fin 100000) (d : Fin 128) : EReal :=
  max (accK h a0 a1 a2 wl b wr n d) 0 * mask (ix2 n (0 : Fin 1))

def layerK (h a0 a1 a2 : FVec Ideal SN .f32) (mask : FVec Ideal SN1 .f32) (wl : FVec Ideal SW3 .f32)
    (b : FVec Ideal SB2 .f32) (wr : FVec Ideal SW3 .f32) : FVec Ideal SN .f32 :=
  fun j => layerKAt h a0 a1 a2 mask wl b wr (j 0) (j 1)

theorem layerK_apply (h a0 a1 a2 : FVec Ideal SN .f32) (mask : FVec Ideal SN1 .f32) (wl : FVec Ideal SW3 .f32)
    (b : FVec Ideal SB2 .f32) (wr : FVec Ideal SW3 .f32) (n : Fin 100000) (d : Fin 128) :
    layerK h a0 a1 a2 mask wl b wr (ix2 n d) = layerKAt h a0 a1 a2 mask wl b wr n d := rfl

/-- The kernel's layer is the specification's, when its operands are the slices the host prepared:
    the 0/1 column of the validity bits, the transposed weight slices and the bias slice of layer `i`. -/
theorem layerK_eq_spec (i : Fin 3) (nv : IVec SNv 1) (h a0 a1 a2 : FVec Ideal SN .f32)
    (mask : FVec Ideal SN1 .f32) (wl : FVec Ideal SW3 .f32) (b : FVec Ideal SB2 .f32) (wr : FVec Ideal SW3 .f32)
    (Wl : FVec Ideal SW .f32) (bl : FVec Ideal SB .f32) (Wr : FVec Ideal SW .f32)
    (hmask : ∀ n : Fin 100000, mask (ix2 n (0 : Fin 1)) = (((nv (ix1 n)).toNat : ℝ) : EReal))
    (hwl : ∀ (t : Fin 3) (k d : Fin 128), wl (ix3 t k d) = Wl (ix4 i t d k))
    (hb : ∀ (t : Fin 3) (d : Fin 128), b (ix2 t d) = bl (ix3 i t d))
    (hwr : ∀ (t : Fin 3) (k d : Fin 128), wr (ix3 t k d) = Wr (ix4 i t d k)) :
    layerK h a0 a1 a2 mask wl b wr = layerSpec i nv h a0 a1 a2 Wl bl Wr := by
  funext j
  obtain ⟨n, d, rfl⟩ : ∃ (n : Fin 100000) (d : Fin 128), j = ix2 n d := ⟨j 0, j 1, eq_ix2 j⟩
  have hacc : accK h a0 a1 a2 wl b wr n d = accSpec i h a0 a1 a2 Wl bl Wr n d := by
    unfold accK accSpec dotT
    simp only [hwl, hb, hwr]
  rw [layerK_apply, layerSpec_apply]
  unfold layerKAt layerSpecAt
  rw [hacc, hmask]
  by_cases hv : nv (ix1 n) = 1#1
  · rw [if_pos hv, hv]
    simp
  · rw [if_neg hv, eq_zero_of_ne_one hv]
    simp

end Cert.Sage

end
-- ==== Proof.LibButterfly.lean ====
/-
  One butterfly stage of Givens rotations on the rows of an array of width W = nb · 2 · st, read entry by entry.
  A row is cut into nb blocks of 2 · st entries; inside a block the first st entries (the half 0) are paired with the
  last st entries (the half 1), entry o of one half with entry o of the other, and the pair (a, b) at block b,
  offset o is rotated by the angle t(b, o):  a ↦ cos t · a − sin t · b,  b ↦ sin t · a + cos t · b.
  The position of (block b, half hf, offset o) in its row is (b · 2 + hf) · st + o.
  Both programs compute the stage through the same layout steps (view the array as [R, nb, 2, st], slice the two
  halves, multiply by the broadcast cosines and sines, join the halves again, view as [R, W]); this file reads
  each layout step at an index, for any extents.
-/
import Idealize.ShloMosaic.Lib.Pipeline.Value
import Idealize.ShloMosaic.Lib.ValueIdx
import Idealize.ShloMosaic.PureOps.Ideal

noncomputable section

namespace Cert.Bfly

open Idealize.ShloMosaic Idealize.ShloMosaic.ValueIdx

variable {α : Type} {R nb st W : ℕ}

/-- The position in its row of the entry at block b, half hf, offset o. -/
def pos (b : Fin nb) (hf : Fin 2) (o : Fin st) : ℕ := (b.val * 2 + hf.val) * st + o.val

theorem pos_lt (hW : nb * 2 * st = W) (b : Fin nb) (hf : Fin 2) (o : Fin st) : pos b hf o < W := by
  unfold pos
  have hb := b.isLt; have hh := hf.isLt; have ho := o.isLt
  calc (b.val * 2 + hf.val) * st + o.val < (b.val * 2 + hf.val) * st + st := by omega
    _ = (b.val * 2 + hf.val + 1) * st := by ring
    _ ≤ (nb * 2) * st := Nat.mul_le_mul_right _ (by omega)
    _ = W := hW

/-- The column of the entry at block b, half hf, offset o. -/
def col (hW : nb * 2 * st = W) (b : Fin nb) (hf : Fin 2) (o : Fin st) : Fin W := ⟨pos b hf o, pos_lt hW b hf o⟩

/-- Every column is the column of some (block, half, offset). -/
theorem col_surj (hW : nb * 2 * st = W) (k : Fin W) : ∃ (b : Fin nb) (hf : Fin 2) (o : Fin st), k = col hW b hf o := by
  have hk := k.isLt
  have hst : 0 < st := by
    rcases Nat.eq_zero_or_pos st with h | h
    · subst h; simp at hW; omega
    · exact h
  have hq : k.val / st < nb * 2 := by
    apply Nat.div_lt_of_lt_mul
    calc k.val < W := hk
      _ = nb * 2 * st := hW.symm
      _ = st * (nb * 2) := by ring
  refine ⟨⟨k.val / st / 2, by omega⟩, ⟨k.val / st % 2, Nat.mod_lt _ (by decide)⟩, ⟨k.val % st, Nat.mod_lt _ hst⟩, ?_⟩
  apply Fin.ext
  show k.val = (k.val / st / 2 * 2 + k.val / st % 2) * st + k.val % st
  rw [Nat.div_add_mod' (k.val / st) 2, Nat.div_add_mod' k.val st]

/-- The view of an [R, W] array as [R, nb, 2, st]: entry (r, b, hf, o) is entry (r, col b hf o). -/
theorem split_apply (hW : nb * 2 * st = W) (h : (⟨2, ![R, W]⟩ : Shape).Idx → α)
    (hc : (⟨2, ![R, W]⟩ : Shape).ShapeCasts ⟨4, ![R, nb, 2, st]⟩) (r : Fin R) (b : Fin nb) (hf : Fin 2) (o : Fin st) :
    shapeCast ⟨4, ![R, nb, 2, st]⟩ h hc (ix4 r b hf o) = h (ix2 r (col hW b hf o)) := by
  refine shapeCast_apply h hc _ _ ?_
  rw [Shape.rowMajor_val_two, Shape.rowMajor_val_four]
  show r.val * W + ((b.val * 2 + hf.val) * st + o.val) = ((r.val * nb + b.val) * 2 + hf.val) * st + o.val
  rw [← hW]; ring

/-- The view of an [R, nb, 2, st] array as [R, W]: entry (r, col b hf o) is entry (r, b, hf, o). -/
theorem join_apply (hW : nb * 2 * st = W) (X : (⟨4, ![R, nb, 2, st]⟩ : Shape).Idx → α)
    (hc : (⟨4, ![R, nb, 2, st]⟩ : Shape).ShapeCasts ⟨2, ![R, W]⟩) (r : Fin R) (b : Fin nb) (hf : Fin 2) (o : Fin st) :
    shapeCast ⟨2, ![R, W]⟩ X hc (ix2 r (col hW b hf o)) = X (ix4 r b hf o) := by
  refine shapeCast_apply X hc _ _ ?_
  rw [Shape.rowMajor_val_two, Shape.rowMajor_val_four]
  show ((r.val * nb + b.val) * 2 + hf.val) * st + o.val = r.val * W + ((b.val * 2 + hf.val) * st + o.val)
  rw [← hW]; ring

/-- Half e (0 or 1) of the [R, nb, 2, st] view, with its unit axis dropped: entry (r, b, o) is entry (r, b, e, o). -/
theorem half_apply (e : Fin 2) (X : (⟨4, ![R, nb, 2, st]⟩ : Shape).Idx → α)
    (hs : (⟨4, ![R, nb, 2, st]⟩ : Shape).Slices ![0, 0, e.val, 0] ⟨4, ![R, nb, 1, st]⟩)
    (hc : (⟨4, ![R, nb, 1, st]⟩ : Shape).ShapeCasts ⟨3, ![R, nb, st]⟩) (r : Fin R) (b : Fin nb) (o : Fin st) :
    shapeCast ⟨3, ![R, nb, st]⟩ (extractStridedSlice ⟨4, ![R, nb, 1, st]⟩ ![0, 0, e.val, 0] X hs) hc (ix3 r b o)
      = X (ix4 r b e o) := by
  refine (shapeCast_apply _ hc (ix3 r b o) (ix4 r b (0 : Fin 1) o) ?_).trans ?_
  · rw [Shape.rowMajor_val_four, Shape.rowMajor_val_three]
    show ((r.val * nb + b.val) * 1 + 0) * st + o.val = (r.val * nb + b.val) * st + o.val
    ring
  · refine extractStridedSlice_apply _ X hs _ _ fun a => ?_
    match a with
    | ⟨0, _⟩ => show r.val = 0 + r.val; omega
    | ⟨1, _⟩ => show b.val = 0 + b.val; omega
    | ⟨2, _⟩ => show e.val = e.val + 0; omega
    | ⟨3, _⟩ => show o.val = 0 + o.val; omega

/-- A unit axis put back by a shape cast: entry (r, b, 0, o) is entry (r, b, o). -/
theorem unitCast_apply (v : (⟨3, ![R, nb, st]⟩ : Shape).Idx → α)
    (hc : (⟨3, ![R, nb, st]⟩ : Shape).ShapeCasts ⟨4, ![R, nb, 1, st]⟩) (r : Fin R) (b : Fin nb) (o : Fin st) :
    shapeCast ⟨4, ![R, nb, 1, st]⟩ v hc (ix4 r b (0 : Fin 1) o) = v (ix3 r b o) := by
  refine shapeCast_apply v hc _ _ ?_
  rw [Shape.rowMajor_val_four, Shape.rowMajor_val_three]
  show (r.val * nb + b.val) * st + o.val = ((r.val * nb + b.val) * 1 + 0) * st + o.val
  ring

/-- A unit axis put back by a broadcast along the axes 0, 1, 3: entry (r, b, 0, o) is entry (r, b, o). -/
theorem unitBcast_apply (v : (⟨3, ![R, nb, st]⟩ : Shape).Idx → α)
    (hb : (⟨3, ![R, nb, st]⟩ : Shape).BroadcastsInDim ⟨4, ![R, nb, 1, st]⟩ ![0, 1, 3]) (r : Fin R) (b : Fin nb) (o : Fin st) :
    broadcastInDim ⟨4, ![R, nb, 1, st]⟩ ![0, 1, 3] hb v (ix4 r b (0 : Fin 1) o) = v (ix3 r b o) := by
  refine broadcastInDim_apply _ hb v _ _ fun a => ?_
  match a with
  | ⟨0, _⟩ =>
    show r.val = if R = 1 then 0 else r.val
    split
    · have := r.isLt; omega
    · rfl
  | ⟨1, _⟩ =>
    show b.val = if nb = 1 then 0 else b.val
    split
    · have := b.isLt; omega
    · rfl
  | ⟨2, _⟩ =>
    show o.val = if st = 1 then 0 else o.val
    split
    · have := o.isLt; omega
    · rfl

/-- The two halves joined along the axis 2: half 0 comes from the first piece, half 1 from the second. -/
theorem cat_apply (A B : (⟨4, ![R, nb, 1, st]⟩ : Shape).Idx → α)
    (hcat : Shape.Concatenates [(⟨4, ![R, nb, 1, st]⟩ : Shape), ⟨4, ![R, nb, 1, st]⟩] ⟨4, ![R, nb, 2, st]⟩ 2)
    (r : Fin R) (b : Fin nb) (hf : Fin 2) (o : Fin st) :
    concatenate ⟨4, ![R, nb, 2, st]⟩ 2 [⟨⟨4, ![R, nb, 1, st]⟩, A⟩, ⟨⟨4, ![R, nb, 1, st]⟩, B⟩] hcat (ix4 r b hf o)
      = if hf = 0 then A (ix4 r b (0 : Fin 1) o) else B (ix4 r b (0 : Fin 1) o) := by
  by_cases h0 : hf = 0
  · subst h0
    rw [if_pos rfl]
    refine concatenate_pair_apply_left (t := ⟨4, ![R, nb, 2, st]⟩) 2 A B hcat _ rfl _ fun a => ?_
    match a with
    | ⟨0, _⟩ => rfl
    | ⟨1, _⟩ => rfl
    | ⟨2, _⟩ => rfl
    | ⟨3, _⟩ => rfl
  · rw [if_neg h0]
    have h1 : hf.val = 1 := by
      have := hf.isLt
      have : hf.val ≠ 0 := fun h => h0 (Fin.ext h)
      omega
    refine concatenate_pair_apply_right (t := ⟨4, ![R, nb, 2, st]⟩) 2 A B hcat _ rfl rfl _ (fun a ha => ?_) ?_
    · match a with
      | ⟨0, _⟩ => rfl
      | ⟨1, _⟩ => rfl
      | ⟨2, _⟩ => exact absurd rfl ha
      | ⟨3, _⟩ => rfl
    · show 0 + 1 = hf.val
      omega

variable {T N : ℕ}

/-- The position of the angle of block b, offset o among the nb · st angles of a stage. -/
theorem tpos_lt (hT : nb * st = T) (b : Fin nb) (o : Fin st) : b.val * st + o.val < T := by
  have hb := b.isLt; have ho := o.isLt
  calc b.val * st + o.val < b.val * st + st := by omega
    _ = (b.val + 1) * st := by ring
    _ ≤ nb * st := Nat.mul_le_mul_right _ (by omega)
    _ = T := hT

/-- A table [nb, st] given a leading unit axis and broadcast over the rows: entry (r, b, o) is entry (b, o). -/
theorem rowsCast_apply (c2 : (⟨2, ![nb, st]⟩ : Shape).Idx → α)
    (hc : (⟨2, ![nb, st]⟩ : Shape).ShapeCasts ⟨3, ![1, nb, st]⟩)
    (hb : (⟨3, ![1, nb, st]⟩ : Shape).Broadcasts ⟨3, ![R, nb, st]⟩) (r : Fin R) (b : Fin nb) (o : Fin st) :
    broadcastTo ⟨3, ![R, nb, st]⟩ (shapeCast ⟨3, ![1, nb, st]⟩ c2 hc) hb (ix3 r b o) = c2 (ix2 b o) := by
  refine (broadcastTo_apply _ hb (ix3 r b o) (ix3 (0 : Fin 1) b o) fun a => ?_).trans ?_
  · match a with
    | ⟨0, _⟩ => show 0 = if (1 : ℕ) = 1 then 0 else _; rw [if_pos rfl]
    | ⟨1, _⟩ =>
      show b.val = if nb = 1 then 0 else b.val
      split
      · have := b.isLt; omega
      · rfl
    | ⟨2, _⟩ =>
      show o.val = if st = 1 then 0 else o.val
      split
      · have := o.isLt; omega
      · rfl
  · refine shapeCast_apply c2 hc _ _ ?_
    rw [Shape.rowMajor_val_two, Shape.rowMajor_val_three]
    show b.val * st + o.val = (0 * nb + b.val) * st + o.val
    ring

/-- The same through two broadcasts that name their axes: entry (r, b, o) is entry (b, o). -/
theorem rowsBcast_apply (c2 : (⟨2, ![nb, st]⟩ : Shape).Idx → α)
    (hb1 : (⟨2, ![nb, st]⟩ : Shape).BroadcastsInDim ⟨3, ![1, nb, st]⟩ ![1, 2])
    (hb2 : (⟨3, ![1, nb, st]⟩ : Shape).BroadcastsInDim ⟨3, ![R, nb, st]⟩ ![0, 1, 2]) (r : Fin R) (b : Fin nb) (o : Fin st) :
    broadcastInDim ⟨3, ![R, nb, st]⟩ ![0, 1, 2] hb2 (broadcastInDim ⟨3, ![1, nb, st]⟩ ![1, 2] hb1 c2) (ix3 r b o) = c2 (ix2 b o) := by
  refine (broadcastInDim_apply _ hb2 _ (ix3 r b o) (ix3 (0 : Fin 1) b o) fun a => ?_).trans ?_
  · match a with
    | ⟨0, _⟩ => show 0 = if (1 : ℕ) = 1 then 0 else _; rw [if_pos rfl]
    | ⟨1, _⟩ =>
      show b.val = if nb = 1 then 0 else b.val
      split
      · have := b.isLt; omega
      · rfl
    | ⟨2, _⟩ =>
      show o.val = if st = 1 then 0 else o.val
      split
      · have := o.isLt; omega
      · rfl
  · refine broadcastInDim_apply _ hb1 c2 _ _ fun a => ?_
    match a with
    | ⟨0, _⟩ =>
      show b.val = if nb = 1 then 0 else b.val
      split
      · have := b.isLt; omega
      · rfl
    | ⟨1, _⟩ =>
      show o.val = if st = 1 then 0 else o.val
      split
      · have := o.isLt; omega
      · rfl

/-- A row [1, T] of angles viewed as a vector and then as [nb, st]: entry (b, o) is entry (0, b · st + o). -/
theorem tableK_apply (hT : nb * st = T) (v : (⟨2, ![1, T]⟩ : Shape).Idx → α)
    (h1 : (⟨2, ![1, T]⟩ : Shape).ShapeCasts ⟨1, ![T]⟩) (h2 : (⟨1, ![T]⟩ : Shape).ShapeCasts ⟨2, ![nb, st]⟩)
    (b : Fin nb) (o : Fin st) :
    shapeCast ⟨2, ![nb, st]⟩ (shapeCast ⟨1, ![T]⟩ v h1) h2 (ix2 b o) = v (ix2 (0 : Fin 1) ⟨b.val * st + o.val, tpos_lt hT b o⟩) := by
  refine (shapeCast_apply _ h2 (ix2 b o) (ix1 ⟨b.val * st + o.val, tpos_lt hT b o⟩) ?_).trans ?_
  · rw [Shape.rowMajor_val_one, Shape.rowMajor_val_two]; rfl
  · refine shapeCast_apply v h1 _ _ ?_
    rw [Shape.rowMajor_val_one, Shape.rowMajor_val_two]
    show 0 * T + (b.val * st + o.val) = b.val * st + o.val
    ring

/-- The T angles from offset off of a vector of N angles, viewed as [nb, st]: entry (b, o) is entry off + b · st + o. -/
theorem tableR_apply (off : ℕ) (θ : (⟨1, ![N]⟩ : Shape).Idx → α)
    (hs : (⟨1, ![N]⟩ : Shape).Slices ![off] ⟨1, ![T]⟩) (hc : (⟨1, ![T]⟩ : Shape).ShapeCasts ⟨2, ![nb, st]⟩)
    (hT : nb * st = T) (b : Fin nb) (o : Fin st) (hlt : off + (b.val * st + o.val) < N) :
    shapeCast ⟨2, ![nb, st]⟩ (extractStridedSlice ⟨1, ![T]⟩ ![off] θ hs) hc (ix2 b o) = θ (ix1 ⟨off + (b.val * st + o.val), hlt⟩) := by
  refine (shapeCast_apply _ hc (ix2 b o) (ix1 ⟨b.val * st + o.val, tpos_lt hT b o⟩) ?_).trans ?_
  · rw [Shape.rowMajor_val_one, Shape.rowMajor_val_two]; rfl
  · refine extractStridedSlice_apply _ θ hs _ _ fun a => ?_
    match a with
    | ⟨0, _⟩ => rfl

/-! ## The stage -/

section Stage

variable (hW : nb * 2 * st = W)

/-- One stage over the [R, nb, 2, st] view, given the cosines C and sines S already laid out as [R, nb, st] and the way a
    rotated half gets its unit axis back (unit): the halves a, b become C·a − S·b and S·a + C·b. -/
def core
    (hsplit : (⟨2, ![R, W]⟩ : Shape).ShapeCasts ⟨4, ![R, nb, 2, st]⟩)
    (hs0 : (⟨4, ![R, nb, 2, st]⟩ : Shape).Slices ![0, 0, 0, 0] ⟨4, ![R, nb, 1, st]⟩)
    (hs1 : (⟨4, ![R, nb, 2, st]⟩ : Shape).Slices ![0, 0, 1, 0] ⟨4, ![R, nb, 1, st]⟩)
    (hdrop : (⟨4, ![R, nb, 1, st]⟩ : Shape).ShapeCasts ⟨3, ![R, nb, st]⟩)
    (hcat : Shape.Concatenates [(⟨4, ![R, nb, 1, st]⟩ : Shape), ⟨4, ![R, nb, 1, st]⟩] ⟨4, ![R, nb, 2, st]⟩ 2)
    (hjoin : (⟨4, ![R, nb, 2, st]⟩ : Shape).ShapeCasts ⟨2, ![R, W]⟩)
    (unit : FVec Ideal ⟨3, ![R, nb, st]⟩ .f32 → FVec Ideal ⟨4, ![R, nb, 1, st]⟩ .f32)
    (C S : FVec Ideal ⟨3, ![R, nb, st]⟩ .f32) (h : FVec Ideal ⟨2, ![R, W]⟩ .f32) : FVec Ideal ⟨2, ![R, W]⟩ .f32 :=
  shapeCast ⟨2, ![R, W]⟩
    (concatenate ⟨4, ![R, nb, 2, st]⟩ 2
      [⟨⟨4, ![R, nb, 1, st]⟩, unit (subf
          (mulf C (shapeCast ⟨3, ![R, nb, st]⟩ (extractStridedSlice ⟨4, ![R, nb, 1, st]⟩ ![0, 0, 0, 0] (shapeCast ⟨4, ![R, nb, 2, st]⟩ h hsplit) hs0) hdrop))
          (mulf S (shapeCast ⟨3, ![R, nb, st]⟩ (extractStridedSlice ⟨4, ![R, nb, 1, st]⟩ ![0, 0, 1, 0] (shapeCast ⟨4, ![R, nb, 2, st]⟩ h hsplit) hs1) hdrop)))⟩,
       ⟨⟨4, ![R, nb, 1, st]⟩, unit (addf
          (mulf S (shapeCast ⟨3, ![R, nb, st]⟩ (extractStridedSlice ⟨4, ![R, nb, 1, st]⟩ ![0, 0, 0, 0] (shapeCast ⟨4, ![R, nb, 2, st]⟩ h hsplit) hs0) hdrop))
          (mulf C (shapeCast ⟨3, ![R, nb, st]⟩ (extractStridedSlice ⟨4, ![R, nb, 1, st]⟩ ![0, 0, 1, 0] (shapeCast ⟨4, ![R, nb, 2, st]⟩ h hsplit) hs1) hdrop)))⟩]
      hcat)
    hjoin

/-- The stage entry by entry: at block b, offset o the half 0 becomes C·a − S·b and the half 1 becomes S·a + C·b,
    a and b the entries of the two halves at (b, o) in the same row. -/
theorem core_apply hsplit hs0 hs1 hdrop hcat hjoin
    (unit : FVec Ideal ⟨3, ![R, nb, st]⟩ .f32 → FVec Ideal ⟨4, ![R, nb, 1, st]⟩ .f32)
    (hunit : ∀ v r b o, unit v (ix4 r b (0 : Fin 1) o) = v (ix3 r b o))
    (C S : FVec Ideal ⟨3, ![R, nb, st]⟩ .f32) (h : FVec Ideal ⟨2, ![R, W]⟩ .f32)
    (r : Fin R) (b : Fin nb) (hf : Fin 2) (o : Fin st) :
    core hsplit hs0 hs1 hdrop hcat hjoin unit C S h (ix2 r (col hW b hf o))
      = if hf = 0 then C (ix3 r b o) * h (ix2 r (col hW b 0 o)) - S (ix3 r b o) * h (ix2 r (col hW b 1 o))
        else S (ix3 r b o) * h (ix2 r (col hW b 0 o)) + C (ix3 r b o) * h (ix2 r (col hW b 1 o)) := by
  unfold core
  rw [join_apply hW, cat_apply, hunit, hunit]
  have ha : shapeCast ⟨3, ![R, nb, st]⟩ (extractStridedSlice ⟨4, ![R, nb, 1, st]⟩ ![0, 0, 0, 0] (shapeCast ⟨4, ![R, nb, 2, st]⟩ h hsplit) hs0) hdrop (ix3 r b o)
      = h (ix2 r (col hW b 0 o)) :=
    (half_apply (0 : Fin 2) _ hs0 hdrop r b o).trans (split_apply hW h hsplit r b 0 o)
  have hb : shapeCast ⟨3, ![R, nb, st]⟩ (extractStridedSlice ⟨4, ![R, nb, 1, st]⟩ ![0, 0, 1, 0] (shapeCast ⟨4, ![R, nb, 2, st]⟩ h hsplit) hs1) hdrop (ix3 r b o)
      = h (ix2 r (col hW b 1 o)) :=
    (half_apply (1 : Fin 2) _ hs1 hdrop r b o).trans (split_apply hW h hsplit r b 1 o)
  rw [subf_apply, addf_apply, mulf_apply, mulf_apply, mulf_apply, mulf_apply, ha, hb]

end Stage

/-! ## Rows -/

/-- Y holds, row for row, the rows e of X. -/
def RowsOf {R' n : ℕ} (e : Fin R' → Fin R) (Y : (⟨2, ![R', n]⟩ : Shape).Idx → EReal) (X : (⟨2, ![R, n]⟩ : Shape).Idx → EReal) : Prop :=
  ∀ (r : Fin R') (k : Fin n), Y (ix2 r k) = X (ix2 (e r) k)

/-! ## The stage as each program spells it -/

section Spellings

variable {R' off : ℕ}

theorem hostCos_apply {s : Shape} (x : FVec Ideal s .f32) (i : s.Idx) : Host.cos x i = FloatOps.hostUnary (F := Ideal) .cos (x i) := rfl
theorem hostSin_apply {s : Shape} (x : FVec Ideal s .f32) (i : s.Idx) : Host.sin x i = FloatOps.hostUnary (F := Ideal) .sin (x i) := rfl

/-- The stage with the cosines and sines given as rows [1, T] of ready-made tables: each row is viewed as [nb, st], given a
    leading unit axis and broadcast over the R rows; a rotated half gets its unit axis back by a shape cast. -/
def stageK
    (hsplit : (⟨2, ![R, W]⟩ : Shape).ShapeCasts ⟨4, ![R, nb, 2, st]⟩)
    (hs0 : (⟨4, ![R, nb, 2, st]⟩ : Shape).Slices ![0, 0, 0, 0] ⟨4, ![R, nb, 1, st]⟩)
    (hs1 : (⟨4, ![R, nb, 2, st]⟩ : Shape).Slices ![0, 0, 1, 0] ⟨4, ![R, nb, 1, st]⟩)
    (hdrop : (⟨4, ![R, nb, 1, st]⟩ : Shape).ShapeCasts ⟨3, ![R, nb, st]⟩)
    (hcat : Shape.Concatenates [(⟨4, ![R, nb, 1, st]⟩ : Shape), ⟨4, ![R, nb, 1, st]⟩] ⟨4, ![R, nb, 2, st]⟩ 2)
    (hjoin : (⟨4, ![R, nb, 2, st]⟩ : Shape).ShapeCasts ⟨2, ![R, W]⟩)
    (hins : (⟨3, ![R, nb, st]⟩ : Shape).ShapeCasts ⟨4, ![R, nb, 1, st]⟩)
    (q1 : (⟨2, ![1, T]⟩ : Shape).ShapeCasts ⟨1, ![T]⟩) (q2 : (⟨1, ![T]⟩ : Shape).ShapeCasts ⟨2, ![nb, st]⟩)
    (q3 : (⟨2, ![nb, st]⟩ : Shape).ShapeCasts ⟨3, ![1, nb, st]⟩) (qb : (⟨3, ![1, nb, st]⟩ : Shape).Broadcasts ⟨3, ![R, nb, st]⟩)
    (vc vs : FVec Ideal ⟨2, ![1, T]⟩ .f32) (h : FVec Ideal ⟨2, ![R, W]⟩ .f32) : FVec Ideal ⟨2, ![R, W]⟩ .f32 :=
  core hsplit hs0 hs1 hdrop hcat hjoin (fun v => shapeCast ⟨4, ![R, nb, 1, st]⟩ v hins)
    (broadcastTo ⟨3, ![R, nb, st]⟩ (shapeCast ⟨3, ![1, nb, st]⟩ (shapeCast ⟨2, ![nb, st]⟩ (shapeCast ⟨1, ![T]⟩ vc q1) q2) q3) qb)
    (broadcastTo ⟨3, ![R, nb, st]⟩ (shapeCast ⟨3, ![1, nb, st]⟩ (shapeCast ⟨2, ![nb, st]⟩ (shapeCast ⟨1, ![T]⟩ vs q1) q2) q3) qb)
    h

/-- The stage with the angles taken from a vector of N angles at offset off: the T angles are viewed as [nb, st], their
    cosines and sines broadcast over the R rows through two broadcasts that name their axes; a rotated half gets its unit
    axis back by a broadcast along the axes 0, 1, 3. -/
def stageR (off : ℕ)
    (hsplit : (⟨2, ![R, W]⟩ : Shape).ShapeCasts ⟨4, ![R, nb, 2, st]⟩)
    (hs0 : (⟨4, ![R, nb, 2, st]⟩ : Shape).Slices ![0, 0, 0, 0] ⟨4, ![R, nb, 1, st]⟩)
    (hs1 : (⟨4, ![R, nb, 2, st]⟩ : Shape).Slices ![0, 0, 1, 0] ⟨4, ![R, nb, 1, st]⟩)
    (hdrop : (⟨4, ![R, nb, 1, st]⟩ : Shape).ShapeCasts ⟨3, ![R, nb, st]⟩)
    (hcat : Shape.Concatenates [(⟨4, ![R, nb, 1, st]⟩ : Shape), ⟨4, ![R, nb, 1, st]⟩] ⟨4, ![R, nb, 2, st]⟩ 2)
    (hjoin : (⟨4, ![R, nb, 2, st]⟩ : Shape).ShapeCasts ⟨2, ![R, W]⟩)
    (hins : (⟨3, ![R, nb, st]⟩ : Shape).BroadcastsInDim ⟨4, ![R, nb, 1, st]⟩ ![0, 1, 3])
    (ps : (⟨1, ![N]⟩ : Shape).Slices ![off] ⟨1, ![T]⟩) (pc : (⟨1, ![T]⟩ : Shape).ShapeCasts ⟨2, ![nb, st]⟩)
    (p1 : (⟨2, ![nb, st]⟩ : Shape).BroadcastsInDim ⟨3, ![1, nb, st]⟩ ![1, 2])
    (p2 : (⟨3, ![1, nb, st]⟩ : Shape).BroadcastsInDim ⟨3, ![R, nb, st]⟩ ![0, 1, 2])
    (θ : FVec Ideal ⟨1, ![N]⟩ .f32) (h : FVec Ideal ⟨2, ![R, W]⟩ .f32) : FVec Ideal ⟨2, ![R, W]⟩ .f32 :=
  core hsplit hs0 hs1 hdrop hcat hjoin (fun v => broadcastInDim ⟨4, ![R, nb, 1, st]⟩ ![0, 1, 3] hins v)
    (broadcastInDim ⟨3, ![R, nb, st]⟩ ![0, 1, 2] p2 (broadcastInDim ⟨3, ![1, nb, st]⟩ ![1, 2] p1
      (Host.cos (shapeCast ⟨2, ![nb, st]⟩ (extractStridedSlice ⟨1, ![T]⟩ ![off] θ ps) pc))))
    (broadcastInDim ⟨3, ![R, nb, st]⟩ ![0, 1, 2] p2 (broadcastInDim ⟨3, ![1, nb, st]⟩ ![1, 2] p1
      (Host.sin (shapeCast ⟨2, ![nb, st]⟩ (extractStridedSlice ⟨1, ![T]⟩ ![off] θ ps) pc))))
    h

/-- Row for row the two spellings agree: if Y holds the rows e of X and the ready-made tables hold the cosines and sines
    of the angles at off …, then the stage of Y holds the rows e of the stage of X. -/
theorem stage_rows (hW : nb * 2 * st = W) (hT : nb * st = T) (hoff : off + T ≤ N) (e : Fin R' → Fin R)
    hsplit hs0 hs1 hdrop hcat hjoin hins q1 q2 q3 qb
    hsplit' hs0' hs1' hdrop' hcat' hjoin' hins' ps pc p1 p2
    (vc vs : FVec Ideal ⟨2, ![1, T]⟩ .f32) (θ : FVec Ideal ⟨1, ![N]⟩ .f32)
    (hvc : ∀ (j : Fin T) (hlt : off + j.val < N), vc (ix2 (0 : Fin 1) j) = FloatOps.hostUnary (F := Ideal) .cos (θ (ix1 ⟨off + j.val, hlt⟩)))
    (hvs : ∀ (j : Fin T) (hlt : off + j.val < N), vs (ix2 (0 : Fin 1) j) = FloatOps.hostUnary (F := Ideal) .sin (θ (ix1 ⟨off + j.val, hlt⟩)))
    (Y : FVec Ideal ⟨2, ![R', W]⟩ .f32) (X : FVec Ideal ⟨2, ![R, W]⟩ .f32) (hY : RowsOf e Y X) :
    RowsOf e (stageK (R := R') (nb := nb) (st := st) (T := T) hsplit hs0 hs1 hdrop hcat hjoin hins q1 q2 q3 qb vc vs Y)
      (stageR (R := R) (nb := nb) (st := st) (T := T) (N := N) off hsplit' hs0' hs1' hdrop' hcat' hjoin' hins' ps pc p1 p2 θ X) := by
  intro r k
  obtain ⟨b, hf, o, rfl⟩ := col_surj hW k
  have hlt : off + (b.val * st + o.val) < N := by have := tpos_lt hT b o; omega
  unfold stageK stageR
  rw [core_apply hW _ _ _ _ _ _ _ (fun v r b o => unitCast_apply v hins r b o),
    core_apply hW _ _ _ _ _ _ _ (fun v r b o => unitBcast_apply v hins' r b o),
    rowsCast_apply, rowsCast_apply, tableK_apply hT, tableK_apply hT,
    rowsBcast_apply, rowsBcast_apply, hostCos_apply, hostSin_apply, tableR_apply off θ ps pc hT b o hlt,
    hvc _ hlt, hvs _ hlt, hY, hY]

end Spellings

end Cert.Bfly

end
-- ==== Proof.LibDenseRows.lean ====
/-
  A row-tiled affine layer x · w + b and the maximum with zero, read entry by entry for any extents, in the two
  spellings the programs use (a matrix unit's product into a zero accumulator with a [1, N] bias broadcast over the
  rows; a host product with an [N] bias broadcast through [1, N]). Every product is the plain finite sum over the
  contracted coordinate, so a layer applied to some rows of an array gives the same rows of the layer applied to the
  whole array.
-/
import Idealize.ShloMosaic.Lib.Pipeline.Value
import Idealize.ShloMosaic.Lib.ValueIdx
import Idealize.ShloMosaic.Lib.StackMember
import Idealize.ShloMosaic.PureOps.Ideal.Laws
import proofs.«176633_j7954279432525_1_alg».proof.Proof.LibButterfly

noncomputable section

namespace Cert.Dense

open Idealize.ShloMosaic Idealize.ShloMosaic.ValueIdx Cert.Bfly

variable {R R' K N : ℕ} {φ₁ φ₂ : FTy}

/-- The plain product of an R×K by a K×N matrix into a zero accumulator, read at an index, is the sum over the
    contracted coordinate of the products of the entries. -/
theorem matmul_plain_apply (prec : Option ContractPrecision)
    (A : FVec Ideal ⟨2, ![R, K]⟩ φ₁) (B : FVec Ideal ⟨2, ![K, N]⟩ φ₂) (a : Fin R) (b : Fin N) :
    matmul (DotDims.plain R K N) prec A B (constant ⟨2, ![R, N]⟩ .f32 0x00000000#32) (ix2 a b) = ∑ c : Fin K, A (ix2 a c) * B (ix2 c b) := by
  show FloatOps.matmul _ prec A B _ (ix2 a b) = _
  rw [Ideal.matmul_constant_zero_apply, ← Equiv.sum_comp (contrEquiv1 (DotDims.plain R K N) K rfl rfl).symm]
  refine Finset.sum_congr rfl fun c _ => ?_
  have c2 := contrEquiv1_symm_val (DotDims.plain R K N) K rfl rfl c
  have l2 : (DotDims.plain R K N).lhsIdx (ix2 a b) ((contrEquiv1 _ K rfl rfl).symm c) = ix2 a c := by
    funext ax; apply Fin.ext
    match ax with
    | ⟨0, _⟩ => simp [DotDims.lhsIdx, DotDims.plain]; rfl
    | ⟨1, _⟩ => simp [DotDims.lhsIdx, DotDims.plain]; exact c2
  have r2 : (DotDims.plain R K N).rhsIdx (ix2 a b) ((contrEquiv1 _ K rfl rfl).symm c) = ix2 c b := by
    funext ax; apply Fin.ext
    match ax with
    | ⟨0, _⟩ => simp [DotDims.rhsIdx, DotDims.plain]; exact c2
    | ⟨1, _⟩ => simp [DotDims.rhsIdx, DotDims.plain]; rfl
  rw [l2, r2]

/-- The affine layer as a matrix unit computes it: the product into a zero accumulator plus the [1, N] bias broadcast over
    the rows. -/
def affK (pb : (⟨2, ![1, N]⟩ : Shape).Broadcasts ⟨2, ![R, N]⟩)
    (x : FVec Ideal ⟨2, ![R, K]⟩ φ₁) (w : FVec Ideal ⟨2, ![K, N]⟩ φ₂) (bias : FVec Ideal ⟨2, ![1, N]⟩ .f32) : FVec Ideal ⟨2, ![R, N]⟩ .f32 :=
  addf (matmul (DotDims.plain R K N) none x w (constant ⟨2, ![R, N]⟩ .f32 0x00000000#32)) (broadcastTo ⟨2, ![R, N]⟩ bias pb)

/-- The affine layer as the host computes it: the product plus the [N] bias broadcast through [1, N]. -/
def affR (p1 : (⟨1, ![N]⟩ : Shape).BroadcastsInDim ⟨2, ![1, N]⟩ ![1]) (p2 : (⟨2, ![1, N]⟩ : Shape).BroadcastsInDim ⟨2, ![R, N]⟩ ![0, 1])
    (x : FVec Ideal ⟨2, ![R, K]⟩ φ₁) (w : FVec Ideal ⟨2, ![K, N]⟩ φ₂) (b1 : FVec Ideal ⟨1, ![N]⟩ .f32) : FVec Ideal ⟨2, ![R, N]⟩ .f32 :=
  addf (Host.dotGeneral (DotDims.plain R K N) none x w) (broadcastInDim ⟨2, ![R, N]⟩ ![0, 1] p2 (broadcastInDim ⟨2, ![1, N]⟩ ![1] p1 b1))

theorem affK_apply (pb : (⟨2, ![1, N]⟩ : Shape).Broadcasts ⟨2, ![R, N]⟩)
    (x : FVec Ideal ⟨2, ![R, K]⟩ φ₁) (w : FVec Ideal ⟨2, ![K, N]⟩ φ₂) (bias : FVec Ideal ⟨2, ![1, N]⟩ .f32) (r : Fin R) (n : Fin N) :
    affK pb x w bias (ix2 r n) = (∑ c : Fin K, x (ix2 r c) * w (ix2 c n)) + bias (ix2 (0 : Fin 1) n) := by
  unfold affK
  rw [addf_apply, matmul_plain_apply]
  refine congrArg _ (broadcastTo_apply bias pb _ _ fun a => ?_)
  match a with
  | ⟨0, _⟩ => show 0 = if (1 : ℕ) = 1 then 0 else _; rw [if_pos rfl]
  | ⟨1, _⟩ =>
    show n.val = if N = 1 then 0 else n.val
    split
    · have := n.isLt; omega
    · rfl

theorem affR_apply (p1 : (⟨1, ![N]⟩ : Shape).BroadcastsInDim ⟨2, ![1, N]⟩ ![1]) (p2 : (⟨2, ![1, N]⟩ : Shape).BroadcastsInDim ⟨2, ![R, N]⟩ ![0, 1])
    (x : FVec Ideal ⟨2, ![R, K]⟩ φ₁) (w : FVec Ideal ⟨2, ![K, N]⟩ φ₂) (b1 : FVec Ideal ⟨1, ![N]⟩ .f32) (r : Fin R) (n : Fin N) :
    affR p1 p2 x w b1 (ix2 r n) = (∑ c : Fin K, x (ix2 r c) * w (ix2 c n)) + b1 (ix1 n) := by
  unfold affR
  rw [addf_apply, StackMember.dotGeneral_plain_apply]
  refine congrArg _ ((broadcastInDim_apply _ p2 _ (ix2 r n) (ix2 (0 : Fin 1) n) fun a => ?_).trans
    (broadcastInDim_apply _ p1 b1 _ _ fun a => ?_))
  · match a with
    | ⟨0, _⟩ => show 0 = if (1 : ℕ) = 1 then 0 else _; rw [if_pos rfl]
    | ⟨1, _⟩ =>
      show n.val = if N = 1 then 0 else n.val
      split
      · have := n.isLt; omega
      · rfl
  · match a with
    | ⟨0, _⟩ =>
      show n.val = if N = 1 then 0 else n.val
      split
      · have := n.isLt; omega
      · rfl

/-- The affine layer of some rows is the same rows of the affine layer. -/
theorem aff_rows (e : Fin R' → Fin R) (pb : (⟨2, ![1, N]⟩ : Shape).Broadcasts ⟨2, ![R', N]⟩) p1 p2
    (x' : FVec Ideal ⟨2, ![R', K]⟩ φ₁) (w' : FVec Ideal ⟨2, ![K, N]⟩ φ₂) (bias : FVec Ideal ⟨2, ![1, N]⟩ .f32)
    (x : FVec Ideal ⟨2, ![R, K]⟩ .f32) (w : FVec Ideal ⟨2, ![K, N]⟩ .f32) (b1 : FVec Ideal ⟨1, ![N]⟩ .f32)
    (hx : ∀ r k, x' (ix2 r k) = x (ix2 (e r) k)) (hw : ∀ k n, w' (ix2 k n) = w (ix2 k n)) (hb : ∀ n, bias (ix2 (0 : Fin 1) n) = b1 (ix1 n)) :
    RowsOf e (affK pb x' w' bias) (affR (R := R) p1 p2 x w b1) := by
  intro r n
  rw [affK_apply, affR_apply, hb]
  exact congrArg (· + b1 (ix1 n)) (Finset.sum_congr rfl fun c _ => by rw [hx, hw])

/-- The maximum with zero as the kernel spells it. -/
def reluK (v : FVec Ideal ⟨2, ![R, N]⟩ .f32) : FVec Ideal ⟨2, ![R, N]⟩ .f32 :=
  maximumf v (broadcast ⟨2, ![R, N]⟩ (Scalar.ofBits (F := Ideal) .f32 0x00000000#32))

/-- The maximum with zero as the host spells it. -/
def reluR (p : (⟨0, ![]⟩ : Shape).BroadcastsInDim ⟨2, ![R, N]⟩ ![]) (v : FVec Ideal ⟨2, ![R, N]⟩ .f32) : FVec Ideal ⟨2, ![R, N]⟩ .f32 :=
  maximumf v (broadcastInDim ⟨2, ![R, N]⟩ ![] p (constant (F := Ideal) ⟨0, ![]⟩ .f32 0x00000000#32))

/-- The maximum with zero of some rows is the same rows of the maximum with zero. -/
theorem relu_rows (e : Fin R' → Fin R) p (Y : FVec Ideal ⟨2, ![R', N]⟩ .f32) (X : FVec Ideal ⟨2, ![R, N]⟩ .f32) (h : RowsOf e Y X) :
    RowsOf e (reluK Y) (reluR p X) := by
  intro r n
  unfold reluK reluR
  rw [maximumf_apply, maximumf_apply, h r n]
  rfl

end Cert.Dense

end
-- ==== Proof.KBody.lean ====
/-
  One row tile of a layer, entry by entry.

  A tile holds 4000 nodes. With h the tile's node features, a₀ a₁ a₂ the three relations' neighbour means on the tile,
  wl, wr the transposed weight slices (wl (t, k, d)), b the bias slice and the tile's validity column, the tile's result
  at row r and feature d is

      max ( Σ_t ( Σ_k a_t(r, k) · wl(t, k, d) + Σ_k h(r, k) · wr(t, k, d) + b(t, d) ), 0 ) · valid(r),

  the three relations summed in the order t = 0, 1, 2, each product into a zero accumulator. The lemmas below read each
  piece at an index — the product, one matrix or one bias row out of three, the two broadcasts —, name the tile's entry
  (tileAt), and restate it as the layer's entry when the tile's blocks are rows of whole arrays.
-/
import proofs.«176633_j7954279432525_1_alg».proof.Proof.Gen.KernelIdeal.Frame
import proofs.«176633_j7954279432525_1_alg».proof.Proof.Spec
import proofs.«176633_j7954279432525_1_alg».proof.Proof.LibDenseRows
import Idealize.ShloMosaic.Lib.Pipeline.Value
import Idealize.ShloMosaic.Lib.ValueIdx
import Idealize.ShloMosaic.Lib.ValueLayout
import Idealize.ShloMosaic.PureOps.Ideal.Laws

noncomputable section
open Idealize.ShloMosaic Idealize.ShloMosaic.TcCoe Idealize.SL.Sem Idealize.ShloMosaic.ValueIdx
open Cert.KernelIdeal Cert.KernelIdeal.Gen Cert.Sage

namespace Cert.Sage.KB

theorem hz2 : (![0, 0] : Fin 2 → Nat) = fun _ => 0 := funext fun a => by fin_cases a <;> rfl

/-- The product of a 4000×128 tile by a 128×128 matrix into a zero accumulator. -/
def mm (A : FVec Ideal S4000x128 .bf16) (B : FVec Ideal S128x128 .bf16) : FVec Ideal S4000x128 .f32 :=
  matmul dot_S4000x128_S128x128_S4000x128_1_0_0_1_n_n none A B (constant S4000x128 .f32 0x00000000#32)

theorem mm_apply (A : FVec Ideal S4000x128 .bf16) (B : FVec Ideal S128x128 .bf16) (r : Fin 4000) (d : Fin 128) :
    mm A B (ix2 r d) = ∑ k : Fin 128, A (ix2 r k) * B (ix2 k d) :=
  Cert.Dense.matmul_plain_apply none A B r d

/-- One 128×128 matrix of the three, as the product reads it. -/
def wm (v : Vec Ideal S1x128x128 .f32) : FVec Ideal S128x128 .bf16 :=
  truncf .bf16 (shapeCast S128x128 v shapeCasts_S1x128x128_S128x128) bitsLt_bf16_f32

theorem wm_apply (v : Vec Ideal S1x128x128 .f32) (k d : Fin 128) : wm v (ix2 k d) = v (ix3 (0 : Fin 1) k d) :=
  shapeCast_1ab_ab_apply v shapeCasts_S1x128x128_S128x128 k d

/-- One bias row of the three, broadcast over the tile's rows. -/
def bb (v : Vec Ideal S1x128 .f32) : FVec Ideal S4000x128 .f32 :=
  broadcastTo S4000x128 (shapeCast S1x128 (shapeCast S128 v shapeCasts_S1x128_S128) shapeCasts_S128_S1x128) broadcasts_S1x128_S4000x128

theorem bb_apply (v : Vec Ideal S1x128 .f32) (r : Fin 4000) (d : Fin 128) : bb v (ix2 r d) = v (ix2 (0 : Fin 1) d) := by
  unfold bb
  rw [shapeCast_shapeCast]
  exact broadcastTo_1b_ab_apply v broadcasts_S1x128_S4000x128 r d

/-- The validity column broadcast over the tile's columns. -/
def mb (v : Vec Ideal S4000x1 .f32) : FVec Ideal S4000x128 .f32 :=
  broadcastTo S4000x128 (shapeCast S4000x1 v shapeCasts_S4000x1_S4000x1) broadcasts_S4000x1_S4000x128

theorem mb_apply (v : Vec Ideal S4000x1 .f32) (r : Fin 4000) (d : Fin 128) : mb v (ix2 r d) = v (ix2 r (0 : Fin 1)) := by
  unfold mb
  rw [shapeCast_self]
  refine broadcastTo_apply v broadcasts_S4000x1_S4000x128 (ix2 r d) (ix2 r (0 : Fin 1)) fun ax => ?_
  match ax with
  | ⟨0, _⟩ => rfl
  | ⟨1, _⟩ => rfl

/-! The loads of one matrix, or one bias row, out of three. -/

theorem ld_w0 (x : Vec Ideal S3x128x128 .f32) (k d : Fin 128) : View.ld x r0_1 (ix3 (0 : Fin 1) k d) = x (ix3 (0 : Fin 3) k d) := by
  show x (r0_1.idx (ix3 (0 : Fin 1) k d)) = _
  refine congrArg x (funext fun a => Fin.ext ?_)
  match a with
  | ⟨0, _⟩ => rfl
  | ⟨1, _⟩ => show 0 + 1 * k.val = k.val; omega
  | ⟨2, _⟩ => show 0 + 1 * d.val = d.val; omega

theorem ld_w1 (x : Vec Ideal S3x128x128 .f32) (k d : Fin 128) : View.ld x r0_3 (ix3 (0 : Fin 1) k d) = x (ix3 (1 : Fin 3) k d) := by
  show x (r0_3.idx (ix3 (0 : Fin 1) k d)) = _
  refine congrArg x (funext fun a => Fin.ext ?_)
  match a with
  | ⟨0, _⟩ => rfl
  | ⟨1, _⟩ => show 0 + 1 * k.val = k.val; omega
  | ⟨2, _⟩ => show 0 + 1 * d.val = d.val; omega

theorem ld_w2 (x : Vec Ideal S3x128x128 .f32) (k d : Fin 128) : View.ld x r0_5 (ix3 (0 : Fin 1) k d) = x (ix3 (2 : Fin 3) k d) := by
  show x (r0_5.idx (ix3 (0 : Fin 1) k d)) = _
  refine congrArg x (funext fun a => Fin.ext ?_)
  match a with
  | ⟨0, _⟩ => rfl
  | ⟨1, _⟩ => show 0 + 1 * k.val = k.val; omega
  | ⟨2, _⟩ => show 0 + 1 * d.val = d.val; omega

theorem ld_b0 (x : Vec Ideal S3x128 .f32) (d : Fin 128) : View.ld x r0_2 (ix2 (0 : Fin 1) d) = x (ix2 (0 : Fin 3) d) := by
  show x (r0_2.idx (ix2 (0 : Fin 1) d)) = _
  refine congrArg x (funext fun a => Fin.ext ?_)
  match a with
  | ⟨0, _⟩ => rfl
  | ⟨1, _⟩ => show 0 + 1 * d.val = d.val; omega

theorem ld_b1 (x : Vec Ideal S3x128 .f32) (d : Fin 128) : View.ld x r0_4 (ix2 (0 : Fin 1) d) = x (ix2 (1 : Fin 3) d) := by
  show x (r0_4.idx (ix2 (0 : Fin 1) d)) = _
  refine congrArg x (funext fun a => Fin.ext ?_)
  match a with
  | ⟨0, _⟩ => rfl
  | ⟨1, _⟩ => show 0 + 1 * d.val = d.val; omega

theorem ld_b2 (x : Vec Ideal S3x128 .f32) (d : Fin 128) : View.ld x r0_6 (ix2 (0 : Fin 1) d) = x (ix2 (2 : Fin 3) d) := by
  show x (r0_6.idx (ix2 (0 : Fin 1) d)) = _
  refine congrArg x (funext fun a => Fin.ext ?_)
  match a with
  | ⟨0, _⟩ => rfl
  | ⟨1, _⟩ => show 0 + 1 * d.val = d.val; omega

theorem wm_ld0 (x : Vec Ideal S3x128x128 .f32) (k d : Fin 128) : wm (View.ld x r0_1) (ix2 k d) = x (ix3 (0 : Fin 3) k d) :=
  (wm_apply _ k d).trans (ld_w0 x k d)
theorem wm_ld1 (x : Vec Ideal S3x128x128 .f32) (k d : Fin 128) : wm (View.ld x r0_3) (ix2 k d) = x (ix3 (1 : Fin 3) k d) :=
  (wm_apply _ k d).trans (ld_w1 x k d)
theorem wm_ld2 (x : Vec Ideal S3x128x128 .f32) (k d : Fin 128) : wm (View.ld x r0_5) (ix2 k d) = x (ix3 (2 : Fin 3) k d) :=
  (wm_apply _ k d).trans (ld_w2 x k d)

/-- The tile's entry at row r and feature d, from the tile's blocks: the three relations' terms summed in order, the
    maximum with zero, the row's validity. -/
def tileAt (x0 x1 x2 x3 : Vec Ideal S4000x128 .f32) (x4 : Vec Ideal S4000x1 .f32) (x5 x7 : Vec Ideal S3x128x128 .f32)
    (x6 : Vec Ideal S3x128 .f32) (r : Fin 4000) (d : Fin 128) : EReal :=
  max ((∑ k : Fin 128, x1 (ix2 r k) * x5 (ix3 (0 : Fin 3) k d)) + (∑ k : Fin 128, x0 (ix2 r k) * x7 (ix3 (0 : Fin 3) k d)) + x6 (ix2 (0 : Fin 3) d)
      + (∑ k : Fin 128, x2 (ix2 r k) * x5 (ix3 (1 : Fin 3) k d)) + (∑ k : Fin 128, x0 (ix2 r k) * x7 (ix3 (1 : Fin 3) k d)) + x6 (ix2 (1 : Fin 3) d)
      + (∑ k : Fin 128, x3 (ix2 r k) * x5 (ix3 (2 : Fin 3) k d)) + (∑ k : Fin 128, x0 (ix2 r k) * x7 (ix3 (2 : Fin 3) k d)) + x6 (ix2 (2 : Fin 3) d)) 0
    * x4 (ix2 r (0 : Fin 1))

/-- The tile's entry is the layer's entry at node n, when row r of each of the tile's blocks is row n of its array and the
    tile sees the weights and the bias whole. -/
theorem tileAt_eq_layer (x0 x1 x2 x3 : Vec Ideal S4000x128 .f32) (x4 : Vec Ideal S4000x1 .f32) (x5 x7 : Vec Ideal S3x128x128 .f32)
    (x6 : Vec Ideal S3x128 .f32) (h a0 a1 a2 : FVec Ideal SN .f32) (mask : FVec Ideal SN1 .f32) (wl : FVec Ideal SW3 .f32)
    (b : FVec Ideal SB2 .f32) (wr : FVec Ideal SW3 .f32) (r : Fin 4000) (d : Fin 128) (n : Fin 100000)
    (h0 : ∀ k : Fin 128, x0 (ix2 r k) = h (ix2 n k)) (h1 : ∀ k : Fin 128, x1 (ix2 r k) = a0 (ix2 n k))
    (h2 : ∀ k : Fin 128, x2 (ix2 r k) = a1 (ix2 n k)) (h3 : ∀ k : Fin 128, x3 (ix2 r k) = a2 (ix2 n k))
    (h4 : x4 (ix2 r (0 : Fin 1)) = mask (ix2 n (0 : Fin 1)))
    (h5 : ∀ (t : Fin 3) (k d : Fin 128), x5 (ix3 t k d) = wl (ix3 t k d))
    (h6 : ∀ (t : Fin 3) (d : Fin 128), x6 (ix2 t d) = b (ix2 t d))
    (h7 : ∀ (t : Fin 3) (k d : Fin 128), x7 (ix3 t k d) = wr (ix3 t k d)) :
    tileAt x0 x1 x2 x3 x4 x5 x7 x6 r d = layerK h a0 a1 a2 mask wl b wr (ix2 n d) := by
  rw [layerK_apply]
  unfold tileAt layerKAt accK
  simp only [h0, h1, h2, h3, h4, h5, h6, h7]

end Cert.Sage.KB
end
-- ==== Proof.KFinal0.lean ====
/-
  Layer 0's region, from its tiles to its result array.

  The region runs over 25 row tiles of 4000 nodes. At a tile, the body stores max(acc, 0) · valid with
  acc = Σ_t ( a_t · wl[t] + h · wr[t] + b[t] ), t = 0, 1, 2, each product into a zero accumulator. First the stored value is
  read at a row and a feature (the tile's entry of the shared module); then each window's block at a grid point is
  identified as rows of its array (a row-tile window is at block (t, 0), the weights and the bias are whole); so what point
  t writes back is tile t of the layer of the whole arrays, the 25 tiles cover the array, and the region's result array is
  the layer of the arrays the region finds.
-/
import proofs.«176633_j7954279432525_1_alg».proof.Proof.Gen.KernelIdeal.Frame
import proofs.«176633_j7954279432525_1_alg».proof.Proof.Spec
import proofs.«176633_j7954279432525_1_alg».proof.Proof.LibDenseRows
import proofs.«176633_j7954279432525_1_alg».proof.Proof.KBody
import Idealize.ShloMosaic.Lib.Pipeline.Value
import Idealize.ShloMosaic.Lib.ValueIdx
import Idealize.ShloMosaic.Lib.ValueLayout
import Idealize.ShloMosaic.PureOps.Ideal.Laws

noncomputable section
open Idealize.ShloMosaic Idealize.ShloMosaic.TcCoe Idealize.SL.Sem Idealize.ShloMosaic.ValueIdx
open Cert.KernelIdeal Cert.KernelIdeal.Gen Cert.Sage Cert.Sage.KB

namespace Cert.Sage.K0

/-! ## The tile's payload at an index -/

theorem pay2_apply (v : Vec Ideal S4000x128 .f32) (j : S4000x128.Idx) : k0_pay2 (F := Ideal) v j = v j := by
  unfold k0_pay2
  simp only [shapeCast_self, truncf_apply]

theorem pay3_eq (v : Vec Ideal S4000x128 .f32) : k0_pay3 (F := Ideal) v = v := shapeCast_self v _

theorem pay5_apply (v : Vec Ideal S4000x128 .f32) (j : S4000x128.Idx) : k0_pay5 (F := Ideal) v j = v j :=
  congrFun (shapeCast_self v shapeCasts_S4000x128_S4000x128) j

/-- The first relation's three terms, from zero. -/
theorem pay4_apply (v0 v2 : Vec Ideal S4000x128 .f32) (v10 v13 : Vec Ideal S1x128x128 .f32) (v16 : Vec Ideal S1x128 .f32)
    (r : Fin 4000) (d : Fin 128) :
    k0_pay4 (F := Ideal) v0 v2 v10 v13 v16 (ix2 r d)
      = (∑ k : Fin 128, v2 (ix2 r k) * wm v10 (ix2 k d)) + (∑ k : Fin 128, v0 (ix2 r k) * wm v13 (ix2 k d))
        + v16 (ix2 (0 : Fin 1) d) := by
  show Ideal.ofBits .f32 0x00000000#32
      + mm (truncf .bf16 (shapeCast S4000x128 v2 shapeCasts_S4000x128_S4000x128) bitsLt_bf16_f32) (wm v10) (ix2 r d)
      + mm (k0_pay2 v0) (wm v13) (ix2 r d) + bb v16 (ix2 r d) = _
  rw [mm_apply, mm_apply, bb_apply, Ideal.ofBits_zero_f32, zero_add, shapeCast_self]
  simp only [truncf_apply, pay2_apply]

/-- The tile's result at a row and a feature is the tile's entry. -/
theorem out_apply (x0 x1 x2 x3 : Vec Ideal S4000x128 .f32) (x4 : Vec Ideal S4000x1 .f32) (x5 x7 : Vec Ideal S3x128x128 .f32)
    (x6 : Vec Ideal S3x128 .f32) (r : Fin 4000) (d : Fin 128) :
    out0_8 (F := Ideal) x0 x1 x2 x3 x4 x5 x6 x7 (ix2 r d) = tileAt x0 x1 x2 x3 x4 x5 x7 x6 r d := by
  unfold out0_8
  rw [View.canon_unit_zero hz2]
  simp only [View.ld_unit_zero (S := S4000x128) hz2, View.ld_unit_zero (S := S4000x1) hz2]
  show max (k0_pay4 (F := Ideal) x0 x1 (View.ld x5 r0_1) (View.ld x7 r0_1) (View.ld x6 r0_2) (ix2 r d)
        + mm (k0_pay5 x2) (wm (View.ld x5 r0_3)) (ix2 r d) + mm (k0_pay2 x0) (wm (View.ld x7 r0_3)) (ix2 r d)
        + bb (View.ld x6 r0_4) (ix2 r d)
        + mm (truncf .bf16 (k0_pay3 x3) bitsLt_bf16_f32) (wm (View.ld x5 r0_5)) (ix2 r d)
        + mm (k0_pay2 x0) (wm (View.ld x7 r0_5)) (ix2 r d)
        + bb (View.ld x6 r0_6) (ix2 r d)) (Ideal.ofBits .f32 0x00000000#32) * mb x4 (ix2 r d) = _
  rw [pay4_apply, mm_apply, mm_apply, mm_apply, mm_apply, bb_apply, bb_apply, mb_apply, Ideal.ofBits_zero_f32, pay3_eq,
    ld_b0, ld_b1, ld_b2]
  unfold tileAt
  simp only [wm_ld0, wm_ld1, wm_ld2, truncf_apply, pay5_apply, pay2_apply]

/-! ## From the tiles to the array -/

variable (V : (c : Dev nD) → (b : Ref sig .tc) → Buf (Elt Ideal) ((c : Thread nD τ).loc b)) (c : Dev nD)

/-! The windows' block indices, decided over the 25 grid points: a row-tile window (the features, the three means, the
    validity column, the result) is at block (t, 0); the weights and the bias are whole. -/

theorem idx0 : ∀ t : Fin cfg0.N, win0_0.index t (0 : Fin 2) = t.val ∧ win0_0.index t (1 : Fin 2) = 0 :=
  (by decide +kernel : ∀ t : Fin grid0.N, _)
theorem idx1 : ∀ t : Fin cfg0.N, win0_1.index t (0 : Fin 2) = t.val ∧ win0_1.index t (1 : Fin 2) = 0 :=
  (by decide +kernel : ∀ t : Fin grid0.N, _)
theorem idx2 : ∀ t : Fin cfg0.N, win0_2.index t (0 : Fin 2) = t.val ∧ win0_2.index t (1 : Fin 2) = 0 :=
  (by decide +kernel : ∀ t : Fin grid0.N, _)
theorem idx3 : ∀ t : Fin cfg0.N, win0_3.index t (0 : Fin 2) = t.val ∧ win0_3.index t (1 : Fin 2) = 0 :=
  (by decide +kernel : ∀ t : Fin grid0.N, _)
theorem idx4 : ∀ t : Fin cfg0.N, win0_4.index t (0 : Fin 2) = t.val ∧ win0_4.index t (1 : Fin 2) = 0 :=
  (by decide +kernel : ∀ t : Fin grid0.N, _)
theorem idx5 : ∀ t : Fin cfg0.N, win0_5.index t (0 : Fin 3) = 0 ∧ win0_5.index t (1 : Fin 3) = 0 ∧ win0_5.index t (2 : Fin 3) = 0 :=
  (by decide +kernel : ∀ t : Fin grid0.N, _)
theorem idx6 : ∀ t : Fin cfg0.N, win0_6.index t (0 : Fin 2) = 0 ∧ win0_6.index t (1 : Fin 2) = 0 :=
  (by decide +kernel : ∀ t : Fin grid0.N, _)
theorem idx7 : ∀ t : Fin cfg0.N, win0_7.index t (0 : Fin 3) = 0 ∧ win0_7.index t (1 : Fin 3) = 0 ∧ win0_7.index t (2 : Fin 3) = 0 :=
  (by decide +kernel : ∀ t : Fin grid0.N, _)
theorem idx8 : ∀ t : Fin cfg0.N, win0_8.index t (0 : Fin 2) = t.val ∧ win0_8.index t (1 : Fin 2) = 0 :=
  (by decide +kernel : ∀ t : Fin grid0.N, _)
theorem lt25 : ∀ t : Fin cfg0.N, t.val < 25 := (by decide +kernel : ∀ t : Fin grid0.N, t.val < 25)

/-! A row-tile window's block at point t, read at row r, is row 4000 t + r of its array; the weights' and the bias's
    blocks are their arrays. -/

theorem blk0_apply (t : Fin cfg0.N) (r : Fin 4000) (k : Fin 128) (n : Fin 100000) (hn : n.val = t.val * 4000 + r.val) :
    iblk0 V c 0 t (ix2 r k) = V c main_arg0 (ix2 n k) := by
  obtain ⟨e0, e1⟩ := idx0 t
  show V c main_arg0 (((cfg0.win 0).blk t).view.emb (ix2 r k)) = _
  refine congrArg (V c main_arg0) (funext fun a => Fin.ext ?_)
  match a with
  | ⟨0, _⟩ => show win0_0.index t (0 : Fin 2) * 4000 + 1 * r.val = n.val; omega
  | ⟨1, _⟩ => show win0_0.index t (1 : Fin 2) * 128 + 1 * k.val = k.val; omega

theorem blk1_apply (t : Fin cfg0.N) (r : Fin 4000) (k : Fin 128) (n : Fin 100000) (hn : n.val = t.val * 4000 + r.val) :
    iblk0 V c 1 t (ix2 r k) = V c main_v33 (ix2 n k) := by
  obtain ⟨e0, e1⟩ := idx1 t
  show V c main_v33 (((cfg0.win 1).blk t).view.emb (ix2 r k)) = _
  refine congrArg (V c main_v33) (funext fun a => Fin.ext ?_)
  match a with
  | ⟨0, _⟩ => show win0_1.index t (0 : Fin 2) * 4000 + 1 * r.val = n.val; omega
  | ⟨1, _⟩ => show win0_1.index t (1 : Fin 2) * 128 + 1 * k.val = k.val; omega

theorem blk2_apply (t : Fin cfg0.N) (r : Fin 4000) (k : Fin 128) (n : Fin 100000) (hn : n.val = t.val * 4000 + r.val) :
    iblk0 V c 2 t (ix2 r k) = V c main_v61 (ix2 n k) := by
  obtain ⟨e0, e1⟩ := idx2 t
  show V c main_v61 (((cfg0.win 2).blk t).view.emb (ix2 r k)) = _
  refine congrArg (V c main_v61) (funext fun a => Fin.ext ?_)
  match a with
  | ⟨0, _⟩ => show win0_2.index t (0 : Fin 2) * 4000 + 1 * r.val = n.val; omega
  | ⟨1, _⟩ => show win0_2.index t (1 : Fin 2) * 128 + 1 * k.val = k.val; omega

theorem blk3_apply (t : Fin cfg0.N) (r : Fin 4000) (k : Fin 128) (n : Fin 100000) (hn : n.val = t.val * 4000 + r.val) :
    iblk0 V c 3 t (ix2 r k) = V c main_v89 (ix2 n k) := by
  obtain ⟨e0, e1⟩ := idx3 t
  show V c main_v89 (((cfg0.win 3).blk t).view.emb (ix2 r k)) = _
  refine congrArg (V c main_v89) (funext fun a => Fin.ext ?_)
  match a with
  | ⟨0, _⟩ => show win0_3.index t (0 : Fin 2) * 4000 + 1 * r.val = n.val; omega
  | ⟨1, _⟩ => show win0_3.index t (1 : Fin 2) * 128 + 1 * k.val = k.val; omega

theorem blk4_apply (t : Fin cfg0.N) (r : Fin 4000) (n : Fin 100000) (hn : n.val = t.val * 4000 + r.val) :
    iblk0 V c 4 t (ix2 r (0 : Fin 1)) = V c main_v5 (ix2 n (0 : Fin 1)) := by
  obtain ⟨e0, e1⟩ := idx4 t
  show V c main_v5 (((cfg0.win 4).blk t).view.emb (ix2 r (0 : Fin 1))) = _
  refine congrArg (V c main_v5) (funext fun a => Fin.ext ?_)
  match a with
  | ⟨0, _⟩ => show win0_4.index t (0 : Fin 2) * 4000 + 1 * r.val = n.val; omega
  | ⟨1, _⟩ => show win0_4.index t (1 : Fin 2) * 1 + 1 * 0 = 0; omega

theorem blk5_apply (t : Fin cfg0.N) (u : Fin 3) (k d : Fin 128) :
    iblk0 V c 5 t (ix3 u k d) = V c main_v91 (ix3 u k d) := by
  obtain ⟨e0, e1, e2⟩ := idx5 t
  show V c main_v91 (((cfg0.win 5).blk t).view.emb (ix3 u k d)) = _
  refine congrArg (V c main_v91) (funext fun a => Fin.ext ?_)
  match a with
  | ⟨0, _⟩ => show win0_5.index t (0 : Fin 3) * 3 + 1 * u.val = u.val; omega
  | ⟨1, _⟩ => show win0_5.index t (1 : Fin 3) * 128 + 1 * k.val = k.val; omega
  | ⟨2, _⟩ => show win0_5.index t (2 : Fin 3) * 128 + 1 * d.val = d.val; omega

theorem blk6_apply (t : Fin cfg0.N) (u : Fin 3) (d : Fin 128) :
    iblk0 V c 6 t (ix2 u d) = V c main_v93 (ix2 u d) := by
  obtain ⟨e0, e1⟩ := idx6 t
  show V c main_v93 (((cfg0.win 6).blk t).view.emb (ix2 u d)) = _
  refine congrArg (V c main_v93) (funext fun a => Fin.ext ?_)
  match a with
  | ⟨0, _⟩ => show win0_6.index t (0 : Fin 2) * 3 + 1 * u.val = u.val; omega
  | ⟨1, _⟩ => show win0_6.index t (1 : Fin 2) * 128 + 1 * d.val = d.val; omega

theorem blk7_apply (t : Fin cfg0.N) (u : Fin 3) (k d : Fin 128) :
    iblk0 V c 7 t (ix3 u k d) = V c main_v95 (ix3 u k d) := by
  obtain ⟨e0, e1, e2⟩ := idx7 t
  show V c main_v95 (((cfg0.win 7).blk t).view.emb (ix3 u k d)) = _
  refine congrArg (V c main_v95) (funext fun a => Fin.ext ?_)
  match a with
  | ⟨0, _⟩ => show win0_7.index t (0 : Fin 3) * 3 + 1 * u.val = u.val; omega
  | ⟨1, _⟩ => show win0_7.index t (1 : Fin 3) * 128 + 1 * k.val = k.val; omega
  | ⟨2, _⟩ => show win0_7.index t (2 : Fin 3) * 128 + 1 * d.val = d.val; omega

/-- What point t writes back is tile t of the layer of the arrays as the region finds them. -/
theorem flushed_eq (t : Fin cfg0.N) :
    (dat0 (F := Ideal) V c).flushed 8 t = ((cfg0.win 8).blk t).view.read (Elt Ideal)
      (layerK (V c main_arg0) (V c main_v33) (V c main_v61) (V c main_v89) (V c main_v5) (V c main_v91) (V c main_v93) (V c main_v95)) := by
  show (cfg0.win 8).cut (grid0.coords t) ((dat0 V c).after 8 t) = _
  rw [after0_8]
  refine funext fun (y : S4000x128.Idx) => ?_
  obtain ⟨r, d, rfl⟩ : ∃ (r : Fin 4000) (d : Fin 128), y = ix2 r d := ⟨y 0, y 1, eq_ix2 y⟩
  obtain ⟨e0, e1⟩ := idx8 t
  have ht := lt25 t
  have hn : t.val * 4000 + r.val < 100000 := by have := r.isLt; omega
  have e : ((cfg0.win 8).blk t).view.emb (ix2 r d) = ix2 (⟨t.val * 4000 + r.val, hn⟩ : Fin 100000) d := by
    funext a; apply Fin.ext
    match a with
    | ⟨0, _⟩ => show win0_8.index t (0 : Fin 2) * 4000 + 1 * r.val = t.val * 4000 + r.val; omega
    | ⟨1, _⟩ => show win0_8.index t (1 : Fin 2) * 128 + 1 * d.val = d.val; omega
  show out0_8 (iblk0 V c 0 t) (iblk0 V c 1 t) (iblk0 V c 2 t) (iblk0 V c 3 t) (iblk0 V c 4 t) (iblk0 V c 5 t) (iblk0 V c 6 t) (iblk0 V c 7 t) (ix2 r d)
    = (layerK (V c main_arg0) (V c main_v33) (V c main_v61) (V c main_v89) (V c main_v5) (V c main_v91) (V c main_v93) (V c main_v95)) (((cfg0.win 8).blk t).view.emb (ix2 r d))
  rw [e]
  refine (out_apply (iblk0 V c 0 t) (iblk0 V c 1 t) (iblk0 V c 2 t) (iblk0 V c 3 t) (iblk0 V c 4 t) (iblk0 V c 5 t) (iblk0 V c 7 t) (iblk0 V c 6 t) r d).trans ?_
  exact tileAt_eq_layer (iblk0 V c 0 t) (iblk0 V c 1 t) (iblk0 V c 2 t) (iblk0 V c 3 t) (iblk0 V c 4 t) (iblk0 V c 5 t) (iblk0 V c 7 t) (iblk0 V c 6 t)
    (V c main_arg0) (V c main_v33) (V c main_v61) (V c main_v89) (V c main_v5) (V c main_v91) (V c main_v93) (V c main_v95) r d ⟨t.val * 4000 + r.val, hn⟩
    (fun k => blk0_apply V c t r k _ rfl) (fun k => blk1_apply V c t r k _ rfl) (fun k => blk2_apply V c t r k _ rfl)
    (fun k => blk3_apply V c t r k _ rfl) (blk4_apply V c t r _ rfl) (fun u k d => blk5_apply V c t u k d)
    (fun u d => blk6_apply V c t u d) (fun u k d => blk7_apply V c t u k d)

/-- An index of the array is in point t's tile iff each coordinate is in the tile's range on its axis. -/
theorem mem_blk (t : Fin cfg0.N) (i : S100000x128.Idx) :
    i ∈ ((cfg0.win 8).blk t).view.set ↔ ∀ a : Fin 2, win0_8.index t a * S4000x128.size a ≤ (i a).val ∧ (i a).val < win0_8.index t a * S4000x128.size a + S4000x128.size a := by
  show i ∈ ((View.whole main_v96).slice (win0_8.rect t)).set ↔ _
  rw [View.set_slice_whole, Rect.mem_set_unit]
  exact Iff.rfl

/-- Every node's row is in the tile of the point ⌊n / 4000⌋, which writes back. -/
theorem cover (i : S100000x128.Idx) :
    ∃ t : Fin cfg0.N, (cfg0.win 8).flush t = true ∧ i ∈ ((cfg0.win 8).blk t).view.set := by
  have hi0 : (i 0).val < 100000 := (i 0).isLt
  have hi1 : (i 1).val < 128 := (i 1).isLt
  have hN : cfg0.N = 25 := N_0
  obtain ⟨t, ht⟩ : ∃ t : Fin cfg0.N, t.val = (i 0).val / 4000 := ⟨⟨(i 0).val / 4000, by rw [hN]; omega⟩, rfl⟩
  obtain ⟨e0, e1⟩ := idx8 t
  refine ⟨t, flush0_8 t, ?_⟩
  rw [mem_blk]
  intro a
  match a with
  | ⟨0, _⟩ => show win0_8.index t (0 : Fin 2) * 4000 ≤ (i 0).val ∧ (i 0).val < win0_8.index t (0 : Fin 2) * 4000 + 4000; omega
  | ⟨1, _⟩ => show win0_8.index t (1 : Fin 2) * 128 ≤ (i 1).val ∧ (i 1).val < win0_8.index t (1 : Fin 2) * 128 + 128; omega

/-- The region's result array is the layer of the arrays as the region finds them. -/
theorem final (V : (c : Dev nD) → (b : Ref sig .tc) → Buf (Elt Ideal) ((c : Thread nD τ).loc b)) (c : Dev nD) :
    (dat0 (F := Ideal) V c).arrAt 8 cfg0.N
      = layerK (V c main_arg0) (V c main_v33) (V c main_v61) (V c main_v89) (V c main_v5) (V c main_v91) (V c main_v93) (V c main_v95) :=
  (dat0 (F := Ideal) V c).arrAt_eq_of_cover 8 (layerK (V c main_arg0) (V c main_v33) (V c main_v61) (V c main_v89) (V c main_v5) (V c main_v91) (V c main_v93) (V c main_v95))
    (fun t _ => flushed_eq V c t) cover

end Cert.Sage.K0
end
-- ==== Proof.KFinal1.lean ====
/-
  Layer 1's region, from its tiles to its result array.

  The region runs over 25 row tiles of 4000 nodes. At a tile, the body stores max(acc, 0) · valid with
  acc = Σ_t ( a_t · wl[t] + h · wr[t] + b[t] ), t = 0, 1, 2, each product into a zero accumulator. First the stored value is
  read at a row and a feature (the tile's entry of the shared module); then each window's block at a grid point is
  identified as rows of its array (a row-tile window is at block (t, 0), the weights and the bias are whole); so what point
  t writes back is tile t of the layer of the whole arrays, the 25 tiles cover the array, and the region's result array is
  the layer of the arrays the region finds.
-/
import proofs.«176633_j7954279432525_1_alg».proof.Proof.Gen.KernelIdeal.Frame
import proofs.«176633_j7954279432525_1_alg».proof.Proof.Spec
import proofs.«176633_j7954279432525_1_alg».proof.Proof.LibDenseRows
import proofs.«176633_j7954279432525_1_alg».proof.Proof.KBody
import Idealize.ShloMosaic.Lib.Pipeline.Value
import Idealize.ShloMosaic.Lib.ValueIdx
import Idealize.ShloMosaic.Lib.ValueLayout
import Idealize.ShloMosaic.PureOps.Ideal.Laws

noncomputable section
open Idealize.ShloMosaic Idealize.ShloMosaic.TcCoe Idealize.SL.Sem Idealize.ShloMosaic.ValueIdx
open Cert.KernelIdeal Cert.KernelIdeal.Gen Cert.Sage Cert.Sage.KB

namespace Cert.Sage.K1

/-! ## The tile's payload at an index -/

theorem pay2_apply (v : Vec Ideal S4000x128 .f32) (j : S4000x128.Idx) : k1_pay2 (F := Ideal) v j = v j := by
  unfold k1_pay2
  simp only [shapeCast_self, truncf_apply]

theorem pay3_eq (v : Vec Ideal S4000x128 .f32) : k1_pay3 (F := Ideal) v = v := shapeCast_self v _

theorem pay5_apply (v : Vec Ideal S4000x128 .f32) (j : S4000x128.Idx) : k1_pay5 (F := Ideal) v j = v j :=
  congrFun (shapeCast_self v shapeCasts_S4000x128_S4000x128) j

/-- The first relation's three terms, from zero. -/
theorem pay4_apply (v0 v2 : Vec Ideal S4000x128 .f32) (v10 v13 : Vec Ideal S1x128x128 .f32) (v16 : Vec Ideal S1x128 .f32)
    (r : Fin 4000) (d : Fin 128) :
    k1_pay4 (F := Ideal) v0 v2 v10 v13 v16 (ix2 r d)
      = (∑ k : Fin 128, v2 (ix2 r k) * wm v10 (ix2 k d)) + (∑ k : Fin 128, v0 (ix2 r k) * wm v13 (ix2 k d))
        + v16 (ix2 (0 : Fin 1) d) := by
  show Ideal.ofBits .f32 0x00000000#32
      + mm (truncf .bf16 (shapeCast S4000x128 v2 shapeCasts_S4000x128_S4000x128) bitsLt_bf16_f32) (wm v10) (ix2 r d)
      + mm (k1_pay2 v0) (wm v13) (ix2 r d) + bb v16 (ix2 r d) = _
  rw [mm_apply, mm_apply, bb_apply, Ideal.ofBits_zero_f32, zero_add, shapeCast_self]
  simp only [truncf_apply, pay2_apply]

/-- The tile's result at a row and a feature is the tile's entry. -/
theorem out_apply (x0 x1 x2 x3 : Vec Ideal S4000x128 .f32) (x4 : Vec Ideal S4000x1 .f32) (x5 x7 : Vec Ideal S3x128x128 .f32)
    (x6 : Vec Ideal S3x128 .f32) (r : Fin 4000) (d : Fin 128) :
    out1_8 (F := Ideal) x0 x1 x2 x3 x4 x5 x6 x7 (ix2 r d) = tileAt x0 x1 x2 x3 x4 x5 x7 x6 r d := by
  unfold out1_8
  rw [View.canon_unit_zero hz2]
  simp only [View.ld_unit_zero (S := S4000x128) hz2, View.ld_unit_zero (S := S4000x1) hz2]
  show max (k1_pay4 (F := Ideal) x0 x1 (View.ld x5 r0_1) (View.ld x7 r0_1) (View.ld x6 r0_2) (ix2 r d)
        + mm (k1_pay5 x2) (wm (View.ld x5 r0_3)) (ix2 r d) + mm (k1_pay2 x0) (wm (View.ld x7 r0_3)) (ix2 r d)
        + bb (View.ld x6 r0_4) (ix2 r d)
        + mm (truncf .bf16 (k1_pay3 x3) bitsLt_bf16_f32) (wm (View.ld x5 r0_5)) (ix2 r d)
        + mm (k1_pay2 x0) (wm (View.ld x7 r0_5)) (ix2 r d)
        + bb (View.ld x6 r0_6) (ix2 r d)) (Ideal.ofBits .f32 0x00000000#32) * mb x4 (ix2 r d) = _
  rw [pay4_apply, mm_apply, mm_apply, mm_apply, mm_apply, bb_apply, bb_apply, mb_apply, Ideal.ofBits_zero_f32, pay3_eq,
    ld_b0, ld_b1, ld_b2]
  unfold tileAt
  simp only [wm_ld0, wm_ld1, wm_ld2, truncf_apply, pay5_apply, pay2_apply]

/-! ## From the tiles to the array -/

variable (V : (c : Dev nD) → (b : Ref sig .tc) → Buf (Elt Ideal) ((c : Thread nD τ).loc b)) (c : Dev nD)

/-! The windows' block indices, decided over the 25 grid points: a row-tile window (the features, the three means, the
    validity column, the result) is at block (t, 0); the weights and the bias are whole. -/

theorem idx0 : ∀ t : Fin cfg1.N, win1_0.index t (0 : Fin 2) = t.val ∧ win1_0.index t (1 : Fin 2) = 0 :=
  (by decide +kernel : ∀ t : Fin grid1.N, _)
theorem idx1 : ∀ t : Fin cfg1.N, win1_1.index t (0 : Fin 2) = t.val ∧ win1_1.index t (1 : Fin 2) = 0 :=
  (by decide +kernel : ∀ t : Fin grid1.N, _)
theorem idx2 : ∀ t : Fin cfg1.N, win1_2.index t (0 : Fin 2) = t.val ∧ win1_2.index t (1 : Fin 2) = 0 :=
  (by decide +kernel : ∀ t : Fin grid1.N, _)
theorem idx3 : ∀ t : Fin cfg1.N, win1_3.index t (0 : Fin 2) = t.val ∧ win1_3.index t (1 : Fin 2) = 0 :=
  (by decide +kernel : ∀ t : Fin grid1.N, _)
theorem idx4 : ∀ t : Fin cfg1.N, win1_4.index t (0 : Fin 2) = t.val ∧ win1_4.index t (1 : Fin 2) = 0 :=
  (by decide +kernel : ∀ t : Fin grid1.N, _)
theorem idx5 : ∀ t : Fin cfg1.N, win1_5.index t (0 : Fin 3) = 0 ∧ win1_5.index t (1 : Fin 3) = 0 ∧ win1_5.index t (2 : Fin 3) = 0 :=
  (by decide +kernel : ∀ t : Fin grid1.N, _)
theorem idx6 : ∀ t : Fin cfg1.N, win1_6.index t (0 : Fin 2) = 0 ∧ win1_6.index t (1 : Fin 2) = 0 :=
  (by decide +kernel : ∀ t : Fin grid1.N, _)
theorem idx7 : ∀ t : Fin cfg1.N, win1_7.index t (0 : Fin 3) = 0 ∧ win1_7.index t (1 : Fin 3) = 0 ∧ win1_7.index t (2 : Fin 3) = 0 :=
  (by decide +kernel : ∀ t : Fin grid1.N, _)
theorem idx8 : ∀ t : Fin cfg1.N, win1_8.index t (0 : Fin 2) = t.val ∧ win1_8.index t (1 : Fin 2) = 0 :=
  (by decide +kernel : ∀ t : Fin grid1.N, _)
theorem lt25 : ∀ t : Fin cfg1.N, t.val < 25 := (by decide +kernel : ∀ t : Fin grid1.N, t.val < 25)

/-! A row-tile window's block at point t, read at row r, is row 4000 t + r of its array; the weights' and the bias's
    blocks are their arrays. -/

theorem blk0_apply (t : Fin cfg1.N) (r : Fin 4000) (k : Fin 128) (n : Fin 100000) (hn : n.val = t.val * 4000 + r.val) :
    iblk1 V c 0 t (ix2 r k) = V c main_v96 (ix2 n k) := by
  obtain ⟨e0, e1⟩ := idx0 t
  show V c main_v96 (((cfg1.win 0).blk t).view.emb (ix2 r k)) = _
  refine congrArg (V c main_v96) (funext fun a => Fin.ext ?_)
  match a with
  | ⟨0, _⟩ => show win1_0.index t (0 : Fin 2) * 4000 + 1 * r.val = n.val; omega
  | ⟨1, _⟩ => show win1_0.index t (1 : Fin 2) * 128 + 1 * k.val = k.val; omega

theorem blk1_apply (t : Fin cfg1.N) (r : Fin 4000) (k : Fin 128) (n : Fin 100000) (hn : n.val = t.val * 4000 + r.val) :
    iblk1 V c 1 t (ix2 r k) = V c main_v128 (ix2 n k) := by
  obtain ⟨e0, e1⟩ := idx1 t
  show V c main_v128 (((cfg1.win 1).blk t).view.emb (ix2 r k)) = _
  refine congrArg (V c main_v128) (funext fun a => Fin.ext ?_)
  match a with
  | ⟨0, _⟩ => show win1_1.index t (0 : Fin 2) * 4000 + 1 * r.val = n.val; omega
  | ⟨1, _⟩ => show win1_1.index t (1 : Fin 2) * 128 + 1 * k.val = k.val; omega

theorem blk2_apply (t : Fin cfg1.N) (r : Fin 4000) (k : Fin 128) (n : Fin 100000) (hn : n.val = t.val * 4000 + r.val) :
    iblk1 V c 2 t (ix2 r k) = V c main_v156 (ix2 n k) := by
  obtain ⟨e0, e1⟩ := idx2 t
  show V c main_v156 (((cfg1.win 2).blk t).view.emb (ix2 r k)) = _
  refine congrArg (V c main_v156) (funext fun a => Fin.ext ?_)
  match a with
  | ⟨0, _⟩ => show win1_2.index t (0 : Fin 2) * 4000 + 1 * r.val = n.val; omega
  | ⟨1, _⟩ => show win1_2.index t (1 : Fin 2) * 128 + 1 * k.val = k.val; omega

theorem blk3_apply (t : Fin cfg1.N) (r : Fin 4000) (k : Fin 128) (n : Fin 100000) (hn : n.val = t.val * 4000 + r.val) :
    iblk1 V c 3 t (ix2 r k) = V c main_v184 (ix2 n k) := by
  obtain ⟨e0, e1⟩ := idx3 t
  show V c main_v184 (((cfg1.win 3).blk t).view.emb (ix2 r k)) = _
  refine congrArg (V c main_v184) (funext fun a => Fin.ext ?_)
  match a with
  | ⟨0, _⟩ => show win1_3.index t (0 : Fin 2) * 4000 + 1 * r.val = n.val; omega
  | ⟨1, _⟩ => show win1_3.index t (1 : Fin 2) * 128 + 1 * k.val = k.val; omega

theorem blk4_apply (t : Fin cfg1.N) (r : Fin 4000) (n : Fin 100000) (hn : n.val = t.val * 4000 + r.val) :
    iblk1 V c 4 t (ix2 r (0 : Fin 1)) = V c main_v100 (ix2 n (0 : Fin 1)) := by
  obtain ⟨e0, e1⟩ := idx4 t
  show V c main_v100 (((cfg1.win 4).blk t).view.emb (ix2 r (0 : Fin 1))) = _
  refine congrArg (V c main_v100) (funext fun a => Fin.ext ?_)
  match a with
  | ⟨0, _⟩ => show win1_4.index t (0 : Fin 2) * 4000 + 1 * r.val = n.val; omega
  | ⟨1, _⟩ => show win1_4.index t (1 : Fin 2) * 1 + 1 * 0 = 0; omega

theorem blk5_apply (t : Fin cfg1.N) (u : Fin 3) (k d : Fin 128) :
    iblk1 V c 5 t (ix3 u k d) = V c main_v186 (ix3 u k d) := by
  obtain ⟨e0, e1, e2⟩ := idx5 t
  show V c main_v186 (((cfg1.win 5).blk t).view.emb (ix3 u k d)) = _
  refine congrArg (V c main_v186) (funext fun a => Fin.ext ?_)
  match a with
  | ⟨0, _⟩ => show win1_5.index t (0 : Fin 3) * 3 + 1 * u.val = u.val; omega
  | ⟨1, _⟩ => show win1_5.index t (1 : Fin 3) * 128 + 1 * k.val = k.val; omega
  | ⟨2, _⟩ => show win1_5.index t (2 : Fin 3) * 128 + 1 * d.val = d.val; omega

theorem blk6_apply (t : Fin cfg1.N) (u : Fin 3) (d : Fin 128) :
    iblk1 V c 6 t (ix2 u d) = V c main_v188 (ix2 u d) := by
  obtain ⟨e0, e1⟩ := idx6 t
  show V c main_v188 (((cfg1.win 6).blk t).view.emb (ix2 u d)) = _
  refine congrArg (V c main_v188) (funext fun a => Fin.ext ?_)
  match a with
  | ⟨0, _⟩ => show win1_6.index t (0 : Fin 2) * 3 + 1 * u.val = u.val; omega
  | ⟨1, _⟩ => show win1_6.index t (1 : Fin 2) * 128 + 1 * d.val = d.val; omega

theorem blk7_apply (t : Fin cfg1.N) (u : Fin 3) (k d : Fin 128) :
    iblk1 V c 7 t (ix3 u k d) = V c main_v190 (ix3 u k d) := by
  obtain ⟨e0, e1, e2⟩ := idx7 t
  show V c main_v190 (((cfg1.win 7).blk t).view.emb (ix3 u k d)) = _
  refine congrArg (V c main_v190) (funext fun a => Fin.ext ?_)
  match a with
  | ⟨0, _⟩ => show win1_7.index t (0 : Fin 3) * 3 + 1 * u.val = u.val; omega
  | ⟨1, _⟩ => show win1_7.index t (1 : Fin 3) * 128 + 1 * k.val = k.val; omega
  | ⟨2, _⟩ => show win1_7.index t (2 : Fin 3) * 128 + 1 * d.val = d.val; omega

/-- What point t writes back is tile t of the layer of the arrays as the region finds them. -/
theorem flushed_eq (t : Fin cfg1.N) :
    (dat1 (F := Ideal) V c).flushed 8 t = ((cfg1.win 8).blk t).view.read (Elt Ideal)
      (layerK (V c main_v96) (V c main_v128) (V c main_v156) (V c main_v184) (V c main_v100) (V c main_v186) (V c main_v188) (V c main_v190)) := by
  show (cfg1.win 8).cut (grid1.coords t) ((dat1 V c).after 8 t) = _
  rw [after1_8]
  refine funext fun (y : S4000x128.Idx) => ?_
  obtain ⟨r, d, rfl⟩ : ∃ (r : Fin 4000) (d : Fin 128), y = ix2 r d := ⟨y 0, y 1, eq_ix2 y⟩
  obtain ⟨e0, e1⟩ := idx8 t
  have ht := lt25 t
  have hn : t.val * 4000 + r.val < 100000 := by have := r.isLt; omega
  have e : ((cfg1.win 8).blk t).view.emb (ix2 r d) = ix2 (⟨t.val * 4000 + r.val, hn⟩ : Fin 100000) d := by
    funext a; apply Fin.ext
    match a with
    | ⟨0, _⟩ => show win1_8.index t (0 : Fin 2) * 4000 + 1 * r.val = t.val * 4000 + r.val; omega
    | ⟨1, _⟩ => show win1_8.index t (1 : Fin 2) * 128 + 1 * d.val = d.val; omega
  show out1_8 (iblk1 V c 0 t) (iblk1 V c 1 t) (iblk1 V c 2 t) (iblk1 V c 3 t) (iblk1 V c 4 t) (iblk1 V c 5 t) (iblk1 V c 6 t) (iblk1 V c 7 t) (ix2 r d)
    = (layerK (V c main_v96) (V c main_v128) (V c main_v156) (V c main_v184) (V c main_v100) (V c main_v186) (V c main_v188) (V c main_v190)) (((cfg1.win 8).blk t).view.emb (ix2 r d))
  rw [e]
  refine (out_apply (iblk1 V c 0 t) (iblk1 V c 1 t) (iblk1 V c 2 t) (iblk1 V c 3 t) (iblk1 V c 4 t) (iblk1 V c 5 t) (iblk1 V c 7 t) (iblk1 V c 6 t) r d).trans ?_
  exact tileAt_eq_layer (iblk1 V c 0 t) (iblk1 V c 1 t) (iblk1 V c 2 t) (iblk1 V c 3 t) (iblk1 V c 4 t) (iblk1 V c 5 t) (iblk1 V c 7 t) (iblk1 V c 6 t)
    (V c main_v96) (V c main_v128) (V c main_v156) (V c main_v184) (V c main_v100) (V c main_v186) (V c main_v188) (V c main_v190) r d ⟨t.val * 4000 + r.val, hn⟩
    (fun k => blk0_apply V c t r k _ rfl) (fun k => blk1_apply V c t r k _ rfl) (fun k => blk2_apply V c t r k _ rfl)
    (fun k => blk3_apply V c t r k _ rfl) (blk4_apply V c t r _ rfl) (fun u k d => blk5_apply V c t u k d)
    (fun u d => blk6_apply V c t u d) (fun u k d => blk7_apply V c t u k d)

/-- An index of the array is in point t's tile iff each coordinate is in the tile's range on its axis. -/
theorem mem_blk (t : Fin cfg1.N) (i : S100000x128.Idx) :
    i ∈ ((cfg1.win 8).blk t).view.set ↔ ∀ a : Fin 2, win1_8.index t a * S4000x128.size a ≤ (i a).val ∧ (i a).val < win1_8.index t a * S4000x128.size a + S4000x128.size a := by
  show i ∈ ((View.whole main_v191).slice (win1_8.rect t)).set ↔ _
  rw [View.set_slice_whole, Rect.mem_set_unit]
  exact Iff.rfl

/-- Every node's row is in the tile of the point ⌊n / 4000⌋, which writes back. -/
theorem cover (i : S100000x128.Idx) :
    ∃ t : Fin cfg1.N, (cfg1.win 8).flush t = true ∧ i ∈ ((cfg1.win 8).blk t).view.set := by
  have hi0 : (i 0).val < 100000 := (i 0).isLt
  have hi1 : (i 1).val < 128 := (i 1).isLt
  have hN : cfg1.N = 25 := N_1
  obtain ⟨t, ht⟩ : ∃ t : Fin cfg1.N, t.val = (i 0).val / 4000 := ⟨⟨(i 0).val / 4000, by rw [hN]; omega⟩, rfl⟩
  obtain ⟨e0, e1⟩ := idx8 t
  refine ⟨t, flush1_8 t, ?_⟩
  rw [mem_blk]
  intro a
  match a with
  | ⟨0, _⟩ => show win1_8.index t (0 : Fin 2) * 4000 ≤ (i 0).val ∧ (i 0).val < win1_8.index t (0 : Fin 2) * 4000 + 4000; omega
  | ⟨1, _⟩ => show win1_8.index t (1 : Fin 2) * 128 ≤ (i 1).val ∧ (i 1).val < win1_8.index t (1 : Fin 2) * 128 + 128; omega

/-- The region's result array is the layer of the arrays as the region finds them. -/
theorem final (V : (c : Dev nD) → (b : Ref sig .tc) → Buf (Elt Ideal) ((c : Thread nD τ).loc b)) (c : Dev nD) :
    (dat1 (F := Ideal) V c).arrAt 8 cfg1.N
      = layerK (V c main_v96) (V c main_v128) (V c main_v156) (V c main_v184) (V c main_v100) (V c main_v186) (V c main_v188) (V c main_v190) :=
  (dat1 (F := Ideal) V c).arrAt_eq_of_cover 8 (layerK (V c main_v96) (V c main_v128) (V c main_v156) (V c main_v184) (V c main_v100) (V c main_v186) (V c main_v188) (V c main_v190))
    (fun t _ => flushed_eq V c t) cover

end Cert.Sage.K1
end
-- ==== Proof.KFinal2.lean ====
/-
  Layer 2's region, from its tiles to its result array.

  The region runs over 25 row tiles of 4000 nodes. At a tile, the body stores max(acc, 0) · valid with
  acc = Σ_t ( a_t · wl[t] + h · wr[t] + b[t] ), t = 0, 1, 2, each product into a zero accumulator. First the stored value is
  read at a row and a feature (the tile's entry of the shared module); then each window's block at a grid point is
  identified as rows of its array (a row-tile window is at block (t, 0), the weights and the bias are whole); so what point
  t writes back is tile t of the layer of the whole arrays, the 25 tiles cover the array, and the region's result array is
  the layer of the arrays the region finds.
-/
import proofs.«176633_j7954279432525_1_alg».proof.Proof.Gen.KernelIdeal.Frame
import proofs.«176633_j7954279432525_1_alg».proof.Proof.Spec
import proofs.«176633_j7954279432525_1_alg».proof.Proof.LibDenseRows
import proofs.«176633_j7954279432525_1_alg».proof.Proof.KBody
import Idealize.ShloMosaic.Lib.Pipeline.Value
import Idealize.ShloMosaic.Lib.ValueIdx
import Idealize.ShloMosaic.Lib.ValueLayout
import Idealize.ShloMosaic.PureOps.Ideal.Laws

noncomputable section
open Idealize.ShloMosaic Idealize.ShloMosaic.TcCoe Idealize.SL.Sem Idealize.ShloMosaic.ValueIdx
open Cert.KernelIdeal Cert.KernelIdeal.Gen Cert.Sage Cert.Sage.KB

namespace Cert.Sage.K2

/-! ## The tile's payload at an index -/

theorem pay2_apply (v : Vec Ideal S4000x128 .f32) (j : S4000x128.Idx) : k2_pay2 (F := Ideal) v j = v j := by
  unfold k2_pay2
  simp only [shapeCast_self, truncf_apply]

theorem pay3_eq (v : Vec Ideal S4000x128 .f32) : k2_pay3 (F := Ideal) v = v := shapeCast_self v _

theorem pay5_apply (v : Vec Ideal S4000x128 .f32) (j : S4000x128.Idx) : k2_pay5 (F := Ideal) v j = v j :=
  congrFun (shapeCast_self v shapeCasts_S4000x128_S4000x128) j

/-- The first relation's three terms, from zero. -/
theorem pay4_apply (v0 v2 : Vec Ideal S4000x128 .f32) (v10 v13 : Vec Ideal S1x128x128 .f32) (v16 : Vec Ideal S1x128 .f32)
    (r : Fin 4000) (d : Fin 128) :
    k2_pay4 (F := Ideal) v0 v2 v10 v13 v16 (ix2 r d)
      = (∑ k : Fin 128, v2 (ix2 r k) * wm v10 (ix2 k d)) + (∑ k : Fin 128, v0 (ix2 r k) * wm v13 (ix2 k d))
        + v16 (ix2 (0 : Fin 1) d) := by
  show Ideal.ofBits .f32 0x00000000#32
      + mm (truncf .bf16 (shapeCast S4000x128 v2 shapeCasts_S4000x128_S4000x128) bitsLt_bf16_f32) (wm v10) (ix2 r d)
      + mm (k2_pay2 v0) (wm v13) (ix2 r d) + bb v16 (ix2 r d) = _
  rw [mm_apply, mm_apply, bb_apply, Ideal.ofBits_zero_f32, zero_add, shapeCast_self]
  simp only [truncf_apply, pay2_apply]

/-- The tile's result at a row and a feature is the tile's entry. -/
theorem out_apply (x0 x1 x2 x3 : Vec Ideal S4000x128 .f32) (x4 : Vec Ideal S4000x1 .f32) (x5 x7 : Vec Ideal S3x128x128 .f32)
    (x6 : Vec Ideal S3x128 .f32) (r : Fin 4000) (d : Fin 128) :
    out2_8 (F := Ideal) x0 x1 x2 x3 x4 x5 x6 x7 (ix2 r d) = tileAt x0 x1 x2 x3 x4 x5 x7 x6 r d := by
  unfold out2_8
  rw [View.canon_unit_zero hz2]
  simp only [View.ld_unit_zero (S := S4000x128) hz2, View.ld_unit_zero (S := S4000x1) hz2]
  show max (k2_pay4 (F := Ideal) x0 x1 (View.ld x5 r0_1) (View.ld x7 r0_1) (View.ld x6 r0_2) (ix2 r d)
        + mm (k2_pay5 x2) (wm (View.ld x5 r0_3)) (ix2 r d) + mm (k2_pay2 x0) (wm (View.ld x7 r0_3)) (ix2 r d)
        + bb (View.ld x6 r0_4) (ix2 r d)
        + mm (truncf .bf16 (k2_pay3 x3) bitsLt_bf16_f32) (wm (View.ld x5 r0_5)) (ix2 r d)
        + mm (k2_pay2 x0) (wm (View.ld x7 r0_5)) (ix2 r d)
        + bb (View.ld x6 r0_6) (ix2 r d)) (Ideal.ofBits .f32 0x00000000#32) * mb x4 (ix2 r d) = _
  rw [pay4_apply, mm_apply, mm_apply, mm_apply, mm_apply, bb_apply, bb_apply, mb_apply, Ideal.ofBits_zero_f32, pay3_eq,
    ld_b0, ld_b1, ld_b2]
  unfold tileAt
  simp only [wm_ld0, wm_ld1, wm_ld2, truncf_apply, pay5_apply, pay2_apply]

/-! ## From the tiles to the array -/

variable (V : (c : Dev nD) → (b : Ref sig .tc) → Buf (Elt Ideal) ((c : Thread nD τ).loc b)) (c : Dev nD)

/-! The windows' block indices, decided over the 25 grid points: a row-tile window (the features, the three means, the
    validity column, the result) is at block (t, 0); the weights and the bias are whole. -/

theorem idx0 : ∀ t : Fin cfg2.N, win2_0.index t (0 : Fin 2) = t.val ∧ win2_0.index t (1 : Fin 2) = 0 :=
  (by decide +kernel : ∀ t : Fin grid2.N, _)
theorem idx1 : ∀ t : Fin cfg2.N, win2_1.index t (0 : Fin 2) = t.val ∧ win2_1.index t (1 : Fin 2) = 0 :=
  (by decide +kernel : ∀ t : Fin grid2.N, _)
theorem idx2 : ∀ t : Fin cfg2.N, win2_2.index t (0 : Fin 2) = t.val ∧ win2_2.index t (1 : Fin 2) = 0 :=
  (by decide +kernel : ∀ t : Fin grid2.N, _)
theorem idx3 : ∀ t : Fin cfg2.N, win2_3.index t (0 : Fin 2) = t.val ∧ win2_3.index t (1 : Fin 2) = 0 :=
  (by decide +kernel : ∀ t : Fin grid2.N, _)
theorem idx4 : ∀ t : Fin cfg2.N, win2_4.index t (0 : Fin 2) = t.val ∧ win2_4.index t (1 : Fin 2) = 0 :=
  (by decide +kernel : ∀ t : Fin grid2.N, _)
theorem idx5 : ∀ t : Fin cfg2.N, win2_5.index t (0 : Fin 3) = 0 ∧ win2_5.index t (1 : Fin 3) = 0 ∧ win2_5.index t (2 : Fin 3) = 0 :=
  (by decide +kernel : ∀ t : Fin grid2.N, _)
theorem idx6 : ∀ t : Fin cfg2.N, win2_6.index t (0 : Fin 2) = 0 ∧ win2_6.index t (1 : Fin 2) = 0 :=
  (by decide +kernel : ∀ t : Fin grid2.N, _)
theorem idx7 : ∀ t : Fin cfg2.N, win2_7.index t (0 : Fin 3) = 0 ∧ win2_7.index t (1 : Fin 3) = 0 ∧ win2_7.index t (2 : Fin 3) = 0 :=
  (by decide +kernel : ∀ t : Fin grid2.N, _)
theorem idx8 : ∀ t : Fin cfg2.N, win2_8.index t (0 : Fin 2) = t.val ∧ win2_8.index t (1 : Fin 2) = 0 :=
  (by decide +kernel : ∀ t : Fin grid2.N, _)
theorem lt25 : ∀ t : Fin cfg2.N, t.val < 25 := (by decide +kernel : ∀ t : Fin grid2.N, t.val < 25)

/-! A row-tile window's block at point t, read at row r, is row 4000 t + r of its array; the weights' and the bias's
    blocks are their arrays. -/

theorem blk0_apply (t : Fin cfg2.N) (r : Fin 4000) (k : Fin 128) (n : Fin 100000) (hn : n.val = t.val * 4000 + r.val) :
    iblk2 V c 0 t (ix2 r k) = V c main_v191 (ix2 n k) := by
  obtain ⟨e0, e1⟩ := idx0 t
  show V c main_v191 (((cfg2.win 0).blk t).view.emb (ix2 r k)) = _
  refine congrArg (V c main_v191) (funext fun a => Fin.ext ?_)
  match a with
  | ⟨0, _⟩ => show win2_0.index t (0 : Fin 2) * 4000 + 1 * r.val = n.val; omega
  | ⟨1, _⟩ => show win2_0.index t (1 : Fin 2) * 128 + 1 * k.val = k.val; omega

theorem blk1_apply (t : Fin cfg2.N) (r : Fin 4000) (k : Fin 128) (n : Fin 100000) (hn : n.val = t.val * 4000 + r.val) :
    iblk2 V c 1 t (ix2 r k) = V c main_v223 (ix2 n k) := by
  obtain ⟨e0, e1⟩ := idx1 t
  show V c main_v223 (((cfg2.win 1).blk t).view.emb (ix2 r k)) = _
  refine congrArg (V c main_v223) (funext fun a => Fin.ext ?_)
  match a with
  | ⟨0, _⟩ => show win2_1.index t (0 : Fin 2) * 4000 + 1 * r.val = n.val; omega
  | ⟨1, _⟩ => show win2_1.index t (1 : Fin 2) * 128 + 1 * k.val = k.val; omega

theorem blk2_apply (t : Fin cfg2.N) (r : Fin 4000) (k : Fin 128) (n : Fin 100000) (hn : n.val = t.val * 4000 + r.val) :
    iblk2 V c 2 t (ix2 r k) = V c main_v251 (ix2 n k) := by
  obtain ⟨e0, e1⟩ := idx2 t
  show V c main_v251 (((cfg2.win 2).blk t).view.emb (ix2 r k)) = _
  refine congrArg (V c main_v251) (funext fun a => Fin.ext ?_)
  match a with
  | ⟨0, _⟩ => show win2_2.index t (0 : Fin 2) * 4000 + 1 * r.val = n.val; omega
  | ⟨1, _⟩ => show win2_2.index t (1 : Fin 2) * 128 + 1 * k.val = k.val; omega

theorem blk3_apply (t : Fin cfg2.N) (r : Fin 4000) (k : Fin 128) (n : Fin 100000) (hn : n.val = t.val * 4000 + r.val) :
    iblk2 V c 3 t (ix2 r k) = V c main_v279 (ix2 n k) := by
  obtain ⟨e0, e1⟩ := idx3 t
  show V c main_v279 (((cfg2.win 3).blk t).view.emb (ix2 r k)) = _
  refine congrArg (V c main_v279) (funext fun a => Fin.ext ?_)
  match a with
  | ⟨0, _⟩ => show win2_3.index t (0 : Fin 2) * 4000 + 1 * r.val = n.val; omega
  | ⟨1, _⟩ => show win2_3.index t (1 : Fin 2) * 128 + 1 * k.val = k.val; omega

theorem blk4_apply (t : Fin cfg2.N) (r : Fin 4000) (n : Fin 100000) (hn : n.val = t.val * 4000 + r.val) :
    iblk2 V c 4 t (ix2 r (0 : Fin 1)) = V c main_v195 (ix2 n (0 : Fin 1)) := by
  obtain ⟨e0, e1⟩ := idx4 t
  show V c main_v195 (((cfg2.win 4).blk t).view.emb (ix2 r (0 : Fin 1))) = _
  refine congrArg (V c main_v195) (funext fun a => Fin.ext ?_)
  match a with
  | ⟨0, _⟩ => show win2_4.index t (0 : Fin 2) * 4000 + 1 * r.val = n.val; omega
  | ⟨1, _⟩ => show win2_4.index t (1 : Fin 2) * 1 + 1 * 0 = 0; omega

theorem blk5_apply (t : Fin cfg2.N) (u : Fin 3) (k d : Fin 128) :
    iblk2 V c 5 t (ix3 u k d) = V c main_v281 (ix3 u k d) := by
  obtain ⟨e0, e1, e2⟩ := idx5 t
  show V c main_v281 (((cfg2.win 5).blk t).view.emb (ix3 u k d)) = _
  refine congrArg (V c main_v281) (funext fun a => Fin.ext ?_)
  match a with
  | ⟨0, _⟩ => show win2_5.index t (0 : Fin 3) * 3 + 1 * u.val = u.val; omega
  | ⟨1, _⟩ => show win2_5.index t (1 : Fin 3) * 128 + 1 * k.val = k.val; omega
  | ⟨2, _⟩ => show win2_5.index t (2 : Fin 3) * 128 + 1 * d.val = d.val; omega

theorem blk6_apply (t : Fin cfg2.N) (u : Fin 3) (d : Fin 128) :
    iblk2 V c 6 t (ix2 u d) = V c main_v283 (ix2 u d) := by
  obtain ⟨e0, e1⟩ := idx6 t
  show V c main_v283 (((cfg2.win 6).blk t).view.emb (ix2 u d)) = _
  refine congrArg (V c main_v283) (funext fun a => Fin.ext ?_)
  match a with
  | ⟨0, _⟩ => show win2_6.index t (0 : Fin 2) * 3 + 1 * u.val = u.val; omega
  | ⟨1, _⟩ => show win2_6.index t (1 : Fin 2) * 128 + 1 * d.val = d.val; omega

theorem blk7_apply (t : Fin cfg2.N) (u : Fin 3) (k d : Fin 128) :
    iblk2 V c 7 t (ix3 u k d) = V c main_v285 (ix3 u k d) := by
  obtain ⟨e0, e1, e2⟩ := idx7 t
  show V c main_v285 (((cfg2.win 7).blk t).view.emb (ix3 u k d)) = _
  refine congrArg (V c main_v285) (funext fun a => Fin.ext ?_)
  match a with
  | ⟨0, _⟩ => show win2_7.index t (0 : Fin 3) * 3 + 1 * u.val = u.val; omega
  | ⟨1, _⟩ => show win2_7.index t (1 : Fin 3) * 128 + 1 * k.val = k.val; omega
  | ⟨2, _⟩ => show win2_7.index t (2 : Fin 3) * 128 + 1 * d.val = d.val; omega

/-- What point t writes back is tile t of the layer of the arrays as the region finds them. -/
theorem flushed_eq (t : Fin cfg2.N) :
    (dat2 (F := Ideal) V c).flushed 8 t = ((cfg2.win 8).blk t).view.read (Elt Ideal)
      (layerK (V c main_v191) (V c main_v223) (V c main_v251) (V c main_v279) (V c main_v195) (V c main_v281) (V c main_v283) (V c main_v285)) := by
  show (cfg2.win 8).cut (grid2.coords t) ((dat2 V c).after 8 t) = _
  rw [after2_8]
  refine funext fun (y : S4000x128.Idx) => ?_
  obtain ⟨r, d, rfl⟩ : ∃ (r : Fin 4000) (d : Fin 128), y = ix2 r d := ⟨y 0, y 1, eq_ix2 y⟩
  obtain ⟨e0, e1⟩ := idx8 t
  have ht := lt25 t
  have hn : t.val * 4000 + r.val < 100000 := by have := r.isLt; omega
  have e : ((cfg2.win 8).blk t).view.emb (ix2 r d) = ix2 (⟨t.val * 4000 + r.val, hn⟩ : Fin 100000) d := by
    funext a; apply Fin.ext
    match a with
    | ⟨0, _⟩ => show win2_8.index t (0 : Fin 2) * 4000 + 1 * r.val = t.val * 4000 + r.val; omega
    | ⟨1, _⟩ => show win2_8.index t (1 : Fin 2) * 128 + 1 * d.val = d.val; omega
  show out2_8 (iblk2 V c 0 t) (iblk2 V c 1 t) (iblk2 V c 2 t) (iblk2 V c 3 t) (iblk2 V c 4 t) (iblk2 V c 5 t) (iblk2 V c 6 t) (iblk2 V c 7 t) (ix2 r d)
    = (layerK (V c main_v191) (V c main_v223) (V c main_v251) (V c main_v279) (V c main_v195) (V c main_v281) (V c main_v283) (V c main_v285)) (((cfg2.win 8).blk t).view.emb (ix2 r d))
  rw [e]
  refine (out_apply (iblk2 V c 0 t) (iblk2 V c 1 t) (iblk2 V c 2 t) (iblk2 V c 3 t) (iblk2 V c 4 t) (iblk2 V c 5 t) (iblk2 V c 7 t) (iblk2 V c 6 t) r d).trans ?_
  exact tileAt_eq_layer (iblk2 V c 0 t) (iblk2 V c 1 t) (iblk2 V c 2 t) (iblk2 V c 3 t) (iblk2 V c 4 t) (iblk2 V c 5 t) (iblk2 V c 7 t) (iblk2 V c 6 t)
    (V c main_v191) (V c main_v223) (V c main_v251) (V c main_v279) (V c main_v195) (V c main_v281) (V c main_v283) (V c main_v285) r d ⟨t.val * 4000 + r.val, hn⟩
    (fun k => blk0_apply V c t r k _ rfl) (fun k => blk1_apply V c t r k _ rfl) (fun k => blk2_apply V c t r k _ rfl)
    (fun k => blk3_apply V c t r k _ rfl) (blk4_apply V c t r _ rfl) (fun u k d => blk5_apply V c t u k d)
    (fun u d => blk6_apply V c t u d) (fun u k d => blk7_apply V c t u k d)

/-- An index of the array is in point t's tile iff each coordinate is in the tile's range on its axis. -/
theorem mem_blk (t : Fin cfg2.N) (i : S100000x128.Idx) :
    i ∈ ((cfg2.win 8).blk t).view.set ↔ ∀ a : Fin 2, win2_8.index t a * S4000x128.size a ≤ (i a).val ∧ (i a).val < win2_8.index t a * S4000x128.size a + S4000x128.size a := by
  show i ∈ ((View.whole main_v286).slice (win2_8.rect t)).set ↔ _
  rw [View.set_slice_whole, Rect.mem_set_unit]
  exact Iff.rfl

/-- Every node's row is in the tile of the point ⌊n / 4000⌋, which writes back. -/
theorem cover (i : S100000x128.Idx) :
    ∃ t : Fin cfg2.N, (cfg2.win 8).flush t = true ∧ i ∈ ((cfg2.win 8).blk t).view.set := by
  have hi0 : (i 0).val < 100000 := (i 0).isLt
  have hi1 : (i 1).val < 128 := (i 1).isLt
  have hN : cfg2.N = 25 := N_2
  obtain ⟨t, ht⟩ : ∃ t : Fin cfg2.N, t.val = (i 0).val / 4000 := ⟨⟨(i 0).val / 4000, by rw [hN]; omega⟩, rfl⟩
  obtain ⟨e0, e1⟩ := idx8 t
  refine ⟨t, flush2_8 t, ?_⟩
  rw [mem_blk]
  intro a
  match a with
  | ⟨0, _⟩ => show win2_8.index t (0 : Fin 2) * 4000 ≤ (i 0).val ∧ (i 0).val < win2_8.index t (0 : Fin 2) * 4000 + 4000; omega
  | ⟨1, _⟩ => show win2_8.index t (1 : Fin 2) * 128 ≤ (i 1).val ∧ (i 1).val < win2_8.index t (1 : Fin 2) * 128 + 128; omega

/-- The region's result array is the layer of the arrays as the region finds them. -/
theorem final (V : (c : Dev nD) → (b : Ref sig .tc) → Buf (Elt Ideal) ((c : Thread nD τ).loc b)) (c : Dev nD) :
    (dat2 (F := Ideal) V c).arrAt 8 cfg2.N
      = layerK (V c main_v191) (V c main_v223) (V c main_v251) (V c main_v279) (V c main_v195) (V c main_v281) (V c main_v283) (V c main_v285) :=
  (dat2 (F := Ideal) V c).arrAt_eq_of_cover 8 (layerK (V c main_v191) (V c main_v223) (V c main_v251) (V c main_v279) (V c main_v195) (V c main_v281) (V c main_v283) (V c main_v285))
    (fun t _ => flushed_eq V c t) cover

end Cert.Sage.K2
end
-- ==== Proof.KDefs.lean ====
/-
  The host-side pieces of a layer, in the program's own operations: one relation's neighbour mean of the
  node features (gather the source rows, keep the edges whose hop is within the layer, scatter-add them and
  their count onto the destination nodes, divide by the count floored at one), the node-validity bits and
  their 0/1 column, and the per-layer slices of the weights and the bias.
-/
import proofs.«176633_j7954279432525_1_alg».proof.KernelIdeal

noncomputable section

namespace Cert.Sage.K

open Idealize.ShloMosaic Cert.KernelIdeal Cert.KernelIdeal.Facts₀ Cert.KernelIdeal.Facts

variable [Cert.KernelIdeal.Facts] {F : FTy → Type} [FloatOps F]

/-- Row `r` of an edge list `[2, E]` as a vector `[E]` (row 0: sources, row 1: destinations). -/
def srcRow (ei : IVec S2x800000 32) : IVec S800000 32 :=
  shapeCast _ (extractStridedSlice S1x800000 ![0, 0] ei slices_S2x800000_S1x800000_0_0) shapeCasts_S1x800000_S800000
def dstRow (ei : IVec S2x800000 32) : IVec S800000 32 :=
  shapeCast _ (extractStridedSlice S1x800000 ![1, 0] ei slices_S2x800000_S1x800000_1_0) shapeCasts_S1x800000_S800000

/-- 1.0 on the edges whose hop is at most `lay`, 0.0 on the others. -/
def edgeValid (lay : BitVec 32) (em : IVec S800000 32) : FVec F S800000 .f32 :=
  uitofp .f32 (cmpi .sle em (broadcastInDim S800000 ![] bcast_S_S800000 (constantI S_ 32 lay)))

/-- A source index with a negative value wrapped by the node count. -/
def wrapIdx (src : IVec S800000 32) : IVec S800000 32 :=
  select (cmpi .slt src (broadcastInDim S800000 ![] bcast_S_S800000 (constantI S_ 32 0#32)))
    (addi src (broadcastInDim S800000 ![] bcast_S_S800000 (constantI S_ 32 100000#32))) src

/-- One relation's mean of the neighbours' features over the kept edges. -/
def mean (lay : BitVec 32) (h : FVec F S100000x128 .f32) (ei : IVec S2x800000 32) (em : IVec S800000 32) : FVec F S100000x128 .f32 :=
  Host.divf
    (Host.scatterAdd scatter_S100000x128_S800000x1_S800000x128_1_0_0_1
      (broadcastInDim S100000x128 ![] bcast_S_S100000x128 (constant S_ .f32 0x00000000#32))
      (broadcastInDim S800000x1 ![0] bcast_S800000_S800000x1_0 (dstRow ei))
      (mulf (Host.gather gather_S100000x128_S800000x1_S800000x128_1_0_n_n_0_1_1128 h
              (broadcastInDim S800000x1 ![0] bcast_S800000_S800000x1_0 (wrapIdx (srcRow ei))))
            (broadcastInDim S800000x128 ![0, 1] bcast_S800000x1_S800000x128_0_1
              (broadcastInDim S800000x1 ![0] bcast_S800000_S800000x1_0 (edgeValid (F := F) lay em)))))
    (broadcastInDim S100000x128 ![0, 1] bcast_S100000x1_S100000x128_0_1
      (broadcastInDim S100000x1 ![0] bcast_S100000_S100000x1_0
        (maximumf
          (Host.scatterAdd scatter_S100000_S800000x1_S800000_n_0_0_1
            (broadcastInDim S100000 ![] bcast_S_S100000 (constant S_ .f32 0x00000000#32))
            (broadcastInDim S800000x1 ![0] bcast_S800000_S800000x1_0 (dstRow ei))
            (edgeValid (F := F) lay em))
          (broadcastInDim S100000 ![] bcast_S_S100000 (constant S_ .f32 0x3F800000#32)))))

/-- The node-validity bits of a layer: hop at most `lay`. -/
def nodeValid (lay : BitVec 32) (nm : IVec S100000 32) : IVec S100000 1 :=
  cmpi .sle nm (broadcastInDim S100000 ![] bcast_S_S100000 (constantI S_ 32 lay))

/-- The validity bits as a 0/1 column `[N, 1]`. -/
def maskCol (lay : BitVec 32) (nm : IVec S100000 32) : FVec F S100000x1 .f32 :=
  broadcastInDim S100000x1 ![0] bcast_S100000_S100000x1_0 (uitofp .f32 (nodeValid lay nm))

/-- A weight tensor with its last two axes exchanged. -/
def wT (W : FVec F S3x3x128x128 .f32) : FVec F S3x3x128x128 .f32 :=
  transpose S3x3x128x128 [0, 1, 3, 2] W transposes_S3x3x128x128_S3x3x128x128_0_1_3_2

/-- Layer 0, 1, 2 of a (transposed) weight tensor as `[3, 128, 128]`, and of the bias as `[3, 128]`. -/
def wSlice0 (Wt : FVec F S3x3x128x128 .f32) : FVec F S3x128x128 .f32 :=
  shapeCast _ (extractStridedSlice S1x3x128x128 ![0, 0, 0, 0] Wt slices_S3x3x128x128_S1x3x128x128_0_0_0_0) shapeCasts_S1x3x128x128_S3x128x128
def wSlice1 (Wt : FVec F S3x3x128x128 .f32) : FVec F S3x128x128 .f32 :=
  shapeCast _ (extractStridedSlice S1x3x128x128 ![1, 0, 0, 0] Wt slices_S3x3x128x128_S1x3x128x128_1_0_0_0) shapeCasts_S1x3x128x128_S3x128x128
def wSlice2 (Wt : FVec F S3x3x128x128 .f32) : FVec F S3x128x128 .f32 :=
  shapeCast _ (extractStridedSlice S1x3x128x128 ![2, 0, 0, 0] Wt slices_S3x3x128x128_S1x3x128x128_2_0_0_0) shapeCasts_S1x3x128x128_S3x128x128
def bSlice0 (B : FVec F S3x3x128 .f32) : FVec F S3x128 .f32 :=
  shapeCast _ (extractStridedSlice S1x3x128 ![0, 0, 0] B slices_S3x3x128_S1x3x128_0_0_0) shapeCasts_S1x3x128_S3x128
def bSlice1 (B : FVec F S3x3x128 .f32) : FVec F S3x128 .f32 :=
  shapeCast _ (extractStridedSlice S1x3x128 ![1, 0, 0] B slices_S3x3x128_S1x3x128_1_0_0) shapeCasts_S1x3x128_S3x128
def bSlice2 (B : FVec F S3x3x128 .f32) : FVec F S3x128 .f32 :=
  shapeCast _ (extractStridedSlice S1x3x128 ![2, 0, 0] B slices_S3x3x128_S1x3x128_2_0_0) shapeCasts_S1x3x128_S3x128

end Cert.Sage.K

end
-- ==== Proof.KHost.lean ====
/-
  What each of the three layer kernels finds in its operand arrays when it is entered: the host operations
  between the kernels, read back as the neighbour means, the validity column, and the per-layer slices of the
  transposed weights and of the bias, as functions of the launch arguments and of the previous layer's output.

  Each stretch of host operations is first read over an arbitrary starting valuation; the boundary contents
  are then instances, with the buffers a stretch only reads walked back to the launch memory.
-/
import proofs.«176633_j7954279432525_1_alg».proof.Proof.Gen.KernelIdeal.Frame
import proofs.«176633_j7954279432525_1_alg».proof.Proof.KDefs
import Idealize.ShloMosaic.PureOps.Ideal

set_option maxRecDepth 16384
noncomputable section
open Idealize.ShloMosaic Idealize.ShloMosaic.TcCoe Idealize.SL.Sem
open Cert.KernelIdeal Cert.KernelIdeal.Gen Cert.Sage

namespace Cert.Sage.KHost

/-! ## The three stretches over an arbitrary starting valuation -/

/-! ### The first stretch -/

set_option maxHeartbeats 8000000 in
theorem ops0_mask (W : Valuation τ sig (Elt Ideal)) :
    StableHlo.after hostOps0 W (Proc.devRef .tc main_v5) = K.maskCol (F := Ideal) 3#32 (W (Proc.devRef .tc main_arg4)) := by
  after_results_simp
  rfl
set_option maxHeartbeats 8000000 in
theorem ops0_a0 (W : Valuation τ sig (Elt Ideal)) :
    StableHlo.after hostOps0 W (Proc.devRef .tc main_v33) = K.mean (F := Ideal) 3#32 (W (Proc.devRef .tc main_arg0)) (W (Proc.devRef .tc main_arg1)) (W (Proc.devRef .tc main_arg5)) := by
  after_results_simp
  rfl
set_option maxHeartbeats 8000000 in
theorem ops0_a1 (W : Valuation τ sig (Elt Ideal)) :
    StableHlo.after hostOps0 W (Proc.devRef .tc main_v61) = K.mean (F := Ideal) 3#32 (W (Proc.devRef .tc main_arg0)) (W (Proc.devRef .tc main_arg2)) (W (Proc.devRef .tc main_arg6)) := by
  after_results_simp
  rfl
set_option maxHeartbeats 8000000 in
theorem ops0_a2 (W : Valuation τ sig (Elt Ideal)) :
    StableHlo.after hostOps0 W (Proc.devRef .tc main_v89) = K.mean (F := Ideal) 3#32 (W (Proc.devRef .tc main_arg0)) (W (Proc.devRef .tc main_arg3)) (W (Proc.devRef .tc main_arg7)) := by
  after_results_simp
  rfl
set_option maxHeartbeats 8000000 in
theorem ops0_wl (W : Valuation τ sig (Elt Ideal)) :
    StableHlo.after hostOps0 W (Proc.devRef .tc main_v91) = K.wSlice0 (F := Ideal) (K.wT (F := Ideal) (W (Proc.devRef .tc main_arg8))) := by
  after_results_simp
  rfl
set_option maxHeartbeats 8000000 in
theorem ops0_b (W : Valuation τ sig (Elt Ideal)) :
    StableHlo.after hostOps0 W (Proc.devRef .tc main_v93) = K.bSlice0 (F := Ideal) (W (Proc.devRef .tc main_arg9)) := by
  after_results_simp
  rfl
set_option maxHeartbeats 8000000 in
theorem ops0_wr (W : Valuation τ sig (Elt Ideal)) :
    StableHlo.after hostOps0 W (Proc.devRef .tc main_v95) = K.wSlice0 (F := Ideal) (K.wT (F := Ideal) (W (Proc.devRef .tc main_arg10))) := by
  after_results_simp
  rfl

set_option maxHeartbeats 8000000 in
theorem ops0_v0 (W : Valuation τ sig (Elt Ideal)) :
    StableHlo.after hostOps0 W (Proc.devRef .tc main_v0) = K.wT (F := Ideal) (W (Proc.devRef .tc main_arg8)) := by
  after_results_simp
  rfl
set_option maxHeartbeats 8000000 in
theorem ops0_v1 (W : Valuation τ sig (Elt Ideal)) :
    StableHlo.after hostOps0 W (Proc.devRef .tc main_v1) = K.wT (F := Ideal) (W (Proc.devRef .tc main_arg10)) := by
  after_results_simp
  rfl
set_option maxHeartbeats 8000000 in
theorem ops0_keep_arg0 (W : Valuation τ sig (Elt Ideal)) :
    StableHlo.after hostOps0 W (Proc.devRef .tc main_arg0) = W (Proc.devRef .tc main_arg0) := by
  after_results_simp <;> rfl
set_option maxHeartbeats 8000000 in
theorem ops0_keep_arg1 (W : Valuation τ sig (Elt Ideal)) :
    StableHlo.after hostOps0 W (Proc.devRef .tc main_arg1) = W (Proc.devRef .tc main_arg1) := by
  after_results_simp <;> rfl
set_option maxHeartbeats 8000000 in
theorem ops0_keep_arg2 (W : Valuation τ sig (Elt Ideal)) :
    StableHlo.after hostOps0 W (Proc.devRef .tc main_arg2) = W (Proc.devRef .tc main_arg2) := by
  after_results_simp <;> rfl
set_option maxHeartbeats 8000000 in
theorem ops0_keep_arg3 (W : Valuation τ sig (Elt Ideal)) :
    StableHlo.after hostOps0 W (Proc.devRef .tc main_arg3) = W (Proc.devRef .tc main_arg3) := by
  after_results_simp <;> rfl
set_option maxHeartbeats 8000000 in
theorem ops0_keep_arg4 (W : Valuation τ sig (Elt Ideal)) :
    StableHlo.after hostOps0 W (Proc.devRef .tc main_arg4) = W (Proc.devRef .tc main_arg4) := by
  after_results_simp <;> rfl
set_option maxHeartbeats 8000000 in
theorem ops0_keep_arg5 (W : Valuation τ sig (Elt Ideal)) :
    StableHlo.after hostOps0 W (Proc.devRef .tc main_arg5) = W (Proc.devRef .tc main_arg5) := by
  after_results_simp <;> rfl
set_option maxHeartbeats 8000000 in
theorem ops0_keep_arg6 (W : Valuation τ sig (Elt Ideal)) :
    StableHlo.after hostOps0 W (Proc.devRef .tc main_arg6) = W (Proc.devRef .tc main_arg6) := by
  after_results_simp <;> rfl
set_option maxHeartbeats 8000000 in
theorem ops0_keep_arg7 (W : Valuation τ sig (Elt Ideal)) :
    StableHlo.after hostOps0 W (Proc.devRef .tc main_arg7) = W (Proc.devRef .tc main_arg7) := by
  after_results_simp <;> rfl
set_option maxHeartbeats 8000000 in
theorem ops0_keep_arg8 (W : Valuation τ sig (Elt Ideal)) :
    StableHlo.after hostOps0 W (Proc.devRef .tc main_arg8) = W (Proc.devRef .tc main_arg8) := by
  after_results_simp <;> rfl
set_option maxHeartbeats 8000000 in
theorem ops0_keep_arg9 (W : Valuation τ sig (Elt Ideal)) :
    StableHlo.after hostOps0 W (Proc.devRef .tc main_arg9) = W (Proc.devRef .tc main_arg9) := by
  after_results_simp <;> rfl
set_option maxHeartbeats 8000000 in
theorem ops0_keep_arg10 (W : Valuation τ sig (Elt Ideal)) :
    StableHlo.after hostOps0 W (Proc.devRef .tc main_arg10) = W (Proc.devRef .tc main_arg10) := by
  after_results_simp <;> rfl

/-! ### The second stretch -/

set_option maxHeartbeats 8000000 in
theorem ops1_mask (W : Valuation τ sig (Elt Ideal)) :
    StableHlo.after hostOps1 W (Proc.devRef .tc main_v100) = K.maskCol (F := Ideal) 2#32 (W (Proc.devRef .tc main_arg4)) := by
  after_results_simp
  rfl
set_option maxHeartbeats 8000000 in
theorem ops1_a0 (W : Valuation τ sig (Elt Ideal)) :
    StableHlo.after hostOps1 W (Proc.devRef .tc main_v128) = K.mean (F := Ideal) 2#32 (W (Proc.devRef .tc main_v96)) (W (Proc.devRef .tc main_arg1)) (W (Proc.devRef .tc main_arg5)) := by
  after_results_simp
  rfl
set_option maxHeartbeats 8000000 in
theorem ops1_a1 (W : Valuation τ sig (Elt Ideal)) :
    StableHlo.after hostOps1 W (Proc.devRef .tc main_v156) = K.mean (F := Ideal) 2#32 (W (Proc.devRef .tc main_v96)) (W (Proc.devRef .tc main_arg2)) (W (Proc.devRef .tc main_arg6)) := by
  after_results_simp
  rfl
set_option maxHeartbeats 8000000 in
theorem ops1_a2 (W : Valuation τ sig (Elt Ideal)) :
    StableHlo.after hostOps1 W (Proc.devRef .tc main_v184) = K.mean (F := Ideal) 2#32 (W (Proc.devRef .tc main_v96)) (W (Proc.devRef .tc main_arg3)) (W (Proc.devRef .tc main_arg7)) := by
  after_results_simp
  rfl
set_option maxHeartbeats 8000000 in
theorem ops1_wl (W : Valuation τ sig (Elt Ideal)) :
    StableHlo.after hostOps1 W (Proc.devRef .tc main_v186) = K.wSlice1 (F := Ideal) (W (Proc.devRef .tc main_v0)) := by
  after_results_simp
  rfl
set_option maxHeartbeats 8000000 in
theorem ops1_b (W : Valuation τ sig (Elt Ideal)) :
    StableHlo.after hostOps1 W (Proc.devRef .tc main_v188) = K.bSlice1 (F := Ideal) (W (Proc.devRef .tc main_arg9)) := by
  after_results_simp
  rfl
set_option maxHeartbeats 8000000 in
theorem ops1_wr (W : Valuation τ sig (Elt Ideal)) :
    StableHlo.after hostOps1 W (Proc.devRef .tc main_v190) = K.wSlice1 (F := Ideal) (W (Proc.devRef .tc main_v1)) := by
  after_results_simp
  rfl

set_option maxHeartbeats 8000000 in
theorem ops1_keep_arg1 (W : Valuation τ sig (Elt Ideal)) :
    StableHlo.after hostOps1 W (Proc.devRef .tc main_arg1) = W (Proc.devRef .tc main_arg1) := by
  after_results_simp <;> rfl
set_option maxHeartbeats 8000000 in
theorem ops1_keep_arg2 (W : Valuation τ sig (Elt Ideal)) :
    StableHlo.after hostOps1 W (Proc.devRef .tc main_arg2) = W (Proc.devRef .tc main_arg2) := by
  after_results_simp <;> rfl
set_option maxHeartbeats 8000000 in
theorem ops1_keep_arg3 (W : Valuation τ sig (Elt Ideal)) :
    StableHlo.after hostOps1 W (Proc.devRef .tc main_arg3) = W (Proc.devRef .tc main_arg3) := by
  after_results_simp <;> rfl
set_option maxHeartbeats 8000000 in
theorem ops1_keep_arg4 (W : Valuation τ sig (Elt Ideal)) :
    StableHlo.after hostOps1 W (Proc.devRef .tc main_arg4) = W (Proc.devRef .tc main_arg4) := by
  after_results_simp <;> rfl
set_option maxHeartbeats 8000000 in
theorem ops1_keep_arg5 (W : Valuation τ sig (Elt Ideal)) :
    StableHlo.after hostOps1 W (Proc.devRef .tc main_arg5) = W (Proc.devRef .tc main_arg5) := by
  after_results_simp <;> rfl
set_option maxHeartbeats 8000000 in
theorem ops1_keep_arg6 (W : Valuation τ sig (Elt Ideal)) :
    StableHlo.after hostOps1 W (Proc.devRef .tc main_arg6) = W (Proc.devRef .tc main_arg6) := by
  after_results_simp <;> rfl
set_option maxHeartbeats 8000000 in
theorem ops1_keep_arg7 (W : Valuation τ sig (Elt Ideal)) :
    StableHlo.after hostOps1 W (Proc.devRef .tc main_arg7) = W (Proc.devRef .tc main_arg7) := by
  after_results_simp <;> rfl
set_option maxHeartbeats 8000000 in
theorem ops1_keep_arg8 (W : Valuation τ sig (Elt Ideal)) :
    StableHlo.after hostOps1 W (Proc.devRef .tc main_arg8) = W (Proc.devRef .tc main_arg8) := by
  after_results_simp <;> rfl
set_option maxHeartbeats 8000000 in
theorem ops1_keep_arg9 (W : Valuation τ sig (Elt Ideal)) :
    StableHlo.after hostOps1 W (Proc.devRef .tc main_arg9) = W (Proc.devRef .tc main_arg9) := by
  after_results_simp <;> rfl
set_option maxHeartbeats 8000000 in
theorem ops1_keep_arg10 (W : Valuation τ sig (Elt Ideal)) :
    StableHlo.after hostOps1 W (Proc.devRef .tc main_arg10) = W (Proc.devRef .tc main_arg10) := by
  after_results_simp <;> rfl
set_option maxHeartbeats 8000000 in
theorem ops1_keep_v0 (W : Valuation τ sig (Elt Ideal)) :
    StableHlo.after hostOps1 W (Proc.devRef .tc main_v0) = W (Proc.devRef .tc main_v0) := by
  after_results_simp <;> rfl
set_option maxHeartbeats 8000000 in
theorem ops1_keep_v1 (W : Valuation τ sig (Elt Ideal)) :
    StableHlo.after hostOps1 W (Proc.devRef .tc main_v1) = W (Proc.devRef .tc main_v1) := by
  after_results_simp <;> rfl
set_option maxHeartbeats 8000000 in
theorem ops1_keep_v96 (W : Valuation τ sig (Elt Ideal)) :
    StableHlo.after hostOps1 W (Proc.devRef .tc main_v96) = W (Proc.devRef .tc main_v96) := by
  after_results_simp <;> rfl

/-! ### The third stretch -/

set_option maxHeartbeats 8000000 in
theorem ops2_mask (W : Valuation τ sig (Elt Ideal)) :
    StableHlo.after hostOps2 W (Proc.devRef .tc main_v195) = K.maskCol (F := Ideal) 1#32 (W (Proc.devRef .tc main_arg4)) := by
  after_results_simp
  rfl
set_option maxHeartbeats 8000000 in
theorem ops2_a0 (W : Valuation τ sig (Elt Ideal)) :
    StableHlo.after hostOps2 W (Proc.devRef .tc main_v223) = K.mean (F := Ideal) 1#32 (W (Proc.devRef .tc main_v191)) (W (Proc.devRef .tc main_arg1)) (W (Proc.devRef .tc main_arg5)) := by
  after_results_simp
  rfl
set_option maxHeartbeats 8000000 in
theorem ops2_a1 (W : Valuation τ sig (Elt Ideal)) :
    StableHlo.after hostOps2 W (Proc.devRef .tc main_v251) = K.mean (F := Ideal) 1#32 (W (Proc.devRef .tc main_v191)) (W (Proc.devRef .tc main_arg2)) (W (Proc.devRef .tc main_arg6)) := by
  after_results_simp
  rfl
set_option maxHeartbeats 8000000 in
theorem ops2_a2 (W : Valuation τ sig (Elt Ideal)) :
    StableHlo.after hostOps2 W (Proc.devRef .tc main_v279) = K.mean (F := Ideal) 1#32 (W (Proc.devRef .tc main_v191)) (W (Proc.devRef .tc main_arg3)) (W (Proc.devRef .tc main_arg7)) := by
  after_results_simp
  rfl
set_option maxHeartbeats 8000000 in
theorem ops2_wl (W : Valuation τ sig (Elt Ideal)) :
    StableHlo.after hostOps2 W (Proc.devRef .tc main_v281) = K.wSlice2 (F := Ideal) (W (Proc.devRef .tc main_v0)) := by
  after_results_simp
  rfl
set_option maxHeartbeats 8000000 in
theorem ops2_b (W : Valuation τ sig (Elt Ideal)) :
    StableHlo.after hostOps2 W (Proc.devRef .tc main_v283) = K.bSlice2 (F := Ideal) (W (Proc.devRef .tc main_arg9)) := by
  after_results_simp
  rfl
set_option maxHeartbeats 8000000 in
theorem ops2_wr (W : Valuation τ sig (Elt Ideal)) :
    StableHlo.after hostOps2 W (Proc.devRef .tc main_v285) = K.wSlice2 (F := Ideal) (W (Proc.devRef .tc main_v1)) := by
  after_results_simp
  rfl

set_option maxHeartbeats 8000000 in
theorem ops2_keep_v191 (W : Valuation τ sig (Elt Ideal)) :
    StableHlo.after hostOps2 W (Proc.devRef .tc main_v191) = W (Proc.devRef .tc main_v191) := by
  after_results_simp <;> rfl

/-! ## The boundary contents -/

variable (m : (ℓ : Loc nD τ sig) → Buf (Elt Ideal) ℓ) (ρ : Dev nD → PrngReg) (c : Dev nD)

/-! ### The first kernel's eight operands -/

theorem V1_h : V1 m ρ c main_arg0 = (m ((c : Thread nD τ).loc main_arg0)) :=
  ops0_keep_arg0 (W0 m ρ c)
theorem V1_a0 : V1 m ρ c main_v33 = K.mean (F := Ideal) 3#32 (m ((c : Thread nD τ).loc main_arg0)) (m ((c : Thread nD τ).loc main_arg1)) (m ((c : Thread nD τ).loc main_arg5)) :=
  ops0_a0 (W0 m ρ c)
theorem V1_a1 : V1 m ρ c main_v61 = K.mean (F := Ideal) 3#32 (m ((c : Thread nD τ).loc main_arg0)) (m ((c : Thread nD τ).loc main_arg2)) (m ((c : Thread nD τ).loc main_arg6)) :=
  ops0_a1 (W0 m ρ c)
theorem V1_a2 : V1 m ρ c main_v89 = K.mean (F := Ideal) 3#32 (m ((c : Thread nD τ).loc main_arg0)) (m ((c : Thread nD τ).loc main_arg3)) (m ((c : Thread nD τ).loc main_arg7)) :=
  ops0_a2 (W0 m ρ c)
theorem V1_mask : V1 m ρ c main_v5 = K.maskCol (F := Ideal) 3#32 (m ((c : Thread nD τ).loc main_arg4)) :=
  ops0_mask (W0 m ρ c)
theorem V1_wl : V1 m ρ c main_v91 = K.wSlice0 (K.wT (F := Ideal) (m ((c : Thread nD τ).loc main_arg8))) :=
  ops0_wl (W0 m ρ c)
theorem V1_b : V1 m ρ c main_v93 = K.bSlice0 (F := Ideal) (m ((c : Thread nD τ).loc main_arg9)) :=
  ops0_b (W0 m ρ c)
theorem V1_wr : V1 m ρ c main_v95 = K.wSlice0 (K.wT (F := Ideal) (m ((c : Thread nD τ).loc main_arg10))) :=
  ops0_wr (W0 m ρ c)

/-! ### What the second stretch reads without writing: the arguments and the two transposed weights, as the
    first kernel left them (it touches none of them) -/

theorem W2_arg1 : W2 m ρ c (Proc.devRef .tc main_arg1) = (m ((c : Thread nD τ).loc main_arg1)) :=
  (W2_of_ne m ρ c main_arg1 (by decide)).trans (ops0_keep_arg1 (W0 m ρ c))
theorem W2_arg2 : W2 m ρ c (Proc.devRef .tc main_arg2) = (m ((c : Thread nD τ).loc main_arg2)) :=
  (W2_of_ne m ρ c main_arg2 (by decide)).trans (ops0_keep_arg2 (W0 m ρ c))
theorem W2_arg3 : W2 m ρ c (Proc.devRef .tc main_arg3) = (m ((c : Thread nD τ).loc main_arg3)) :=
  (W2_of_ne m ρ c main_arg3 (by decide)).trans (ops0_keep_arg3 (W0 m ρ c))
theorem W2_arg4 : W2 m ρ c (Proc.devRef .tc main_arg4) = (m ((c : Thread nD τ).loc main_arg4)) :=
  (W2_of_ne m ρ c main_arg4 (by decide)).trans (ops0_keep_arg4 (W0 m ρ c))
theorem W2_arg5 : W2 m ρ c (Proc.devRef .tc main_arg5) = (m ((c : Thread nD τ).loc main_arg5)) :=
  (W2_of_ne m ρ c main_arg5 (by decide)).trans (ops0_keep_arg5 (W0 m ρ c))
theorem W2_arg6 : W2 m ρ c (Proc.devRef .tc main_arg6) = (m ((c : Thread nD τ).loc main_arg6)) :=
  (W2_of_ne m ρ c main_arg6 (by decide)).trans (ops0_keep_arg6 (W0 m ρ c))
theorem W2_arg7 : W2 m ρ c (Proc.devRef .tc main_arg7) = (m ((c : Thread nD τ).loc main_arg7)) :=
  (W2_of_ne m ρ c main_arg7 (by decide)).trans (ops0_keep_arg7 (W0 m ρ c))
theorem W2_arg8 : W2 m ρ c (Proc.devRef .tc main_arg8) = (m ((c : Thread nD τ).loc main_arg8)) :=
  (W2_of_ne m ρ c main_arg8 (by decide)).trans (ops0_keep_arg8 (W0 m ρ c))
theorem W2_arg9 : W2 m ρ c (Proc.devRef .tc main_arg9) = (m ((c : Thread nD τ).loc main_arg9)) :=
  (W2_of_ne m ρ c main_arg9 (by decide)).trans (ops0_keep_arg9 (W0 m ρ c))
theorem W2_arg10 : W2 m ρ c (Proc.devRef .tc main_arg10) = (m ((c : Thread nD τ).loc main_arg10)) :=
  (W2_of_ne m ρ c main_arg10 (by decide)).trans (ops0_keep_arg10 (W0 m ρ c))

theorem W2_v0 : W2 m ρ c (Proc.devRef .tc main_v0) = K.wT (F := Ideal) (m ((c : Thread nD τ).loc main_arg8)) :=
  (W2_of_ne m ρ c main_v0 (by decide)).trans (ops0_v0 (W0 m ρ c))
theorem W2_v1 : W2 m ρ c (Proc.devRef .tc main_v1) = K.wT (F := Ideal) (m ((c : Thread nD τ).loc main_arg10)) :=
  (W2_of_ne m ρ c main_v1 (by decide)).trans (ops0_v1 (W0 m ρ c))

/-! ### The second kernel's eight operands -/

theorem V3_h : V3 m ρ c main_v96 = V2 m ρ c main_v96 :=
  ops1_keep_v96 (W2 m ρ c)
theorem V3_a0 : V3 m ρ c main_v128 = K.mean (F := Ideal) 2#32 (V2 m ρ c main_v96) (m ((c : Thread nD τ).loc main_arg1)) (m ((c : Thread nD τ).loc main_arg5)) := by
  have h := ops1_a0 (W2 m ρ c)
  rw [W2_arg1 m ρ c, W2_arg5 m ρ c] at h
  exact h
theorem V3_a1 : V3 m ρ c main_v156 = K.mean (F := Ideal) 2#32 (V2 m ρ c main_v96) (m ((c : Thread nD τ).loc main_arg2)) (m ((c : Thread nD τ).loc main_arg6)) := by
  have h := ops1_a1 (W2 m ρ c)
  rw [W2_arg2 m ρ c, W2_arg6 m ρ c] at h
  exact h
theorem V3_a2 : V3 m ρ c main_v184 = K.mean (F := Ideal) 2#32 (V2 m ρ c main_v96) (m ((c : Thread nD τ).loc main_arg3)) (m ((c : Thread nD τ).loc main_arg7)) := by
  have h := ops1_a2 (W2 m ρ c)
  rw [W2_arg3 m ρ c, W2_arg7 m ρ c] at h
  exact h
theorem V3_mask : V3 m ρ c main_v100 = K.maskCol (F := Ideal) 2#32 (m ((c : Thread nD τ).loc main_arg4)) := by
  have h := ops1_mask (W2 m ρ c)
  rw [W2_arg4 m ρ c] at h
  exact h
theorem V3_wl : V3 m ρ c main_v186 = K.wSlice1 (K.wT (F := Ideal) (m ((c : Thread nD τ).loc main_arg8))) := by
  have h := ops1_wl (W2 m ρ c)
  rw [W2_v0 m ρ c] at h
  exact h
theorem V3_b : V3 m ρ c main_v188 = K.bSlice1 (F := Ideal) (m ((c : Thread nD τ).loc main_arg9)) := by
  have h := ops1_b (W2 m ρ c)
  rw [W2_arg9 m ρ c] at h
  exact h
theorem V3_wr : V3 m ρ c main_v190 = K.wSlice1 (K.wT (F := Ideal) (m ((c : Thread nD τ).loc main_arg10))) := by
  have h := ops1_wr (W2 m ρ c)
  rw [W2_v1 m ρ c] at h
  exact h

/-! ### What the third stretch reads without writing, one kernel and one stretch later -/

theorem W4_arg1 : W4 m ρ c (Proc.devRef .tc main_arg1) = (m ((c : Thread nD τ).loc main_arg1)) :=
  (W4_of_ne m ρ c main_arg1 (by decide)).trans ((ops1_keep_arg1 (W2 m ρ c)).trans (W2_arg1 m ρ c))
theorem W4_arg2 : W4 m ρ c (Proc.devRef .tc main_arg2) = (m ((c : Thread nD τ).loc main_arg2)) :=
  (W4_of_ne m ρ c main_arg2 (by decide)).trans ((ops1_keep_arg2 (W2 m ρ c)).trans (W2_arg2 m ρ c))
theorem W4_arg3 : W4 m ρ c (Proc.devRef .tc main_arg3) = (m ((c : Thread nD τ).loc main_arg3)) :=
  (W4_of_ne m ρ c main_arg3 (by decide)).trans ((ops1_keep_arg3 (W2 m ρ c)).trans (W2_arg3 m ρ c))
theorem W4_arg4 : W4 m ρ c (Proc.devRef .tc main_arg4) = (m ((c : Thread nD τ).loc main_arg4)) :=
  (W4_of_ne m ρ c main_arg4 (by decide)).trans ((ops1_keep_arg4 (W2 m ρ c)).trans (W2_arg4 m ρ c))
theorem W4_arg5 : W4 m ρ c (Proc.devRef .tc main_arg5) = (m ((c : Thread nD τ).loc main_arg5)) :=
  (W4_of_ne m ρ c main_arg5 (by decide)).trans ((ops1_keep_arg5 (W2 m ρ c)).trans (W2_arg5 m ρ c))
theorem W4_arg6 : W4 m ρ c (Proc.devRef .tc main_arg6) = (m ((c : Thread nD τ).loc main_arg6)) :=
  (W4_of_ne m ρ c main_arg6 (by decide)).trans ((ops1_keep_arg6 (W2 m ρ c)).trans (W2_arg6 m ρ c))
theorem W4_arg7 : W4 m ρ c (Proc.devRef .tc main_arg7) = (m ((c : Thread nD τ).loc main_arg7)) :=
  (W4_of_ne m ρ c main_arg7 (by decide)).trans ((ops1_keep_arg7 (W2 m ρ c)).trans (W2_arg7 m ρ c))
theorem W4_arg8 : W4 m ρ c (Proc.devRef .tc main_arg8) = (m ((c : Thread nD τ).loc main_arg8)) :=
  (W4_of_ne m ρ c main_arg8 (by decide)).trans ((ops1_keep_arg8 (W2 m ρ c)).trans (W2_arg8 m ρ c))
theorem W4_arg9 : W4 m ρ c (Proc.devRef .tc main_arg9) = (m ((c : Thread nD τ).loc main_arg9)) :=
  (W4_of_ne m ρ c main_arg9 (by decide)).trans ((ops1_keep_arg9 (W2 m ρ c)).trans (W2_arg9 m ρ c))
theorem W4_arg10 : W4 m ρ c (Proc.devRef .tc main_arg10) = (m ((c : Thread nD τ).loc main_arg10)) :=
  (W4_of_ne m ρ c main_arg10 (by decide)).trans ((ops1_keep_arg10 (W2 m ρ c)).trans (W2_arg10 m ρ c))

theorem W4_v0 : W4 m ρ c (Proc.devRef .tc main_v0) = K.wT (F := Ideal) (m ((c : Thread nD τ).loc main_arg8)) :=
  (W4_of_ne m ρ c main_v0 (by decide)).trans ((ops1_keep_v0 (W2 m ρ c)).trans (W2_v0 m ρ c))
theorem W4_v1 : W4 m ρ c (Proc.devRef .tc main_v1) = K.wT (F := Ideal) (m ((c : Thread nD τ).loc main_arg10)) :=
  (W4_of_ne m ρ c main_v1 (by decide)).trans ((ops1_keep_v1 (W2 m ρ c)).trans (W2_v1 m ρ c))

/-! ### The third kernel's eight operands -/

theorem V5_h : V5 m ρ c main_v191 = V4 m ρ c main_v191 :=
  ops2_keep_v191 (W4 m ρ c)
theorem V5_a0 : V5 m ρ c main_v223 = K.mean (F := Ideal) 1#32 (V4 m ρ c main_v191) (m ((c : Thread nD τ).loc main_arg1)) (m ((c : Thread nD τ).loc main_arg5)) := by
  have h := ops2_a0 (W4 m ρ c)
  rw [W4_arg1 m ρ c, W4_arg5 m ρ c] at h
  exact h
theorem V5_a1 : V5 m ρ c main_v251 = K.mean (F := Ideal) 1#32 (V4 m ρ c main_v191) (m ((c : Thread nD τ).loc main_arg2)) (m ((c : Thread nD τ).loc main_arg6)) := by
  have h := ops2_a1 (W4 m ρ c)
  rw [W4_arg2 m ρ c, W4_arg6 m ρ c] at h
  exact h
theorem V5_a2 : V5 m ρ c main_v279 = K.mean (F := Ideal) 1#32 (V4 m ρ c main_v191) (m ((c : Thread nD τ).loc main_arg3)) (m ((c : Thread nD τ).loc main_arg7)) := by
  have h := ops2_a2 (W4 m ρ c)
  rw [W4_arg3 m ρ c, W4_arg7 m ρ c] at h
  exact h
theorem V5_mask : V5 m ρ c main_v195 = K.maskCol (F := Ideal) 1#32 (m ((c : Thread nD τ).loc main_arg4)) := by
  have h := ops2_mask (W4 m ρ c)
  rw [W4_arg4 m ρ c] at h
  exact h
theorem V5_wl : V5 m ρ c main_v281 = K.wSlice2 (K.wT (F := Ideal) (m ((c : Thread nD τ).loc main_arg8))) := by
  have h := ops2_wl (W4 m ρ c)
  rw [W4_v0 m ρ c] at h
  exact h
theorem V5_b : V5 m ρ c main_v283 = K.bSlice2 (F := Ideal) (m ((c : Thread nD τ).loc main_arg9)) := by
  have h := ops2_b (W4 m ρ c)
  rw [W4_arg9 m ρ c] at h
  exact h
theorem V5_wr : V5 m ρ c main_v285 = K.wSlice2 (K.wT (F := Ideal) (m ((c : Thread nD τ).loc main_arg10))) := by
  have h := ops2_wr (W4 m ρ c)
  rw [W4_v1 m ρ c] at h
  exact h

end Cert.Sage.KHost
end
-- ==== Proof.KSlices.lean ====
/-
  The host's slices read at an index, over the extended reals: the 0/1 validity column at a node is the
  validity bit of that node as a number; a layer of the transposed weight tensor at (relation, row, column)
  is the weight tensor at (layer, relation, column, row); a layer of the bias at (relation, column) is the
  bias at (layer, relation, column).
-/
import proofs.«176633_j7954279432525_1_alg».proof.Proof.KDefs
import Idealize.ShloMosaic.Lib.Pipeline.Value
import Idealize.ShloMosaic.Lib.ValueIdx
import Idealize.ShloMosaic.Lib.ValueLayout

noncomputable section

namespace Cert.Sage.K

open Idealize.ShloMosaic Idealize.ShloMosaic.ValueIdx Cert.KernelIdeal Cert.KernelIdeal.Facts₀ Cert.KernelIdeal.Facts

variable [Cert.KernelIdeal.Facts]

/-- The validity column at node `n` is the node's validity bit as a real number (0 or 1). -/
theorem maskCol_apply (lay : BitVec 32) (nm : IVec S100000 32) (n : Fin 100000) :
    maskCol (F := Ideal) lay nm (ix2 n (0 : Fin 1)) = (((nodeValid lay nm (ix1 n)).toNat : ℝ) : EReal) := by
  unfold maskCol
  refine (broadcastInDim_apply _ bcast_S100000_S100000x1_0 _ (ix2 n (0 : Fin 1)) (ix1 n) (fun a => match a with
    | ⟨0, _⟩ => by show n.val = if (100000 : Nat) = 1 then 0 else n.val; rw [if_neg (by decide)])).trans ?_
  rfl

/-- Layer 0 of the transposed weight tensor at relation `t`, row `k`, column `d` is the weight tensor's layer 0,
    relation `t`, at row `d`, column `k`. -/
theorem wSlice0_apply (W : FVec Ideal S3x3x128x128 .f32) (t : Fin 3) (k d : Fin 128) :
    wSlice0 (wT W) (ix3 t k d) = W (ix4 (0 : Fin 3) t d k) := by
  unfold wSlice0 wT
  refine (shapeCast_1abc_abc_apply _ shapeCasts_S1x3x128x128_S3x128x128 t k d).trans ?_
  refine (extractStridedSlice_apply ![0, 0, 0, 0] _ slices_S3x3x128x128_S1x3x128x128_0_0_0_0
    (ix4 (0 : Fin 1) t k d) (ix4 (0 : Fin 3) t k d) (fun a => match a with
      | ⟨0, _⟩ => by show 0 = 0 + 0; omega
      | ⟨1, _⟩ => by show t.val = 0 + t.val; omega
      | ⟨2, _⟩ => by show k.val = 0 + k.val; omega
      | ⟨3, _⟩ => by show d.val = 0 + d.val; omega)).trans ?_
  exact transpose_apply [0, 1, 3, 2] W transposes_S3x3x128x128_S3x3x128x128_0_1_3_2
    (ix4 (0 : Fin 3) t k d) (ix4 (0 : Fin 3) t d k) (fun b => match b with
      | ⟨0, _⟩ => rfl
      | ⟨1, _⟩ => rfl
      | ⟨2, _⟩ => rfl
      | ⟨3, _⟩ => rfl)

/-- Layer 1 of the transposed weight tensor at relation `t`, row `k`, column `d` is the weight tensor's layer 1,
    relation `t`, at row `d`, column `k`. -/
theorem wSlice1_apply (W : FVec Ideal S3x3x128x128 .f32) (t : Fin 3) (k d : Fin 128) :
    wSlice1 (wT W) (ix3 t k d) = W (ix4 (1 : Fin 3) t d k) := by
  unfold wSlice1 wT
  refine (shapeCast_1abc_abc_apply _ shapeCasts_S1x3x128x128_S3x128x128 t k d).trans ?_
  refine (extractStridedSlice_apply ![1, 0, 0, 0] _ slices_S3x3x128x128_S1x3x128x128_1_0_0_0
    (ix4 (0 : Fin 1) t k d) (ix4 (1 : Fin 3) t k d) (fun a => match a with
      | ⟨0, _⟩ => by show 1 = 1 + 0; omega
      | ⟨1, _⟩ => by show t.val = 0 + t.val; omega
      | ⟨2, _⟩ => by show k.val = 0 + k.val; omega
      | ⟨3, _⟩ => by show d.val = 0 + d.val; omega)).trans ?_
  exact transpose_apply [0, 1, 3, 2] W transposes_S3x3x128x128_S3x3x128x128_0_1_3_2
    (ix4 (1 : Fin 3) t k d) (ix4 (1 : Fin 3) t d k) (fun b => match b with
      | ⟨0, _⟩ => rfl
      | ⟨1, _⟩ => rfl
      | ⟨2, _⟩ => rfl
      | ⟨3, _⟩ => rfl)

/-- Layer 2 of the transposed weight tensor at relation `t`, row `k`, column `d` is the weight tensor's layer 2,
    relation `t`, at row `d`, column `k`. -/
theorem wSlice2_apply (W : FVec Ideal S3x3x128x128 .f32) (t : Fin 3) (k d : Fin 128) :
    wSlice2 (wT W) (ix3 t k d) = W (ix4 (2 : Fin 3) t d k) := by
  unfold wSlice2 wT
  refine (shapeCast_1abc_abc_apply _ shapeCasts_S1x3x128x128_S3x128x128 t k d).trans ?_
  refine (extractStridedSlice_apply ![2, 0, 0, 0] _ slices_S3x3x128x128_S1x3x128x128_2_0_0_0
    (ix4 (0 : Fin 1) t k d) (ix4 (2 : Fin 3) t k d) (fun a => match a with
      | ⟨0, _⟩ => by show 2 = 2 + 0; omega
      | ⟨1, _⟩ => by show t.val = 0 + t.val; omega
      | ⟨2, _⟩ => by show k.val = 0 + k.val; omega
      | ⟨3, _⟩ => by show d.val = 0 + d.val; omega)).trans ?_
  exact transpose_apply [0, 1, 3, 2] W transposes_S3x3x128x128_S3x3x128x128_0_1_3_2
    (ix4 (2 : Fin 3) t k d) (ix4 (2 : Fin 3) t d k) (fun b => match b with
      | ⟨0, _⟩ => rfl
      | ⟨1, _⟩ => rfl
      | ⟨2, _⟩ => rfl
      | ⟨3, _⟩ => rfl)

/-- Layer 0 of the bias at relation `t`, column `d`. -/
theorem bSlice0_apply (B : FVec Ideal S3x3x128 .f32) (t : Fin 3) (d : Fin 128) :
    bSlice0 B (ix2 t d) = B (ix3 (0 : Fin 3) t d) := by
  unfold bSlice0
  refine (shapeCast_1ab_ab_apply _ shapeCasts_S1x3x128_S3x128 t d).trans ?_
  exact extractStridedSlice_apply ![0, 0, 0] B slices_S3x3x128_S1x3x128_0_0_0
    (ix3 (0 : Fin 1) t d) (ix3 (0 : Fin 3) t d) (fun a => match a with
      | ⟨0, _⟩ => by show 0 = 0 + 0; omega
      | ⟨1, _⟩ => by show t.val = 0 + t.val; omega
      | ⟨2, _⟩ => by show d.val = 0 + d.val; omega)

/-- Layer 1 of the bias at relation `t`, column `d`. -/
theorem bSlice1_apply (B : FVec Ideal S3x3x128 .f32) (t : Fin 3) (d : Fin 128) :
    bSlice1 B (ix2 t d) = B (ix3 (1 : Fin 3) t d) := by
  unfold bSlice1
  refine (shapeCast_1ab_ab_apply _ shapeCasts_S1x3x128_S3x128 t d).trans ?_
  exact extractStridedSlice_apply ![1, 0, 0] B slices_S3x3x128_S1x3x128_1_0_0
    (ix3 (0 : Fin 1) t d) (ix3 (1 : Fin 3) t d) (fun a => match a with
      | ⟨0, _⟩ => by show 1 = 1 + 0; omega
      | ⟨1, _⟩ => by show t.val = 0 + t.val; omega
      | ⟨2, _⟩ => by show d.val = 0 + d.val; omega)

/-- Layer 2 of the bias at relation `t`, column `d`. -/
theorem bSlice2_apply (B : FVec Ideal S3x3x128 .f32) (t : Fin 3) (d : Fin 128) :
    bSlice2 B (ix2 t d) = B (ix3 (2 : Fin 3) t d) := by
  unfold bSlice2
  refine (shapeCast_1ab_ab_apply _ shapeCasts_S1x3x128_S3x128 t d).trans ?_
  exact extractStridedSlice_apply ![2, 0, 0] B slices_S3x3x128_S1x3x128_2_0_0
    (ix3 (0 : Fin 1) t d) (ix3 (2 : Fin 3) t d) (fun a => match a with
      | ⟨0, _⟩ => by show 2 = 2 + 0; omega
      | ⟨1, _⟩ => by show t.val = 0 + t.val; omega
      | ⟨2, _⟩ => by show d.val = 0 + d.val; omega)

end Cert.Sage.K

end
-- ==== Proof.KLayers.lean ====
/-
  The kernel program's three layers as the specification's: each region's output array, after the region, is the
  layer function of the array the region read its node features from, of the three relations' means of that array,
  and of the un-sliced weights — the region's closed form (a row tile of the layer is the layer of the row tile)
  with its eight operands read back through the host operations that prepared them.
-/
import proofs.«176633_j7954279432525_1_alg».proof.Proof.KRun
import proofs.«176633_j7954279432525_1_alg».proof.Proof.KFinal0
import proofs.«176633_j7954279432525_1_alg».proof.Proof.KFinal1
import proofs.«176633_j7954279432525_1_alg».proof.Proof.KFinal2
import proofs.«176633_j7954279432525_1_alg».proof.Proof.KHost
import proofs.«176633_j7954279432525_1_alg».proof.Proof.KSlices

noncomputable section

namespace Cert.Sage.KLayers

open Idealize.ShloMosaic Idealize.ShloMosaic.TcCoe Idealize.SL.Sem Idealize.ShloMosaic.ValueIdx
open Cert.KernelIdeal Cert.KernelIdeal.Gen Cert.Sage

variable (m : (ℓ : Loc nD τ sig) → Buf (Elt Ideal) ℓ) (ρ : Dev nD → PrngReg) (c : Dev nD)

/-- Layer 1: region 0's output from the launch contents of the arguments. -/
theorem layer1 : V2 m ρ c main_v96 = layerSpec 0 (K.nodeValid 3#32 (m ((c : Thread nD τ).loc main_arg4))) (m ((c : Thread nD τ).loc main_arg0))
        (K.mean (F := Ideal) 3#32 (m ((c : Thread nD τ).loc main_arg0)) (m ((c : Thread nD τ).loc main_arg1)) (m ((c : Thread nD τ).loc main_arg5)))
        (K.mean (F := Ideal) 3#32 (m ((c : Thread nD τ).loc main_arg0)) (m ((c : Thread nD τ).loc main_arg2)) (m ((c : Thread nD τ).loc main_arg6)))
        (K.mean (F := Ideal) 3#32 (m ((c : Thread nD τ).loc main_arg0)) (m ((c : Thread nD τ).loc main_arg3)) (m ((c : Thread nD τ).loc main_arg7)))
        (m ((c : Thread nD τ).loc main_arg8)) (m ((c : Thread nD τ).loc main_arg9)) (m ((c : Thread nD τ).loc main_arg10)) := by
  refine (KRun.W2_out m ρ c).trans ?_
  rw [K0.final (V1 m ρ) c, KHost.V1_h, KHost.V1_a0, KHost.V1_a1, KHost.V1_a2, KHost.V1_mask, KHost.V1_wl, KHost.V1_b, KHost.V1_wr]
  exact layerK_eq_spec 0 _ _ _ _ _ _ _ _ _ _ _ _ (K.maskCol_apply _ _) (K.wSlice0_apply _) (K.bSlice0_apply _) (K.wSlice0_apply _)

/-- Layer 2: region 1's output from region 0's. -/
theorem layer2 : V4 m ρ c main_v191 = layerSpec 1 (K.nodeValid 2#32 (m ((c : Thread nD τ).loc main_arg4))) (V2 m ρ c main_v96)
        (K.mean (F := Ideal) 2#32 (V2 m ρ c main_v96) (m ((c : Thread nD τ).loc main_arg1)) (m ((c : Thread nD τ).loc main_arg5)))
        (K.mean (F := Ideal) 2#32 (V2 m ρ c main_v96) (m ((c : Thread nD τ).loc main_arg2)) (m ((c : Thread nD τ).loc main_arg6)))
        (K.mean (F := Ideal) 2#32 (V2 m ρ c main_v96) (m ((c : Thread nD τ).loc main_arg3)) (m ((c : Thread nD τ).loc main_arg7)))
        (m ((c : Thread nD τ).loc main_arg8)) (m ((c : Thread nD τ).loc main_arg9)) (m ((c : Thread nD τ).loc main_arg10)) := by
  refine (KRun.W4_out m ρ c).trans ?_
  rw [K1.final (V3 m ρ) c, KHost.V3_h, KHost.V3_a0, KHost.V3_a1, KHost.V3_a2, KHost.V3_mask, KHost.V3_wl, KHost.V3_b, KHost.V3_wr]
  exact layerK_eq_spec 1 _ _ _ _ _ _ _ _ _ _ _ _ (K.maskCol_apply _ _) (K.wSlice1_apply _) (K.bSlice1_apply _) (K.wSlice1_apply _)

/-- Layer 3: region 2's output — the program's result — from region 1's. -/
theorem layer3 : W6 m ρ c (Proc.devRef .tc main_v286) = layerSpec 2 (K.nodeValid 1#32 (m ((c : Thread nD τ).loc main_arg4))) (V4 m ρ c main_v191)
        (K.mean (F := Ideal) 1#32 (V4 m ρ c main_v191) (m ((c : Thread nD τ).loc main_arg1)) (m ((c : Thread nD τ).loc main_arg5)))
        (K.mean (F := Ideal) 1#32 (V4 m ρ c main_v191) (m ((c : Thread nD τ).loc main_arg2)) (m ((c : Thread nD τ).loc main_arg6)))
        (K.mean (F := Ideal) 1#32 (V4 m ρ c main_v191) (m ((c : Thread nD τ).loc main_arg3)) (m ((c : Thread nD τ).loc main_arg7)))
        (m ((c : Thread nD τ).loc main_arg8)) (m ((c : Thread nD τ).loc main_arg9)) (m ((c : Thread nD τ).loc main_arg10)) := by
  refine (KRun.W6_out m ρ c).trans ?_
  rw [K2.final (V5 m ρ) c, KHost.V5_h, KHost.V5_a0, KHost.V5_a1, KHost.V5_a2, KHost.V5_mask, KHost.V5_wl, KHost.V5_b, KHost.V5_wr]
  exact layerK_eq_spec 2 _ _ _ _ _ _ _ _ _ _ _ _ (K.maskCol_apply _ _) (K.wSlice2_apply _) (K.bSlice2_apply _) (K.wSlice2_apply _)

end Cert.Sage.KLayers

end
-- ==== Proof.RefRun.lean ====
/-
  The reference program as a list of host operations, cut into ten stretches — at the ends of its three layers
  and at the seams of the eight windows its @main is printed in — and its run: every weakly fair execution of
  @main terminates, and each buffer ends at what the operations, applied in order to the launch contents, leave in it.
  The stretches q0, q1, q2a are layer 1 (it ends with the selection that writes main_v134), q2b … q5a layer 2
  (ending at main_v269), q5b … q7 layer 3 (ending at the result main_v404).
-/
import proofs.«176633_j7954279432525_1_alg».proof.Proof.Gen.ReferenceIdeal
import Idealize.ShloMosaic.Lib.StableHlo.Run

noncomputable section

namespace Cert.Sage.RefRun

open Cert.ReferenceIdeal Cert.ReferenceIdeal.Gen Idealize.ShloMosaic Idealize.ShloMosaic.TcCoe Idealize.SL.Sem Idealize.ShloMosaic.StableHlo

variable {F : FTy → Type} [FloatOps F]

/-- Layer 1, operations 1–60: the validity bits, the first relation's mean and the start of its products. -/
abbrev q0 : List (HloOp τ sig (Elt F)) :=
  [ nullary main_c (constantI S_ 32 3#32),
    unary main_c main_v0 (broadcastInDim S100000 ![] bcast_S_S100000 : (⟨S_, .i32⟩ : BufTy).Contents (Elt F) → (⟨S100000, .i32⟩ : BufTy).Contents (Elt F)),
    binary main_arg4 main_v0 main_v1 (cmpi .sle : (⟨S100000, .i32⟩ : BufTy).Contents (Elt F) → (⟨S100000, .i32⟩ : BufTy).Contents (Elt F) → (⟨S100000, .i1⟩ : BufTy).Contents (Elt F)),
    nullary main_cst (constant S_ .f32 0x00000000#32),
    unary main_cst main_v2 (broadcastInDim S100000x128 ![] bcast_S_S100000x128 : (⟨S_, .f32⟩ : BufTy).Contents (Elt F) → (⟨S100000x128, .f32⟩ : BufTy).Contents (Elt F)),
    unary main_arg1 main_v3 ((extractStridedSlice S1x800000 ![0, 0] · slices_S2x800000_S1x800000_0_0) : (⟨S2x800000, .i32⟩ : BufTy).Contents (Elt F) → (⟨S1x800000, .i32⟩ : BufTy).Contents (Elt F)),
    reshape main_v3 main_v4 rfl shapeCasts_S1x800000_S800000,
    unary main_arg1 main_v5 ((extractStridedSlice S1x800000 ![1, 0] · slices_S2x800000_S1x800000_1_0) : (⟨S2x800000, .i32⟩ : BufTy).Contents (Elt F) → (⟨S1x800000, .i32⟩ : BufTy).Contents (Elt F)),
    reshape main_v5 main_v6 rfl shapeCasts_S1x800000_S800000,
    nullary main_c_0 (constantI S_ 32 3#32),
    unary main_c_0 main_v7 (broadcastInDim S800000 ![] bcast_S_S800000 : (⟨S_, .i32⟩ : BufTy).Contents (Elt F) → (⟨S800000, .i32⟩ : BufTy).Contents (Elt F)),
    binary main_arg5 main_v7 main_v8 (cmpi .sle : (⟨S800000, .i32⟩ : BufTy).Contents (Elt F) → (⟨S800000, .i32⟩ : BufTy).Contents (Elt F) → (⟨S800000, .i1⟩ : BufTy).Contents (Elt F)),
    unary main_v8 main_v9 (uitofp .f32 : (⟨S800000, .i1⟩ : BufTy).Contents (Elt F) → (⟨S800000, .f32⟩ : BufTy).Contents (Elt F)),
    nullary main_c_1 (constantI S_ 32 0#32),
    unary main_c_1 main_v10 (broadcastInDim S800000 ![] bcast_S_S800000 : (⟨S_, .i32⟩ : BufTy).Contents (Elt F) → (⟨S800000, .i32⟩ : BufTy).Contents (Elt F)),
    binary main_v4 main_v10 main_v11 (cmpi .slt : (⟨S800000, .i32⟩ : BufTy).Contents (Elt F) → (⟨S800000, .i32⟩ : BufTy).Contents (Elt F) → (⟨S800000, .i1⟩ : BufTy).Contents (Elt F)),
    nullary main_c_2 (constantI S_ 32 100000#32),
    unary main_c_2 main_v12 (broadcastInDim S800000 ![] bcast_S_S800000 : (⟨S_, .i32⟩ : BufTy).Contents (Elt F) → (⟨S800000, .i32⟩ : BufTy).Contents (Elt F)),
    binary main_v4 main_v12 main_v13 (addi : (⟨S800000, .i32⟩ : BufTy).Contents (Elt F) → (⟨S800000, .i32⟩ : BufTy).Contents (Elt F) → (⟨S800000, .i32⟩ : BufTy).Contents (Elt F)),
    ternary main_v11 main_v13 main_v4 main_v14 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v14 main_v15 (broadcastInDim S800000x1 ![0] bcast_S800000_S800000x1_0 : (⟨S800000, .i32⟩ : BufTy).Contents (Elt F) → (⟨S800000x1, .i32⟩ : BufTy).Contents (Elt F)),
    binary main_arg0 main_v15 main_v16 ((fun x i => Host.gather gather_S100000x128_S800000x1_S800000x128_1_0_n_n_0_1_1128 x i) : (⟨S100000x128, .f32⟩ : BufTy).Contents (Elt F) → (⟨S800000x1, .i32⟩ : BufTy).Contents (Elt F) → (⟨S800000x128, .f32⟩ : BufTy).Contents (Elt F)),
    unary main_v9 main_v17 (broadcastInDim S800000x1 ![0] bcast_S800000_S800000x1_0 : (⟨S800000, .f32⟩ : BufTy).Contents (Elt F) → (⟨S800000x1, .f32⟩ : BufTy).Contents (Elt F)),
    unary main_v17 main_v18 (broadcastInDim S800000x128 ![0, 1] bcast_S800000x1_S800000x128_0_1 : (⟨S800000x1, .f32⟩ : BufTy).Contents (Elt F) → (⟨S800000x128, .f32⟩ : BufTy).Contents (Elt F)),
    binary main_v16 main_v18 main_v19 (mulf : (⟨S800000x128, .f32⟩ : BufTy).Contents (Elt F) → (⟨S800000x128, .f32⟩ : BufTy).Contents (Elt F) → (⟨S800000x128, .f32⟩ : BufTy).Contents (Elt F)),
    nullary main_cst_3 (constant S_ .f32 0x00000000#32),
    unary main_cst_3 main_v20 (broadcastInDim S100000x128 ![] bcast_S_S100000x128 : (⟨S_, .f32⟩ : BufTy).Contents (Elt F) → (⟨S100000x128, .f32⟩ : BufTy).Contents (Elt F)),
    unary main_v6 main_v21 (broadcastInDim S800000x1 ![0] bcast_S800000_S800000x1_0 : (⟨S800000, .i32⟩ : BufTy).Contents (Elt F) → (⟨S800000x1, .i32⟩ : BufTy).Contents (Elt F)),
    ternary main_v20 main_v21 main_v19 main_v22 ((fun x i u => Host.scatterAdd scatter_S100000x128_S800000x1_S800000x128_1_0_0_1 x i u) : (⟨S100000x128, .f32⟩ : BufTy).Contents (Elt F) → (⟨S800000x1, .i32⟩ : BufTy).Contents (Elt F) → (⟨S800000x128, .f32⟩ : BufTy).Contents (Elt F) → (⟨S100000x128, .f32⟩ : BufTy).Contents (Elt F)),
    nullary main_cst_4 (constant S_ .f32 0x00000000#32),
    unary main_cst_4 main_v23 (broadcastInDim S100000 ![] bcast_S_S100000 : (⟨S_, .f32⟩ : BufTy).Contents (Elt F) → (⟨S100000, .f32⟩ : BufTy).Contents (Elt F)),
    unary main_v6 main_v24 (broadcastInDim S800000x1 ![0] bcast_S800000_S800000x1_0 : (⟨S800000, .i32⟩ : BufTy).Contents (Elt F) → (⟨S800000x1, .i32⟩ : BufTy).Contents (Elt F)),
    ternary main_v23 main_v24 main_v9 main_v25 ((fun x i u => Host.scatterAdd scatter_S100000_S800000x1_S800000_n_0_0_1 x i u) : (⟨S100000, .f32⟩ : BufTy).Contents (Elt F) → (⟨S800000x1, .i32⟩ : BufTy).Contents (Elt F) → (⟨S800000, .f32⟩ : BufTy).Contents (Elt F) → (⟨S100000, .f32⟩ : BufTy).Contents (Elt F)),
    nullary main_cst_5 (constant S_ .f32 0x3F800000#32),
    unary main_cst_5 main_v26 (broadcastInDim S100000 ![] bcast_S_S100000 : (⟨S_, .f32⟩ : BufTy).Contents (Elt F) → (⟨S100000, .f32⟩ : BufTy).Contents (Elt F)),
    binary main_v25 main_v26 main_v27 (maximumf : (⟨S100000, .f32⟩ : BufTy).Contents (Elt F) → (⟨S100000, .f32⟩ : BufTy).Contents (Elt F) → (⟨S100000, .f32⟩ : BufTy).Contents (Elt F)),
    unary main_v27 main_v28 (broadcastInDim S100000x1 ![0] bcast_S100000_S100000x1_0 : (⟨S100000, .f32⟩ : BufTy).Contents (Elt F) → (⟨S100000x1, .f32⟩ : BufTy).Contents (Elt F)),
    unary main_v28 main_v29 (broadcastInDim S100000x128 ![0, 1] bcast_S100000x1_S100000x128_0_1 : (⟨S100000x1, .f32⟩ : BufTy).Contents (Elt F) → (⟨S100000x128, .f32⟩ : BufTy).Contents (Elt F)),
    binary main_v22 main_v29 main_v30 (Host.divf : (⟨S100000x128, .f32⟩ : BufTy).Contents (Elt F) → (⟨S100000x128, .f32⟩ : BufTy).Contents (Elt F) → (⟨S100000x128, .f32⟩ : BufTy).Contents (Elt F)),
    unary main_arg8 main_v31 ((extractStridedSlice S1x1x128x128 ![0, 0, 0, 0] · slices_S3x3x128x128_S1x1x128x128_0_0_0_0) : (⟨S3x3x128x128, .f32⟩ : BufTy).Contents (Elt F) → (⟨S1x1x128x128, .f32⟩ : BufTy).Contents (Elt F)),
    reshape main_v31 main_v32 rfl shapeCasts_S1x1x128x128_S128x128,
    unary main_v32 main_v33 ((transpose S128x128 [1, 0] · transposes_S128x128_S128x128_1_0) : (⟨S128x128, .f32⟩ : BufTy).Contents (Elt F) → (⟨S128x128, .f32⟩ : BufTy).Contents (Elt F)),
    binary main_v30 main_v33 main_v34 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    binary main_v2 main_v34 main_v35 (addf : (⟨S100000x128, .f32⟩ : BufTy).Contents (Elt F) → (⟨S100000x128, .f32⟩ : BufTy).Contents (Elt F) → (⟨S100000x128, .f32⟩ : BufTy).Contents (Elt F)),
    unary main_arg9 main_v36 ((extractStridedSlice S1x1x128 ![0, 0, 0] · slices_S3x3x128_S1x1x128_0_0_0) : (⟨S3x3x128, .f32⟩ : BufTy).Contents (Elt F) → (⟨S1x1x128, .f32⟩ : BufTy).Contents (Elt F)),
    reshape main_v36 main_v37 rfl shapeCasts_S1x1x128_S128,
    unary main_v37 main_v38 (broadcastInDim S1x128 ![1] bcast_S128_S1x128_1 : (⟨S128, .f32⟩ : BufTy).Contents (Elt F) → (⟨S1x128, .f32⟩ : BufTy).Contents (Elt F)),
    unary main_v38 main_v39 (broadcastInDim S100000x128 ![0, 1] bcast_S1x128_S100000x128_0_1 : (⟨S1x128, .f32⟩ : BufTy).Contents (Elt F) → (⟨S100000x128, .f32⟩ : BufTy).Contents (Elt F)),
    binary main_v35 main_v39 main_v40 (addf : (⟨S100000x128, .f32⟩ : BufTy).Contents (Elt F) → (⟨S100000x128, .f32⟩ : BufTy).Contents (Elt F) → (⟨S100000x128, .f32⟩ : BufTy).Contents (Elt F)),
    unary main_arg10 main_v41 ((extractStridedSlice S1x1x128x128 ![0, 0, 0, 0] · slices_S3x3x128x128_S1x1x128x128_0_0_0_0) : (⟨S3x3x128x128, .f32⟩ : BufTy).Contents (Elt F) → (⟨S1x1x128x128, .f32⟩ : BufTy).Contents (Elt F)),
    reshape main_v41 main_v42 rfl shapeCasts_S1x1x128x128_S128x128,
    unary main_v42 main_v43 ((transpose S128x128 [1, 0] · transposes_S128x128_S128x128_1_0) : (⟨S128x128, .f32⟩ : BufTy).Contents (Elt F) → (⟨S128x128, .f32⟩ : BufTy).Contents (Elt F)),
    binary main_arg0 main_v43 main_v44 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    binary main_v40 main_v44 main_v45 (addf : (⟨S100000x128, .f32⟩ : BufTy).Contents (Elt F) → (⟨S100000x128, .f32⟩ : BufTy).Contents (Elt F) → (⟨S100000x128, .f32⟩ : BufTy).Contents (Elt F)),
    unary main_arg2 main_v46 ((extractStridedSlice S1x800000 ![0, 0] · slices_S2x800000_S1x800000_0_0) : (⟨S2x800000, .i32⟩ : BufTy).Contents (Elt F) → (⟨S1x800000, .i32⟩ : BufTy).Contents (Elt F)),
    reshape main_v46 main_v47 rfl shapeCasts_S1x800000_S800000,
    unary main_arg2 main_v48 ((extractStridedSlice S1x800000 ![1, 0] · slices_S2x800000_S1x800000_1_0) : (⟨S2x800000, .i32⟩ : BufTy).Contents (Elt F) → (⟨S1x800000, .i32⟩ : BufTy).Contents (Elt F)),
    reshape main_v48 main_v49 rfl shapeCasts_S1x800000_S800000,
    nullary main_c_6 (constantI S_ 32 3#32),
    unary main_c_6 main_v50 (broadcastInDim S800000 ![] bcast_S_S800000 : (⟨S_, .i32⟩ : BufTy).Contents (Elt F) → (⟨S800000, .i32⟩ : BufTy).Contents (Elt F)) ]

/-- Layer 1, operations 61–120. -/
abbrev q1 : List (HloOp τ sig (Elt F)) :=
  [ binary main_arg6 main_v50 main_v51 (cmpi .sle : (⟨S800000, .i32⟩ : BufTy).Contents (Elt F) → (⟨S800000, .i32⟩ : BufTy).Contents (Elt F) → (⟨S800000, .i1⟩ : BufTy).Contents (Elt F)),
    unary main_v51 main_v52 (uitofp .f32 : (⟨S800000, .i1⟩ : BufTy).Contents (Elt F) → (⟨S800000, .f32⟩ : BufTy).Contents (Elt F)),
    nullary main_c_7 (constantI S_ 32 0#32),
    unary main_c_7 main_v53 (broadcastInDim S800000 ![] bcast_S_S800000 : (⟨S_, .i32⟩ : BufTy).Contents (Elt F) → (⟨S800000, .i32⟩ : BufTy).Contents (Elt F)),
    binary main_v47 main_v53 main_v54 (cmpi .slt : (⟨S800000, .i32⟩ : BufTy).Contents (Elt F) → (⟨S800000, .i32⟩ : BufTy).Contents (Elt F) → (⟨S800000, .i1⟩ : BufTy).Contents (Elt F)),
    nullary main_c_8 (constantI S_ 32 100000#32),
    unary main_c_8 main_v55 (broadcastInDim S800000 ![] bcast_S_S800000 : (⟨S_, .i32⟩ : BufTy).Contents (Elt F) → (⟨S800000, .i32⟩ : BufTy).Contents (Elt F)),
    binary main_v47 main_v55 main_v56 (addi : (⟨S800000, .i32⟩ : BufTy).Contents (Elt F) → (⟨S800000, .i32⟩ : BufTy).Contents (Elt F) → (⟨S800000, .i32⟩ : BufTy).Contents (Elt F)),
    ternary main_v54 main_v56 main_v47 main_v57 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v57 main_v58 (broadcastInDim S800000x1 ![0] bcast_S800000_S800000x1_0 : (⟨S800000, .i32⟩ : BufTy).Contents (Elt F) → (⟨S800000x1, .i32⟩ : BufTy).Contents (Elt F)),
    binary main_arg0 main_v58 main_v59 ((fun x i => Host.gather gather_S100000x128_S800000x1_S800000x128_1_0_n_n_0_1_1128 x i) : (⟨S100000x128, .f32⟩ : BufTy).Contents (Elt F) → (⟨S800000x1, .i32⟩ : BufTy).Contents (Elt F) → (⟨S800000x128, .f32⟩ : BufTy).Contents (Elt F)),
    unary main_v52 main_v60 (broadcastInDim S800000x1 ![0] bcast_S800000_S800000x1_0 : (⟨S800000, .f32⟩ : BufTy).Contents (Elt F) → (⟨S800000x1, .f32⟩ : BufTy).Contents (Elt F)),
    unary main_v60 main_v61 (broadcastInDim S800000x128 ![0, 1] bcast_S800000x1_S800000x128_0_1 : (⟨S800000x1, .f32⟩ : BufTy).Contents (Elt F) → (⟨S800000x128, .f32⟩ : BufTy).Contents (Elt F)),
    binary main_v59 main_v61 main_v62 (mulf : (⟨S800000x128, .f32⟩ : BufTy).Contents (Elt F) → (⟨S800000x128, .f32⟩ : BufTy).Contents (Elt F) → (⟨S800000x128, .f32⟩ : BufTy).Contents (Elt F)),
    nullary main_cst_9 (constant S_ .f32 0x00000000#32),
    unary main_cst_9 main_v63 (broadcastInDim S100000x128 ![] bcast_S_S100000x128 : (⟨S_, .f32⟩ : BufTy).Contents (Elt F) → (⟨S100000x128, .f32⟩ : BufTy).Contents (Elt F)),
    unary main_v49 main_v64 (broadcastInDim S800000x1 ![0] bcast_S800000_S800000x1_0 : (⟨S800000, .i32⟩ : BufTy).Contents (Elt F) → (⟨S800000x1, .i32⟩ : BufTy).Contents (Elt F)),
    ternary main_v63 main_v64 main_v62 main_v65 ((fun x i u => Host.scatterAdd scatter_S100000x128_S800000x1_S800000x128_1_0_0_1 x i u) : (⟨S100000x128, .f32⟩ : BufTy).Contents (Elt F) → (⟨S800000x1, .i32⟩ : BufTy).Contents (Elt F) → (⟨S800000x128, .f32⟩ : BufTy).Contents (Elt F) → (⟨S100000x128, .f32⟩ : BufTy).Contents (Elt F)),
    nullary main_cst_10 (constant S_ .f32 0x00000000#32),
    unary main_cst_10 main_v66 (broadcastInDim S100000 ![] bcast_S_S100000 : (⟨S_, .f32⟩ : BufTy).Contents (Elt F) → (⟨S100000, .f32⟩ : BufTy).Contents (Elt F)),
    unary main_v49 main_v67 (broadcastInDim S800000x1 ![0] bcast_S800000_S800000x1_0 : (⟨S800000, .i32⟩ : BufTy).Contents (Elt F) → (⟨S800000x1, .i32⟩ : BufTy).Contents (Elt F)),
    ternary main_v66 main_v67 main_v52 main_v68 ((fun x i u => Host.scatterAdd scatter_S100000_S800000x1_S800000_n_0_0_1 x i u) : (⟨S100000, .f32⟩ : BufTy).Contents (Elt F) → (⟨S800000x1, .i32⟩ : BufTy).Contents (Elt F) → (⟨S800000, .f32⟩ : BufTy).Contents (Elt F) → (⟨S100000, .f32⟩ : BufTy).Contents (Elt F)),
    nullary main_cst_11 (constant S_ .f32 0x3F800000#32),
    unary main_cst_11 main_v69 (broadcastInDim S100000 ![] bcast_S_S100000 : (⟨S_, .f32⟩ : BufTy).Contents (Elt F) → (⟨S100000, .f32⟩ : BufTy).Contents (Elt F)),
    binary main_v68 main_v69 main_v70 (maximumf : (⟨S100000, .f32⟩ : BufTy).Contents (Elt F) → (⟨S100000, .f32⟩ : BufTy).Contents (Elt F) → (⟨S100000, .f32⟩ : BufTy).Contents (Elt F)),
    unary main_v70 main_v71 (broadcastInDim S100000x1 ![0] bcast_S100000_S100000x1_0 : (⟨S100000, .f32⟩ : BufTy).Contents (Elt F) → (⟨S100000x1, .f32⟩ : BufTy).Contents (Elt F)),
    unary main_v71 main_v72 (broadcastInDim S100000x128 ![0, 1] bcast_S100000x1_S100000x128_0_1 : (⟨S100000x1, .f32⟩ : BufTy).Contents (Elt F) → (⟨S100000x128, .f32⟩ : BufTy).Contents (Elt F)),
    binary main_v65 main_v72 main_v73 (Host.divf : (⟨S100000x128, .f32⟩ : BufTy).Contents (Elt F) → (⟨S100000x128, .f32⟩ : BufTy).Contents (Elt F) → (⟨S100000x128, .f32⟩ : BufTy).Contents (Elt F)),
    unary main_arg8 main_v74 ((extractStridedSlice S1x1x128x128 ![0, 1, 0, 0] · slices_S3x3x128x128_S1x1x128x128_0_1_0_0) : (⟨S3x3x128x128, .f32⟩ : BufTy).Contents (Elt F) → (⟨S1x1x128x128, .f32⟩ : BufTy).Contents (Elt F)),
    reshape main_v74 main_v75 rfl shapeCasts_S1x1x128x128_S128x128,
    unary main_v75 main_v76 ((transpose S128x128 [1, 0] · transposes_S128x128_S128x128_1_0) : (⟨S128x128, .f32⟩ : BufTy).Contents (Elt F) → (⟨S128x128, .f32⟩ : BufTy).Contents (Elt F)),
    binary main_v73 main_v76 main_v77 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    binary main_v45 main_v77 main_v78 (addf : (⟨S100000x128, .f32⟩ : BufTy).Contents (Elt F) → (⟨S100000x128, .f32⟩ : BufTy).Contents (Elt F) → (⟨S100000x128, .f32⟩ : BufTy).Contents (Elt F)),
    unary main_arg9 main_v79 ((extractStridedSlice S1x1x128 ![0, 1, 0] · slices_S3x3x128_S1x1x128_0_1_0) : (⟨S3x3x128, .f32⟩ : BufTy).Contents (Elt F) → (⟨S1x1x128, .f32⟩ : BufTy).Contents (Elt F)),
    reshape main_v79 main_v80 rfl shapeCasts_S1x1x128_S128,
    unary main_v80 main_v81 (broadcastInDim S1x128 ![1] bcast_S128_S1x128_1 : (⟨S128, .f32⟩ : BufTy).Contents (Elt F) → (⟨S1x128, .f32⟩ : BufTy).Contents (Elt F)),
    unary main_v81 main_v82 (broadcastInDim S100000x128 ![0, 1] bcast_S1x128_S100000x128_0_1 : (⟨S1x128, .f32⟩ : BufTy).Contents (Elt F) → (⟨S100000x128, .f32⟩ : BufTy).Contents (Elt F)),
    binary main_v78 main_v82 main_v83 (addf : (⟨S100000x128, .f32⟩ : BufTy).Contents (Elt F) → (⟨S100000x128, .f32⟩ : BufTy).Contents (Elt F) → (⟨S100000x128, .f32⟩ : BufTy).Contents (Elt F)),
    unary main_arg10 main_v84 ((extractStridedSlice S1x1x128x128 ![0, 1, 0, 0] · slices_S3x3x128x128_S1x1x128x128_0_1_0_0) : (⟨S3x3x128x128, .f32⟩ : BufTy).Contents (Elt F) → (⟨S1x1x128x128, .f32⟩ : BufTy).Contents (Elt F)),
    reshape main_v84 main_v85 rfl shapeCasts_S1x1x128x128_S128x128,
    unary main_v85 main_v86 ((transpose S128x128 [1, 0] · transposes_S128x128_S128x128_1_0) : (⟨S128x128, .f32⟩ : BufTy).Contents (Elt F) → (⟨S128x128, .f32⟩ : BufTy).Contents (Elt F)),
    binary main_arg0 main_v86 main_v87 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    binary main_v83 main_v87 main_v88 (addf : (⟨S100000x128, .f32⟩ : BufTy).Contents (Elt F) → (⟨S100000x128, .f32⟩ : BufTy).Contents (Elt F) → (⟨S100000x128, .f32⟩ : BufTy).Contents (Elt F)),
    unary main_arg3 main_v89 ((extractStridedSlice S1x800000 ![0, 0] · slices_S2x800000_S1x800000_0_0) : (⟨S2x800000, .i32⟩ : BufTy).Contents (Elt F) → (⟨S1x800000, .i32⟩ : BufTy).Contents (Elt F)),
    reshape main_v89 main_v90 rfl shapeCasts_S1x800000_S800000,
    unary main_arg3 main_v91 ((extractStridedSlice S1x800000 ![1, 0] · slices_S2x800000_S1x800000_1_0) : (⟨S2x800000, .i32⟩ : BufTy).Contents (Elt F) → (⟨S1x800000, .i32⟩ : BufTy).Contents (Elt F)),
    reshape main_v91 main_v92 rfl shapeCasts_S1x800000_S800000,
    nullary main_c_12 (constantI S_ 32 3#32),
    unary main_c_12 main_v93 (broadcastInDim S800000 ![] bcast_S_S800000 : (⟨S_, .i32⟩ : BufTy).Contents (Elt F) → (⟨S800000, .i32⟩ : BufTy).Contents (Elt F)),
    binary main_arg7 main_v93 main_v94 (cmpi .sle : (⟨S800000, .i32⟩ : BufTy).Contents (Elt F) → (⟨S800000, .i32⟩ : BufTy).Contents (Elt F) → (⟨S800000, .i1⟩ : BufTy).Contents (Elt F)),
    unary main_v94 main_v95 (uitofp .f32 : (⟨S800000, .i1⟩ : BufTy).Contents (Elt F) → (⟨S800000, .f32⟩ : BufTy).Contents (Elt F)),
    nullary main_c_13 (constantI S_ 32 0#32),
    unary main_c_13 main_v96 (broadcastInDim S800000 ![] bcast_S_S800000 : (⟨S_, .i32⟩ : BufTy).Contents (Elt F) → (⟨S800000, .i32⟩ : BufTy).Contents (Elt F)),
    binary main_v90 main_v96 main_v97 (cmpi .slt : (⟨S800000, .i32⟩ : BufTy).Contents (Elt F) → (⟨S800000, .i32⟩ : BufTy).Contents (Elt F) → (⟨S800000, .i1⟩ : BufTy).Contents (Elt F)),
    nullary main_c_14 (constantI S_ 32 100000#32),
    unary main_c_14 main_v98 (broadcastInDim S800000 ![] bcast_S_S800000 : (⟨S_, .i32⟩ : BufTy).Contents (Elt F) → (⟨S800000, .i32⟩ : BufTy).Contents (Elt F)),
    binary main_v90 main_v98 main_v99 (addi : (⟨S800000, .i32⟩ : BufTy).Contents (Elt F) → (⟨S800000, .i32⟩ : BufTy).Contents (Elt F) → (⟨S800000, .i32⟩ : BufTy).Contents (Elt F)),
    ternary main_v97 main_v99 main_v90 main_v100 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v100 main_v101 (broadcastInDim S800000x1 ![0] bcast_S800000_S800000x1_0 : (⟨S800000, .i32⟩ : BufTy).Contents (Elt F) → (⟨S800000x1, .i32⟩ : BufTy).Contents (Elt F)),
    binary main_arg0 main_v101 main_v102 ((fun x i => Host.gather gather_S100000x128_S800000x1_S800000x128_1_0_n_n_0_1_1128 x i) : (⟨S100000x128, .f32⟩ : BufTy).Contents (Elt F) → (⟨S800000x1, .i32⟩ : BufTy).Contents (Elt F) → (⟨S800000x128, .f32⟩ : BufTy).Contents (Elt F)) ]

/-- Layer 1, operations 121–161: the third relation's products, the rectification and the selection by the validity bits. -/
abbrev q2a : List (HloOp τ sig (Elt F)) :=
  [ unary main_v95 main_v103 (broadcastInDim S800000x1 ![0] bcast_S800000_S800000x1_0 : (⟨S800000, .f32⟩ : BufTy).Contents (Elt F) → (⟨S800000x1, .f32⟩ : BufTy).Contents (Elt F)),
    unary main_v103 main_v104 (broadcastInDim S800000x128 ![0, 1] bcast_S800000x1_S800000x128_0_1 : (⟨S800000x1, .f32⟩ : BufTy).Contents (Elt F) → (⟨S800000x128, .f32⟩ : BufTy).Contents (Elt F)),
    binary main_v102 main_v104 main_v105 (mulf : (⟨S800000x128, .f32⟩ : BufTy).Contents (Elt F) → (⟨S800000x128, .f32⟩ : BufTy).Contents (Elt F) → (⟨S800000x128, .f32⟩ : BufTy).Contents (Elt F)),
    nullary main_cst_15 (constant S_ .f32 0x00000000#32),
    unary main_cst_15 main_v106 (broadcastInDim S100000x128 ![] bcast_S_S100000x128 : (⟨S_, .f32⟩ : BufTy).Contents (Elt F) → (⟨S100000x128, .f32⟩ : BufTy).Contents (Elt F)),
    unary main_v92 main_v107 (broadcastInDim S800000x1 ![0] bcast_S800000_S800000x1_0 : (⟨S800000, .i32⟩ : BufTy).Contents (Elt F) → (⟨S800000x1, .i32⟩ : BufTy).Contents (Elt F)),
    ternary main_v106 main_v107 main_v105 main_v108 ((fun x i u => Host.scatterAdd scatter_S100000x128_S800000x1_S800000x128_1_0_0_1 x i u) : (⟨S100000x128, .f32⟩ : BufTy).Contents (Elt F) → (⟨S800000x1, .i32⟩ : BufTy).Contents (Elt F) → (⟨S800000x128, .f32⟩ : BufTy).Contents (Elt F) → (⟨S100000x128, .f32⟩ : BufTy).Contents (Elt F)),
    nullary main_cst_16 (constant S_ .f32 0x00000000#32),
    unary main_cst_16 main_v109 (broadcastInDim S100000 ![] bcast_S_S100000 : (⟨S_, .f32⟩ : BufTy).Contents (Elt F) → (⟨S100000, .f32⟩ : BufTy).Contents (Elt F)),
    unary main_v92 main_v110 (broadcastInDim S800000x1 ![0] bcast_S800000_S800000x1_0 : (⟨S800000, .i32⟩ : BufTy).Contents (Elt F) → (⟨S800000x1, .i32⟩ : BufTy).Contents (Elt F)),
    ternary main_v109 main_v110 main_v95 main_v111 ((fun x i u => Host.scatterAdd scatter_S100000_S800000x1_S800000_n_0_0_1 x i u) : (⟨S100000, .f32⟩ : BufTy).Contents (Elt F) → (⟨S800000x1, .i32⟩ : BufTy).Contents (Elt F) → (⟨S800000, .f32⟩ : BufTy).Contents (Elt F) → (⟨S100000, .f32⟩ : BufTy).Contents (Elt F)),
    nullary main_cst_17 (constant S_ .f32 0x3F800000#32),
    unary main_cst_17 main_v112 (broadcastInDim S100000 ![] bcast_S_S100000 : (⟨S_, .f32⟩ : BufTy).Contents (Elt F) → (⟨S100000, .f32⟩ : BufTy).Contents (Elt F)),
    binary main_v111 main_v112 main_v113 (maximumf : (⟨S100000, .f32⟩ : BufTy).Contents (Elt F) → (⟨S100000, .f32⟩ : BufTy).Contents (Elt F) → (⟨S100000, .f32⟩ : BufTy).Contents (Elt F)),
    unary main_v113 main_v114 (broadcastInDim S100000x1 ![0] bcast_S100000_S100000x1_0 : (⟨S100000, .f32⟩ : BufTy).Contents (Elt F) → (⟨S100000x1, .f32⟩ : BufTy).Contents (Elt F)),
    unary main_v114 main_v115 (broadcastInDim S100000x128 ![0, 1] bcast_S100000x1_S100000x128_0_1 : (⟨S100000x1, .f32⟩ : BufTy).Contents (Elt F) → (⟨S100000x128, .f32⟩ : BufTy).Contents (Elt F)),
    binary main_v108 main_v115 main_v116 (Host.divf : (⟨S100000x128, .f32⟩ : BufTy).Contents (Elt F) → (⟨S100000x128, .f32⟩ : BufTy).Contents (Elt F) → (⟨S100000x128, .f32⟩ : BufTy).Contents (Elt F)),
    unary main_arg8 main_v117 ((extractStridedSlice S1x1x128x128 ![0, 2, 0, 0] · slices_S3x3x128x128_S1x1x128x128_0_2_0_0) : (⟨S3x3x128x128, .f32⟩ : BufTy).Contents (Elt F) → (⟨S1x1x128x128, .f32⟩ : BufTy).Contents (Elt F)),
    reshape main_v117 main_v118 rfl shapeCasts_S1x1x128x128_S128x128,
    unary main_v118 main_v119 ((transpose S128x128 [1, 0] · transposes_S128x128_S128x128_1_0) : (⟨S128x128, .f32⟩ : BufTy).Contents (Elt F) → (⟨S128x128, .f32⟩ : BufTy).Contents (Elt F)),
    binary main_v116 main_v119 main_v120 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    binary main_v88 main_v120 main_v121 (addf : (⟨S100000x128, .f32⟩ : BufTy).Contents (Elt F) → (⟨S100000x128, .f32⟩ : BufTy).Contents (Elt F) → (⟨S100000x128, .f32⟩ : BufTy).Contents (Elt F)),
    unary main_arg9 main_v122 ((extractStridedSlice S1x1x128 ![0, 2, 0] · slices_S3x3x128_S1x1x128_0_2_0) : (⟨S3x3x128, .f32⟩ : BufTy).Contents (Elt F) → (⟨S1x1x128, .f32⟩ : BufTy).Contents (Elt F)),
    reshape main_v122 main_v123 rfl shapeCasts_S1x1x128_S128,
    unary main_v123 main_v124 (broadcastInDim S1x128 ![1] bcast_S128_S1x128_1 : (⟨S128, .f32⟩ : BufTy).Contents (Elt F) → (⟨S1x128, .f32⟩ : BufTy).Contents (Elt F)),
    unary main_v124 main_v125 (broadcastInDim S100000x128 ![0, 1] bcast_S1x128_S100000x128_0_1 : (⟨S1x128, .f32⟩ : BufTy).Contents (Elt F) → (⟨S100000x128, .f32⟩ : BufTy).Contents (Elt F)),
    binary main_v121 main_v125 main_v126 (addf : (⟨S100000x128, .f32⟩ : BufTy).Contents (Elt F) → (⟨S100000x128, .f32⟩ : BufTy).Contents (Elt F) → (⟨S100000x128, .f32⟩ : BufTy).Contents (Elt F)),
    unary main_arg10 main_v127 ((extractStridedSlice S1x1x128x128 ![0, 2, 0, 0] · slices_S3x3x128x128_S1x1x128x128_0_2_0_0) : (⟨S3x3x128x128, .f32⟩ : BufTy).Contents (Elt F) → (⟨S1x1x128x128, .f32⟩ : BufTy).Contents (Elt F)),
    reshape main_v127 main_v128 rfl shapeCasts_S1x1x128x128_S128x128,
    unary main_v128 main_v129 ((transpose S128x128 [1, 0] · transposes_S128x128_S128x128_1_0) : (⟨S128x128, .f32⟩ : BufTy).Contents (Elt F) → (⟨S128x128, .f32⟩ : BufTy).Contents (Elt F)),
    binary main_arg0 main_v129 main_v130 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    binary main_v126 main_v130 main_v131 (addf : (⟨S100000x128, .f32⟩ : BufTy).Contents (Elt F) → (⟨S100000x128, .f32⟩ : BufTy).Contents (Elt F) → (⟨S100000x128, .f32⟩ : BufTy).Contents (Elt F)),
    unary main_v1 main_v132 (broadcastInDim S100000x1 ![0] bcast_S100000_S100000x1_0 : (⟨S100000, .i1⟩ : BufTy).Contents (Elt F) → (⟨S100000x1, .i1⟩ : BufTy).Contents (Elt F)),
    TRef.nullary (TRef.of (T := ⟨S_, .f32⟩) main_call0_cst) (constant S_ .f32 0x00000000#32),
    TRef.unary (TRef.of (T := ⟨S_, .f32⟩) main_call0_cst) (TRef.of (T := ⟨S100000x128, .f32⟩) main_call0_v0) (broadcastInDim S100000x128 ![] bcast_S_S100000x128),
    TRef.binary (TRef.of (T := ⟨S100000x128, .f32⟩) main_v131) (TRef.of (T := ⟨S100000x128, .f32⟩) main_call0_v0) (TRef.of (T := ⟨S100000x128, .f32⟩) main_v133) maximumf,
    nullary main_cst_18 (constant S_ .f32 0x00000000#32),
    TRef.unary (TRef.of (T := ⟨S_, .f32⟩) main_cst_18) (TRef.of (T := ⟨S_, .f32⟩) main_call1_v0) id,
    TRef.unary (TRef.of (T := ⟨S100000x1, .i1⟩) main_v132) (TRef.of (T := ⟨S100000x128, .i1⟩) main_call1_v1) (broadcastInDim S100000x128 ![0, 1] bcast_S100000x1_S100000x128_0_1),
    TRef.unary (TRef.of (T := ⟨S_, .f32⟩) main_call1_v0) (TRef.of (T := ⟨S100000x128, .f32⟩) main_call1_v2) (broadcastInDim S100000x128 ![] bcast_S_S100000x128),
    TRef.ternary (TRef.of (T := ⟨S100000x128, .i1⟩) main_call1_v1) (TRef.of (T := ⟨S100000x128, .f32⟩) main_v133) (TRef.of (T := ⟨S100000x128, .f32⟩) main_call1_v2) (TRef.of (T := ⟨S100000x128, .f32⟩) main_v134) select ]

/-- Layer 2, operations 1–24. -/
abbrev q2b : List (HloOp τ sig (Elt F)) :=
  [ nullary main_c_19 (constantI S_ 32 2#32),
    unary main_c_19 main_v135 (broadcastInDim S100000 ![] bcast_S_S100000 : (⟨S_, .i32⟩ : BufTy).Contents (Elt F) → (⟨S100000, .i32⟩ : BufTy).Contents (Elt F)),
    binary main_arg4 main_v135 main_v136 (cmpi .sle : (⟨S100000, .i32⟩ : BufTy).Contents (Elt F) → (⟨S100000, .i32⟩ : BufTy).Contents (Elt F) → (⟨S100000, .i1⟩ : BufTy).Contents (Elt F)),
    nullary main_cst_20 (constant S_ .f32 0x00000000#32),
    unary main_cst_20 main_v137 (broadcastInDim S100000x128 ![] bcast_S_S100000x128 : (⟨S_, .f32⟩ : BufTy).Contents (Elt F) → (⟨S100000x128, .f32⟩ : BufTy).Contents (Elt F)),
    unary main_arg1 main_v138 ((extractStridedSlice S1x800000 ![0, 0] · slices_S2x800000_S1x800000_0_0) : (⟨S2x800000, .i32⟩ : BufTy).Contents (Elt F) → (⟨S1x800000, .i32⟩ : BufTy).Contents (Elt F)),
    reshape main_v138 main_v139 rfl shapeCasts_S1x800000_S800000,
    unary main_arg1 main_v140 ((extractStridedSlice S1x800000 ![1, 0] · slices_S2x800000_S1x800000_1_0) : (⟨S2x800000, .i32⟩ : BufTy).Contents (Elt F) → (⟨S1x800000, .i32⟩ : BufTy).Contents (Elt F)),
    reshape main_v140 main_v141 rfl shapeCasts_S1x800000_S800000,
    nullary main_c_21 (constantI S_ 32 2#32),
    unary main_c_21 main_v142 (broadcastInDim S800000 ![] bcast_S_S800000 : (⟨S_, .i32⟩ : BufTy).Contents (Elt F) → (⟨S800000, .i32⟩ : BufTy).Contents (Elt F)),
    binary main_arg5 main_v142 main_v143 (cmpi .sle : (⟨S800000, .i32⟩ : BufTy).Contents (Elt F) → (⟨S800000, .i32⟩ : BufTy).Contents (Elt F) → (⟨S800000, .i1⟩ : BufTy).Contents (Elt F)),
    unary main_v143 main_v144 (uitofp .f32 : (⟨S800000, .i1⟩ : BufTy).Contents (Elt F) → (⟨S800000, .f32⟩ : BufTy).Contents (Elt F)),
    nullary main_c_22 (constantI S_ 32 0#32),
    unary main_c_22 main_v145 (broadcastInDim S800000 ![] bcast_S_S800000 : (⟨S_, .i32⟩ : BufTy).Contents (Elt F) → (⟨S800000, .i32⟩ : BufTy).Contents (Elt F)),
    binary main_v139 main_v145 main_v146 (cmpi .slt : (⟨S800000, .i32⟩ : BufTy).Contents (Elt F) → (⟨S800000, .i32⟩ : BufTy).Contents (Elt F) → (⟨S800000, .i1⟩ : BufTy).Contents (Elt F)),
    nullary main_c_23 (constantI S_ 32 100000#32),
    unary main_c_23 main_v147 (broadcastInDim S800000 ![] bcast_S_S800000 : (⟨S_, .i32⟩ : BufTy).Contents (Elt F) → (⟨S800000, .i32⟩ : BufTy).Contents (Elt F)),
    binary main_v139 main_v147 main_v148 (addi : (⟨S800000, .i32⟩ : BufTy).Contents (Elt F) → (⟨S800000, .i32⟩ : BufTy).Contents (Elt F) → (⟨S800000, .i32⟩ : BufTy).Contents (Elt F)),
    ternary main_v146 main_v148 main_v139 main_v149 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v149 main_v150 (broadcastInDim S800000x1 ![0] bcast_S800000_S800000x1_0 : (⟨S800000, .i32⟩ : BufTy).Contents (Elt F) → (⟨S800000x1, .i32⟩ : BufTy).Contents (Elt F)),
    binary main_v134 main_v150 main_v151 ((fun x i => Host.gather gather_S100000x128_S800000x1_S800000x128_1_0_n_n_0_1_1128 x i) : (⟨S100000x128, .f32⟩ : BufTy).Contents (Elt F) → (⟨S800000x1, .i32⟩ : BufTy).Contents (Elt F) → (⟨S800000x128, .f32⟩ : BufTy).Contents (Elt F)),
    unary main_v144 main_v152 (broadcastInDim S800000x1 ![0] bcast_S800000_S800000x1_0 : (⟨S800000, .f32⟩ : BufTy).Contents (Elt F) → (⟨S800000x1, .f32⟩ : BufTy).Contents (Elt F)),
    unary main_v152 main_v153 (broadcastInDim S800000x128 ![0, 1] bcast_S800000x1_S800000x128_0_1 : (⟨S800000x1, .f32⟩ : BufTy).Contents (Elt F) → (⟨S800000x128, .f32⟩ : BufTy).Contents (Elt F)) ]

/-- Layer 2, operations 25–84. -/
abbrev q3 : List (HloOp τ sig (Elt F)) :=
  [ binary main_v151 main_v153 main_v154 (mulf : (⟨S800000x128, .f32⟩ : BufTy).Contents (Elt F) → (⟨S800000x128, .f32⟩ : BufTy).Contents (Elt F) → (⟨S800000x128, .f32⟩ : BufTy).Contents (Elt F)),
    nullary main_cst_24 (constant S_ .f32 0x00000000#32),
    unary main_cst_24 main_v155 (broadcastInDim S100000x128 ![] bcast_S_S100000x128 : (⟨S_, .f32⟩ : BufTy).Contents (Elt F) → (⟨S100000x128, .f32⟩ : BufTy).Contents (Elt F)),
    unary main_v141 main_v156 (broadcastInDim S800000x1 ![0] bcast_S800000_S800000x1_0 : (⟨S800000, .i32⟩ : BufTy).Contents (Elt F) → (⟨S800000x1, .i32⟩ : BufTy).Contents (Elt F)),
    ternary main_v155 main_v156 main_v154 main_v157 ((fun x i u => Host.scatterAdd scatter_S100000x128_S800000x1_S800000x128_1_0_0_1 x i u) : (⟨S100000x128, .f32⟩ : BufTy).Contents (Elt F) → (⟨S800000x1, .i32⟩ : BufTy).Contents (Elt F) → (⟨S800000x128, .f32⟩ : BufTy).Contents (Elt F) → (⟨S100000x128, .f32⟩ : BufTy).Contents (Elt F)),
    nullary main_cst_25 (constant S_ .f32 0x00000000#32),
    unary main_cst_25 main_v158 (broadcastInDim S100000 ![] bcast_S_S100000 : (⟨S_, .f32⟩ : BufTy).Contents (Elt F) → (⟨S100000, .f32⟩ : BufTy).Contents (Elt F)),
    unary main_v141 main_v159 (broadcastInDim S800000x1 ![0] bcast_S800000_S800000x1_0 : (⟨S800000, .i32⟩ : BufTy).Contents (Elt F) → (⟨S800000x1, .i32⟩ : BufTy).Contents (Elt F)),
    ternary main_v158 main_v159 main_v144 main_v160 ((fun x i u => Host.scatterAdd scatter_S100000_S800000x1_S800000_n_0_0_1 x i u) : (⟨S100000, .f32⟩ : BufTy).Contents (Elt F) → (⟨S800000x1, .i32⟩ : BufTy).Contents (Elt F) → (⟨S800000, .f32⟩ : BufTy).Contents (Elt F) → (⟨S100000, .f32⟩ : BufTy).Contents (Elt F)),
    nullary main_cst_26 (constant S_ .f32 0x3F800000#32),
    unary main_cst_26 main_v161 (broadcastInDim S100000 ![] bcast_S_S100000 : (⟨S_, .f32⟩ : BufTy).Contents (Elt F) → (⟨S100000, .f32⟩ : BufTy).Contents (Elt F)),
    binary main_v160 main_v161 main_v162 (maximumf : (⟨S100000, .f32⟩ : BufTy).Contents (Elt F) → (⟨S100000, .f32⟩ : BufTy).Contents (Elt F) → (⟨S100000, .f32⟩ : BufTy).Contents (Elt F)),
    unary main_v162 main_v163 (broadcastInDim S100000x1 ![0] bcast_S100000_S100000x1_0 : (⟨S100000, .f32⟩ : BufTy).Contents (Elt F) → (⟨S100000x1, .f32⟩ : BufTy).Contents (Elt F)),
    unary main_v163 main_v164 (broadcastInDim S100000x128 ![0, 1] bcast_S100000x1_S100000x128_0_1 : (⟨S100000x1, .f32⟩ : BufTy).Contents (Elt F) → (⟨S100000x128, .f32⟩ : BufTy).Contents (Elt F)),
    binary main_v157 main_v164 main_v165 (Host.divf : (⟨S100000x128, .f32⟩ : BufTy).Contents (Elt F) → (⟨S100000x128, .f32⟩ : BufTy).Contents (Elt F) → (⟨S100000x128, .f32⟩ : BufTy).Contents (Elt F)),
    unary main_arg8 main_v166 ((extractStridedSlice S1x1x128x128 ![1, 0, 0, 0] · slices_S3x3x128x128_S1x1x128x128_1_0_0_0) : (⟨S3x3x128x128, .f32⟩ : BufTy).Contents (Elt F) → (⟨S1x1x128x128, .f32⟩ : BufTy).Contents (Elt F)),
    reshape main_v166 main_v167 rfl shapeCasts_S1x1x128x128_S128x128,
    unary main_v167 main_v168 ((transpose S128x128 [1, 0] · transposes_S128x128_S128x128_1_0) : (⟨S128x128, .f32⟩ : BufTy).Contents (Elt F) → (⟨S128x128, .f32⟩ : BufTy).Contents (Elt F)),
    binary main_v165 main_v168 main_v169 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    binary main_v137 main_v169 main_v170 (addf : (⟨S100000x128, .f32⟩ : BufTy).Contents (Elt F) → (⟨S100000x128, .f32⟩ : BufTy).Contents (Elt F) → (⟨S100000x128, .f32⟩ : BufTy).Contents (Elt F)),
    unary main_arg9 main_v171 ((extractStridedSlice S1x1x128 ![1, 0, 0] · slices_S3x3x128_S1x1x128_1_0_0) : (⟨S3x3x128, .f32⟩ : BufTy).Contents (Elt F) → (⟨S1x1x128, .f32⟩ : BufTy).Contents (Elt F)),
    reshape main_v171 main_v172 rfl shapeCasts_S1x1x128_S128,
    unary main_v172 main_v173 (broadcastInDim S1x128 ![1] bcast_S128_S1x128_1 : (⟨S128, .f32⟩ : BufTy).Contents (Elt F) → (⟨S1x128, .f32⟩ : BufTy).Contents (Elt F)),
    unary main_v173 main_v174 (broadcastInDim S100000x128 ![0, 1] bcast_S1x128_S100000x128_0_1 : (⟨S1x128, .f32⟩ : BufTy).Contents (Elt F) → (⟨S100000x128, .f32⟩ : BufTy).Contents (Elt F)),
    binary main_v170 main_v174 main_v175 (addf : (⟨S100000x128, .f32⟩ : BufTy).Contents (Elt F) → (⟨S100000x128, .f32⟩ : BufTy).Contents (Elt F) → (⟨S100000x128, .f32⟩ : BufTy).Contents (Elt F)),
    unary main_arg10 main_v176 ((extractStridedSlice S1x1x128x128 ![1, 0, 0, 0] · slices_S3x3x128x128_S1x1x128x128_1_0_0_0) : (⟨S3x3x128x128, .f32⟩ : BufTy).Contents (Elt F) → (⟨S1x1x128x128, .f32⟩ : BufTy).Contents (Elt F)),
    reshape main_v176 main_v177 rfl shapeCasts_S1x1x128x128_S128x128,
    unary main_v177 main_v178 ((transpose S128x128 [1, 0] · transposes_S128x128_S128x128_1_0) : (⟨S128x128, .f32⟩ : BufTy).Contents (Elt F) → (⟨S128x128, .f32⟩ : BufTy).Contents (Elt F)),
    binary main_v134 main_v178 main_v179 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    binary main_v175 main_v179 main_v180 (addf : (⟨S100000x128, .f32⟩ : BufTy).Contents (Elt F) → (⟨S100000x128, .f32⟩ : BufTy).Contents (Elt F) → (⟨S100000x128, .f32⟩ : BufTy).Contents (Elt F)),
    unary main_arg2 main_v181 ((extractStridedSlice S1x800000 ![0, 0] · slices_S2x800000_S1x800000_0_0) : (⟨S2x800000, .i32⟩ : BufTy).Contents (Elt F) → (⟨S1x800000, .i32⟩ : BufTy).Contents (Elt F)),
    reshape main_v181 main_v182 rfl shapeCasts_S1x800000_S800000,
    unary main_arg2 main_v183 ((extractStridedSlice S1x800000 ![1, 0] · slices_S2x800000_S1x800000_1_0) : (⟨S2x800000, .i32⟩ : BufTy).Contents (Elt F) → (⟨S1x800000, .i32⟩ : BufTy).Contents (Elt F)),
    reshape main_v183 main_v184 rfl shapeCasts_S1x800000_S800000,
    nullary main_c_27 (constantI S_ 32 2#32),
    unary main_c_27 main_v185 (broadcastInDim S800000 ![] bcast_S_S800000 : (⟨S_, .i32⟩ : BufTy).Contents (Elt F) → (⟨S800000, .i32⟩ : BufTy).Contents (Elt F)),
    binary main_arg6 main_v185 main_v186 (cmpi .sle : (⟨S800000, .i32⟩ : BufTy).Contents (Elt F) → (⟨S800000, .i32⟩ : BufTy).Contents (Elt F) → (⟨S800000, .i1⟩ : BufTy).Contents (Elt F)),
    unary main_v186 main_v187 (uitofp .f32 : (⟨S800000, .i1⟩ : BufTy).Contents (Elt F) → (⟨S800000, .f32⟩ : BufTy).Contents (Elt F)),
    nullary main_c_28 (constantI S_ 32 0#32),
    unary main_c_28 main_v188 (broadcastInDim S800000 ![] bcast_S_S800000 : (⟨S_, .i32⟩ : BufTy).Contents (Elt F) → (⟨S800000, .i32⟩ : BufTy).Contents (Elt F)),
    binary main_v182 main_v188 main_v189 (cmpi .slt : (⟨S800000, .i32⟩ : BufTy).Contents (Elt F) → (⟨S800000, .i32⟩ : BufTy).Contents (Elt F) → (⟨S800000, .i1⟩ : BufTy).Contents (Elt F)),
    nullary main_c_29 (constantI S_ 32 100000#32),
    unary main_c_29 main_v190 (broadcastInDim S800000 ![] bcast_S_S800000 : (⟨S_, .i32⟩ : BufTy).Contents (Elt F) → (⟨S800000, .i32⟩ : BufTy).Contents (Elt F)),
    binary main_v182 main_v190 main_v191 (addi : (⟨S800000, .i32⟩ : BufTy).Contents (Elt F) → (⟨S800000, .i32⟩ : BufTy).Contents (Elt F) → (⟨S800000, .i32⟩ : BufTy).Contents (Elt F)),
    ternary main_v189 main_v191 main_v182 main_v192 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v192 main_v193 (broadcastInDim S800000x1 ![0] bcast_S800000_S800000x1_0 : (⟨S800000, .i32⟩ : BufTy).Contents (Elt F) → (⟨S800000x1, .i32⟩ : BufTy).Contents (Elt F)),
    binary main_v134 main_v193 main_v194 ((fun x i => Host.gather gather_S100000x128_S800000x1_S800000x128_1_0_n_n_0_1_1128 x i) : (⟨S100000x128, .f32⟩ : BufTy).Contents (Elt F) → (⟨S800000x1, .i32⟩ : BufTy).Contents (Elt F) → (⟨S800000x128, .f32⟩ : BufTy).Contents (Elt F)),
    unary main_v187 main_v195 (broadcastInDim S800000x1 ![0] bcast_S800000_S800000x1_0 : (⟨S800000, .f32⟩ : BufTy).Contents (Elt F) → (⟨S800000x1, .f32⟩ : BufTy).Contents (Elt F)),
    unary main_v195 main_v196 (broadcastInDim S800000x128 ![0, 1] bcast_S800000x1_S800000x128_0_1 : (⟨S800000x1, .f32⟩ : BufTy).Contents (Elt F) → (⟨S800000x128, .f32⟩ : BufTy).Contents (Elt F)),
    binary main_v194 main_v196 main_v197 (mulf : (⟨S800000x128, .f32⟩ : BufTy).Contents (Elt F) → (⟨S800000x128, .f32⟩ : BufTy).Contents (Elt F) → (⟨S800000x128, .f32⟩ : BufTy).Contents (Elt F)),
    nullary main_cst_30 (constant S_ .f32 0x00000000#32),
    unary main_cst_30 main_v198 (broadcastInDim S100000x128 ![] bcast_S_S100000x128 : (⟨S_, .f32⟩ : BufTy).Contents (Elt F) → (⟨S100000x128, .f32⟩ : BufTy).Contents (Elt F)),
    unary main_v184 main_v199 (broadcastInDim S800000x1 ![0] bcast_S800000_S800000x1_0 : (⟨S800000, .i32⟩ : BufTy).Contents (Elt F) → (⟨S800000x1, .i32⟩ : BufTy).Contents (Elt F)),
    ternary main_v198 main_v199 main_v197 main_v200 ((fun x i u => Host.scatterAdd scatter_S100000x128_S800000x1_S800000x128_1_0_0_1 x i u) : (⟨S100000x128, .f32⟩ : BufTy).Contents (Elt F) → (⟨S800000x1, .i32⟩ : BufTy).Contents (Elt F) → (⟨S800000x128, .f32⟩ : BufTy).Contents (Elt F) → (⟨S100000x128, .f32⟩ : BufTy).Contents (Elt F)),
    nullary main_cst_31 (constant S_ .f32 0x00000000#32),
    unary main_cst_31 main_v201 (broadcastInDim S100000 ![] bcast_S_S100000 : (⟨S_, .f32⟩ : BufTy).Contents (Elt F) → (⟨S100000, .f32⟩ : BufTy).Contents (Elt F)),
    unary main_v184 main_v202 (broadcastInDim S800000x1 ![0] bcast_S800000_S800000x1_0 : (⟨S800000, .i32⟩ : BufTy).Contents (Elt F) → (⟨S800000x1, .i32⟩ : BufTy).Contents (Elt F)),
    ternary main_v201 main_v202 main_v187 main_v203 ((fun x i u => Host.scatterAdd scatter_S100000_S800000x1_S800000_n_0_0_1 x i u) : (⟨S100000, .f32⟩ : BufTy).Contents (Elt F) → (⟨S800000x1, .i32⟩ : BufTy).Contents (Elt F) → (⟨S800000, .f32⟩ : BufTy).Contents (Elt F) → (⟨S100000, .f32⟩ : BufTy).Contents (Elt F)),
    nullary main_cst_32 (constant S_ .f32 0x3F800000#32),
    unary main_cst_32 main_v204 (broadcastInDim S100000 ![] bcast_S_S100000 : (⟨S_, .f32⟩ : BufTy).Contents (Elt F) → (⟨S100000, .f32⟩ : BufTy).Contents (Elt F)) ]

/-- Layer 2, operations 85–144. -/
abbrev q4 : List (HloOp τ sig (Elt F)) :=
  [ binary main_v203 main_v204 main_v205 (maximumf : (⟨S100000, .f32⟩ : BufTy).Contents (Elt F) → (⟨S100000, .f32⟩ : BufTy).Contents (Elt F) → (⟨S100000, .f32⟩ : BufTy).Contents (Elt F)),
    unary main_v205 main_v206 (broadcastInDim S100000x1 ![0] bcast_S100000_S100000x1_0 : (⟨S100000, .f32⟩ : BufTy).Contents (Elt F) → (⟨S100000x1, .f32⟩ : BufTy).Contents (Elt F)),
    unary main_v206 main_v207 (broadcastInDim S100000x128 ![0, 1] bcast_S100000x1_S100000x128_0_1 : (⟨S100000x1, .f32⟩ : BufTy).Contents (Elt F) → (⟨S100000x128, .f32⟩ : BufTy).Contents (Elt F)),
    binary main_v200 main_v207 main_v208 (Host.divf : (⟨S100000x128, .f32⟩ : BufTy).Contents (Elt F) → (⟨S100000x128, .f32⟩ : BufTy).Contents (Elt F) → (⟨S100000x128, .f32⟩ : BufTy).Contents (Elt F)),
    unary main_arg8 main_v209 ((extractStridedSlice S1x1x128x128 ![1, 1, 0, 0] · slices_S3x3x128x128_S1x1x128x128_1_1_0_0) : (⟨S3x3x128x128, .f32⟩ : BufTy).Contents (Elt F) → (⟨S1x1x128x128, .f32⟩ : BufTy).Contents (Elt F)),
    reshape main_v209 main_v210 rfl shapeCasts_S1x1x128x128_S128x128,
    unary main_v210 main_v211 ((transpose S128x128 [1, 0] · transposes_S128x128_S128x128_1_0) : (⟨S128x128, .f32⟩ : BufTy).Contents (Elt F) → (⟨S128x128, .f32⟩ : BufTy).Contents (Elt F)),
    binary main_v208 main_v211 main_v212 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    binary main_v180 main_v212 main_v213 (addf : (⟨S100000x128, .f32⟩ : BufTy).Contents (Elt F) → (⟨S100000x128, .f32⟩ : BufTy).Contents (Elt F) → (⟨S100000x128, .f32⟩ : BufTy).Contents (Elt F)),
    unary main_arg9 main_v214 ((extractStridedSlice S1x1x128 ![1, 1, 0] · slices_S3x3x128_S1x1x128_1_1_0) : (⟨S3x3x128, .f32⟩ : BufTy).Contents (Elt F) → (⟨S1x1x128, .f32⟩ : BufTy).Contents (Elt F)),
    reshape main_v214 main_v215 rfl shapeCasts_S1x1x128_S128,
    unary main_v215 main_v216 (broadcastInDim S1x128 ![1] bcast_S128_S1x128_1 : (⟨S128, .f32⟩ : BufTy).Contents (Elt F) → (⟨S1x128, .f32⟩ : BufTy).Contents (Elt F)),
    unary main_v216 main_v217 (broadcastInDim S100000x128 ![0, 1] bcast_S1x128_S100000x128_0_1 : (⟨S1x128, .f32⟩ : BufTy).Contents (Elt F) → (⟨S100000x128, .f32⟩ : BufTy).Contents (Elt F)),
    binary main_v213 main_v217 main_v218 (addf : (⟨S100000x128, .f32⟩ : BufTy).Contents (Elt F) → (⟨S100000x128, .f32⟩ : BufTy).Contents (Elt F) → (⟨S100000x128, .f32⟩ : BufTy).Contents (Elt F)),
    unary main_arg10 main_v219 ((extractStridedSlice S1x1x128x128 ![1, 1, 0, 0] · slices_S3x3x128x128_S1x1x128x128_1_1_0_0) : (⟨S3x3x128x128, .f32⟩ : BufTy).Contents (Elt F) → (⟨S1x1x128x128, .f32⟩ : BufTy).Contents (Elt F)),
    reshape main_v219 main_v220 rfl shapeCasts_S1x1x128x128_S128x128,
    unary main_v220 main_v221 ((transpose S128x128 [1, 0] · transposes_S128x128_S128x128_1_0) : (⟨S128x128, .f32⟩ : BufTy).Contents (Elt F) → (⟨S128x128, .f32⟩ : BufTy).Contents (Elt F)),
    binary main_v134 main_v221 main_v222 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    binary main_v218 main_v222 main_v223 (addf : (⟨S100000x128, .f32⟩ : BufTy).Contents (Elt F) → (⟨S100000x128, .f32⟩ : BufTy).Contents (Elt F) → (⟨S100000x128, .f32⟩ : BufTy).Contents (Elt F)),
    unary main_arg3 main_v224 ((extractStridedSlice S1x800000 ![0, 0] · slices_S2x800000_S1x800000_0_0) : (⟨S2x800000, .i32⟩ : BufTy).Contents (Elt F) → (⟨S1x800000, .i32⟩ : BufTy).Contents (Elt F)),
    reshape main_v224 main_v225 rfl shapeCasts_S1x800000_S800000,
    unary main_arg3 main_v226 ((extractStridedSlice S1x800000 ![1, 0] · slices_S2x800000_S1x800000_1_0) : (⟨S2x800000, .i32⟩ : BufTy).Contents (Elt F) → (⟨S1x800000, .i32⟩ : BufTy).Contents (Elt F)),
    reshape main_v226 main_v227 rfl shapeCasts_S1x800000_S800000,
    nullary main_c_33 (constantI S_ 32 2#32),
    unary main_c_33 main_v228 (broadcastInDim S800000 ![] bcast_S_S800000 : (⟨S_, .i32⟩ : BufTy).Contents (Elt F) → (⟨S800000, .i32⟩ : BufTy).Contents (Elt F)),
    binary main_arg7 main_v228 main_v229 (cmpi .sle : (⟨S800000, .i32⟩ : BufTy).Contents (Elt F) → (⟨S800000, .i32⟩ : BufTy).Contents (Elt F) → (⟨S800000, .i1⟩ : BufTy).Contents (Elt F)),
    unary main_v229 main_v230 (uitofp .f32 : (⟨S800000, .i1⟩ : BufTy).Contents (Elt F) → (⟨S800000, .f32⟩ : BufTy).Contents (Elt F)),
    nullary main_c_34 (constantI S_ 32 0#32),
    unary main_c_34 main_v231 (broadcastInDim S800000 ![] bcast_S_S800000 : (⟨S_, .i32⟩ : BufTy).Contents (Elt F) → (⟨S800000, .i32⟩ : BufTy).Contents (Elt F)),
    binary main_v225 main_v231 main_v232 (cmpi .slt : (⟨S800000, .i32⟩ : BufTy).Contents (Elt F) → (⟨S800000, .i32⟩ : BufTy).Contents (Elt F) → (⟨S800000, .i1⟩ : BufTy).Contents (Elt F)),
    nullary main_c_35 (constantI S_ 32 100000#32),
    unary main_c_35 main_v233 (broadcastInDim S800000 ![] bcast_S_S800000 : (⟨S_, .i32⟩ : BufTy).Contents (Elt F) → (⟨S800000, .i32⟩ : BufTy).Contents (Elt F)),
    binary main_v225 main_v233 main_v234 (addi : (⟨S800000, .i32⟩ : BufTy).Contents (Elt F) → (⟨S800000, .i32⟩ : BufTy).Contents (Elt F) → (⟨S800000, .i32⟩ : BufTy).Contents (Elt F)),
    ternary main_v232 main_v234 main_v225 main_v235 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v235 main_v236 (broadcastInDim S800000x1 ![0] bcast_S800000_S800000x1_0 : (⟨S800000, .i32⟩ : BufTy).Contents (Elt F) → (⟨S800000x1, .i32⟩ : BufTy).Contents (Elt F)),
    binary main_v134 main_v236 main_v237 ((fun x i => Host.gather gather_S100000x128_S800000x1_S800000x128_1_0_n_n_0_1_1128 x i) : (⟨S100000x128, .f32⟩ : BufTy).Contents (Elt F) → (⟨S800000x1, .i32⟩ : BufTy).Contents (Elt F) → (⟨S800000x128, .f32⟩ : BufTy).Contents (Elt F)),
    unary main_v230 main_v238 (broadcastInDim S800000x1 ![0] bcast_S800000_S800000x1_0 : (⟨S800000, .f32⟩ : BufTy).Contents (Elt F) → (⟨S800000x1, .f32⟩ : BufTy).Contents (Elt F)),
    unary main_v238 main_v239 (broadcastInDim S800000x128 ![0, 1] bcast_S800000x1_S800000x128_0_1 : (⟨S800000x1, .f32⟩ : BufTy).Contents (Elt F) → (⟨S800000x128, .f32⟩ : BufTy).Contents (Elt F)),
    binary main_v237 main_v239 main_v240 (mulf : (⟨S800000x128, .f32⟩ : BufTy).Contents (Elt F) → (⟨S800000x128, .f32⟩ : BufTy).Contents (Elt F) → (⟨S800000x128, .f32⟩ : BufTy).Contents (Elt F)),
    nullary main_cst_36 (constant S_ .f32 0x00000000#32),
    unary main_cst_36 main_v241 (broadcastInDim S100000x128 ![] bcast_S_S100000x128 : (⟨S_, .f32⟩ : BufTy).Contents (Elt F) → (⟨S100000x128, .f32⟩ : BufTy).Contents (Elt F)),
    unary main_v227 main_v242 (broadcastInDim S800000x1 ![0] bcast_S800000_S800000x1_0 : (⟨S800000, .i32⟩ : BufTy).Contents (Elt F) → (⟨S800000x1, .i32⟩ : BufTy).Contents (Elt F)),
    ternary main_v241 main_v242 main_v240 main_v243 ((fun x i u => Host.scatterAdd scatter_S100000x128_S800000x1_S800000x128_1_0_0_1 x i u) : (⟨S100000x128, .f32⟩ : BufTy).Contents (Elt F) → (⟨S800000x1, .i32⟩ : BufTy).Contents (Elt F) → (⟨S800000x128, .f32⟩ : BufTy).Contents (Elt F) → (⟨S100000x128, .f32⟩ : BufTy).Contents (Elt F)),
    nullary main_cst_37 (constant S_ .f32 0x00000000#32),
    unary main_cst_37 main_v244 (broadcastInDim S100000 ![] bcast_S_S100000 : (⟨S_, .f32⟩ : BufTy).Contents (Elt F) → (⟨S100000, .f32⟩ : BufTy).Contents (Elt F)),
    unary main_v227 main_v245 (broadcastInDim S800000x1 ![0] bcast_S800000_S800000x1_0 : (⟨S800000, .i32⟩ : BufTy).Contents (Elt F) → (⟨S800000x1, .i32⟩ : BufTy).Contents (Elt F)),
    ternary main_v244 main_v245 main_v230 main_v246 ((fun x i u => Host.scatterAdd scatter_S100000_S800000x1_S800000_n_0_0_1 x i u) : (⟨S100000, .f32⟩ : BufTy).Contents (Elt F) → (⟨S800000x1, .i32⟩ : BufTy).Contents (Elt F) → (⟨S800000, .f32⟩ : BufTy).Contents (Elt F) → (⟨S100000, .f32⟩ : BufTy).Contents (Elt F)),
    nullary main_cst_38 (constant S_ .f32 0x3F800000#32),
    unary main_cst_38 main_v247 (broadcastInDim S100000 ![] bcast_S_S100000 : (⟨S_, .f32⟩ : BufTy).Contents (Elt F) → (⟨S100000, .f32⟩ : BufTy).Contents (Elt F)),
    binary main_v246 main_v247 main_v248 (maximumf : (⟨S100000, .f32⟩ : BufTy).Contents (Elt F) → (⟨S100000, .f32⟩ : BufTy).Contents (Elt F) → (⟨S100000, .f32⟩ : BufTy).Contents (Elt F)),
    unary main_v248 main_v249 (broadcastInDim S100000x1 ![0] bcast_S100000_S100000x1_0 : (⟨S100000, .f32⟩ : BufTy).Contents (Elt F) → (⟨S100000x1, .f32⟩ : BufTy).Contents (Elt F)),
    unary main_v249 main_v250 (broadcastInDim S100000x128 ![0, 1] bcast_S100000x1_S100000x128_0_1 : (⟨S100000x1, .f32⟩ : BufTy).Contents (Elt F) → (⟨S100000x128, .f32⟩ : BufTy).Contents (Elt F)),
    binary main_v243 main_v250 main_v251 (Host.divf : (⟨S100000x128, .f32⟩ : BufTy).Contents (Elt F) → (⟨S100000x128, .f32⟩ : BufTy).Contents (Elt F) → (⟨S100000x128, .f32⟩ : BufTy).Contents (Elt F)),
    unary main_arg8 main_v252 ((extractStridedSlice S1x1x128x128 ![1, 2, 0, 0] · slices_S3x3x128x128_S1x1x128x128_1_2_0_0) : (⟨S3x3x128x128, .f32⟩ : BufTy).Contents (Elt F) → (⟨S1x1x128x128, .f32⟩ : BufTy).Contents (Elt F)),
    reshape main_v252 main_v253 rfl shapeCasts_S1x1x128x128_S128x128,
    unary main_v253 main_v254 ((transpose S128x128 [1, 0] · transposes_S128x128_S128x128_1_0) : (⟨S128x128, .f32⟩ : BufTy).Contents (Elt F) → (⟨S128x128, .f32⟩ : BufTy).Contents (Elt F)),
    binary main_v251 main_v254 main_v255 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    binary main_v223 main_v255 main_v256 (addf : (⟨S100000x128, .f32⟩ : BufTy).Contents (Elt F) → (⟨S100000x128, .f32⟩ : BufTy).Contents (Elt F) → (⟨S100000x128, .f32⟩ : BufTy).Contents (Elt F)),
    unary main_arg9 main_v257 ((extractStridedSlice S1x1x128 ![1, 2, 0] · slices_S3x3x128_S1x1x128_1_2_0) : (⟨S3x3x128, .f32⟩ : BufTy).Contents (Elt F) → (⟨S1x1x128, .f32⟩ : BufTy).Contents (Elt F)),
    reshape main_v257 main_v258 rfl shapeCasts_S1x1x128_S128 ]

/-- Layer 2, operations 145–161: the rectification and the selection. -/
abbrev q5a : List (HloOp τ sig (Elt F)) :=
  [ unary main_v258 main_v259 (broadcastInDim S1x128 ![1] bcast_S128_S1x128_1 : (⟨S128, .f32⟩ : BufTy).Contents (Elt F) → (⟨S1x128, .f32⟩ : BufTy).Contents (Elt F)),
    unary main_v259 main_v260 (broadcastInDim S100000x128 ![0, 1] bcast_S1x128_S100000x128_0_1 : (⟨S1x128, .f32⟩ : BufTy).Contents (Elt F) → (⟨S100000x128, .f32⟩ : BufTy).Contents (Elt F)),
    binary main_v256 main_v260 main_v261 (addf : (⟨S100000x128, .f32⟩ : BufTy).Contents (Elt F) → (⟨S100000x128, .f32⟩ : BufTy).Contents (Elt F) → (⟨S100000x128, .f32⟩ : BufTy).Contents (Elt F)),
    unary main_arg10 main_v262 ((extractStridedSlice S1x1x128x128 ![1, 2, 0, 0] · slices_S3x3x128x128_S1x1x128x128_1_2_0_0) : (⟨S3x3x128x128, .f32⟩ : BufTy).Contents (Elt F) → (⟨S1x1x128x128, .f32⟩ : BufTy).Contents (Elt F)),
    reshape main_v262 main_v263 rfl shapeCasts_S1x1x128x128_S128x128,
    unary main_v263 main_v264 ((transpose S128x128 [1, 0] · transposes_S128x128_S128x128_1_0) : (⟨S128x128, .f32⟩ : BufTy).Contents (Elt F) → (⟨S128x128, .f32⟩ : BufTy).Contents (Elt F)),
    binary main_v134 main_v264 main_v265 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    binary main_v261 main_v265 main_v266 (addf : (⟨S100000x128, .f32⟩ : BufTy).Contents (Elt F) → (⟨S100000x128, .f32⟩ : BufTy).Contents (Elt F) → (⟨S100000x128, .f32⟩ : BufTy).Contents (Elt F)),
    unary main_v136 main_v267 (broadcastInDim S100000x1 ![0] bcast_S100000_S100000x1_0 : (⟨S100000, .i1⟩ : BufTy).Contents (Elt F) → (⟨S100000x1, .i1⟩ : BufTy).Contents (Elt F)),
    TRef.nullary (TRef.of (T := ⟨S_, .f32⟩) main_call2_cst) (constant S_ .f32 0x00000000#32),
    TRef.unary (TRef.of (T := ⟨S_, .f32⟩) main_call2_cst) (TRef.of (T := ⟨S100000x128, .f32⟩) main_call2_v0) (broadcastInDim S100000x128 ![] bcast_S_S100000x128),
    TRef.binary (TRef.of (T := ⟨S100000x128, .f32⟩) main_v266) (TRef.of (T := ⟨S100000x128, .f32⟩) main_call2_v0) (TRef.of (T := ⟨S100000x128, .f32⟩) main_v268) maximumf,
    nullary main_cst_39 (constant S_ .f32 0x00000000#32),
    TRef.unary (TRef.of (T := ⟨S_, .f32⟩) main_cst_39) (TRef.of (T := ⟨S_, .f32⟩) main_call3_v0) id,
    TRef.unary (TRef.of (T := ⟨S100000x1, .i1⟩) main_v267) (TRef.of (T := ⟨S100000x128, .i1⟩) main_call3_v1) (broadcastInDim S100000x128 ![0, 1] bcast_S100000x1_S100000x128_0_1),
    TRef.unary (TRef.of (T := ⟨S_, .f32⟩) main_call3_v0) (TRef.of (T := ⟨S100000x128, .f32⟩) main_call3_v2) (broadcastInDim S100000x128 ![] bcast_S_S100000x128),
    TRef.ternary (TRef.of (T := ⟨S100000x128, .i1⟩) main_call3_v1) (TRef.of (T := ⟨S100000x128, .f32⟩) main_v268) (TRef.of (T := ⟨S100000x128, .f32⟩) main_call3_v2) (TRef.of (T := ⟨S100000x128, .f32⟩) main_v269) select ]

/-- Layer 3, operations 1–48. -/
abbrev q5b : List (HloOp τ sig (Elt F)) :=
  [ nullary main_c_40 (constantI S_ 32 1#32),
    unary main_c_40 main_v270 (broadcastInDim S100000 ![] bcast_S_S100000 : (⟨S_, .i32⟩ : BufTy).Contents (Elt F) → (⟨S100000, .i32⟩ : BufTy).Contents (Elt F)),
    binary main_arg4 main_v270 main_v271 (cmpi .sle : (⟨S100000, .i32⟩ : BufTy).Contents (Elt F) → (⟨S100000, .i32⟩ : BufTy).Contents (Elt F) → (⟨S100000, .i1⟩ : BufTy).Contents (Elt F)),
    nullary main_cst_41 (constant S_ .f32 0x00000000#32),
    unary main_cst_41 main_v272 (broadcastInDim S100000x128 ![] bcast_S_S100000x128 : (⟨S_, .f32⟩ : BufTy).Contents (Elt F) → (⟨S100000x128, .f32⟩ : BufTy).Contents (Elt F)),
    unary main_arg1 main_v273 ((extractStridedSlice S1x800000 ![0, 0] · slices_S2x800000_S1x800000_0_0) : (⟨S2x800000, .i32⟩ : BufTy).Contents (Elt F) → (⟨S1x800000, .i32⟩ : BufTy).Contents (Elt F)),
    reshape main_v273 main_v274 rfl shapeCasts_S1x800000_S800000,
    unary main_arg1 main_v275 ((extractStridedSlice S1x800000 ![1, 0] · slices_S2x800000_S1x800000_1_0) : (⟨S2x800000, .i32⟩ : BufTy).Contents (Elt F) → (⟨S1x800000, .i32⟩ : BufTy).Contents (Elt F)),
    reshape main_v275 main_v276 rfl shapeCasts_S1x800000_S800000,
    nullary main_c_42 (constantI S_ 32 1#32),
    unary main_c_42 main_v277 (broadcastInDim S800000 ![] bcast_S_S800000 : (⟨S_, .i32⟩ : BufTy).Contents (Elt F) → (⟨S800000, .i32⟩ : BufTy).Contents (Elt F)),
    binary main_arg5 main_v277 main_v278 (cmpi .sle : (⟨S800000, .i32⟩ : BufTy).Contents (Elt F) → (⟨S800000, .i32⟩ : BufTy).Contents (Elt F) → (⟨S800000, .i1⟩ : BufTy).Contents (Elt F)),
    unary main_v278 main_v279 (uitofp .f32 : (⟨S800000, .i1⟩ : BufTy).Contents (Elt F) → (⟨S800000, .f32⟩ : BufTy).Contents (Elt F)),
    nullary main_c_43 (constantI S_ 32 0#32),
    unary main_c_43 main_v280 (broadcastInDim S800000 ![] bcast_S_S800000 : (⟨S_, .i32⟩ : BufTy).Contents (Elt F) → (⟨S800000, .i32⟩ : BufTy).Contents (Elt F)),
    binary main_v274 main_v280 main_v281 (cmpi .slt : (⟨S800000, .i32⟩ : BufTy).Contents (Elt F) → (⟨S800000, .i32⟩ : BufTy).Contents (Elt F) → (⟨S800000, .i1⟩ : BufTy).Contents (Elt F)),
    nullary main_c_44 (constantI S_ 32 100000#32),
    unary main_c_44 main_v282 (broadcastInDim S800000 ![] bcast_S_S800000 : (⟨S_, .i32⟩ : BufTy).Contents (Elt F) → (⟨S800000, .i32⟩ : BufTy).Contents (Elt F)),
    binary main_v274 main_v282 main_v283 (addi : (⟨S800000, .i32⟩ : BufTy).Contents (Elt F) → (⟨S800000, .i32⟩ : BufTy).Contents (Elt F) → (⟨S800000, .i32⟩ : BufTy).Contents (Elt F)),
    ternary main_v281 main_v283 main_v274 main_v284 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v284 main_v285 (broadcastInDim S800000x1 ![0] bcast_S800000_S800000x1_0 : (⟨S800000, .i32⟩ : BufTy).Contents (Elt F) → (⟨S800000x1, .i32⟩ : BufTy).Contents (Elt F)),
    binary main_v269 main_v285 main_v286 ((fun x i => Host.gather gather_S100000x128_S800000x1_S800000x128_1_0_n_n_0_1_1128 x i) : (⟨S100000x128, .f32⟩ : BufTy).Contents (Elt F) → (⟨S800000x1, .i32⟩ : BufTy).Contents (Elt F) → (⟨S800000x128, .f32⟩ : BufTy).Contents (Elt F)),
    unary main_v279 main_v287 (broadcastInDim S800000x1 ![0] bcast_S800000_S800000x1_0 : (⟨S800000, .f32⟩ : BufTy).Contents (Elt F) → (⟨S800000x1, .f32⟩ : BufTy).Contents (Elt F)),
    unary main_v287 main_v288 (broadcastInDim S800000x128 ![0, 1] bcast_S800000x1_S800000x128_0_1 : (⟨S800000x1, .f32⟩ : BufTy).Contents (Elt F) → (⟨S800000x128, .f32⟩ : BufTy).Contents (Elt F)),
    binary main_v286 main_v288 main_v289 (mulf : (⟨S800000x128, .f32⟩ : BufTy).Contents (Elt F) → (⟨S800000x128, .f32⟩ : BufTy).Contents (Elt F) → (⟨S800000x128, .f32⟩ : BufTy).Contents (Elt F)),
    nullary main_cst_45 (constant S_ .f32 0x00000000#32),
    unary main_cst_45 main_v290 (broadcastInDim S100000x128 ![] bcast_S_S100000x128 : (⟨S_, .f32⟩ : BufTy).Contents (Elt F) → (⟨S100000x128, .f32⟩ : BufTy).Contents (Elt F)),
    unary main_v276 main_v291 (broadcastInDim S800000x1 ![0] bcast_S800000_S800000x1_0 : (⟨S800000, .i32⟩ : BufTy).Contents (Elt F) → (⟨S800000x1, .i32⟩ : BufTy).Contents (Elt F)),
    ternary main_v290 main_v291 main_v289 main_v292 ((fun x i u => Host.scatterAdd scatter_S100000x128_S800000x1_S800000x128_1_0_0_1 x i u) : (⟨S100000x128, .f32⟩ : BufTy).Contents (Elt F) → (⟨S800000x1, .i32⟩ : BufTy).Contents (Elt F) → (⟨S800000x128, .f32⟩ : BufTy).Contents (Elt F) → (⟨S100000x128, .f32⟩ : BufTy).Contents (Elt F)),
    nullary main_cst_46 (constant S_ .f32 0x00000000#32),
    unary main_cst_46 main_v293 (broadcastInDim S100000 ![] bcast_S_S100000 : (⟨S_, .f32⟩ : BufTy).Contents (Elt F) → (⟨S100000, .f32⟩ : BufTy).Contents (Elt F)),
    unary main_v276 main_v294 (broadcastInDim S800000x1 ![0] bcast_S800000_S800000x1_0 : (⟨S800000, .i32⟩ : BufTy).Contents (Elt F) → (⟨S800000x1, .i32⟩ : BufTy).Contents (Elt F)),
    ternary main_v293 main_v294 main_v279 main_v295 ((fun x i u => Host.scatterAdd scatter_S100000_S800000x1_S800000_n_0_0_1 x i u) : (⟨S100000, .f32⟩ : BufTy).Contents (Elt F) → (⟨S800000x1, .i32⟩ : BufTy).Contents (Elt F) → (⟨S800000, .f32⟩ : BufTy).Contents (Elt F) → (⟨S100000, .f32⟩ : BufTy).Contents (Elt F)),
    nullary main_cst_47 (constant S_ .f32 0x3F800000#32),
    unary main_cst_47 main_v296 (broadcastInDim S100000 ![] bcast_S_S100000 : (⟨S_, .f32⟩ : BufTy).Contents (Elt F) → (⟨S100000, .f32⟩ : BufTy).Contents (Elt F)),
    binary main_v295 main_v296 main_v297 (maximumf : (⟨S100000, .f32⟩ : BufTy).Contents (Elt F) → (⟨S100000, .f32⟩ : BufTy).Contents (Elt F) → (⟨S100000, .f32⟩ : BufTy).Contents (Elt F)),
    unary main_v297 main_v298 (broadcastInDim S100000x1 ![0] bcast_S100000_S100000x1_0 : (⟨S100000, .f32⟩ : BufTy).Contents (Elt F) → (⟨S100000x1, .f32⟩ : BufTy).Contents (Elt F)),
    unary main_v298 main_v299 (broadcastInDim S100000x128 ![0, 1] bcast_S100000x1_S100000x128_0_1 : (⟨S100000x1, .f32⟩ : BufTy).Contents (Elt F) → (⟨S100000x128, .f32⟩ : BufTy).Contents (Elt F)),
    binary main_v292 main_v299 main_v300 (Host.divf : (⟨S100000x128, .f32⟩ : BufTy).Contents (Elt F) → (⟨S100000x128, .f32⟩ : BufTy).Contents (Elt F) → (⟨S100000x128, .f32⟩ : BufTy).Contents (Elt F)),
    unary main_arg8 main_v301 ((extractStridedSlice S1x1x128x128 ![2, 0, 0, 0] · slices_S3x3x128x128_S1x1x128x128_2_0_0_0) : (⟨S3x3x128x128, .f32⟩ : BufTy).Contents (Elt F) → (⟨S1x1x128x128, .f32⟩ : BufTy).Contents (Elt F)),
    reshape main_v301 main_v302 rfl shapeCasts_S1x1x128x128_S128x128,
    unary main_v302 main_v303 ((transpose S128x128 [1, 0] · transposes_S128x128_S128x128_1_0) : (⟨S128x128, .f32⟩ : BufTy).Contents (Elt F) → (⟨S128x128, .f32⟩ : BufTy).Contents (Elt F)),
    binary main_v300 main_v303 main_v304 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    binary main_v272 main_v304 main_v305 (addf : (⟨S100000x128, .f32⟩ : BufTy).Contents (Elt F) → (⟨S100000x128, .f32⟩ : BufTy).Contents (Elt F) → (⟨S100000x128, .f32⟩ : BufTy).Contents (Elt F)),
    unary main_arg9 main_v306 ((extractStridedSlice S1x1x128 ![2, 0, 0] · slices_S3x3x128_S1x1x128_2_0_0) : (⟨S3x3x128, .f32⟩ : BufTy).Contents (Elt F) → (⟨S1x1x128, .f32⟩ : BufTy).Contents (Elt F)),
    reshape main_v306 main_v307 rfl shapeCasts_S1x1x128_S128,
    unary main_v307 main_v308 (broadcastInDim S1x128 ![1] bcast_S128_S1x128_1 : (⟨S128, .f32⟩ : BufTy).Contents (Elt F) → (⟨S1x128, .f32⟩ : BufTy).Contents (Elt F)),
    unary main_v308 main_v309 (broadcastInDim S100000x128 ![0, 1] bcast_S1x128_S100000x128_0_1 : (⟨S1x128, .f32⟩ : BufTy).Contents (Elt F) → (⟨S100000x128, .f32⟩ : BufTy).Contents (Elt F)) ]

/-- Layer 3, operations 49–108. -/
abbrev q6 : List (HloOp τ sig (Elt F)) :=
  [ binary main_v305 main_v309 main_v310 (addf : (⟨S100000x128, .f32⟩ : BufTy).Contents (Elt F) → (⟨S100000x128, .f32⟩ : BufTy).Contents (Elt F) → (⟨S100000x128, .f32⟩ : BufTy).Contents (Elt F)),
    unary main_arg10 main_v311 ((extractStridedSlice S1x1x128x128 ![2, 0, 0, 0] · slices_S3x3x128x128_S1x1x128x128_2_0_0_0) : (⟨S3x3x128x128, .f32⟩ : BufTy).Contents (Elt F) → (⟨S1x1x128x128, .f32⟩ : BufTy).Contents (Elt F)),
    reshape main_v311 main_v312 rfl shapeCasts_S1x1x128x128_S128x128,
    unary main_v312 main_v313 ((transpose S128x128 [1, 0] · transposes_S128x128_S128x128_1_0) : (⟨S128x128, .f32⟩ : BufTy).Contents (Elt F) → (⟨S128x128, .f32⟩ : BufTy).Contents (Elt F)),
    binary main_v269 main_v313 main_v314 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    binary main_v310 main_v314 main_v315 (addf : (⟨S100000x128, .f32⟩ : BufTy).Contents (Elt F) → (⟨S100000x128, .f32⟩ : BufTy).Contents (Elt F) → (⟨S100000x128, .f32⟩ : BufTy).Contents (Elt F)),
    unary main_arg2 main_v316 ((extractStridedSlice S1x800000 ![0, 0] · slices_S2x800000_S1x800000_0_0) : (⟨S2x800000, .i32⟩ : BufTy).Contents (Elt F) → (⟨S1x800000, .i32⟩ : BufTy).Contents (Elt F)),
    reshape main_v316 main_v317 rfl shapeCasts_S1x800000_S800000,
    unary main_arg2 main_v318 ((extractStridedSlice S1x800000 ![1, 0] · slices_S2x800000_S1x800000_1_0) : (⟨S2x800000, .i32⟩ : BufTy).Contents (Elt F) → (⟨S1x800000, .i32⟩ : BufTy).Contents (Elt F)),
    reshape main_v318 main_v319 rfl shapeCasts_S1x800000_S800000,
    nullary main_c_48 (constantI S_ 32 1#32),
    unary main_c_48 main_v320 (broadcastInDim S800000 ![] bcast_S_S800000 : (⟨S_, .i32⟩ : BufTy).Contents (Elt F) → (⟨S800000, .i32⟩ : BufTy).Contents (Elt F)),
    binary main_arg6 main_v320 main_v321 (cmpi .sle : (⟨S800000, .i32⟩ : BufTy).Contents (Elt F) → (⟨S800000, .i32⟩ : BufTy).Contents (Elt F) → (⟨S800000, .i1⟩ : BufTy).Contents (Elt F)),
    unary main_v321 main_v322 (uitofp .f32 : (⟨S800000, .i1⟩ : BufTy).Contents (Elt F) → (⟨S800000, .f32⟩ : BufTy).Contents (Elt F)),
    nullary main_c_49 (constantI S_ 32 0#32),
    unary main_c_49 main_v323 (broadcastInDim S800000 ![] bcast_S_S800000 : (⟨S_, .i32⟩ : BufTy).Contents (Elt F) → (⟨S800000, .i32⟩ : BufTy).Contents (Elt F)),
    binary main_v317 main_v323 main_v324 (cmpi .slt : (⟨S800000, .i32⟩ : BufTy).Contents (Elt F) → (⟨S800000, .i32⟩ : BufTy).Contents (Elt F) → (⟨S800000, .i1⟩ : BufTy).Contents (Elt F)),
    nullary main_c_50 (constantI S_ 32 100000#32),
    unary main_c_50 main_v325 (broadcastInDim S800000 ![] bcast_S_S800000 : (⟨S_, .i32⟩ : BufTy).Contents (Elt F) → (⟨S800000, .i32⟩ : BufTy).Contents (Elt F)),
    binary main_v317 main_v325 main_v326 (addi : (⟨S800000, .i32⟩ : BufTy).Contents (Elt F) → (⟨S800000, .i32⟩ : BufTy).Contents (Elt F) → (⟨S800000, .i32⟩ : BufTy).Contents (Elt F)),
    ternary main_v324 main_v326 main_v317 main_v327 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v327 main_v328 (broadcastInDim S800000x1 ![0] bcast_S800000_S800000x1_0 : (⟨S800000, .i32⟩ : BufTy).Contents (Elt F) → (⟨S800000x1, .i32⟩ : BufTy).Contents (Elt F)),
    binary main_v269 main_v328 main_v329 ((fun x i => Host.gather gather_S100000x128_S800000x1_S800000x128_1_0_n_n_0_1_1128 x i) : (⟨S100000x128, .f32⟩ : BufTy).Contents (Elt F) → (⟨S800000x1, .i32⟩ : BufTy).Contents (Elt F) → (⟨S800000x128, .f32⟩ : BufTy).Contents (Elt F)),
    unary main_v322 main_v330 (broadcastInDim S800000x1 ![0] bcast_S800000_S800000x1_0 : (⟨S800000, .f32⟩ : BufTy).Contents (Elt F) → (⟨S800000x1, .f32⟩ : BufTy).Contents (Elt F)),
    unary main_v330 main_v331 (broadcastInDim S800000x128 ![0, 1] bcast_S800000x1_S800000x128_0_1 : (⟨S800000x1, .f32⟩ : BufTy).Contents (Elt F) → (⟨S800000x128, .f32⟩ : BufTy).Contents (Elt F)),
    binary main_v329 main_v331 main_v332 (mulf : (⟨S800000x128, .f32⟩ : BufTy).Contents (Elt F) → (⟨S800000x128, .f32⟩ : BufTy).Contents (Elt F) → (⟨S800000x128, .f32⟩ : BufTy).Contents (Elt F)),
    nullary main_cst_51 (constant S_ .f32 0x00000000#32),
    unary main_cst_51 main_v333 (broadcastInDim S100000x128 ![] bcast_S_S100000x128 : (⟨S_, .f32⟩ : BufTy).Contents (Elt F) → (⟨S100000x128, .f32⟩ : BufTy).Contents (Elt F)),
    unary main_v319 main_v334 (broadcastInDim S800000x1 ![0] bcast_S800000_S800000x1_0 : (⟨S800000, .i32⟩ : BufTy).Contents (Elt F) → (⟨S800000x1, .i32⟩ : BufTy).Contents (Elt F)),
    ternary main_v333 main_v334 main_v332 main_v335 ((fun x i u => Host.scatterAdd scatter_S100000x128_S800000x1_S800000x128_1_0_0_1 x i u) : (⟨S100000x128, .f32⟩ : BufTy).Contents (Elt F) → (⟨S800000x1, .i32⟩ : BufTy).Contents (Elt F) → (⟨S800000x128, .f32⟩ : BufTy).Contents (Elt F) → (⟨S100000x128, .f32⟩ : BufTy).Contents (Elt F)),
    nullary main_cst_52 (constant S_ .f32 0x00000000#32),
    unary main_cst_52 main_v336 (broadcastInDim S100000 ![] bcast_S_S100000 : (⟨S_, .f32⟩ : BufTy).Contents (Elt F) → (⟨S100000, .f32⟩ : BufTy).Contents (Elt F)),
    unary main_v319 main_v337 (broadcastInDim S800000x1 ![0] bcast_S800000_S800000x1_0 : (⟨S800000, .i32⟩ : BufTy).Contents (Elt F) → (⟨S800000x1, .i32⟩ : BufTy).Contents (Elt F)),
    ternary main_v336 main_v337 main_v322 main_v338 ((fun x i u => Host.scatterAdd scatter_S100000_S800000x1_S800000_n_0_0_1 x i u) : (⟨S100000, .f32⟩ : BufTy).Contents (Elt F) → (⟨S800000x1, .i32⟩ : BufTy).Contents (Elt F) → (⟨S800000, .f32⟩ : BufTy).Contents (Elt F) → (⟨S100000, .f32⟩ : BufTy).Contents (Elt F)),
    nullary main_cst_53 (constant S_ .f32 0x3F800000#32),
    unary main_cst_53 main_v339 (broadcastInDim S100000 ![] bcast_S_S100000 : (⟨S_, .f32⟩ : BufTy).Contents (Elt F) → (⟨S100000, .f32⟩ : BufTy).Contents (Elt F)),
    binary main_v338 main_v339 main_v340 (maximumf : (⟨S100000, .f32⟩ : BufTy).Contents (Elt F) → (⟨S100000, .f32⟩ : BufTy).Contents (Elt F) → (⟨S100000, .f32⟩ : BufTy).Contents (Elt F)),
    unary main_v340 main_v341 (broadcastInDim S100000x1 ![0] bcast_S100000_S100000x1_0 : (⟨S100000, .f32⟩ : BufTy).Contents (Elt F) → (⟨S100000x1, .f32⟩ : BufTy).Contents (Elt F)),
    unary main_v341 main_v342 (broadcastInDim S100000x128 ![0, 1] bcast_S100000x1_S100000x128_0_1 : (⟨S100000x1, .f32⟩ : BufTy).Contents (Elt F) → (⟨S100000x128, .f32⟩ : BufTy).Contents (Elt F)),
    binary main_v335 main_v342 main_v343 (Host.divf : (⟨S100000x128, .f32⟩ : BufTy).Contents (Elt F) → (⟨S100000x128, .f32⟩ : BufTy).Contents (Elt F) → (⟨S100000x128, .f32⟩ : BufTy).Contents (Elt F)),
    unary main_arg8 main_v344 ((extractStridedSlice S1x1x128x128 ![2, 1, 0, 0] · slices_S3x3x128x128_S1x1x128x128_2_1_0_0) : (⟨S3x3x128x128, .f32⟩ : BufTy).Contents (Elt F) → (⟨S1x1x128x128, .f32⟩ : BufTy).Contents (Elt F)),
    reshape main_v344 main_v345 rfl shapeCasts_S1x1x128x128_S128x128,
    unary main_v345 main_v346 ((transpose S128x128 [1, 0] · transposes_S128x128_S128x128_1_0) : (⟨S128x128, .f32⟩ : BufTy).Contents (Elt F) → (⟨S128x128, .f32⟩ : BufTy).Contents (Elt F)),
    binary main_v343 main_v346 main_v347 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    binary main_v315 main_v347 main_v348 (addf : (⟨S100000x128, .f32⟩ : BufTy).Contents (Elt F) → (⟨S100000x128, .f32⟩ : BufTy).Contents (Elt F) → (⟨S100000x128, .f32⟩ : BufTy).Contents (Elt F)),
    unary main_arg9 main_v349 ((extractStridedSlice S1x1x128 ![2, 1, 0] · slices_S3x3x128_S1x1x128_2_1_0) : (⟨S3x3x128, .f32⟩ : BufTy).Contents (Elt F) → (⟨S1x1x128, .f32⟩ : BufTy).Contents (Elt F)),
    reshape main_v349 main_v350 rfl shapeCasts_S1x1x128_S128,
    unary main_v350 main_v351 (broadcastInDim S1x128 ![1] bcast_S128_S1x128_1 : (⟨S128, .f32⟩ : BufTy).Contents (Elt F) → (⟨S1x128, .f32⟩ : BufTy).Contents (Elt F)),
    unary main_v351 main_v352 (broadcastInDim S100000x128 ![0, 1] bcast_S1x128_S100000x128_0_1 : (⟨S1x128, .f32⟩ : BufTy).Contents (Elt F) → (⟨S100000x128, .f32⟩ : BufTy).Contents (Elt F)),
    binary main_v348 main_v352 main_v353 (addf : (⟨S100000x128, .f32⟩ : BufTy).Contents (Elt F) → (⟨S100000x128, .f32⟩ : BufTy).Contents (Elt F) → (⟨S100000x128, .f32⟩ : BufTy).Contents (Elt F)),
    unary main_arg10 main_v354 ((extractStridedSlice S1x1x128x128 ![2, 1, 0, 0] · slices_S3x3x128x128_S1x1x128x128_2_1_0_0) : (⟨S3x3x128x128, .f32⟩ : BufTy).Contents (Elt F) → (⟨S1x1x128x128, .f32⟩ : BufTy).Contents (Elt F)),
    reshape main_v354 main_v355 rfl shapeCasts_S1x1x128x128_S128x128,
    unary main_v355 main_v356 ((transpose S128x128 [1, 0] · transposes_S128x128_S128x128_1_0) : (⟨S128x128, .f32⟩ : BufTy).Contents (Elt F) → (⟨S128x128, .f32⟩ : BufTy).Contents (Elt F)),
    binary main_v269 main_v356 main_v357 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    binary main_v353 main_v357 main_v358 (addf : (⟨S100000x128, .f32⟩ : BufTy).Contents (Elt F) → (⟨S100000x128, .f32⟩ : BufTy).Contents (Elt F) → (⟨S100000x128, .f32⟩ : BufTy).Contents (Elt F)),
    unary main_arg3 main_v359 ((extractStridedSlice S1x800000 ![0, 0] · slices_S2x800000_S1x800000_0_0) : (⟨S2x800000, .i32⟩ : BufTy).Contents (Elt F) → (⟨S1x800000, .i32⟩ : BufTy).Contents (Elt F)),
    reshape main_v359 main_v360 rfl shapeCasts_S1x800000_S800000,
    unary main_arg3 main_v361 ((extractStridedSlice S1x800000 ![1, 0] · slices_S2x800000_S1x800000_1_0) : (⟨S2x800000, .i32⟩ : BufTy).Contents (Elt F) → (⟨S1x800000, .i32⟩ : BufTy).Contents (Elt F)),
    reshape main_v361 main_v362 rfl shapeCasts_S1x800000_S800000,
    nullary main_c_54 (constantI S_ 32 1#32) ]

/-- Layer 3, operations 109–161. -/
abbrev q7 : List (HloOp τ sig (Elt F)) :=
  [ unary main_c_54 main_v363 (broadcastInDim S800000 ![] bcast_S_S800000 : (⟨S_, .i32⟩ : BufTy).Contents (Elt F) → (⟨S800000, .i32⟩ : BufTy).Contents (Elt F)),
    binary main_arg7 main_v363 main_v364 (cmpi .sle : (⟨S800000, .i32⟩ : BufTy).Contents (Elt F) → (⟨S800000, .i32⟩ : BufTy).Contents (Elt F) → (⟨S800000, .i1⟩ : BufTy).Contents (Elt F)),
    unary main_v364 main_v365 (uitofp .f32 : (⟨S800000, .i1⟩ : BufTy).Contents (Elt F) → (⟨S800000, .f32⟩ : BufTy).Contents (Elt F)),
    nullary main_c_55 (constantI S_ 32 0#32),
    unary main_c_55 main_v366 (broadcastInDim S800000 ![] bcast_S_S800000 : (⟨S_, .i32⟩ : BufTy).Contents (Elt F) → (⟨S800000, .i32⟩ : BufTy).Contents (Elt F)),
    binary main_v360 main_v366 main_v367 (cmpi .slt : (⟨S800000, .i32⟩ : BufTy).Contents (Elt F) → (⟨S800000, .i32⟩ : BufTy).Contents (Elt F) → (⟨S800000, .i1⟩ : BufTy).Contents (Elt F)),
    nullary main_c_56 (constantI S_ 32 100000#32),
    unary main_c_56 main_v368 (broadcastInDim S800000 ![] bcast_S_S800000 : (⟨S_, .i32⟩ : BufTy).Contents (Elt F) → (⟨S800000, .i32⟩ : BufTy).Contents (Elt F)),
    binary main_v360 main_v368 main_v369 (addi : (⟨S800000, .i32⟩ : BufTy).Contents (Elt F) → (⟨S800000, .i32⟩ : BufTy).Contents (Elt F) → (⟨S800000, .i32⟩ : BufTy).Contents (Elt F)),
    ternary main_v367 main_v369 main_v360 main_v370 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v370 main_v371 (broadcastInDim S800000x1 ![0] bcast_S800000_S800000x1_0 : (⟨S800000, .i32⟩ : BufTy).Contents (Elt F) → (⟨S800000x1, .i32⟩ : BufTy).Contents (Elt F)),
    binary main_v269 main_v371 main_v372 ((fun x i => Host.gather gather_S100000x128_S800000x1_S800000x128_1_0_n_n_0_1_1128 x i) : (⟨S100000x128, .f32⟩ : BufTy).Contents (Elt F) → (⟨S800000x1, .i32⟩ : BufTy).Contents (Elt F) → (⟨S800000x128, .f32⟩ : BufTy).Contents (Elt F)),
    unary main_v365 main_v373 (broadcastInDim S800000x1 ![0] bcast_S800000_S800000x1_0 : (⟨S800000, .f32⟩ : BufTy).Contents (Elt F) → (⟨S800000x1, .f32⟩ : BufTy).Contents (Elt F)),
    unary main_v373 main_v374 (broadcastInDim S800000x128 ![0, 1] bcast_S800000x1_S800000x128_0_1 : (⟨S800000x1, .f32⟩ : BufTy).Contents (Elt F) → (⟨S800000x128, .f32⟩ : BufTy).Contents (Elt F)),
    binary main_v372 main_v374 main_v375 (mulf : (⟨S800000x128, .f32⟩ : BufTy).Contents (Elt F) → (⟨S800000x128, .f32⟩ : BufTy).Contents (Elt F) → (⟨S800000x128, .f32⟩ : BufTy).Contents (Elt F)),
    nullary main_cst_57 (constant S_ .f32 0x00000000#32),
    unary main_cst_57 main_v376 (broadcastInDim S100000x128 ![] bcast_S_S100000x128 : (⟨S_, .f32⟩ : BufTy).Contents (Elt F) → (⟨S100000x128, .f32⟩ : BufTy).Contents (Elt F)),
    unary main_v362 main_v377 (broadcastInDim S800000x1 ![0] bcast_S800000_S800000x1_0 : (⟨S800000, .i32⟩ : BufTy).Contents (Elt F) → (⟨S800000x1, .i32⟩ : BufTy).Contents (Elt F)),
    ternary main_v376 main_v377 main_v375 main_v378 ((fun x i u => Host.scatterAdd scatter_S100000x128_S800000x1_S800000x128_1_0_0_1 x i u) : (⟨S100000x128, .f32⟩ : BufTy).Contents (Elt F) → (⟨S800000x1, .i32⟩ : BufTy).Contents (Elt F) → (⟨S800000x128, .f32⟩ : BufTy).Contents (Elt F) → (⟨S100000x128, .f32⟩ : BufTy).Contents (Elt F)),
    nullary main_cst_58 (constant S_ .f32 0x00000000#32),
    unary main_cst_58 main_v379 (broadcastInDim S100000 ![] bcast_S_S100000 : (⟨S_, .f32⟩ : BufTy).Contents (Elt F) → (⟨S100000, .f32⟩ : BufTy).Contents (Elt F)),
    unary main_v362 main_v380 (broadcastInDim S800000x1 ![0] bcast_S800000_S800000x1_0 : (⟨S800000, .i32⟩ : BufTy).Contents (Elt F) → (⟨S800000x1, .i32⟩ : BufTy).Contents (Elt F)),
    ternary main_v379 main_v380 main_v365 main_v381 ((fun x i u => Host.scatterAdd scatter_S100000_S800000x1_S800000_n_0_0_1 x i u) : (⟨S100000, .f32⟩ : BufTy).Contents (Elt F) → (⟨S800000x1, .i32⟩ : BufTy).Contents (Elt F) → (⟨S800000, .f32⟩ : BufTy).Contents (Elt F) → (⟨S100000, .f32⟩ : BufTy).Contents (Elt F)),
    nullary main_cst_59 (constant S_ .f32 0x3F800000#32),
    unary main_cst_59 main_v382 (broadcastInDim S100000 ![] bcast_S_S100000 : (⟨S_, .f32⟩ : BufTy).Contents (Elt F) → (⟨S100000, .f32⟩ : BufTy).Contents (Elt F)),
    binary main_v381 main_v382 main_v383 (maximumf : (⟨S100000, .f32⟩ : BufTy).Contents (Elt F) → (⟨S100000, .f32⟩ : BufTy).Contents (Elt F) → (⟨S100000, .f32⟩ : BufTy).Contents (Elt F)),
    unary main_v383 main_v384 (broadcastInDim S100000x1 ![0] bcast_S100000_S100000x1_0 : (⟨S100000, .f32⟩ : BufTy).Contents (Elt F) → (⟨S100000x1, .f32⟩ : BufTy).Contents (Elt F)),
    unary main_v384 main_v385 (broadcastInDim S100000x128 ![0, 1] bcast_S100000x1_S100000x128_0_1 : (⟨S100000x1, .f32⟩ : BufTy).Contents (Elt F) → (⟨S100000x128, .f32⟩ : BufTy).Contents (Elt F)),
    binary main_v378 main_v385 main_v386 (Host.divf : (⟨S100000x128, .f32⟩ : BufTy).Contents (Elt F) → (⟨S100000x128, .f32⟩ : BufTy).Contents (Elt F) → (⟨S100000x128, .f32⟩ : BufTy).Contents (Elt F)),
    unary main_arg8 main_v387 ((extractStridedSlice S1x1x128x128 ![2, 2, 0, 0] · slices_S3x3x128x128_S1x1x128x128_2_2_0_0) : (⟨S3x3x128x128, .f32⟩ : BufTy).Contents (Elt F) → (⟨S1x1x128x128, .f32⟩ : BufTy).Contents (Elt F)),
    reshape main_v387 main_v388 rfl shapeCasts_S1x1x128x128_S128x128,
    unary main_v388 main_v389 ((transpose S128x128 [1, 0] · transposes_S128x128_S128x128_1_0) : (⟨S128x128, .f32⟩ : BufTy).Contents (Elt F) → (⟨S128x128, .f32⟩ : BufTy).Contents (Elt F)),
    binary main_v386 main_v389 main_v390 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    binary main_v358 main_v390 main_v391 (addf : (⟨S100000x128, .f32⟩ : BufTy).Contents (Elt F) → (⟨S100000x128, .f32⟩ : BufTy).Contents (Elt F) → (⟨S100000x128, .f32⟩ : BufTy).Contents (Elt F)),
    unary main_arg9 main_v392 ((extractStridedSlice S1x1x128 ![2, 2, 0] · slices_S3x3x128_S1x1x128_2_2_0) : (⟨S3x3x128, .f32⟩ : BufTy).Contents (Elt F) → (⟨S1x1x128, .f32⟩ : BufTy).Contents (Elt F)),
    reshape main_v392 main_v393 rfl shapeCasts_S1x1x128_S128,
    unary main_v393 main_v394 (broadcastInDim S1x128 ![1] bcast_S128_S1x128_1 : (⟨S128, .f32⟩ : BufTy).Contents (Elt F) → (⟨S1x128, .f32⟩ : BufTy).Contents (Elt F)),
    unary main_v394 main_v395 (broadcastInDim S100000x128 ![0, 1] bcast_S1x128_S100000x128_0_1 : (⟨S1x128, .f32⟩ : BufTy).Contents (Elt F) → (⟨S100000x128, .f32⟩ : BufTy).Contents (Elt F)),
    binary main_v391 main_v395 main_v396 (addf : (⟨S100000x128, .f32⟩ : BufTy).Contents (Elt F) → (⟨S100000x128, .f32⟩ : BufTy).Contents (Elt F) → (⟨S100000x128, .f32⟩ : BufTy).Contents (Elt F)),
    unary main_arg10 main_v397 ((extractStridedSlice S1x1x128x128 ![2, 2, 0, 0] · slices_S3x3x128x128_S1x1x128x128_2_2_0_0) : (⟨S3x3x128x128, .f32⟩ : BufTy).Contents (Elt F) → (⟨S1x1x128x128, .f32⟩ : BufTy).Contents (Elt F)),
    reshape main_v397 main_v398 rfl shapeCasts_S1x1x128x128_S128x128,
    unary main_v398 main_v399 ((transpose S128x128 [1, 0] · transposes_S128x128_S128x128_1_0) : (⟨S128x128, .f32⟩ : BufTy).Contents (Elt F) → (⟨S128x128, .f32⟩ : BufTy).Contents (Elt F)),
    binary main_v269 main_v399 main_v400 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    binary main_v396 main_v400 main_v401 (addf : (⟨S100000x128, .f32⟩ : BufTy).Contents (Elt F) → (⟨S100000x128, .f32⟩ : BufTy).Contents (Elt F) → (⟨S100000x128, .f32⟩ : BufTy).Contents (Elt F)),
    unary main_v271 main_v402 (broadcastInDim S100000x1 ![0] bcast_S100000_S100000x1_0 : (⟨S100000, .i1⟩ : BufTy).Contents (Elt F) → (⟨S100000x1, .i1⟩ : BufTy).Contents (Elt F)),
    TRef.nullary (TRef.of (T := ⟨S_, .f32⟩) main_call4_cst) (constant S_ .f32 0x00000000#32),
    TRef.unary (TRef.of (T := ⟨S_, .f32⟩) main_call4_cst) (TRef.of (T := ⟨S100000x128, .f32⟩) main_call4_v0) (broadcastInDim S100000x128 ![] bcast_S_S100000x128),
    TRef.binary (TRef.of (T := ⟨S100000x128, .f32⟩) main_v401) (TRef.of (T := ⟨S100000x128, .f32⟩) main_call4_v0) (TRef.of (T := ⟨S100000x128, .f32⟩) main_v403) maximumf,
    nullary main_cst_60 (constant S_ .f32 0x00000000#32),
    TRef.unary (TRef.of (T := ⟨S_, .f32⟩) main_cst_60) (TRef.of (T := ⟨S_, .f32⟩) main_call5_v0) id,
    TRef.unary (TRef.of (T := ⟨S100000x1, .i1⟩) main_v402) (TRef.of (T := ⟨S100000x128, .i1⟩) main_call5_v1) (broadcastInDim S100000x128 ![0, 1] bcast_S100000x1_S100000x128_0_1),
    TRef.unary (TRef.of (T := ⟨S_, .f32⟩) main_call5_v0) (TRef.of (T := ⟨S100000x128, .f32⟩) main_call5_v2) (broadcastInDim S100000x128 ![] bcast_S_S100000x128),
    TRef.ternary (TRef.of (T := ⟨S100000x128, .i1⟩) main_call5_v1) (TRef.of (T := ⟨S100000x128, .f32⟩) main_v403) (TRef.of (T := ⟨S100000x128, .f32⟩) main_call5_v2) (TRef.of (T := ⟨S100000x128, .f32⟩) main_v404) select ]

/-- The operations of each printed window of @main. -/
abbrev P0 : List (HloOp τ sig (Elt F)) := q0
abbrev P1 : List (HloOp τ sig (Elt F)) := q1
abbrev P2 : List (HloOp τ sig (Elt F)) := q2a ++ q2b
abbrev P3 : List (HloOp τ sig (Elt F)) := q3
abbrev P4 : List (HloOp τ sig (Elt F)) := q4
abbrev P5 : List (HloOp τ sig (Elt F)) := q5a ++ q5b
abbrev P6 : List (HloOp τ sig (Elt F)) := q6
abbrev P7 : List (HloOp τ sig (Elt F)) := q7

/-- @main's 483 operations, in order. -/
abbrev ops : List (HloOp τ sig (Elt F)) := P0 ++ (P1 ++ (P2 ++ (P3 ++ (P4 ++ (P5 ++ (P6 ++ P7))))))

set_option maxRecDepth 8192 in
theorem main_part0_eq (c : Dev nD) : main_part0 (F := F) c = seq P0 := rfl
set_option maxRecDepth 8192 in
theorem main_part1_eq (c : Dev nD) : main_part1 (F := F) c = seq P1 := rfl
set_option maxRecDepth 8192 in
theorem main_part2_eq (c : Dev nD) : main_part2 (F := F) c = seq P2 := rfl
set_option maxRecDepth 8192 in
theorem main_part3_eq (c : Dev nD) : main_part3 (F := F) c = seq P3 := rfl
set_option maxRecDepth 8192 in
theorem main_part4_eq (c : Dev nD) : main_part4 (F := F) c = seq P4 := rfl
set_option maxRecDepth 8192 in
theorem main_part5_eq (c : Dev nD) : main_part5 (F := F) c = seq P5 := rfl
set_option maxRecDepth 8192 in
theorem main_part6_eq (c : Dev nD) : main_part6 (F := F) c = seq P6 := rfl
set_option maxRecDepth 8192 in
theorem main_part7_eq (c : Dev nD) : main_part7 (F := F) c = seq P7 := rfl

/-- @main is the operations run in order: window by window, joined by the concatenation of runs. -/
theorem main_eq (c : Dev nD) : main (F := F) c = seq ops := by
  simp only [ops, seq_append, ← main_part0_eq c, ← main_part1_eq c, ← main_part2_eq c, ← main_part3_eq c, ← main_part4_eq c, ← main_part5_eq c, ← main_part6_eq c, ← main_part7_eq c]
  rfl
theorem scopedRefs_eq : (Finset.univ.filter fun b : Ref sig .tc => b.isScoped) = ∅ := by decide
theorem scopedSems_eq : (Finset.univ.filter fun sm : SemLoc sig => sm.isScoped .tc) = ∅ := by decide

theorem q0_sub : (q0 : List (HloOp τ sig (Elt F))).Forall fun op => op.bufs ⊆ tcRefs τ sig :=
  ⟨nullary_bufs_sub .., unary_bufs_sub .., binary_bufs_sub .., nullary_bufs_sub .., unary_bufs_sub .., unary_bufs_sub .., reshape_bufs_sub .., unary_bufs_sub .., reshape_bufs_sub .., nullary_bufs_sub .., unary_bufs_sub .., binary_bufs_sub .., unary_bufs_sub .., nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., nullary_bufs_sub .., unary_bufs_sub .., unary_bufs_sub .., ternary_bufs_sub .., nullary_bufs_sub .., unary_bufs_sub .., unary_bufs_sub .., ternary_bufs_sub .., nullary_bufs_sub .., unary_bufs_sub .., binary_bufs_sub .., unary_bufs_sub .., unary_bufs_sub .., binary_bufs_sub .., unary_bufs_sub .., reshape_bufs_sub .., unary_bufs_sub .., binary_bufs_sub .., binary_bufs_sub .., unary_bufs_sub .., reshape_bufs_sub .., unary_bufs_sub .., unary_bufs_sub .., binary_bufs_sub .., unary_bufs_sub .., reshape_bufs_sub .., unary_bufs_sub .., binary_bufs_sub .., binary_bufs_sub .., unary_bufs_sub .., reshape_bufs_sub .., unary_bufs_sub .., reshape_bufs_sub .., nullary_bufs_sub .., unary_bufs_sub ..⟩
theorem q1_sub : (q1 : List (HloOp τ sig (Elt F))).Forall fun op => op.bufs ⊆ tcRefs τ sig :=
  ⟨binary_bufs_sub .., unary_bufs_sub .., nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., nullary_bufs_sub .., unary_bufs_sub .., unary_bufs_sub .., ternary_bufs_sub .., nullary_bufs_sub .., unary_bufs_sub .., unary_bufs_sub .., ternary_bufs_sub .., nullary_bufs_sub .., unary_bufs_sub .., binary_bufs_sub .., unary_bufs_sub .., unary_bufs_sub .., binary_bufs_sub .., unary_bufs_sub .., reshape_bufs_sub .., unary_bufs_sub .., binary_bufs_sub .., binary_bufs_sub .., unary_bufs_sub .., reshape_bufs_sub .., unary_bufs_sub .., unary_bufs_sub .., binary_bufs_sub .., unary_bufs_sub .., reshape_bufs_sub .., unary_bufs_sub .., binary_bufs_sub .., binary_bufs_sub .., unary_bufs_sub .., reshape_bufs_sub .., unary_bufs_sub .., reshape_bufs_sub .., nullary_bufs_sub .., unary_bufs_sub .., binary_bufs_sub .., unary_bufs_sub .., nullary_bufs_sub .., unary_bufs_sub .., binary_bufs_sub .., nullary_bufs_sub .., unary_bufs_sub .., binary_bufs_sub .., ternary_bufs_sub .., unary_bufs_sub .., binary_bufs_sub ..⟩
theorem q2a_sub : (q2a : List (HloOp τ sig (Elt F))).Forall fun op => op.bufs ⊆ tcRefs τ sig :=
  ⟨unary_bufs_sub .., unary_bufs_sub .., binary_bufs_sub .., nullary_bufs_sub .., unary_bufs_sub .., unary_bufs_sub .., ternary_bufs_sub .., nullary_bufs_sub .., unary_bufs_sub .., unary_bufs_sub .., ternary_bufs_sub .., nullary_bufs_sub .., unary_bufs_sub .., binary_bufs_sub .., unary_bufs_sub .., unary_bufs_sub .., binary_bufs_sub .., unary_bufs_sub .., reshape_bufs_sub .., unary_bufs_sub .., binary_bufs_sub .., binary_bufs_sub .., unary_bufs_sub .., reshape_bufs_sub .., unary_bufs_sub .., unary_bufs_sub .., binary_bufs_sub .., unary_bufs_sub .., reshape_bufs_sub .., unary_bufs_sub .., binary_bufs_sub .., binary_bufs_sub .., unary_bufs_sub .., nullary_bufs_sub .., unary_bufs_sub .., binary_bufs_sub .., nullary_bufs_sub .., unary_bufs_sub .., unary_bufs_sub .., unary_bufs_sub .., ternary_bufs_sub ..⟩
theorem q2b_sub : (q2b : List (HloOp τ sig (Elt F))).Forall fun op => op.bufs ⊆ tcRefs τ sig :=
  ⟨nullary_bufs_sub .., unary_bufs_sub .., binary_bufs_sub .., nullary_bufs_sub .., unary_bufs_sub .., unary_bufs_sub .., reshape_bufs_sub .., unary_bufs_sub .., reshape_bufs_sub .., nullary_bufs_sub .., unary_bufs_sub .., binary_bufs_sub .., unary_bufs_sub .., nullary_bufs_sub .., unary_bufs_sub .., binary_bufs_sub .., nullary_bufs_sub .., unary_bufs_sub .., binary_bufs_sub .., ternary_bufs_sub .., unary_bufs_sub .., binary_bufs_sub .., unary_bufs_sub .., unary_bufs_sub ..⟩
theorem q3_sub : (q3 : List (HloOp τ sig (Elt F))).Forall fun op => op.bufs ⊆ tcRefs τ sig :=
  ⟨binary_bufs_sub .., nullary_bufs_sub .., unary_bufs_sub .., unary_bufs_sub .., ternary_bufs_sub .., nullary_bufs_sub .., unary_bufs_sub .., unary_bufs_sub .., ternary_bufs_sub .., nullary_bufs_sub .., unary_bufs_sub .., binary_bufs_sub .., unary_bufs_sub .., unary_bufs_sub .., binary_bufs_sub .., unary_bufs_sub .., reshape_bufs_sub .., unary_bufs_sub .., binary_bufs_sub .., binary_bufs_sub .., unary_bufs_sub .., reshape_bufs_sub .., unary_bufs_sub .., unary_bufs_sub .., binary_bufs_sub .., unary_bufs_sub .., reshape_bufs_sub .., unary_bufs_sub .., binary_bufs_sub .., binary_bufs_sub .., unary_bufs_sub .., reshape_bufs_sub .., unary_bufs_sub .., reshape_bufs_sub .., nullary_bufs_sub .., unary_bufs_sub .., binary_bufs_sub .., unary_bufs_sub .., nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., nullary_bufs_sub .., unary_bufs_sub .., unary_bufs_sub .., ternary_bufs_sub .., nullary_bufs_sub .., unary_bufs_sub .., unary_bufs_sub .., ternary_bufs_sub .., nullary_bufs_sub .., unary_bufs_sub ..⟩
theorem q4_sub : (q4 : List (HloOp τ sig (Elt F))).Forall fun op => op.bufs ⊆ tcRefs τ sig :=
  ⟨binary_bufs_sub .., unary_bufs_sub .., unary_bufs_sub .., binary_bufs_sub .., unary_bufs_sub .., reshape_bufs_sub .., unary_bufs_sub .., binary_bufs_sub .., binary_bufs_sub .., unary_bufs_sub .., reshape_bufs_sub .., unary_bufs_sub .., unary_bufs_sub .., binary_bufs_sub .., unary_bufs_sub .., reshape_bufs_sub .., unary_bufs_sub .., binary_bufs_sub .., binary_bufs_sub .., unary_bufs_sub .., reshape_bufs_sub .., unary_bufs_sub .., reshape_bufs_sub .., nullary_bufs_sub .., unary_bufs_sub .., binary_bufs_sub .., unary_bufs_sub .., nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., nullary_bufs_sub .., unary_bufs_sub .., unary_bufs_sub .., ternary_bufs_sub .., nullary_bufs_sub .., unary_bufs_sub .., unary_bufs_sub .., ternary_bufs_sub .., nullary_bufs_sub .., unary_bufs_sub .., binary_bufs_sub .., unary_bufs_sub .., unary_bufs_sub .., binary_bufs_sub .., unary_bufs_sub .., reshape_bufs_sub .., unary_bufs_sub .., binary_bufs_sub .., binary_bufs_sub .., unary_bufs_sub .., reshape_bufs_sub ..⟩
theorem q5a_sub : (q5a : List (HloOp τ sig (Elt F))).Forall fun op => op.bufs ⊆ tcRefs τ sig :=
  ⟨unary_bufs_sub .., unary_bufs_sub .., binary_bufs_sub .., unary_bufs_sub .., reshape_bufs_sub .., unary_bufs_sub .., binary_bufs_sub .., binary_bufs_sub .., unary_bufs_sub .., nullary_bufs_sub .., unary_bufs_sub .., binary_bufs_sub .., nullary_bufs_sub .., unary_bufs_sub .., unary_bufs_sub .., unary_bufs_sub .., ternary_bufs_sub ..⟩
theorem q5b_sub : (q5b : List (HloOp τ sig (Elt F))).Forall fun op => op.bufs ⊆ tcRefs τ sig :=
  ⟨nullary_bufs_sub .., unary_bufs_sub .., binary_bufs_sub .., nullary_bufs_sub .., unary_bufs_sub .., unary_bufs_sub .., reshape_bufs_sub .., unary_bufs_sub .., reshape_bufs_sub .., nullary_bufs_sub .., unary_bufs_sub .., binary_bufs_sub .., unary_bufs_sub .., nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., nullary_bufs_sub .., unary_bufs_sub .., unary_bufs_sub .., ternary_bufs_sub .., nullary_bufs_sub .., unary_bufs_sub .., unary_bufs_sub .., ternary_bufs_sub .., nullary_bufs_sub .., unary_bufs_sub .., binary_bufs_sub .., unary_bufs_sub .., unary_bufs_sub .., binary_bufs_sub .., unary_bufs_sub .., reshape_bufs_sub .., unary_bufs_sub .., binary_bufs_sub .., binary_bufs_sub .., unary_bufs_sub .., reshape_bufs_sub .., unary_bufs_sub .., unary_bufs_sub ..⟩
theorem q6_sub : (q6 : List (HloOp τ sig (Elt F))).Forall fun op => op.bufs ⊆ tcRefs τ sig :=
  ⟨binary_bufs_sub .., unary_bufs_sub .., reshape_bufs_sub .., unary_bufs_sub .., binary_bufs_sub .., binary_bufs_sub .., unary_bufs_sub .., reshape_bufs_sub .., unary_bufs_sub .., reshape_bufs_sub .., nullary_bufs_sub .., unary_bufs_sub .., binary_bufs_sub .., unary_bufs_sub .., nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., nullary_bufs_sub .., unary_bufs_sub .., unary_bufs_sub .., ternary_bufs_sub .., nullary_bufs_sub .., unary_bufs_sub .., unary_bufs_sub .., ternary_bufs_sub .., nullary_bufs_sub .., unary_bufs_sub .., binary_bufs_sub .., unary_bufs_sub .., unary_bufs_sub .., binary_bufs_sub .., unary_bufs_sub .., reshape_bufs_sub .., unary_bufs_sub .., binary_bufs_sub .., binary_bufs_sub .., unary_bufs_sub .., reshape_bufs_sub .., unary_bufs_sub .., unary_bufs_sub .., binary_bufs_sub .., unary_bufs_sub .., reshape_bufs_sub .., unary_bufs_sub .., binary_bufs_sub .., binary_bufs_sub .., unary_bufs_sub .., reshape_bufs_sub .., unary_bufs_sub .., reshape_bufs_sub .., nullary_bufs_sub ..⟩
theorem q7_sub : (q7 : List (HloOp τ sig (Elt F))).Forall fun op => op.bufs ⊆ tcRefs τ sig :=
  ⟨unary_bufs_sub .., binary_bufs_sub .., unary_bufs_sub .., nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., nullary_bufs_sub .., unary_bufs_sub .., unary_bufs_sub .., ternary_bufs_sub .., nullary_bufs_sub .., unary_bufs_sub .., unary_bufs_sub .., ternary_bufs_sub .., nullary_bufs_sub .., unary_bufs_sub .., binary_bufs_sub .., unary_bufs_sub .., unary_bufs_sub .., binary_bufs_sub .., unary_bufs_sub .., reshape_bufs_sub .., unary_bufs_sub .., binary_bufs_sub .., binary_bufs_sub .., unary_bufs_sub .., reshape_bufs_sub .., unary_bufs_sub .., unary_bufs_sub .., binary_bufs_sub .., unary_bufs_sub .., reshape_bufs_sub .., unary_bufs_sub .., binary_bufs_sub .., binary_bufs_sub .., unary_bufs_sub .., nullary_bufs_sub .., unary_bufs_sub .., binary_bufs_sub .., nullary_bufs_sub .., unary_bufs_sub .., unary_bufs_sub .., unary_bufs_sub .., ternary_bufs_sub ..⟩

/-- Every operation touches TensorCore references only. -/
theorem ops_sub : (ops : List (HloOp τ sig (Elt F))).Forall fun op => op.bufs ⊆ tcRefs τ sig :=
  List.forall_iff_forall_mem.mpr fun op h => by
    simp only [ops, P0, P1, P2, P3, P4, P5, P6, P7, List.mem_append] at h
    rcases h with h | h | (h | h) | h | h | (h | h) | h | h
    exacts [List.forall_iff_forall_mem.mp q0_sub op h, List.forall_iff_forall_mem.mp q1_sub op h, List.forall_iff_forall_mem.mp q2a_sub op h, List.forall_iff_forall_mem.mp q2b_sub op h, List.forall_iff_forall_mem.mp q3_sub op h, List.forall_iff_forall_mem.mp q4_sub op h, List.forall_iff_forall_mem.mp q5a_sub op h, List.forall_iff_forall_mem.mp q5b_sub op h, List.forall_iff_forall_mem.mp q6_sub op h, List.forall_iff_forall_mem.mp q7_sub op h]

/-- No operation allocates a buffer. -/
theorem ops_fresh : ∀ op ∈ (ops : List (HloOp τ sig (Elt F))), op.fresh = ∅ := by
  intro op h
  simp only [ops, P0, P1, P2, P3, P4, P5, P6, P7, List.mem_append] at h
  rcases h with h | h | (h | h) | h | h | (h | h) | h | h <;>
    ((repeat (cases h with | head => rfl | tail _ h => ?_)); exact nomatch h)

/-- The run: every weakly fair execution of @main terminates, nothing faulting, and every buffer `b` of device `c`
    ends at what the operations leave in it from the launch contents. -/
theorem run (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (Proc.devRef .tc b) :=
  run_seq scopedRefs_eq scopedSems_eq defs main (fun _ => ops) main_eq (fun _ => ops_sub) m ρ (fun _ => ops_fresh)

end Cert.Sage.RefRun

end
-- ==== Proof.RefValue.lean ====
/-
  The reference's result as the composition of its three layers. Each layer's stretch of operations, read back
  from the contents it starts from, writes the layer's stage function (the generated one-operation-at-a-time reading
  of the program) of the eleven arguments, given that the previous layer's output buffer holds the previous stage
  and the argument buffers hold the arguments; no stretch writes an argument. Chained through the three layers:
  the result buffer ends at the last stage of the launch contents of the arguments.
-/
import proofs.«176633_j7954279432525_1_alg».proof.Proof.RefRun
import proofs.«176633_j7954279432525_1_alg».proof.Proof.RefRead

noncomputable section

namespace Cert.Sage.RefValue

open Cert.ReferenceIdeal Cert.ReferenceIdeal.Gen Cert.ReferenceIdeal.ReadP Cert.Sage.RefRun
open Idealize.ShloMosaic Idealize.ShloMosaic.TcCoe Idealize.SL.Sem Idealize.ShloMosaic.StableHlo

variable {F : FTy → Type} [FloatOps F]

/-- Two stretches in a row. -/
theorem after_app : ∀ (l₁ l₂ : List (HloOp τ sig (Elt F))) (V : Valuation τ sig (Elt F)),
    after (l₁ ++ l₂) V = after l₂ (after l₁ V)
  | [], _, _ => rfl
  | op :: l₁, l₂, V => by rw [List.cons_append, after_cons, after_cons, after_app l₁ l₂]

/-! ## No stretch writes an argument -/

theorem keep1_arg0 (V : Valuation τ sig (Elt F)) : after q2a (after q1 (after q0 V)) (Proc.devRef .tc main_arg0) = V (Proc.devRef .tc main_arg0) := by
  simp only [q0, q1, q2a]
  after_results_simp
theorem keep1_arg1 (V : Valuation τ sig (Elt F)) : after q2a (after q1 (after q0 V)) (Proc.devRef .tc main_arg1) = V (Proc.devRef .tc main_arg1) := by
  simp only [q0, q1, q2a]
  after_results_simp
theorem keep1_arg2 (V : Valuation τ sig (Elt F)) : after q2a (after q1 (after q0 V)) (Proc.devRef .tc main_arg2) = V (Proc.devRef .tc main_arg2) := by
  simp only [q0, q1, q2a]
  after_results_simp
theorem keep1_arg3 (V : Valuation τ sig (Elt F)) : after q2a (after q1 (after q0 V)) (Proc.devRef .tc main_arg3) = V (Proc.devRef .tc main_arg3) := by
  simp only [q0, q1, q2a]
  after_results_simp
theorem keep1_arg4 (V : Valuation τ sig (Elt F)) : after q2a (after q1 (after q0 V)) (Proc.devRef .tc main_arg4) = V (Proc.devRef .tc main_arg4) := by
  simp only [q0, q1, q2a]
  after_results_simp
theorem keep1_arg5 (V : Valuation τ sig (Elt F)) : after q2a (after q1 (after q0 V)) (Proc.devRef .tc main_arg5) = V (Proc.devRef .tc main_arg5) := by
  simp only [q0, q1, q2a]
  after_results_simp
theorem keep1_arg6 (V : Valuation τ sig (Elt F)) : after q2a (after q1 (after q0 V)) (Proc.devRef .tc main_arg6) = V (Proc.devRef .tc main_arg6) := by
  simp only [q0, q1, q2a]
  after_results_simp
theorem keep1_arg7 (V : Valuation τ sig (Elt F)) : after q2a (after q1 (after q0 V)) (Proc.devRef .tc main_arg7) = V (Proc.devRef .tc main_arg7) := by
  simp only [q0, q1, q2a]
  after_results_simp
theorem keep1_arg8 (V : Valuation τ sig (Elt F)) : after q2a (after q1 (after q0 V)) (Proc.devRef .tc main_arg8) = V (Proc.devRef .tc main_arg8) := by
  simp only [q0, q1, q2a]
  after_results_simp
theorem keep1_arg9 (V : Valuation τ sig (Elt F)) : after q2a (after q1 (after q0 V)) (Proc.devRef .tc main_arg9) = V (Proc.devRef .tc main_arg9) := by
  simp only [q0, q1, q2a]
  after_results_simp
theorem keep1_arg10 (V : Valuation τ sig (Elt F)) : after q2a (after q1 (after q0 V)) (Proc.devRef .tc main_arg10) = V (Proc.devRef .tc main_arg10) := by
  simp only [q0, q1, q2a]
  after_results_simp
theorem keep2_arg0 (V : Valuation τ sig (Elt F)) : after q5a (after q4 (after q3 (after q2b V))) (Proc.devRef .tc main_arg0) = V (Proc.devRef .tc main_arg0) := by
  simp only [q2b, q3, q4, q5a]
  after_results_simp
theorem keep2_arg1 (V : Valuation τ sig (Elt F)) : after q5a (after q4 (after q3 (after q2b V))) (Proc.devRef .tc main_arg1) = V (Proc.devRef .tc main_arg1) := by
  simp only [q2b, q3, q4, q5a]
  after_results_simp
theorem keep2_arg2 (V : Valuation τ sig (Elt F)) : after q5a (after q4 (after q3 (after q2b V))) (Proc.devRef .tc main_arg2) = V (Proc.devRef .tc main_arg2) := by
  simp only [q2b, q3, q4, q5a]
  after_results_simp
theorem keep2_arg3 (V : Valuation τ sig (Elt F)) : after q5a (after q4 (after q3 (after q2b V))) (Proc.devRef .tc main_arg3) = V (Proc.devRef .tc main_arg3) := by
  simp only [q2b, q3, q4, q5a]
  after_results_simp
theorem keep2_arg4 (V : Valuation τ sig (Elt F)) : after q5a (after q4 (after q3 (after q2b V))) (Proc.devRef .tc main_arg4) = V (Proc.devRef .tc main_arg4) := by
  simp only [q2b, q3, q4, q5a]
  after_results_simp
theorem keep2_arg5 (V : Valuation τ sig (Elt F)) : after q5a (after q4 (after q3 (after q2b V))) (Proc.devRef .tc main_arg5) = V (Proc.devRef .tc main_arg5) := by
  simp only [q2b, q3, q4, q5a]
  after_results_simp
theorem keep2_arg6 (V : Valuation τ sig (Elt F)) : after q5a (after q4 (after q3 (after q2b V))) (Proc.devRef .tc main_arg6) = V (Proc.devRef .tc main_arg6) := by
  simp only [q2b, q3, q4, q5a]
  after_results_simp
theorem keep2_arg7 (V : Valuation τ sig (Elt F)) : after q5a (after q4 (after q3 (after q2b V))) (Proc.devRef .tc main_arg7) = V (Proc.devRef .tc main_arg7) := by
  simp only [q2b, q3, q4, q5a]
  after_results_simp
theorem keep2_arg8 (V : Valuation τ sig (Elt F)) : after q5a (after q4 (after q3 (after q2b V))) (Proc.devRef .tc main_arg8) = V (Proc.devRef .tc main_arg8) := by
  simp only [q2b, q3, q4, q5a]
  after_results_simp
theorem keep2_arg9 (V : Valuation τ sig (Elt F)) : after q5a (after q4 (after q3 (after q2b V))) (Proc.devRef .tc main_arg9) = V (Proc.devRef .tc main_arg9) := by
  simp only [q2b, q3, q4, q5a]
  after_results_simp
theorem keep2_arg10 (V : Valuation τ sig (Elt F)) : after q5a (after q4 (after q3 (after q2b V))) (Proc.devRef .tc main_arg10) = V (Proc.devRef .tc main_arg10) := by
  simp only [q2b, q3, q4, q5a]
  after_results_simp
theorem keep3_arg0 (V : Valuation τ sig (Elt F)) : after q7 (after q6 (after q5b V)) (Proc.devRef .tc main_arg0) = V (Proc.devRef .tc main_arg0) := by
  simp only [q5b, q6, q7]
  after_results_simp
theorem keep3_arg1 (V : Valuation τ sig (Elt F)) : after q7 (after q6 (after q5b V)) (Proc.devRef .tc main_arg1) = V (Proc.devRef .tc main_arg1) := by
  simp only [q5b, q6, q7]
  after_results_simp
theorem keep3_arg2 (V : Valuation τ sig (Elt F)) : after q7 (after q6 (after q5b V)) (Proc.devRef .tc main_arg2) = V (Proc.devRef .tc main_arg2) := by
  simp only [q5b, q6, q7]
  after_results_simp
theorem keep3_arg3 (V : Valuation τ sig (Elt F)) : after q7 (after q6 (after q5b V)) (Proc.devRef .tc main_arg3) = V (Proc.devRef .tc main_arg3) := by
  simp only [q5b, q6, q7]
  after_results_simp
theorem keep3_arg4 (V : Valuation τ sig (Elt F)) : after q7 (after q6 (after q5b V)) (Proc.devRef .tc main_arg4) = V (Proc.devRef .tc main_arg4) := by
  simp only [q5b, q6, q7]
  after_results_simp
theorem keep3_arg5 (V : Valuation τ sig (Elt F)) : after q7 (after q6 (after q5b V)) (Proc.devRef .tc main_arg5) = V (Proc.devRef .tc main_arg5) := by
  simp only [q5b, q6, q7]
  after_results_simp
theorem keep3_arg6 (V : Valuation τ sig (Elt F)) : after q7 (after q6 (after q5b V)) (Proc.devRef .tc main_arg6) = V (Proc.devRef .tc main_arg6) := by
  simp only [q5b, q6, q7]
  after_results_simp
theorem keep3_arg7 (V : Valuation τ sig (Elt F)) : after q7 (after q6 (after q5b V)) (Proc.devRef .tc main_arg7) = V (Proc.devRef .tc main_arg7) := by
  simp only [q5b, q6, q7]
  after_results_simp
theorem keep3_arg8 (V : Valuation τ sig (Elt F)) : after q7 (after q6 (after q5b V)) (Proc.devRef .tc main_arg8) = V (Proc.devRef .tc main_arg8) := by
  simp only [q5b, q6, q7]
  after_results_simp
theorem keep3_arg9 (V : Valuation τ sig (Elt F)) : after q7 (after q6 (after q5b V)) (Proc.devRef .tc main_arg9) = V (Proc.devRef .tc main_arg9) := by
  simp only [q5b, q6, q7]
  after_results_simp
theorem keep3_arg10 (V : Valuation τ sig (Elt F)) : after q7 (after q6 (after q5b V)) (Proc.devRef .tc main_arg10) = V (Proc.devRef .tc main_arg10) := by
  simp only [q5b, q6, q7]
  after_results_simp

/-! ## The three layers -/

set_option maxHeartbeats 64400000 in
set_option maxRecDepth 8192 in
/-- Layer 1 from the arguments. -/
theorem layer1_out (V : Valuation τ sig (Elt F)) :
    after q2a (after q1 (after q0 V)) (Proc.devRef .tc main_v134)
      = val_main_v134 (F := F) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) := by
  simp only [q0, q1, q2a]
  after_results_simp
  rfl

set_option maxHeartbeats 64400000 in
set_option maxRecDepth 8192 in
/-- Layer 2 from layer 1's output and the arguments. -/
theorem layer2_out (V : Valuation τ sig (Elt F)) (x0 : (⟨S100000x128, .f32⟩ : BufTy).Contents (Elt F)) (x1 x2 x3 : (⟨S2x800000, .i32⟩ : BufTy).Contents (Elt F)) (x4 : (⟨S100000, .i32⟩ : BufTy).Contents (Elt F)) (x5 x6 x7 : (⟨S800000, .i32⟩ : BufTy).Contents (Elt F)) (x8 : (⟨S3x3x128x128, .f32⟩ : BufTy).Contents (Elt F)) (x9 : (⟨S3x3x128, .f32⟩ : BufTy).Contents (Elt F)) (x10 : (⟨S3x3x128x128, .f32⟩ : BufTy).Contents (Elt F))
    (hh : V (Proc.devRef .tc main_v134) = val_main_v134 (F := F) x0 x1 x2 x3 x4 x5 x6 x7 x8 x9 x10) (h1 : V (Proc.devRef .tc main_arg1) = x1) (h2 : V (Proc.devRef .tc main_arg2) = x2) (h3 : V (Proc.devRef .tc main_arg3) = x3) (h4 : V (Proc.devRef .tc main_arg4) = x4) (h5 : V (Proc.devRef .tc main_arg5) = x5) (h6 : V (Proc.devRef .tc main_arg6) = x6) (h7 : V (Proc.devRef .tc main_arg7) = x7) (h8 : V (Proc.devRef .tc main_arg8) = x8) (h9 : V (Proc.devRef .tc main_arg9) = x9) (h10 : V (Proc.devRef .tc main_arg10) = x10) :
    after q5a (after q4 (after q3 (after q2b V))) (Proc.devRef .tc main_v269) = val_main_v269 (F := F) x0 x1 x2 x3 x4 x5 x6 x7 x8 x9 x10 := by
  simp only [q2b, q3, q4, q5a]
  after_results_simp
  rw [hh, h1, h2, h3, h4, h5, h6, h7, h8, h9, h10]
  rfl

set_option maxHeartbeats 64400000 in
set_option maxRecDepth 8192 in
/-- Layer 3 from layer 2's output and the arguments. -/
theorem layer3_out (V : Valuation τ sig (Elt F)) (x0 : (⟨S100000x128, .f32⟩ : BufTy).Contents (Elt F)) (x1 x2 x3 : (⟨S2x800000, .i32⟩ : BufTy).Contents (Elt F)) (x4 : (⟨S100000, .i32⟩ : BufTy).Contents (Elt F)) (x5 x6 x7 : (⟨S800000, .i32⟩ : BufTy).Contents (Elt F)) (x8 : (⟨S3x3x128x128, .f32⟩ : BufTy).Contents (Elt F)) (x9 : (⟨S3x3x128, .f32⟩ : BufTy).Contents (Elt F)) (x10 : (⟨S3x3x128x128, .f32⟩ : BufTy).Contents (Elt F))
    (hh : V (Proc.devRef .tc main_v269) = val_main_v269 (F := F) x0 x1 x2 x3 x4 x5 x6 x7 x8 x9 x10) (h1 : V (Proc.devRef .tc main_arg1) = x1) (h2 : V (Proc.devRef .tc main_arg2) = x2) (h3 : V (Proc.devRef .tc main_arg3) = x3) (h4 : V (Proc.devRef .tc main_arg4) = x4) (h5 : V (Proc.devRef .tc main_arg5) = x5) (h6 : V (Proc.devRef .tc main_arg6) = x6) (h7 : V (Proc.devRef .tc main_arg7) = x7) (h8 : V (Proc.devRef .tc main_arg8) = x8) (h9 : V (Proc.devRef .tc main_arg9) = x9) (h10 : V (Proc.devRef .tc main_arg10) = x10) :
    after q7 (after q6 (after q5b V)) (Proc.devRef .tc main_v404) = val_main_v404 (F := F) x0 x1 x2 x3 x4 x5 x6 x7 x8 x9 x10 := by
  simp only [q5b, q6, q7]
  after_results_simp
  rw [hh, h1, h2, h3, h4, h5, h6, h7, h8, h9, h10]
  rfl

/-! ## The whole program -/

/-- The operations, regrouped by layer. -/
theorem after_ops (V : Valuation τ sig (Elt F)) :
    after ops V = after q7 (after q6 (after q5b (after q5a (after q4 (after q3 (after q2b (after q2a (after q1 (after q0 V))))))))) := by
  simp only [ops, P0, P1, P2, P3, P4, P5, P6, P7, after_app]

/-- The result buffer after the whole program: the last stage of the arguments. -/
theorem result_eq (V : Valuation τ sig (Elt F)) :
    after ops V (Proc.devRef .tc main_v404)
      = val_main_v404 (F := F) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) := by
  rw [after_ops]
  refine layer3_out _ _ _ _ _ _ _ _ _ _ _ _ ?_ ((keep2_arg1 _).trans (keep1_arg1 V)) ((keep2_arg2 _).trans (keep1_arg2 V)) ((keep2_arg3 _).trans (keep1_arg3 V)) ((keep2_arg4 _).trans (keep1_arg4 V)) ((keep2_arg5 _).trans (keep1_arg5 V)) ((keep2_arg6 _).trans (keep1_arg6 V)) ((keep2_arg7 _).trans (keep1_arg7 V)) ((keep2_arg8 _).trans (keep1_arg8 V)) ((keep2_arg9 _).trans (keep1_arg9 V)) ((keep2_arg10 _).trans (keep1_arg10 V))
  exact layer2_out _ _ _ _ _ _ _ _ _ _ _ _ (layer1_out V) (keep1_arg1 V) (keep1_arg2 V) (keep1_arg3 V) (keep1_arg4 V) (keep1_arg5 V) (keep1_arg6 V) (keep1_arg7 V) (keep1_arg8 V) (keep1_arg9 V) (keep1_arg10 V)

/-- An argument buffer after the whole program is as launched. -/
theorem kept_arg0 (V : Valuation τ sig (Elt F)) : after ops V (Proc.devRef .tc main_arg0) = V (Proc.devRef .tc main_arg0) := by
  rw [after_ops]
  exact (keep3_arg0 _).trans ((keep2_arg0 _).trans (keep1_arg0 V))
theorem kept_arg1 (V : Valuation τ sig (Elt F)) : after ops V (Proc.devRef .tc main_arg1) = V (Proc.devRef .tc main_arg1) := by
  rw [after_ops]
  exact (keep3_arg1 _).trans ((keep2_arg1 _).trans (keep1_arg1 V))
theorem kept_arg2 (V : Valuation τ sig (Elt F)) : after ops V (Proc.devRef .tc main_arg2) = V (Proc.devRef .tc main_arg2) := by
  rw [after_ops]
  exact (keep3_arg2 _).trans ((keep2_arg2 _).trans (keep1_arg2 V))
theorem kept_arg3 (V : Valuation τ sig (Elt F)) : after ops V (Proc.devRef .tc main_arg3) = V (Proc.devRef .tc main_arg3) := by
  rw [after_ops]
  exact (keep3_arg3 _).trans ((keep2_arg3 _).trans (keep1_arg3 V))
theorem kept_arg4 (V : Valuation τ sig (Elt F)) : after ops V (Proc.devRef .tc main_arg4) = V (Proc.devRef .tc main_arg4) := by
  rw [after_ops]
  exact (keep3_arg4 _).trans ((keep2_arg4 _).trans (keep1_arg4 V))
theorem kept_arg5 (V : Valuation τ sig (Elt F)) : after ops V (Proc.devRef .tc main_arg5) = V (Proc.devRef .tc main_arg5) := by
  rw [after_ops]
  exact (keep3_arg5 _).trans ((keep2_arg5 _).trans (keep1_arg5 V))
theorem kept_arg6 (V : Valuation τ sig (Elt F)) : after ops V (Proc.devRef .tc main_arg6) = V (Proc.devRef .tc main_arg6) := by
  rw [after_ops]
  exact (keep3_arg6 _).trans ((keep2_arg6 _).trans (keep1_arg6 V))
theorem kept_arg7 (V : Valuation τ sig (Elt F)) : after ops V (Proc.devRef .tc main_arg7) = V (Proc.devRef .tc main_arg7) := by
  rw [after_ops]
  exact (keep3_arg7 _).trans ((keep2_arg7 _).trans (keep1_arg7 V))
theorem kept_arg8 (V : Valuation τ sig (Elt F)) : after ops V (Proc.devRef .tc main_arg8) = V (Proc.devRef .tc main_arg8) := by
  rw [after_ops]
  exact (keep3_arg8 _).trans ((keep2_arg8 _).trans (keep1_arg8 V))
theorem kept_arg9 (V : Valuation τ sig (Elt F)) : after ops V (Proc.devRef .tc main_arg9) = V (Proc.devRef .tc main_arg9) := by
  rw [after_ops]
  exact (keep3_arg9 _).trans ((keep2_arg9 _).trans (keep1_arg9 V))
theorem kept_arg10 (V : Valuation τ sig (Elt F)) : after ops V (Proc.devRef .tc main_arg10) = V (Proc.devRef .tc main_arg10) := by
  rw [after_ops]
  exact (keep3_arg10 _).trans ((keep2_arg10 _).trans (keep1_arg10 V))

/-- THE RUN, READ: every weakly fair execution of the reference terminates with its result at the last stage of
    the arguments' launch contents and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v404) = val_main_v404 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10) :=
  (θ_run defs _ _).mono (fun _ h c => ⟨(h c main_v404).trans (result_eq (launchContents m c)),
      (h c main_arg0).trans (kept_arg0 (launchContents m c)),
      (h c main_arg1).trans (kept_arg1 (launchContents m c)),
      (h c main_arg2).trans (kept_arg2 (launchContents m c)),
      (h c main_arg3).trans (kept_arg3 (launchContents m c)),
      (h c main_arg4).trans (kept_arg4 (launchContents m c)),
      (h c main_arg5).trans (kept_arg5 (launchContents m c)),
      (h c main_arg6).trans (kept_arg6 (launchContents m c)),
      (h c main_arg7).trans (kept_arg7 (launchContents m c)),
      (h c main_arg8).trans (kept_arg8 (launchContents m c)),
      (h c main_arg9).trans (kept_arg9 (launchContents m c)),
      (h c main_arg10).trans (kept_arg10 (launchContents m c))⟩)
    (RefRun.run m ρ)

end Cert.Sage.RefValue

end
-- ==== Proof.RDefs.lean ====
/-
  The host-side pieces of a layer, in the program's own operations: one relation's neighbour mean of the
  node features (gather the source rows, keep the edges whose hop is within the layer, scatter-add them and
  their count onto the destination nodes, divide by the count floored at one), the node-validity bits and
  their 0/1 column, and the per-layer slices of the weights and the bias.
-/
import proofs.«176633_j7954279432525_1_alg».proof.ReferenceIdeal

noncomputable section

namespace Cert.Sage.R

open Idealize.ShloMosaic Cert.ReferenceIdeal Cert.ReferenceIdeal.Facts₀ Cert.ReferenceIdeal.Facts

variable [Cert.ReferenceIdeal.Facts] {F : FTy → Type} [FloatOps F]

/-- Row `r` of an edge list `[2, E]` as a vector `[E]` (row 0: sources, row 1: destinations). -/
def srcRow (ei : IVec S2x800000 32) : IVec S800000 32 :=
  shapeCast _ (extractStridedSlice S1x800000 ![0, 0] ei slices_S2x800000_S1x800000_0_0) shapeCasts_S1x800000_S800000
def dstRow (ei : IVec S2x800000 32) : IVec S800000 32 :=
  shapeCast _ (extractStridedSlice S1x800000 ![1, 0] ei slices_S2x800000_S1x800000_1_0) shapeCasts_S1x800000_S800000

/-- 1.0 on the edges whose hop is at most `lay`, 0.0 on the others. -/
def edgeValid (lay : BitVec 32) (em : IVec S800000 32) : FVec F S800000 .f32 :=
  uitofp .f32 (cmpi .sle em (broadcastInDim S800000 ![] bcast_S_S800000 (constantI S_ 32 lay)))

/-- A source index with a negative value wrapped by the node count. -/
def wrapIdx (src : IVec S800000 32) : IVec S800000 32 :=
  select (cmpi .slt src (broadcastInDim S800000 ![] bcast_S_S800000 (constantI S_ 32 0#32)))
    (addi src (broadcastInDim S800000 ![] bcast_S_S800000 (constantI S_ 32 100000#32))) src

/-- One relation's mean of the neighbours' features over the kept edges. -/
def mean (lay : BitVec 32) (h : FVec F S100000x128 .f32) (ei : IVec S2x800000 32) (em : IVec S800000 32) : FVec F S100000x128 .f32 :=
  Host.divf
    (Host.scatterAdd scatter_S100000x128_S800000x1_S800000x128_1_0_0_1
      (broadcastInDim S100000x128 ![] bcast_S_S100000x128 (constant S_ .f32 0x00000000#32))
      (broadcastInDim S800000x1 ![0] bcast_S800000_S800000x1_0 (dstRow ei))
      (mulf (Host.gather gather_S100000x128_S800000x1_S800000x128_1_0_n_n_0_1_1128 h
              (broadcastInDim S800000x1 ![0] bcast_S800000_S800000x1_0 (wrapIdx (srcRow ei))))
            (broadcastInDim S800000x128 ![0, 1] bcast_S800000x1_S800000x128_0_1
              (broadcastInDim S800000x1 ![0] bcast_S800000_S800000x1_0 (edgeValid (F := F) lay em)))))
    (broadcastInDim S100000x128 ![0, 1] bcast_S100000x1_S100000x128_0_1
      (broadcastInDim S100000x1 ![0] bcast_S100000_S100000x1_0
        (maximumf
          (Host.scatterAdd scatter_S100000_S800000x1_S800000_n_0_0_1
            (broadcastInDim S100000 ![] bcast_S_S100000 (constant S_ .f32 0x00000000#32))
            (broadcastInDim S800000x1 ![0] bcast_S800000_S800000x1_0 (dstRow ei))
            (edgeValid (F := F) lay em))
          (broadcastInDim S100000 ![] bcast_S_S100000 (constant S_ .f32 0x3F800000#32)))))

/-- The node-validity bits of a layer: hop at most `lay`. -/
def nodeValid (lay : BitVec 32) (nm : IVec S100000 32) : IVec S100000 1 :=
  cmpi .sle nm (broadcastInDim S100000 ![] bcast_S_S100000 (constantI S_ 32 lay))

end Cert.Sage.R

end
-- ==== Proof.RefStages.lean ====
/-
  The reference's three layers, entry by entry on the extended reals: each layer of the reference program,
  read at a node and an output feature, is the layer of the specification at the relations' neighbour means
  of the features entering it, the weight tensors and the bias, with the validity bits of its hop bound.
-/
import proofs.«176633_j7954279432525_1_alg».proof.Proof.RefRead
import proofs.«176633_j7954279432525_1_alg».proof.Proof.Spec
import proofs.«176633_j7954279432525_1_alg».proof.Proof.RDefs
import Idealize.ShloMosaic.Lib.Pipeline.Value
import Idealize.ShloMosaic.Lib.ValueIdx
import Idealize.ShloMosaic.Lib.ValueLayout
import Idealize.ShloMosaic.PureOps.Ideal.Laws

noncomputable section

namespace Cert.Sage.RStages

open Idealize.ShloMosaic Idealize.ShloMosaic.ValueIdx Cert.ReferenceIdeal Cert.ReferenceIdeal.ReadP Cert.Sage
open Cert.ReferenceIdeal.Gen Idealize.ShloMosaic.StableHlo

/-! ## The operations of a layer read at an index -/

/-- On the extended reals the sum and the maximum of two floats are the sum and the maximum. -/
theorem addf_eq (a b : EReal) : FloatOps.addf (F := Ideal) (φ := .f32) a b = a + b := rfl
theorem maximumf_eq (a b : EReal) : FloatOps.maximumf (F := Ideal) (φ := .f32) a b = max a b := rfl
/-- A selection by a bit. -/
theorem select_eq {α : Type} (c : BitVec 1) (a b : α) : Scalar.select c a b = if c = 1#1 then a else b := rfl

/-- The reference adds a relation's bias before its second product, the specification after: the same sum. -/
theorem reorder (A0 B0 H0 A1 B1 H1 A2 B2 H2 : EReal) :
    A0 + B0 + H0 + A1 + B1 + H1 + A2 + B2 + H2 = A0 + H0 + B0 + A1 + H1 + B1 + A2 + H2 + B2 := by
  rw [add_right_comm A0 B0 H0, add_right_comm (A0 + H0 + B0 + A1) B1 H1,
    add_right_comm (A0 + H0 + B0 + A1 + H1 + B1 + A2) B2 H2]

/-- The zero constant broadcast to the node-by-feature shape is 0 everywhere. -/
theorem zeros_read (j : S100000x128.Idx) :
    broadcastInDim S100000x128 ![] bcast_S_S100000x128 (constant (F := Ideal) S_ .f32 0x00000000#32) j = 0 :=
  (broadcastInDim_apply _ bcast_S_S100000x128 _ j (fun a => a.elim0) (fun a => a.elim0)).trans Ideal.ofBits_zero_f32

/-- A vector of per-node bits broadcast to a column and then across the features reads the node's bit. -/
theorem bits_read (v : IVec S100000 1) (n : Fin 100000) (d : Fin 128) :
    broadcastInDim S100000x128 ![0, 1] bcast_S100000x1_S100000x128_0_1
      (broadcastInDim S100000x1 ![0] bcast_S100000_S100000x1_0 v) (ix2 n d) = v (ix1 n) := by
  refine (broadcastInDim_apply _ bcast_S100000x1_S100000x128_0_1 _ (ix2 n d) (ix2 n (0 : Fin 1)) (fun a => match a with
    | ⟨0, _⟩ => by show n.val = if (100000 : Nat) = 1 then 0 else n.val; rw [if_neg (by decide)]
    | ⟨1, _⟩ => by show 0 = if (1 : Nat) = 1 then 0 else d.val; rw [if_pos rfl])).trans ?_
  exact broadcastInDim_apply _ bcast_S100000_S100000x1_0 v (ix2 n (0 : Fin 1)) (ix1 n) (fun a => match a with
    | ⟨0, _⟩ => by show n.val = if (100000 : Nat) = 1 then 0 else n.val; rw [if_neg (by decide)])

/-- The host's product of a node-by-feature array with a square matrix, at a node and an output feature. -/
theorem dot_read (A : FVec Ideal S100000x128 .f32) (Wt : FVec Ideal S128x128 .f32) (n : Fin 100000) (d : Fin 128) :
    Host.dotGeneral dot_S100000x128_S128x128_S100000x128_1_0_0_1_n_n none A Wt (ix2 n d) = ∑ k : Fin 128, A (ix2 n k) * Wt (ix2 k d) := by
  simp only [Host.dotGeneral]
  rw [Ideal.dotGeneral_apply, ← Equiv.sum_comp (ValueIdx.contrEquiv1 dot_S100000x128_S128x128_S100000x128_1_0_0_1_n_n 128 rfl rfl).symm]
  refine Finset.sum_congr rfl fun k _ => ?_
  have hk := ValueIdx.contrEquiv1_symm_val dot_S100000x128_S128x128_S100000x128_1_0_0_1_n_n 128 rfl rfl k
  have el : dot_S100000x128_S128x128_S100000x128_1_0_0_1_n_n.lhsIdx (ix2 n d) ((ValueIdx.contrEquiv1 dot_S100000x128_S128x128_S100000x128_1_0_0_1_n_n 128 rfl rfl).symm k) = ix2 n k := funext fun a => Fin.ext (by
    match a with
    | ⟨0, _⟩ => exact lhs_main_v34_0 _ _
    | ⟨1, _⟩ => exact (lhs_main_v34_1 _ _).trans hk)
  have er : dot_S100000x128_S128x128_S100000x128_1_0_0_1_n_n.rhsIdx (ix2 n d) ((ValueIdx.contrEquiv1 dot_S100000x128_S128x128_S100000x128_1_0_0_1_n_n 128 rfl rfl).symm k) = ix2 k d := funext fun a => Fin.ext (by
    match a with
    | ⟨0, _⟩ => exact (rhs_main_v34_0 _ _).trans hk
    | ⟨1, _⟩ => exact rhs_main_v34_1 _ _)
  rw [el, er]

/-- The product with the transposed (layer `i`, relation `t`) slice of a weight tensor is the specification's sum. -/
theorem dotW_read (A : FVec Ideal S100000x128 .f32) (W : FVec Ideal S3x3x128x128 .f32) (oi ot : Nat)
    (h : S3x3x128x128.Slices ![oi, ot, 0, 0] S1x1x128x128) (i t : Fin 3) (hi : i.val = oi) (ht : t.val = ot)
    (n : Fin 100000) (d : Fin 128) :
    Host.dotGeneral dot_S100000x128_S128x128_S100000x128_1_0_0_1_n_n none A
      (transpose S128x128 [1, 0] (shapeCast S128x128 (extractStridedSlice S1x1x128x128 ![oi, ot, 0, 0] W h)
        shapeCasts_S1x1x128x128_S128x128) transposes_S128x128_S128x128_1_0) (ix2 n d) = dotT A W i t n d := by
  rw [dot_read]
  unfold dotT
  refine Finset.sum_congr rfl fun k _ => ?_
  congr 1
  refine (transpose_ix2_apply _ transposes_S128x128_S128x128_1_0 k d).trans ?_
  refine (shapeCast_apply _ shapeCasts_S1x1x128x128_S128x128 (ix2 d k) (ix4 (0 : Fin 1) (0 : Fin 1) d k) (by
    rw [Shape.rowMajor_val_four, Shape.rowMajor_val_two]
    show ((0 * 1 + 0) * 128 + d.val) * 128 + k.val = d.val * 128 + k.val
    omega)).trans ?_
  exact extractStridedSlice_apply ![oi, ot, 0, 0] W h (ix4 (0 : Fin 1) (0 : Fin 1) d k) (ix4 i t d k) (fun a => match a with
    | ⟨0, _⟩ => by show i.val = oi + 0; omega
    | ⟨1, _⟩ => by show t.val = ot + 0; omega
    | ⟨2, _⟩ => by show d.val = 0 + d.val; omega
    | ⟨3, _⟩ => by show k.val = 0 + k.val; omega)

/-- The (layer `i`, relation `t`) row of the bias broadcast over the nodes reads the bias at the feature. -/
theorem bias_read (B : FVec Ideal S3x3x128 .f32) (oi ot : Nat) (h : S3x3x128.Slices ![oi, ot, 0] S1x1x128)
    (i t : Fin 3) (hi : i.val = oi) (ht : t.val = ot) (n : Fin 100000) (d : Fin 128) :
    broadcastInDim S100000x128 ![0, 1] bcast_S1x128_S100000x128_0_1
      (broadcastInDim S1x128 ![1] bcast_S128_S1x128_1
        (shapeCast S128 (extractStridedSlice S1x1x128 ![oi, ot, 0] B h) shapeCasts_S1x1x128_S128)) (ix2 n d)
      = B (ix3 i t d) := by
  refine (broadcastInDim_apply _ bcast_S1x128_S100000x128_0_1 _ (ix2 n d) (ix2 (0 : Fin 1) d) (fun a => match a with
    | ⟨0, _⟩ => by show 0 = if (1 : Nat) = 1 then 0 else n.val; rw [if_pos rfl]
    | ⟨1, _⟩ => by show d.val = if (128 : Nat) = 1 then 0 else d.val; rw [if_neg (by decide)])).trans ?_
  refine (broadcastInDim_apply _ bcast_S128_S1x128_1 _ (ix2 (0 : Fin 1) d) (ix1 d) (fun a => match a with
    | ⟨0, _⟩ => by show d.val = if (128 : Nat) = 1 then 0 else d.val; rw [if_neg (by decide)])).trans ?_
  refine (shapeCast_apply _ shapeCasts_S1x1x128_S128 (ix1 d) (ix3 (0 : Fin 1) (0 : Fin 1) d) (by
    rw [Shape.rowMajor_val_three, Shape.rowMajor_val_one]
    show (0 * 1 + 0) * 128 + d.val = d.val
    omega)).trans ?_
  exact extractStridedSlice_apply ![oi, ot, 0] B h (ix3 (0 : Fin 1) (0 : Fin 1) d) (ix3 i t d) (fun a => match a with
    | ⟨0, _⟩ => by show i.val = oi + 0; omega
    | ⟨1, _⟩ => by show t.val = ot + 0; omega
    | ⟨2, _⟩ => by show d.val = 0 + d.val; omega)

/-! ## Layer 1 (hop bound 3) -/

/-- The first layer's validity bits and its three neighbour means are the named ones. -/
theorem nv1 (x4 : (⟨S100000, .i32⟩ : BufTy).Contents (Elt Ideal)) : val_main_v1 (F := Ideal) x4 = R.nodeValid 3#32 x4 := rfl
theorem mean1_0 (x0 : (⟨S100000x128, .f32⟩ : BufTy).Contents (Elt Ideal)) (x1 x2 x3 : (⟨S2x800000, .i32⟩ : BufTy).Contents (Elt Ideal)) (x4 : (⟨S100000, .i32⟩ : BufTy).Contents (Elt Ideal)) (x5 x6 x7 : (⟨S800000, .i32⟩ : BufTy).Contents (Elt Ideal)) (x8 : (⟨S3x3x128x128, .f32⟩ : BufTy).Contents (Elt Ideal)) (x9 : (⟨S3x3x128, .f32⟩ : BufTy).Contents (Elt Ideal)) (x10 : (⟨S3x3x128x128, .f32⟩ : BufTy).Contents (Elt Ideal)) :
    val_main_v30 (F := Ideal) x0 x1 x5 = R.mean (F := Ideal) 3#32 x0 x1 x5 := rfl
theorem mean1_1 (x0 : (⟨S100000x128, .f32⟩ : BufTy).Contents (Elt Ideal)) (x1 x2 x3 : (⟨S2x800000, .i32⟩ : BufTy).Contents (Elt Ideal)) (x4 : (⟨S100000, .i32⟩ : BufTy).Contents (Elt Ideal)) (x5 x6 x7 : (⟨S800000, .i32⟩ : BufTy).Contents (Elt Ideal)) (x8 : (⟨S3x3x128x128, .f32⟩ : BufTy).Contents (Elt Ideal)) (x9 : (⟨S3x3x128, .f32⟩ : BufTy).Contents (Elt Ideal)) (x10 : (⟨S3x3x128x128, .f32⟩ : BufTy).Contents (Elt Ideal)) :
    val_main_v73 (F := Ideal) x0 x2 x6 = R.mean (F := Ideal) 3#32 x0 x2 x6 := rfl
theorem mean1_2 (x0 : (⟨S100000x128, .f32⟩ : BufTy).Contents (Elt Ideal)) (x1 x2 x3 : (⟨S2x800000, .i32⟩ : BufTy).Contents (Elt Ideal)) (x4 : (⟨S100000, .i32⟩ : BufTy).Contents (Elt Ideal)) (x5 x6 x7 : (⟨S800000, .i32⟩ : BufTy).Contents (Elt Ideal)) (x8 : (⟨S3x3x128x128, .f32⟩ : BufTy).Contents (Elt Ideal)) (x9 : (⟨S3x3x128, .f32⟩ : BufTy).Contents (Elt Ideal)) (x10 : (⟨S3x3x128x128, .f32⟩ : BufTy).Contents (Elt Ideal)) :
    val_main_v116 (F := Ideal) x0 x3 x7 = R.mean (F := Ideal) 3#32 x0 x3 x7 := rfl

/-- The first layer's pre-activation at a node and a feature is the specification's. -/
theorem acc1 (x0 : (⟨S100000x128, .f32⟩ : BufTy).Contents (Elt Ideal)) (x1 x2 x3 : (⟨S2x800000, .i32⟩ : BufTy).Contents (Elt Ideal)) (x4 : (⟨S100000, .i32⟩ : BufTy).Contents (Elt Ideal)) (x5 x6 x7 : (⟨S800000, .i32⟩ : BufTy).Contents (Elt Ideal)) (x8 : (⟨S3x3x128x128, .f32⟩ : BufTy).Contents (Elt Ideal)) (x9 : (⟨S3x3x128, .f32⟩ : BufTy).Contents (Elt Ideal)) (x10 : (⟨S3x3x128x128, .f32⟩ : BufTy).Contents (Elt Ideal)) (n : Fin 100000) (d : Fin 128) :
    val_main_v131 (F := Ideal) x0 x1 x2 x3 x5 x6 x7 x8 x9 x10 (ix2 n d) = accSpec 0 x0 (R.mean (F := Ideal) 3#32 x0 x1 x5) (R.mean (F := Ideal) 3#32 x0 x2 x6) (R.mean (F := Ideal) 3#32 x0 x3 x7) x8 x9 x10 n d := by
  have hz : val_main_v2 (F := Ideal) (ix2 n d) = 0 := by
    unfold val_main_v2 val_main_cst
    exact zeros_read _
  have hl0 : val_main_v34 (F := Ideal) x0 x1 x5 x8 (ix2 n d) = dotT (R.mean (F := Ideal) 3#32 x0 x1 x5) x8 0 0 n d := by
    unfold val_main_v34 val_main_v33 val_main_v32 val_main_v31
    rw [mean1_0 x0 x1 x2 x3 x4 x5 x6 x7 x8 x9 x10]
    exact dotW_read _ x8 0 0 _ 0 0 rfl rfl n d
  have hb0 : val_main_v39 (F := Ideal) x9 (ix2 n d) = x9 (ix3 0 0 d) := by
    unfold val_main_v39 val_main_v38 val_main_v37 val_main_v36
    exact bias_read x9 0 0 _ 0 0 rfl rfl n d
  have hr0 : val_main_v44 (F := Ideal) x0 x10 (ix2 n d) = dotT x0 x10 0 0 n d := by
    unfold val_main_v44 val_main_v43 val_main_v42 val_main_v41
    exact dotW_read _ x10 0 0 _ 0 0 rfl rfl n d
  have hl1 : val_main_v77 (F := Ideal) x0 x2 x6 x8 (ix2 n d) = dotT (R.mean (F := Ideal) 3#32 x0 x2 x6) x8 0 1 n d := by
    unfold val_main_v77 val_main_v76 val_main_v75 val_main_v74
    rw [mean1_1 x0 x1 x2 x3 x4 x5 x6 x7 x8 x9 x10]
    exact dotW_read _ x8 0 1 _ 0 1 rfl rfl n d
  have hb1 : val_main_v82 (F := Ideal) x9 (ix2 n d) = x9 (ix3 0 1 d) := by
    unfold val_main_v82 val_main_v81 val_main_v80 val_main_v79
    exact bias_read x9 0 1 _ 0 1 rfl rfl n d
  have hr1 : val_main_v87 (F := Ideal) x0 x10 (ix2 n d) = dotT x0 x10 0 1 n d := by
    unfold val_main_v87 val_main_v86 val_main_v85 val_main_v84
    exact dotW_read _ x10 0 1 _ 0 1 rfl rfl n d
  have hl2 : val_main_v120 (F := Ideal) x0 x3 x7 x8 (ix2 n d) = dotT (R.mean (F := Ideal) 3#32 x0 x3 x7) x8 0 2 n d := by
    unfold val_main_v120 val_main_v119 val_main_v118 val_main_v117
    rw [mean1_2 x0 x1 x2 x3 x4 x5 x6 x7 x8 x9 x10]
    exact dotW_read _ x8 0 2 _ 0 2 rfl rfl n d
  have hb2 : val_main_v125 (F := Ideal) x9 (ix2 n d) = x9 (ix3 0 2 d) := by
    unfold val_main_v125 val_main_v124 val_main_v123 val_main_v122
    exact bias_read x9 0 2 _ 0 2 rfl rfl n d
  have hr2 : val_main_v130 (F := Ideal) x0 x10 (ix2 n d) = dotT x0 x10 0 2 n d := by
    unfold val_main_v130 val_main_v129 val_main_v128 val_main_v127
    exact dotW_read _ x10 0 2 _ 0 2 rfl rfl n d
  rw [val_main_v131_apply, val_main_v126_apply, val_main_v121_apply, val_main_v88_apply, val_main_v83_apply, val_main_v78_apply, val_main_v45_apply, val_main_v40_apply, val_main_v35_apply]
  rw [hz, hl0, hb0, hr0, hl1, hb1, hr1, hl2, hb2, hr2]
  repeat rw [addf_eq]
  rw [zero_add]
  unfold accSpec
  exact reorder _ _ _ _ _ _ _ _ _

/-- The first layer of the reference is the specification's layer 0. -/
theorem layer1 (x0 : (⟨S100000x128, .f32⟩ : BufTy).Contents (Elt Ideal)) (x1 x2 x3 : (⟨S2x800000, .i32⟩ : BufTy).Contents (Elt Ideal)) (x4 : (⟨S100000, .i32⟩ : BufTy).Contents (Elt Ideal)) (x5 x6 x7 : (⟨S800000, .i32⟩ : BufTy).Contents (Elt Ideal)) (x8 : (⟨S3x3x128x128, .f32⟩ : BufTy).Contents (Elt Ideal)) (x9 : (⟨S3x3x128, .f32⟩ : BufTy).Contents (Elt Ideal)) (x10 : (⟨S3x3x128x128, .f32⟩ : BufTy).Contents (Elt Ideal)) :
    val_main_v134 (F := Ideal) x0 x1 x2 x3 x4 x5 x6 x7 x8 x9 x10
      = layerSpec 0 (R.nodeValid 3#32 x4) x0 (R.mean (F := Ideal) 3#32 x0 x1 x5) (R.mean (F := Ideal) 3#32 x0 x2 x6) (R.mean (F := Ideal) 3#32 x0 x3 x7) x8 x9 x10 := by
  funext j
  obtain ⟨n, d, rfl⟩ : ∃ (n : Fin 100000) (d : Fin 128), j = ix2 n d := ⟨j 0, j 1, eq_ix2 j⟩
  have hz0 : val_main_call0_v0 (F := Ideal) (ix2 n d) = 0 := by
    unfold val_main_call0_v0 val_main_call0_cst
    exact zeros_read _
  have hz1 : val_main_call1_v2 (F := Ideal) (ix2 n d) = 0 := by
    unfold val_main_call1_v2 val_main_call1_v0 val_main_cst_18
    exact zeros_read _
  have hnv : val_main_call1_v1 (F := Ideal) x4 (ix2 n d) = R.nodeValid 3#32 x4 (ix1 n) := by
    unfold val_main_call1_v1 val_main_v132
    rw [nv1]
    exact bits_read _ n d
  rw [layerSpec_apply, val_main_v134_apply, val_main_v133_apply, acc1 x0 x1 x2 x3 x4 x5 x6 x7 x8 x9 x10 n d, hz0, hz1, hnv, select_eq, maximumf_eq]
  rfl

/-! ## Layer 2 (hop bound 2) -/

/-- The second layer's validity bits and its three neighbour means are the named ones. -/
theorem nv2 (x4 : (⟨S100000, .i32⟩ : BufTy).Contents (Elt Ideal)) : val_main_v136 (F := Ideal) x4 = R.nodeValid 2#32 x4 := rfl
theorem mean2_0 (x0 : (⟨S100000x128, .f32⟩ : BufTy).Contents (Elt Ideal)) (x1 x2 x3 : (⟨S2x800000, .i32⟩ : BufTy).Contents (Elt Ideal)) (x4 : (⟨S100000, .i32⟩ : BufTy).Contents (Elt Ideal)) (x5 x6 x7 : (⟨S800000, .i32⟩ : BufTy).Contents (Elt Ideal)) (x8 : (⟨S3x3x128x128, .f32⟩ : BufTy).Contents (Elt Ideal)) (x9 : (⟨S3x3x128, .f32⟩ : BufTy).Contents (Elt Ideal)) (x10 : (⟨S3x3x128x128, .f32⟩ : BufTy).Contents (Elt Ideal)) :
    val_main_v165 (F := Ideal) x0 x1 x2 x3 x4 x5 x6 x7 x8 x9 x10 = R.mean (F := Ideal) 2#32 (val_main_v134 (F := Ideal) x0 x1 x2 x3 x4 x5 x6 x7 x8 x9 x10) x1 x5 := rfl
theorem mean2_1 (x0 : (⟨S100000x128, .f32⟩ : BufTy).Contents (Elt Ideal)) (x1 x2 x3 : (⟨S2x800000, .i32⟩ : BufTy).Contents (Elt Ideal)) (x4 : (⟨S100000, .i32⟩ : BufTy).Contents (Elt Ideal)) (x5 x6 x7 : (⟨S800000, .i32⟩ : BufTy).Contents (Elt Ideal)) (x8 : (⟨S3x3x128x128, .f32⟩ : BufTy).Contents (Elt Ideal)) (x9 : (⟨S3x3x128, .f32⟩ : BufTy).Contents (Elt Ideal)) (x10 : (⟨S3x3x128x128, .f32⟩ : BufTy).Contents (Elt Ideal)) :
    val_main_v208 (F := Ideal) x0 x1 x2 x3 x4 x5 x6 x7 x8 x9 x10 = R.mean (F := Ideal) 2#32 (val_main_v134 (F := Ideal) x0 x1 x2 x3 x4 x5 x6 x7 x8 x9 x10) x2 x6 := rfl
theorem mean2_2 (x0 : (⟨S100000x128, .f32⟩ : BufTy).Contents (Elt Ideal)) (x1 x2 x3 : (⟨S2x800000, .i32⟩ : BufTy).Contents (Elt Ideal)) (x4 : (⟨S100000, .i32⟩ : BufTy).Contents (Elt Ideal)) (x5 x6 x7 : (⟨S800000, .i32⟩ : BufTy).Contents (Elt Ideal)) (x8 : (⟨S3x3x128x128, .f32⟩ : BufTy).Contents (Elt Ideal)) (x9 : (⟨S3x3x128, .f32⟩ : BufTy).Contents (Elt Ideal)) (x10 : (⟨S3x3x128x128, .f32⟩ : BufTy).Contents (Elt Ideal)) :
    val_main_v251 (F := Ideal) x0 x1 x2 x3 x4 x5 x6 x7 x8 x9 x10 = R.mean (F := Ideal) 2#32 (val_main_v134 (F := Ideal) x0 x1 x2 x3 x4 x5 x6 x7 x8 x9 x10) x3 x7 := rfl

/-- The second layer's pre-activation at a node and a feature is the specification's. -/
theorem acc2 (x0 : (⟨S100000x128, .f32⟩ : BufTy).Contents (Elt Ideal)) (x1 x2 x3 : (⟨S2x800000, .i32⟩ : BufTy).Contents (Elt Ideal)) (x4 : (⟨S100000, .i32⟩ : BufTy).Contents (Elt Ideal)) (x5 x6 x7 : (⟨S800000, .i32⟩ : BufTy).Contents (Elt Ideal)) (x8 : (⟨S3x3x128x128, .f32⟩ : BufTy).Contents (Elt Ideal)) (x9 : (⟨S3x3x128, .f32⟩ : BufTy).Contents (Elt Ideal)) (x10 : (⟨S3x3x128x128, .f32⟩ : BufTy).Contents (Elt Ideal)) (n : Fin 100000) (d : Fin 128) :
    val_main_v266 (F := Ideal) x0 x1 x2 x3 x4 x5 x6 x7 x8 x9 x10 (ix2 n d) = accSpec 1 (val_main_v134 (F := Ideal) x0 x1 x2 x3 x4 x5 x6 x7 x8 x9 x10) (R.mean (F := Ideal) 2#32 (val_main_v134 (F := Ideal) x0 x1 x2 x3 x4 x5 x6 x7 x8 x9 x10) x1 x5) (R.mean (F := Ideal) 2#32 (val_main_v134 (F := Ideal) x0 x1 x2 x3 x4 x5 x6 x7 x8 x9 x10) x2 x6) (R.mean (F := Ideal) 2#32 (val_main_v134 (F := Ideal) x0 x1 x2 x3 x4 x5 x6 x7 x8 x9 x10) x3 x7) x8 x9 x10 n d := by
  have hz : val_main_v137 (F := Ideal) (ix2 n d) = 0 := by
    unfold val_main_v137 val_main_cst_20
    exact zeros_read _
  have hl0 : val_main_v169 (F := Ideal) x0 x1 x2 x3 x4 x5 x6 x7 x8 x9 x10 (ix2 n d) = dotT (R.mean (F := Ideal) 2#32 (val_main_v134 (F := Ideal) x0 x1 x2 x3 x4 x5 x6 x7 x8 x9 x10) x1 x5) x8 1 0 n d := by
    unfold val_main_v169 val_main_v168 val_main_v167 val_main_v166
    rw [mean2_0 x0 x1 x2 x3 x4 x5 x6 x7 x8 x9 x10]
    exact dotW_read _ x8 1 0 _ 1 0 rfl rfl n d
  have hb0 : val_main_v174 (F := Ideal) x9 (ix2 n d) = x9 (ix3 1 0 d) := by
    unfold val_main_v174 val_main_v173 val_main_v172 val_main_v171
    exact bias_read x9 1 0 _ 1 0 rfl rfl n d
  have hr0 : val_main_v179 (F := Ideal) x0 x1 x2 x3 x4 x5 x6 x7 x8 x9 x10 (ix2 n d) = dotT (val_main_v134 (F := Ideal) x0 x1 x2 x3 x4 x5 x6 x7 x8 x9 x10) x10 1 0 n d := by
    unfold val_main_v179 val_main_v178 val_main_v177 val_main_v176
    exact dotW_read _ x10 1 0 _ 1 0 rfl rfl n d
  have hl1 : val_main_v212 (F := Ideal) x0 x1 x2 x3 x4 x5 x6 x7 x8 x9 x10 (ix2 n d) = dotT (R.mean (F := Ideal) 2#32 (val_main_v134 (F := Ideal) x0 x1 x2 x3 x4 x5 x6 x7 x8 x9 x10) x2 x6) x8 1 1 n d := by
    unfold val_main_v212 val_main_v211 val_main_v210 val_main_v209
    rw [mean2_1 x0 x1 x2 x3 x4 x5 x6 x7 x8 x9 x10]
    exact dotW_read _ x8 1 1 _ 1 1 rfl rfl n d
  have hb1 : val_main_v217 (F := Ideal) x9 (ix2 n d) = x9 (ix3 1 1 d) := by
    unfold val_main_v217 val_main_v216 val_main_v215 val_main_v214
    exact bias_read x9 1 1 _ 1 1 rfl rfl n d
  have hr1 : val_main_v222 (F := Ideal) x0 x1 x2 x3 x4 x5 x6 x7 x8 x9 x10 (ix2 n d) = dotT (val_main_v134 (F := Ideal) x0 x1 x2 x3 x4 x5 x6 x7 x8 x9 x10) x10 1 1 n d := by
    unfold val_main_v222 val_main_v221 val_main_v220 val_main_v219
    exact dotW_read _ x10 1 1 _ 1 1 rfl rfl n d
  have hl2 : val_main_v255 (F := Ideal) x0 x1 x2 x3 x4 x5 x6 x7 x8 x9 x10 (ix2 n d) = dotT (R.mean (F := Ideal) 2#32 (val_main_v134 (F := Ideal) x0 x1 x2 x3 x4 x5 x6 x7 x8 x9 x10) x3 x7) x8 1 2 n d := by
    unfold val_main_v255 val_main_v254 val_main_v253 val_main_v252
    rw [mean2_2 x0 x1 x2 x3 x4 x5 x6 x7 x8 x9 x10]
    exact dotW_read _ x8 1 2 _ 1 2 rfl rfl n d
  have hb2 : val_main_v260 (F := Ideal) x9 (ix2 n d) = x9 (ix3 1 2 d) := by
    unfold val_main_v260 val_main_v259 val_main_v258 val_main_v257
    exact bias_read x9 1 2 _ 1 2 rfl rfl n d
  have hr2 : val_main_v265 (F := Ideal) x0 x1 x2 x3 x4 x5 x6 x7 x8 x9 x10 (ix2 n d) = dotT (val_main_v134 (F := Ideal) x0 x1 x2 x3 x4 x5 x6 x7 x8 x9 x10) x10 1 2 n d := by
    unfold val_main_v265 val_main_v264 val_main_v263 val_main_v262
    exact dotW_read _ x10 1 2 _ 1 2 rfl rfl n d
  rw [val_main_v266_apply, val_main_v261_apply, val_main_v256_apply, val_main_v223_apply, val_main_v218_apply, val_main_v213_apply, val_main_v180_apply, val_main_v175_apply, val_main_v170_apply]
  rw [hz, hl0, hb0, hr0, hl1, hb1, hr1, hl2, hb2, hr2]
  repeat rw [addf_eq]
  rw [zero_add]
  unfold accSpec
  exact reorder _ _ _ _ _ _ _ _ _

/-- The second layer of the reference is the specification's layer 1. -/
theorem layer2 (x0 : (⟨S100000x128, .f32⟩ : BufTy).Contents (Elt Ideal)) (x1 x2 x3 : (⟨S2x800000, .i32⟩ : BufTy).Contents (Elt Ideal)) (x4 : (⟨S100000, .i32⟩ : BufTy).Contents (Elt Ideal)) (x5 x6 x7 : (⟨S800000, .i32⟩ : BufTy).Contents (Elt Ideal)) (x8 : (⟨S3x3x128x128, .f32⟩ : BufTy).Contents (Elt Ideal)) (x9 : (⟨S3x3x128, .f32⟩ : BufTy).Contents (Elt Ideal)) (x10 : (⟨S3x3x128x128, .f32⟩ : BufTy).Contents (Elt Ideal)) :
    val_main_v269 (F := Ideal) x0 x1 x2 x3 x4 x5 x6 x7 x8 x9 x10
      = layerSpec 1 (R.nodeValid 2#32 x4) (val_main_v134 (F := Ideal) x0 x1 x2 x3 x4 x5 x6 x7 x8 x9 x10) (R.mean (F := Ideal) 2#32 (val_main_v134 (F := Ideal) x0 x1 x2 x3 x4 x5 x6 x7 x8 x9 x10) x1 x5) (R.mean (F := Ideal) 2#32 (val_main_v134 (F := Ideal) x0 x1 x2 x3 x4 x5 x6 x7 x8 x9 x10) x2 x6) (R.mean (F := Ideal) 2#32 (val_main_v134 (F := Ideal) x0 x1 x2 x3 x4 x5 x6 x7 x8 x9 x10) x3 x7) x8 x9 x10 := by
  funext j
  obtain ⟨n, d, rfl⟩ : ∃ (n : Fin 100000) (d : Fin 128), j = ix2 n d := ⟨j 0, j 1, eq_ix2 j⟩
  have hz0 : val_main_call2_v0 (F := Ideal) (ix2 n d) = 0 := by
    unfold val_main_call2_v0 val_main_call2_cst
    exact zeros_read _
  have hz1 : val_main_call3_v2 (F := Ideal) (ix2 n d) = 0 := by
    unfold val_main_call3_v2 val_main_call3_v0 val_main_cst_39
    exact zeros_read _
  have hnv : val_main_call3_v1 (F := Ideal) x4 (ix2 n d) = R.nodeValid 2#32 x4 (ix1 n) := by
    unfold val_main_call3_v1 val_main_v267
    rw [nv2]
    exact bits_read _ n d
  rw [layerSpec_apply, val_main_v269_apply, val_main_v268_apply, acc2 x0 x1 x2 x3 x4 x5 x6 x7 x8 x9 x10 n d, hz0, hz1, hnv, select_eq, maximumf_eq]
  rfl

/-! ## Layer 3 (hop bound 1) -/

/-- The third layer's validity bits and its three neighbour means are the named ones. -/
theorem nv3 (x4 : (⟨S100000, .i32⟩ : BufTy).Contents (Elt Ideal)) : val_main_v271 (F := Ideal) x4 = R.nodeValid 1#32 x4 := rfl
theorem mean3_0 (x0 : (⟨S100000x128, .f32⟩ : BufTy).Contents (Elt Ideal)) (x1 x2 x3 : (⟨S2x800000, .i32⟩ : BufTy).Contents (Elt Ideal)) (x4 : (⟨S100000, .i32⟩ : BufTy).Contents (Elt Ideal)) (x5 x6 x7 : (⟨S800000, .i32⟩ : BufTy).Contents (Elt Ideal)) (x8 : (⟨S3x3x128x128, .f32⟩ : BufTy).Contents (Elt Ideal)) (x9 : (⟨S3x3x128, .f32⟩ : BufTy).Contents (Elt Ideal)) (x10 : (⟨S3x3x128x128, .f32⟩ : BufTy).Contents (Elt Ideal)) :
    val_main_v300 (F := Ideal) x0 x1 x2 x3 x4 x5 x6 x7 x8 x9 x10 = R.mean (F := Ideal) 1#32 (val_main_v269 (F := Ideal) x0 x1 x2 x3 x4 x5 x6 x7 x8 x9 x10) x1 x5 := rfl
theorem mean3_1 (x0 : (⟨S100000x128, .f32⟩ : BufTy).Contents (Elt Ideal)) (x1 x2 x3 : (⟨S2x800000, .i32⟩ : BufTy).Contents (Elt Ideal)) (x4 : (⟨S100000, .i32⟩ : BufTy).Contents (Elt Ideal)) (x5 x6 x7 : (⟨S800000, .i32⟩ : BufTy).Contents (Elt Ideal)) (x8 : (⟨S3x3x128x128, .f32⟩ : BufTy).Contents (Elt Ideal)) (x9 : (⟨S3x3x128, .f32⟩ : BufTy).Contents (Elt Ideal)) (x10 : (⟨S3x3x128x128, .f32⟩ : BufTy).Contents (Elt Ideal)) :
    val_main_v343 (F := Ideal) x0 x1 x2 x3 x4 x5 x6 x7 x8 x9 x10 = R.mean (F := Ideal) 1#32 (val_main_v269 (F := Ideal) x0 x1 x2 x3 x4 x5 x6 x7 x8 x9 x10) x2 x6 := rfl
theorem mean3_2 (x0 : (⟨S100000x128, .f32⟩ : BufTy).Contents (Elt Ideal)) (x1 x2 x3 : (⟨S2x800000, .i32⟩ : BufTy).Contents (Elt Ideal)) (x4 : (⟨S100000, .i32⟩ : BufTy).Contents (Elt Ideal)) (x5 x6 x7 : (⟨S800000, .i32⟩ : BufTy).Contents (Elt Ideal)) (x8 : (⟨S3x3x128x128, .f32⟩ : BufTy).Contents (Elt Ideal)) (x9 : (⟨S3x3x128, .f32⟩ : BufTy).Contents (Elt Ideal)) (x10 : (⟨S3x3x128x128, .f32⟩ : BufTy).Contents (Elt Ideal)) :
    val_main_v386 (F := Ideal) x0 x1 x2 x3 x4 x5 x6 x7 x8 x9 x10 = R.mean (F := Ideal) 1#32 (val_main_v269 (F := Ideal) x0 x1 x2 x3 x4 x5 x6 x7 x8 x9 x10) x3 x7 := rfl

/-- The third layer's pre-activation at a node and a feature is the specification's. -/
theorem acc3 (x0 : (⟨S100000x128, .f32⟩ : BufTy).Contents (Elt Ideal)) (x1 x2 x3 : (⟨S2x800000, .i32⟩ : BufTy).Contents (Elt Ideal)) (x4 : (⟨S100000, .i32⟩ : BufTy).Contents (Elt Ideal)) (x5 x6 x7 : (⟨S800000, .i32⟩ : BufTy).Contents (Elt Ideal)) (x8 : (⟨S3x3x128x128, .f32⟩ : BufTy).Contents (Elt Ideal)) (x9 : (⟨S3x3x128, .f32⟩ : BufTy).Contents (Elt Ideal)) (x10 : (⟨S3x3x128x128, .f32⟩ : BufTy).Contents (Elt Ideal)) (n : Fin 100000) (d : Fin 128) :
    val_main_v401 (F := Ideal) x0 x1 x2 x3 x4 x5 x6 x7 x8 x9 x10 (ix2 n d) = accSpec 2 (val_main_v269 (F := Ideal) x0 x1 x2 x3 x4 x5 x6 x7 x8 x9 x10) (R.mean (F := Ideal) 1#32 (val_main_v269 (F := Ideal) x0 x1 x2 x3 x4 x5 x6 x7 x8 x9 x10) x1 x5) (R.mean (F := Ideal) 1#32 (val_main_v269 (F := Ideal) x0 x1 x2 x3 x4 x5 x6 x7 x8 x9 x10) x2 x6) (R.mean (F := Ideal) 1#32 (val_main_v269 (F := Ideal) x0 x1 x2 x3 x4 x5 x6 x7 x8 x9 x10) x3 x7) x8 x9 x10 n d := by
  have hz : val_main_v272 (F := Ideal) (ix2 n d) = 0 := by
    unfold val_main_v272 val_main_cst_41
    exact zeros_read _
  have hl0 : val_main_v304 (F := Ideal) x0 x1 x2 x3 x4 x5 x6 x7 x8 x9 x10 (ix2 n d) = dotT (R.mean (F := Ideal) 1#32 (val_main_v269 (F := Ideal) x0 x1 x2 x3 x4 x5 x6 x7 x8 x9 x10) x1 x5) x8 2 0 n d := by
    unfold val_main_v304 val_main_v303 val_main_v302 val_main_v301
    rw [mean3_0 x0 x1 x2 x3 x4 x5 x6 x7 x8 x9 x10]
    exact dotW_read _ x8 2 0 _ 2 0 rfl rfl n d
  have hb0 : val_main_v309 (F := Ideal) x9 (ix2 n d) = x9 (ix3 2 0 d) := by
    unfold val_main_v309 val_main_v308 val_main_v307 val_main_v306
    exact bias_read x9 2 0 _ 2 0 rfl rfl n d
  have hr0 : val_main_v314 (F := Ideal) x0 x1 x2 x3 x4 x5 x6 x7 x8 x9 x10 (ix2 n d) = dotT (val_main_v269 (F := Ideal) x0 x1 x2 x3 x4 x5 x6 x7 x8 x9 x10) x10 2 0 n d := by
    unfold val_main_v314 val_main_v313 val_main_v312 val_main_v311
    exact dotW_read _ x10 2 0 _ 2 0 rfl rfl n d
  have hl1 : val_main_v347 (F := Ideal) x0 x1 x2 x3 x4 x5 x6 x7 x8 x9 x10 (ix2 n d) = dotT (R.mean (F := Ideal) 1#32 (val_main_v269 (F := Ideal) x0 x1 x2 x3 x4 x5 x6 x7 x8 x9 x10) x2 x6) x8 2 1 n d := by
    unfold val_main_v347 val_main_v346 val_main_v345 val_main_v344
    rw [mean3_1 x0 x1 x2 x3 x4 x5 x6 x7 x8 x9 x10]
    exact dotW_read _ x8 2 1 _ 2 1 rfl rfl n d
  have hb1 : val_main_v352 (F := Ideal) x9 (ix2 n d) = x9 (ix3 2 1 d) := by
    unfold val_main_v352 val_main_v351 val_main_v350 val_main_v349
    exact bias_read x9 2 1 _ 2 1 rfl rfl n d
  have hr1 : val_main_v357 (F := Ideal) x0 x1 x2 x3 x4 x5 x6 x7 x8 x9 x10 (ix2 n d) = dotT (val_main_v269 (F := Ideal) x0 x1 x2 x3 x4 x5 x6 x7 x8 x9 x10) x10 2 1 n d := by
    unfold val_main_v357 val_main_v356 val_main_v355 val_main_v354
    exact dotW_read _ x10 2 1 _ 2 1 rfl rfl n d
  have hl2 : val_main_v390 (F := Ideal) x0 x1 x2 x3 x4 x5 x6 x7 x8 x9 x10 (ix2 n d) = dotT (R.mean (F := Ideal) 1#32 (val_main_v269 (F := Ideal) x0 x1 x2 x3 x4 x5 x6 x7 x8 x9 x10) x3 x7) x8 2 2 n d := by
    unfold val_main_v390 val_main_v389 val_main_v388 val_main_v387
    rw [mean3_2 x0 x1 x2 x3 x4 x5 x6 x7 x8 x9 x10]
    exact dotW_read _ x8 2 2 _ 2 2 rfl rfl n d
  have hb2 : val_main_v395 (F := Ideal) x9 (ix2 n d) = x9 (ix3 2 2 d) := by
    unfold val_main_v395 val_main_v394 val_main_v393 val_main_v392
    exact bias_read x9 2 2 _ 2 2 rfl rfl n d
  have hr2 : val_main_v400 (F := Ideal) x0 x1 x2 x3 x4 x5 x6 x7 x8 x9 x10 (ix2 n d) = dotT (val_main_v269 (F := Ideal) x0 x1 x2 x3 x4 x5 x6 x7 x8 x9 x10) x10 2 2 n d := by
    unfold val_main_v400 val_main_v399 val_main_v398 val_main_v397
    exact dotW_read _ x10 2 2 _ 2 2 rfl rfl n d
  rw [val_main_v401_apply, val_main_v396_apply, val_main_v391_apply, val_main_v358_apply, val_main_v353_apply, val_main_v348_apply, val_main_v315_apply, val_main_v310_apply, val_main_v305_apply]
  rw [hz, hl0, hb0, hr0, hl1, hb1, hr1, hl2, hb2, hr2]
  repeat rw [addf_eq]
  rw [zero_add]
  unfold accSpec
  exact reorder _ _ _ _ _ _ _ _ _

/-- The third layer of the reference is the specification's layer 2. -/
theorem layer3 (x0 : (⟨S100000x128, .f32⟩ : BufTy).Contents (Elt Ideal)) (x1 x2 x3 : (⟨S2x800000, .i32⟩ : BufTy).Contents (Elt Ideal)) (x4 : (⟨S100000, .i32⟩ : BufTy).Contents (Elt Ideal)) (x5 x6 x7 : (⟨S800000, .i32⟩ : BufTy).Contents (Elt Ideal)) (x8 : (⟨S3x3x128x128, .f32⟩ : BufTy).Contents (Elt Ideal)) (x9 : (⟨S3x3x128, .f32⟩ : BufTy).Contents (Elt Ideal)) (x10 : (⟨S3x3x128x128, .f32⟩ : BufTy).Contents (Elt Ideal)) :
    val_main_v404 (F := Ideal) x0 x1 x2 x3 x4 x5 x6 x7 x8 x9 x10
      = layerSpec 2 (R.nodeValid 1#32 x4) (val_main_v269 (F := Ideal) x0 x1 x2 x3 x4 x5 x6 x7 x8 x9 x10) (R.mean (F := Ideal) 1#32 (val_main_v269 (F := Ideal) x0 x1 x2 x3 x4 x5 x6 x7 x8 x9 x10) x1 x5) (R.mean (F := Ideal) 1#32 (val_main_v269 (F := Ideal) x0 x1 x2 x3 x4 x5 x6 x7 x8 x9 x10) x2 x6) (R.mean (F := Ideal) 1#32 (val_main_v269 (F := Ideal) x0 x1 x2 x3 x4 x5 x6 x7 x8 x9 x10) x3 x7) x8 x9 x10 := by
  funext j
  obtain ⟨n, d, rfl⟩ : ∃ (n : Fin 100000) (d : Fin 128), j = ix2 n d := ⟨j 0, j 1, eq_ix2 j⟩
  have hz0 : val_main_call4_v0 (F := Ideal) (ix2 n d) = 0 := by
    unfold val_main_call4_v0 val_main_call4_cst
    exact zeros_read _
  have hz1 : val_main_call5_v2 (F := Ideal) (ix2 n d) = 0 := by
    unfold val_main_call5_v2 val_main_call5_v0 val_main_cst_60
    exact zeros_read _
  have hnv : val_main_call5_v1 (F := Ideal) x4 (ix2 n d) = R.nodeValid 1#32 x4 (ix1 n) := by
    unfold val_main_call5_v1 val_main_v402
    rw [nv3]
    exact bits_read _ n d
  rw [layerSpec_apply, val_main_v404_apply, val_main_v403_apply, acc3 x0 x1 x2 x3 x4 x5 x6 x7 x8 x9 x10 n d, hz0, hz1, hnv, select_eq, maximumf_eq]
  rfl

end Cert.Sage.RStages

end
-- ==== Proof.lean ====
/-
  The certificate of a three-layer relational graph convolution: a kernel program whose dense per-node combine
  runs in three row-tiled regions, against a plain array program.

  Both programs compute, layer by layer from the node features x,
      h' = L_i(h) := (max(acc_i(h), 0) on the nodes whose hop is within the layer, 0 elsewhere),
      acc_i(h)(n, d) = Σ_t ( Σ_k mean_t(h)(n, k) · W_l(i, t, d, k) + Σ_k h(n, k) · W_r(i, t, d, k) + b_l(i, t, d) ),
  where mean_t(h) is relation t's mean of the neighbours' rows of h over the edges kept at that layer — a gather, two
  scatter-adds and a division that both programs spell with the same host operations, so it is carried here as
  one function of h and never opened. The kernel program receives the weights transposed and sliced, the bias
  sliced and the validity as a 0/1 column it multiplies by (x · 1 = x, x · 0 = 0 on the extended reals, infinities
  included), and adds a relation's three terms in the order mean-product, feature-product, bias; the array
  program adds mean-product, bias, feature-product and selects by the validity bits. Addition on the extended
  reals is commutative and associative, so the two agree with no finiteness assumed: the precondition is not used.

  Kernel side: the run re-posted with its result (KRun), each region's output array as one function of its operand
  arrays (KFinal0/1/2: a row tile of the layer is the layer of the row tile), the operands read back through the host
  stretches (KHost, KSlices), joined in KLayers. Reference side: the run over the program's operations cut at the
  layers (RefRun, RefValue) and each layer's stage entry by entry (RefStages). `preserves` has no conjunct.
-/
import proofs.«176633_j7954279432525_1_alg».proof.Defs
import proofs.«176633_j7954279432525_1_alg».proof.Proof.Gen.Kernel
import proofs.«176633_j7954279432525_1_alg».proof.Proof.Gen.Kernel.Frame
import proofs.«176633_j7954279432525_1_alg».proof.Proof.Gen.KernelIdeal
import proofs.«176633_j7954279432525_1_alg».proof.Proof.Gen.KernelIdeal.Frame
import proofs.«176633_j7954279432525_1_alg».proof.Proof.Gen.ReferenceIdeal
import proofs.«176633_j7954279432525_1_alg».proof.Proof.Gen.Pre_finite_inputs
import proofs.«176633_j7954279432525_1_alg».proof.Proof.KLayers
import proofs.«176633_j7954279432525_1_alg».proof.Proof.RefValue
import proofs.«176633_j7954279432525_1_alg».proof.Proof.RefStages
import Idealize.ShloMosaic.Adequacy
import Idealize.ShloMosaic.Init

noncomputable section

namespace Cert.Proof

open Idealize.ShloMosaic Idealize.ShloMosaic.TcCoe Idealize.SL.Sem Cert.Sage

/-- One layer as a function of the features entering it and of the arguments it reads. -/
def layerOf (i : Fin 3) (lay : BitVec 32) (h : FVec Ideal SN .f32)
    (e1 e2 e3 : IVec Cert.KernelIdeal.S2x800000 32) (nm : IVec Cert.KernelIdeal.S100000 32)
    (k1 k2 k3 : IVec Cert.KernelIdeal.S800000 32) (Wl : FVec Ideal SW .f32) (bl : FVec Ideal SB .f32) (Wr : FVec Ideal SW .f32) :
    FVec Ideal SN .f32 :=
  layerSpec i (K.nodeValid lay nm) h (K.mean (F := Ideal) lay h e1 k1) (K.mean (F := Ideal) lay h e2 k2) (K.mean (F := Ideal) lay h e3 k3) Wl bl Wr

/-- The three layers composed: hop bounds 3, 2, 1. -/
def net (x : FVec Ideal SN .f32) (e1 e2 e3 : IVec Cert.KernelIdeal.S2x800000 32) (nm : IVec Cert.KernelIdeal.S100000 32)
    (k1 k2 k3 : IVec Cert.KernelIdeal.S800000 32) (Wl : FVec Ideal SW .f32) (bl : FVec Ideal SB .f32) (Wr : FVec Ideal SW .f32) :
    FVec Ideal SN .f32 :=
  layerOf 2 1#32 (layerOf 1 2#32 (layerOf 0 3#32 x e1 e2 e3 nm k1 k2 k3 Wl bl Wr) e1 e2 e3 nm k1 k2 k3 Wl bl Wr) e1 e2 e3 nm k1 k2 k3 Wl bl Wr

/-- The two programs spell a relation's mean and the validity bits with the same operations. -/
theorem mean_eq (lay : BitVec 32) (h : FVec Ideal Cert.KernelIdeal.S100000x128 .f32) (ei : IVec Cert.KernelIdeal.S2x800000 32)
    (em : IVec Cert.KernelIdeal.S800000 32) : R.mean (F := Ideal) lay h ei em = K.mean (F := Ideal) lay h ei em := rfl
theorem nodeValid_eq (lay : BitVec 32) (nm : IVec Cert.KernelIdeal.S100000 32) : R.nodeValid lay nm = K.nodeValid lay nm := rfl

/-- The kernel program's result array is the three layers of its arguments. -/
theorem kernel_result (m : (ℓ : Loc Cert.KernelIdeal.nD Cert.KernelIdeal.τ Cert.KernelIdeal.sig) → Buf (Elt Ideal) ℓ)
    (ρ : Dev Cert.KernelIdeal.nD → PrngReg) (c : Dev Cert.KernelIdeal.nD) :
    Cert.KernelIdeal.Gen.W6 m ρ c (Proc.devRef .tc Cert.KernelIdeal.main_v286)
      = net (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) := by
  rw [KLayers.layer3 m ρ c, KLayers.layer2 m ρ c, KLayers.layer1 m ρ c]
  rfl

/-- The reference's last stage is the three layers of its arguments. -/
theorem reference_result (x0 : (⟨Cert.ReferenceIdeal.S100000x128, .f32⟩ : BufTy).Contents (Elt Ideal)) (x1 x2 x3 : (⟨Cert.ReferenceIdeal.S2x800000, .i32⟩ : BufTy).Contents (Elt Ideal)) (x4 : (⟨Cert.ReferenceIdeal.S100000, .i32⟩ : BufTy).Contents (Elt Ideal)) (x5 x6 x7 : (⟨Cert.ReferenceIdeal.S800000, .i32⟩ : BufTy).Contents (Elt Ideal)) (x8 : (⟨Cert.ReferenceIdeal.S3x3x128x128, .f32⟩ : BufTy).Contents (Elt Ideal)) (x9 : (⟨Cert.ReferenceIdeal.S3x3x128, .f32⟩ : BufTy).Contents (Elt Ideal)) (x10 : (⟨Cert.ReferenceIdeal.S3x3x128x128, .f32⟩ : BufTy).Contents (Elt Ideal)) :
    Cert.ReferenceIdeal.ReadP.val_main_v404 (F := Ideal) x0 x1 x2 x3 x4 x5 x6 x7 x8 x9 x10 = net x0 x1 x2 x3 x4 x5 x6 x7 x8 x9 x10 := by
  rw [RStages.layer3, RStages.layer2, RStages.layer1]
  simp only [mean_eq, nodeValid_eq]
  rfl

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (RefValue.run (F := Ideal) m ρ)

/-- The idealization rewrote nothing: no conjunct. -/
theorem preserves : Cert.preserves_Kernel_KernelIdeal := trivial

/-- Both programs end with the three layers of the (agreeing) arguments in their result arrays. -/
theorem algebraic : Cert.algebraic_KernelIdeal_ReferenceIdeal := by
  intro m ρ m' ρ' _ hagree
  refine ⟨fun c => net (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)), ?_, ?_⟩
  · exact (θ_run Cert.KernelIdeal.defs _ _).mono (fun r h c => ⟨(h c).1.trans (kernel_result m ρ c), (h c).2⟩)
      (KRun.run_value (F := Ideal) m ρ)
  · refine (θ_run Cert.ReferenceIdeal.defs _ _).mono (fun r h c => ⟨(h c).1.trans ?_, (h c).2⟩)
      (RefValue.run (F := Ideal) m' ρ')
    obtain ⟨a0, a1, a2, a3, a4, a5, a6, a7, a8, a9, a10⟩ := hagree c
    rw [a0, a1, a2, a3, a4, a5, a6, a7, a8, a9, a10]
    exact reference_result _ _ _ _ _ _ _ _ _ _ _

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
